-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S2x64x128 : Shape := ⟨3, ![2, 64, 128]⟩
abbrev S128 : Shape := ⟨1, ![128]⟩
abbrev S2x128x64 : Shape := ⟨3, ![2, 128, 64]⟩
abbrev S64 : Shape := ⟨1, ![64]⟩
abbrev S2x64x64 : Shape := ⟨3, ![2, 64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2x64x128 : S_.BroadcastsInDim S2x64x128 (![] : Fin 0 → Fin S2x64x128.rank)
  reducesTo_S2x64x128_S_d0_1_2 : S2x64x128.ReducesTo [0, 1, 2] S_
  bcast_S_S128 : S_.BroadcastsInDim S128 (![] : Fin 0 → Fin S128.rank)
  reducesTo_S128_S_d0 : S128.ReducesTo [0] S_
  bcast_S_S2x128x64 : S_.BroadcastsInDim S2x128x64 (![] : Fin 0 → Fin S2x128x64.rank)
  reducesTo_S2x128x64_S_d0_1_2 : S2x128x64.ReducesTo [0, 1, 2] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64 .f32) (main_arg6 : FVec F S2x64x64 .f32) (main_arg7 : FVec F S64 .f32) (main_arg8 : FVec F S128 .f32) (main_arg9 : FVec F S128 .f32) (main_arg10 : FVec F S64 .f32) (main_arg11 : FVec F S64 .f32) (main_v13 : IVec S_ 1) (main_v16 : IVec S2x128x64 1) : IVec S_ 1 :=
  let main_c_5 : IVec S_ 1 := constantI S_ 1 1#1
  let main_v17 : IVec S_ 1 := (fun x v => Host.reduce IntOp.andi x v reducesTo_S2x128x64_S_d0_1_2 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64x64 .f32 := Host.absf main_arg6
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S2x64x128 .f32) (main_arg3 : FVec F S128 .f32) (main_arg4 : FVec F S2x128x64 .f32) (main_arg5 : FVec F S64 .f32) (main_arg6 : FVec F S2x64x64 .f32) (main_arg7 : FVec F S64 .f32) (main_arg8 : FVec F S128 .f32) (main_arg9 : FVec F S128 .f32) (main_arg10 : FVec F S64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2x64x128 .f32 := Host.absf main_arg2
  let main_cst_0 : FVec F S_ .f32 := constant S_ .f32 0x7F800000#32
  let main_v5 : FVec F S2x64x128 .f32 := broadcastInDim S2x64x128 ![] bcast_S_S2x64x128 main_cst_0
  let main_v6 : IVec S2x64x128 1 := cmpf .olt main_v4 main_v5
  let main_c_1 : IVec S_ 1 := constantI S_ 1 1#1
  let main_v7 : IVec S_ 1 := (fun x v => Host.reduce IntOp.andi x v reducesTo_S2x64x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x64 .f32 := Host.absf main_arg4
  let main_cst_4 : FVec F S_ .f32 := constant S_ .f32 0x7F800000#32
  let main_v15 : FVec F S2x128x64 .f32 := broadcastInDim S2x128x64 ![] bcast_S_S2x128x64 main_cst_4
  let main_v16 : IVec S2x128x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S2x64x128 : Shape := ⟨3, ![2, 64, 128]⟩
abbrev S128 : Shape := ⟨1, ![128]⟩
abbrev S2x128x64 : Shape := ⟨3, ![2, 128, 64]⟩
abbrev S64 : Shape := ⟨1, ![64]⟩
abbrev S2x64x64 : Shape := ⟨3, ![2, 64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64x128 : Shape := ⟨3, ![1, 64, 128]⟩
abbrev S64x128 : Shape := ⟨2, ![64, 128]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1x128x64 : Shape := ⟨3, ![1, 128, 64]⟩
abbrev S128x64 : Shape := ⟨2, ![128, 64]⟩
abbrev S1x64 : Shape := ⟨2, ![1, 64]⟩
abbrev S1x64x64 : Shape := ⟨3, ![1, 64, 64]⟩
abbrev S64x64 : Shape := ⟨2, ![64, 64]⟩

abbrev nBuf : Space → Nat
  | .hbm => 164
  | .vmem => 51
  | .smem => 0
  | _ => 0

abbrev hbmTy0_0 (i : Nat) : BufTy := match i % 128 with
  | 0 => ⟨S100000x64, .f32⟩
  | 1 => ⟨S2x1600000, .i32⟩
  | 2 => ⟨S2x64x128, .f32⟩
  | 3 => ⟨S128, .f32⟩
  | 4 => ⟨S2x128x64, .f32⟩
  | 5 => ⟨S64, .f32⟩
  | 6 => ⟨S2x64x64, .f32⟩
  | 7 => ⟨S64, .f32⟩
  | 8 => ⟨S128, .f32⟩
  | 9 => ⟨S128, .f32⟩
  | 10 => ⟨S64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .i1⟩
  | 28 => ⟨S_, .f32⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S100000x64, .bf16⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .bf16⟩
  | 67 => ⟨S1600000x64, .f32⟩
  | 68 => ⟨S1600000x1, .f32⟩
  | 69 => ⟨S1600000x64, .f32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S1x64x128, .f32⟩
  | 76 => ⟨S64x128, .f32⟩
  | 77 => ⟨S1x64x128, .f32⟩
  | 78 => ⟨S64x128, .f32⟩
  | 79 => ⟨S1x128, .f32⟩
  | 80 => ⟨S100000x128, .f32⟩
  | 81 => ⟨S1x128, .f32⟩
  | 82 => ⟨S_, .f32⟩
  | 83 => ⟨S1x128, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S1x128x64, .f32⟩
  | 99 => ⟨S128x64, .f32⟩
  | 100 => ⟨S100000x128, .bf16⟩
  | 101 => ⟨S100000x64, .bf16⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .bf16⟩
  | 111 => ⟨S1600000x64, .f32⟩
  | 112 => ⟨S1600000x1, .f32⟩
  | 113 => ⟨S1600000x64, .f32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S1x128x64, .f32⟩
  | 120 => ⟨S128x64, .f32⟩
  | 121 => ⟨S1x64, .f32⟩
  | 122 => ⟨S100000x64, .f32⟩
  | 123 => ⟨S1x64, .f32⟩
  | 124 => ⟨S_, .f32⟩
  | 125 => ⟨S1x64, .f32⟩
  | 126 => ⟨S1x64, .f32⟩
  | 127 => ⟨S1x64, .f32⟩
  | _ => ⟨S100000x64, .f32⟩

abbrev hbmTy0_1 (i : Nat) : BufTy := match i % 128 with
  | 0 => ⟨S_, .f32⟩
  | 1 => ⟨S1x64, .f32⟩
  | 2 => ⟨S1x64, .f32⟩
  | 3 => ⟨S1x64, .f32⟩
  | 4 => ⟨S1x64, .f32⟩
  | 5 => ⟨S_, .f32⟩
  | 6 => ⟨S1x64, .f32⟩
  | 7 => ⟨S1x64, .f32⟩
  | 8 => ⟨S1x64, .f32⟩
  | 9 => ⟨S1x64, .f32⟩
  | 10 => ⟨S1x64, .f32⟩
  | 11 => ⟨S1x64, .f32⟩
  | 12 => ⟨S100000x64, .bf16⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .bf16⟩
  | 22 => ⟨S1600000x64, .f32⟩
  | 23 => ⟨S1600000x1, .f32⟩
  | 24 => ⟨S1600000x64, .f32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S1x64x64, .f32⟩
  | 31 => ⟨S64x64, .f32⟩
  | 32 => ⟨S1x64x64, .f32⟩
  | 33 => ⟨S64x64, .f32⟩
  | 34 => ⟨S1x64, .f32⟩
  | 35 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S128x64, .f32⟩
  | .local _ .vmem, ⟨19, _⟩ => ⟨S5000x128, .bf16⟩
  | .local _ .vmem, ⟨20, _⟩ => ⟨S5000x128, .bf16⟩
  | .local _ .vmem, ⟨21, _⟩ => ⟨S5000x64, .bf16⟩
  | .local _ .vmem, ⟨22, _⟩ => ⟨S5000x64, .bf16⟩
  | .local _ .vmem, ⟨23, _⟩ => ⟨S5000x128, .bf16⟩
  | .local _ .vmem, ⟨24, _⟩ => ⟨S5000x128, .bf16⟩
  | .local _ .vmem, ⟨25, _⟩ => ⟨S5000x64, .f32⟩
  | .local _ .vmem, ⟨26, _⟩ => ⟨S5000x64, .f32⟩
  | .local _ .vmem, ⟨27, _⟩ => ⟨S128x64, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S1x64, .f32⟩
  | .local _ .vmem, ⟨39, _⟩ => ⟨S1x64, .f32⟩
  | .local _ .vmem, ⟨40, _⟩ => ⟨S5000x64, .bf16⟩
  | .local _ .vmem, ⟨41, _⟩ => ⟨S5000x64, .bf16⟩
  | .local _ .vmem, ⟨42, _⟩ => ⟨S5000x64, .bf16⟩
  | .local _ .vmem, ⟨43, _⟩ => ⟨S5000x64, .bf16⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | .local _ .vmem, ⟨47, _⟩ => ⟨S64x64, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_c_7 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_c_9 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51_0 : Ref sig .tc := ⟨.hbm, 80, rfl⟩
abbrev main_v51_1 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67_0 : Ref sig .tc := ⟨.hbm, 100, rfl⟩
abbrev main_v67_1 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_16 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85_0 : Ref sig .tc := ⟨.hbm, 122, rfl⟩
abbrev main_v85_1 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_18 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_20 : Ref sig .tc := ⟨.hbm, 141, rfl⟩
abbrev main_v100 : Ref sig .tc := ⟨.hbm, 142, rfl⟩
abbrev main_v101 : Ref sig .tc := ⟨.hbm, 143, rfl⟩
abbrev main_c_21 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_22 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg5_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc3_sem5_0 : DmaSem sig := 31
abbrev cc4_sem0_0 : DmaSem sig := 32
abbrev cc4_sem0_1 : DmaSem sig := 33
abbrev cc4_sem1_0 : DmaSem sig := 34
abbrev cc4_sem2_0 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S2x64x128_S1x64x128_0_0_0 : S2x64x128.Slices ![0, 0, 0] S1x64x128
  shapeCasts_S1x64x128_S64x128 : S1x64x128.ShapeCasts S64x128
  slices_S2x64x128_S1x64x128_1_0_0 : S2x64x128.Slices ![1, 0, 0] S1x64x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  slices_S2x128x64_S1x128x64_1_0_0 : S2x128x64.Slices ![1, 0, 0] S1x128x64
  shapeCasts_S1x128x64_S128x64 : S1x128x64.ShapeCasts S128x64
  packedbf16_S5000x128_S5000x128_0_0 : (Rect.unit (s := S5000x128) ![0, 0] S5000x128.size inb_S5000x128_S5000x128_0_0).PackedRows (EltTy.packing .bf16)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  packedbf16_S5000x64_S5000x64_0_0 : (Rect.unit (s := S5000x64) ![0, 0] S5000x64.size inb_S5000x64_S5000x64_0_0).PackedRows (EltTy.packing .bf16)
  slices_S2x128x64_S1x128x64_0_0_0 : S2x128x64.Slices ![0, 0, 0] S1x128x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .bf16 = 32 ∨ (Rect.block (s := S100000x128) S5000x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .bf16 = 32 ∨ (Rect.block (s := S100000x64) S5000x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .bf16 = 32 ∨ (Rect.block (s := S100000x128) S5000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .bf16 = 32 ∨ (Rect.block (s := S100000x64) S5000x64.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .bf16 = 32 ∨ (Rect.block (s := S100000x64) S5000x64.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S100000x64.size a
  hwx6_5 : ∀ i : grid6.Coords, EltTy.bits .f32 = 32 ∨ (Rect.block (s := S100000x64) S5000x64.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v51_1) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v51_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v67_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85_0) S5000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v85_1) S1x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v85_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v85_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v99) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v113) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v115) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v117) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v118) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v119) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S2x64x128 : Shape := ⟨3, ![2, 64, 128]⟩
abbrev S128 : Shape := ⟨1, ![128]⟩
abbrev S2x128x64 : Shape := ⟨3, ![2, 128, 64]⟩
abbrev S64 : Shape := ⟨1, ![64]⟩
abbrev S2x64x64 : Shape := ⟨3, ![2, 64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64x128 : Shape := ⟨3, ![1, 64, 128]⟩
abbrev S64x128 : Shape := ⟨2, ![64, 128]⟩
abbrev S100000x128 : Shape := ⟨2, ![100000, 128]⟩
abbrev S1600000x64 : Shape := ⟨2, ![1600000, 64]⟩
abbrev S1x128 : Shape := ⟨2, ![1, 128]⟩
abbrev S1x128x64 : Shape := ⟨3, ![1, 128, 64]⟩
abbrev S128x64 : Shape := ⟨2, ![128, 64]⟩
abbrev S1600000x128 : Shape := ⟨2, ![1600000, 128]⟩
abbrev S1x64 : Shape := ⟨2, ![1, 64]⟩
abbrev S1x64x64 : Shape := ⟨3, ![1, 64, 64]⟩
abbrev S64x64 : Shape := ⟨2, ![64, 64]⟩

abbrev nBuf : Space → Nat
  | .hbm => 209
  | .vmem => 0
  | .smem => 0
  | _ => 0

abbrev hbmTy0_0 (i : Nat) : BufTy := match i % 128 with
  | 0 => ⟨S100000x64, .f32⟩
  | 1 => ⟨S2x1600000, .i32⟩
  | 2 => ⟨S2x64x128, .f32⟩
  | 3 => ⟨S128, .f32⟩
  | 4 => ⟨S2x128x64, .f32⟩
  | 5 => ⟨S64, .f32⟩
  | 6 => ⟨S2x64x64, .f32⟩
  | 7 => ⟨S64, .f32⟩
  | 8 => ⟨S128, .f32⟩
  | 9 => ⟨S128, .f32⟩
  | 10 => ⟨S64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .i1⟩
  | 28 => ⟨S_, .f32⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S1x64x128, .f32⟩
  | 58 => ⟨S64x128, .f32⟩
  | 59 => ⟨S100000x128, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x64, .f32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S1x64x128, .f32⟩
  | 77 => ⟨S64x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S100000x128, .f32⟩
  | 92 => ⟨S_, .f32⟩
  | 93 => ⟨S128, .f32⟩
  | 94 => ⟨S_, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S128, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .i1⟩
  | 116 => ⟨S_, .f32⟩
  | 117 => ⟨S100000x128, .f32⟩
  | 118 => ⟨S100000x128, .f32⟩
  | 119 => ⟨S100000x128, .f32⟩
  | 120 => ⟨S1x128x64, .f32⟩
  | 121 => ⟨S128x64, .f32⟩
  | 122 => ⟨S100000x64, .f32⟩
  | 123 => ⟨S1600000x1, .f32⟩
  | 124 => ⟨S_, .i32⟩
  | 125 => ⟨S1600000, .i32⟩
  | 126 => ⟨S1600000, .i1⟩
  | 127 => ⟨S_, .i32⟩
  | _ => ⟨S100000x64, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S1600000x128, .f32⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S1x128x64, .f32⟩
  | 12 => ⟨S128x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S64, .f32⟩
  | 20 => ⟨S_, .f32⟩
  | 21 => ⟨S64, .f32⟩
  | 22 => ⟨S64, .f32⟩
  | 23 => ⟨S1x64, .f32⟩
  | 24 => ⟨S100000x64, .f32⟩
  | 25 => ⟨S100000x64, .f32⟩
  | 26 => ⟨S100000x64, .f32⟩
  | 27 => ⟨S_, .f32⟩
  | 28 => ⟨S64, .f32⟩
  | 29 => ⟨S_, .f32⟩
  | 30 => ⟨S64, .f32⟩
  | 31 => ⟨S64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S64, .f32⟩
  | 40 => ⟨S64, .f32⟩
  | 41 => ⟨S64, .f32⟩
  | 42 => ⟨S1x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .i1⟩
  | 51 => ⟨S_, .f32⟩
  | 52 => ⟨S100000x64, .f32⟩
  | 53 => ⟨S100000x64, .f32⟩
  | 54 => ⟨S100000x64, .f32⟩
  | 55 => ⟨S1x64x64, .f32⟩
  | 56 => ⟨S64x64, .f32⟩
  | 57 => ⟨S100000x64, .f32⟩
  | 58 => ⟨S1600000x1, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S1600000x64, .f32⟩
  | 69 => ⟨S1600000x64, .f32⟩
  | 70 => ⟨S_, .f32⟩
  | 71 => ⟨S100000x64, .f32⟩
  | 72 => ⟨S1600000x1, .i32⟩
  | 73 => ⟨S100000x64, .f32⟩
  | 74 => ⟨S1x64x64, .f32⟩
  | 75 => ⟨S64x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_c_7 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_16 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_18 : Ref sig .tc := ⟨.hbm, 124, rfl⟩
abbrev main_v88 : Ref sig .tc := ⟨.hbm, 125, rfl⟩
abbrev main_v89 : Ref sig .tc := ⟨.hbm, 126, rfl⟩
abbrev main_c_19 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_20 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_21 : Ref sig .tc := ⟨.hbm, 146, rfl⟩
abbrev main_v107 : Ref sig .tc := ⟨.hbm, 147, rfl⟩
abbrev main_cst_22 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_23 : Ref sig .tc := ⟨.hbm, 155, rfl⟩
abbrev main_v114 : Ref sig .tc := ⟨.hbm, 156, rfl⟩
abbrev main_cst_24 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_25 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_26 : Ref sig .tc := ⟨.hbm, 176, rfl⟩
abbrev main_v132 : Ref sig .tc := ⟨.hbm, 177, rfl⟩
abbrev main_v133 : Ref sig .tc := ⟨.hbm, 178, rfl⟩
abbrev main_cst_27 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_28 : Ref sig .tc := ⟨.hbm, 187, rfl⟩
abbrev main_v141 : Ref sig .tc := ⟨.hbm, 188, rfl⟩
abbrev main_v142 : Ref sig .tc := ⟨.hbm, 189, rfl⟩
abbrev main_c_29 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_30 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S2x64x128_S1x64x128_0_0_0 : S2x64x128.Slices ![0, 0, 0] S1x64x128
  shapeCasts_S1x64x128_S64x128 : S1x64x128.ShapeCasts S64x128
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S2x64x128_S1x64x128_1_0_0 : S2x64x128.Slices ![1, 0, 0] S1x64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  slices_S2x128x64_S1x128x64_0_0_0 : S2x128x64.Slices ![0, 0, 0] S1x128x64
  shapeCasts_S1x128x64_S128x64 : S1x128x64.ShapeCasts S128x64
  bcast_S1600000x1_S1600000x128_0_1 : S1600000x1.BroadcastsInDim S1600000x128 (![0, 1] : Fin 2 → Fin S1600000x128.rank)
  slices_S2x128x64_S1x128x64_1_0_0 : S2x128x64.Slices ![1, 0, 0] S1x128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x128_S100000x128_1_0_0_1_n_n_wf : DotDims.WF S100000x64 S64x128 S100000x128 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel's run with its result named. Every weakly fair execution of the program ends, nothing
  faulting, in a state whose unscoped buffers hold the contents the program's segments fold to from the launch memory:
  in particular the result array holds that fold's value at the result buffer, and the argument arrays are as launched.
-/
import proofs.«126863_j82781199663546_2_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- THE RUN: every weakly fair execution of the idealized kernel ends, nothing faulting; the result array then holds
    what the program's last segment leaves at the result buffer (the launch memory folded through the host lines and
    the seven kernels), and the twelve argument arrays are as launched. -/
theorem run : θ_run defs (onTc (τ := τ) (main (F := F))) ⟨m, fun _ => 0, ρ⟩ (fun r => ∀ c : Dev nD,
      r.2.mem ((c.tc : Thread nD τ).loc main_v119) = W18 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v119 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c)⟩)

end Cert.KRun

end
-- ==== Proof.Spec.lean ====
/-
  The mathematics of a three-layer Chebyshev graph convolution (order two) with batch normalisation and a leaky
  rectifier between the layers, on the extended reals, written twice: once in the arrangement that multiplies each
  convolution by a per-column scale and adds a per-column shift, and projects the second layer's features before
  propagating them over the graph; and once in the arrangement that centres each convolution before scaling it, and
  propagates the second layer's features before projecting them. The graph enters only through three pieces of data:
  the node an edge reads from, the set of edges that land on a node, and the weight of an edge.
-/
import Idealize.ShloMosaic.PureOps.Ideal

noncomputable section

open scoped BigOperators

namespace Cert.Spec

open Idealize.ShloMosaic

/-- The number of nodes. -/
abbrev NN : Nat := 100000
/-- The number of edges. -/
abbrev EE : Nat := 1600000

/-- The number of nodes as a float: the divisor of a column mean. -/
def cnt : EReal := Ideal.ofBits .f32 0x47C35000#32
/-- The small positive number added to a variance before its reciprocal square root is taken. -/
def eps : EReal := Ideal.ofBits .f32 0x3727C5AC#32
/-- The slope of the rectifier on the negative half-line. -/
def slope : EReal := Ideal.ofBits .f32 0x3C23D70A#32
/-- The float one: what every edge adds to the degree of the node it leaves. -/
def one : EReal := Ideal.ofBits .f32 0x3F800000#32

/-- A weighted graph as the propagation step sees it. -/
structure Graph where
  /-- the node whose feature row edge `e` reads -/
  src : Fin EE → Fin NN
  /-- the edges whose message is added into node `n` -/
  into : Fin NN → Finset (Fin EE)
  /-- the weight of an edge's message -/
  ew : Fin EE → EReal

/-- The thirteen argument arrays, entry by entry. -/
structure Args where
  x : Fin NN → Fin 64 → EReal
  W1a : Fin 64 → Fin 128 → EReal
  W1b : Fin 64 → Fin 128 → EReal
  b1 : Fin 128 → EReal
  W2a : Fin 128 → Fin 64 → EReal
  W2b : Fin 128 → Fin 64 → EReal
  b2 : Fin 64 → EReal
  W3a : Fin 64 → Fin 64 → EReal
  W3b : Fin 64 → Fin 64 → EReal
  b3 : Fin 64 → EReal
  g1 : Fin 128 → EReal
  be1 : Fin 128 → EReal
  g2 : Fin 64 → EReal
  be2 : Fin 64 → EReal

variable (G : Graph)

/-- One propagation step: node `n` receives, starting from zero, the weighted feature rows of the edges landing on it. -/
def prop {C : Nat} (h : Fin NN → Fin C → EReal) (n : Fin NN) (c : Fin C) : EReal :=
  0 + ∑ e ∈ G.into n, G.ew e * h (G.src e) c

/-- A feature matrix times a weight matrix. -/
def mm {K C : Nat} (h : Fin NN → Fin K → EReal) (W : Fin K → Fin C → EReal) (n : Fin NN) (c : Fin C) : EReal :=
  ∑ k : Fin K, h n k * W k c

/-- A two-term convolution: the features times the first weight matrix, plus the propagated features times the second,
    plus the bias. -/
def conv {K C : Nat} (h p : Fin NN → Fin K → EReal) (Wa Wb : Fin K → Fin C → EReal) (b : Fin C → EReal)
    (n : Fin NN) (c : Fin C) : EReal :=
  (mm h Wa n c + mm p Wb n c) + b c

/-- The mean of a column over the nodes. -/
def mean {C : Nat} (f : Fin NN → Fin C → EReal) (c : Fin C) : EReal :=
  Ideal.div (∑ n : Fin NN, f n c) cnt

/-- The (biased) variance of a column over the nodes. -/
def var {C : Nat} (f : Fin NN → Fin C → EReal) (c : Fin C) : EReal :=
  Ideal.div (∑ n : Fin NN, (f n c - mean f c) * (f n c - mean f c)) cnt

/-- The leaky rectifier. -/
def lrelu (y : EReal) : EReal := Scalar.select (Ideal.cmp .oge y 0) y (slope * y)

/-- The per-column factor of the normalisation: the gain over the standard deviation. -/
def scale {C : Nat} (g : Fin C → EReal) (f : Fin NN → Fin C → EReal) (c : Fin C) : EReal :=
  g c * Ideal.rsqrt (var f c + eps)

/-- The per-column offset of the normalisation once the factor is applied to the uncentred column. -/
def shift {C : Nat} (g be : Fin C → EReal) (f : Fin NN → Fin C → EReal) (c : Fin C) : EReal :=
  be c - mean f c * scale g f c

/-- Batch normalisation as scale-and-shift of the uncentred entry. -/
def bnK {C : Nat} (g be : Fin C → EReal) (f : Fin NN → Fin C → EReal) (n : Fin NN) (c : Fin C) : EReal :=
  f n c * scale g f c + shift g be f c

/-- Batch normalisation as gain times centred entry over the standard deviation, plus the offset. -/
def bnR {C : Nat} (g be : Fin C → EReal) (f : Fin NN → Fin C → EReal) (n : Fin NN) (c : Fin C) : EReal :=
  (g c * (f n c - mean f c)) * Ideal.rsqrt (var f c + eps) + be c

variable (A : Args)

/-- The first layer's convolution (the same in both arrangements). -/
def c1 : Fin NN → Fin 128 → EReal := conv A.x (prop G A.x) A.W1a A.W1b A.b1

/-! ## Scale-and-shift, project before propagating -/

/-- The first layer's features: the first convolution normalised by scale-and-shift, through the rectifier. -/
def hK (n : Fin NN) (c : Fin 128) : EReal := lrelu (bnK A.g1 A.be1 (c1 G A) n c)
/-- Their projection by the second slice of the second layer's weights. -/
def zK : Fin NN → Fin 64 → EReal := mm (hK G A) A.W2b
/-- The second convolution: the features against the first slice, plus the propagated projection, plus the bias. -/
def c2K (n : Fin NN) (c : Fin 64) : EReal := (mm (hK G A) A.W2a n c + prop G (zK G A) n c) + A.b2 c
/-- The second layer's features: the second convolution normalised by scale-and-shift, through the rectifier. -/
def h3K (n : Fin NN) (c : Fin 64) : EReal := lrelu (bnK A.g2 A.be2 (c2K G A) n c)
/-- The result: the third convolution, of the second layer's features and of their propagation. -/
def outK : Fin NN → Fin 64 → EReal := conv (h3K G A) (prop G (h3K G A)) A.W3a A.W3b A.b3

/-! ## Centre-then-scale, propagate before projecting -/

/-- The first layer's features: the first convolution centred then scaled, through the rectifier. -/
def hR (n : Fin NN) (c : Fin 128) : EReal := lrelu (bnR A.g1 A.be1 (c1 G A) n c)
/-- The second convolution: the features against the first slice, plus their propagation against the second, plus the
    bias. -/
def c2R : Fin NN → Fin 64 → EReal := conv (hR G A) (prop G (hR G A)) A.W2a A.W2b A.b2
/-- The second layer's features: the second convolution centred then scaled, through the rectifier. -/
def h3R (n : Fin NN) (c : Fin 64) : EReal := lrelu (bnR A.g2 A.be2 (c2R G A) n c)
/-- The result: the third convolution, of the second layer's features and of their propagation. -/
def outR : Fin NN → Fin 64 → EReal := conv (h3R G A) (prop G (h3R G A)) A.W3a A.W3b A.b3

end Cert.Spec

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.SpecGraph.lean ====
/-
  The weighted graph that the edge array denotes. Row 0 of the array holds, per edge, the node it leaves; row 1 the
  node it enters. A negative node number counts from the end (the number of nodes is added to it); the node an edge
  reads from is that wrapped number clamped into range; an edge's message is added into the node whose number the
  unwrapped entry names, and is dropped when that number is out of range. The degree of a node is the number of
  edges leaving it (counted in floats, from zero), its normaliser is the reciprocal square root of the degree where
  the degree is positive and zero elsewhere, and the weight of an edge is minus the product of the normalisers of the
  (wrapped, clamped) nodes it leaves and enters.
-/
import proofs.«126863_j82781199663546_2_alg».proof.Proof.Spec
import proofs.«126863_j82781199663546_2_alg».proof.Proof.LibRowGatherScatter

noncomputable section

open scoped BigOperators

namespace Cert.Spec

open Idealize.ShloMosaic Idealize.ShloMosaic.ValueIdx Cert.RowGS

/-- The edge array: two rows of node numbers. -/
abbrev EdgeArr : Type := (⟨2, ![2, EE]⟩ : Shape).Idx → BitVec 32

/-- There is at least one node. -/
theorem NN_pos : 0 < NN := Nat.succ_pos _

/-- Row `k` of the edge array as a column of indices, as written. -/
def rawCol (ei : EdgeArr) (k : Fin 2) : IVec ⟨2, ![EE, 1]⟩ 32 :=
  fun j => ei (ix2 k (j 0))

/-- Row `k` of the edge array as a column of indices, a negative entry counted from the end. -/
def wrapCol (ei : EdgeArr) (k : Fin 2) : IVec ⟨2, ![EE, 1]⟩ 32 :=
  fun j => Scalar.select (IntOp.cmpi .slt (ei (ix2 k (j 0))) 0#32) (IntOp.addi (ei (ix2 k (j 0))) 100000#32) (ei (ix2 k (j 0)))

/-- The degree of node `n`: one for every edge whose row-0 entry names it. -/
def deg (ei : EdgeArr) (n : Fin NN) : EReal :=
  0 + ∑ _e ∈ Finset.univ.filter (fun e : Fin EE => Lands (rawCol ei 0) e n), one

/-- The normaliser of node `n`. -/
def dinv (ei : EdgeArr) (n : Fin NN) : EReal :=
  Scalar.select (Ideal.cmp .ogt (deg ei n) 0)
    (Ideal.rsqrt (Scalar.select (Ideal.cmp .ogt (deg ei n) 0) (deg ei n) one)) 0

/-- The weight of edge `e`. -/
def edgeW (ei : EdgeArr) (e : Fin EE) : EReal :=
  (-(dinv ei (srcRow NN_pos (wrapCol ei 0) e))) * dinv ei (srcRow NN_pos (wrapCol ei 1) e)

/-- The weighted graph of the edge array. -/
def graphOf (ei : EdgeArr) : Graph where
  src := fun e => srcRow NN_pos (wrapCol ei 0) e
  into := fun n => Finset.univ.filter (fun e : Fin EE => Lands (rawCol ei 1) e n)
  ew := edgeW ei

/-- The argument arrays packaged entry by entry: the two Chebyshev orders of each weight array are its two leading
    slices. -/
def argsOf (x : (⟨2, ![100000, 64]⟩ : Shape).Idx → EReal)
    (W1 : (⟨3, ![2, 64, 128]⟩ : Shape).Idx → EReal) (b1 : (⟨1, ![128]⟩ : Shape).Idx → EReal)
    (W2 : (⟨3, ![2, 128, 64]⟩ : Shape).Idx → EReal) (b2 : (⟨1, ![64]⟩ : Shape).Idx → EReal)
    (W3 : (⟨3, ![2, 64, 64]⟩ : Shape).Idx → EReal) (b3 : (⟨1, ![64]⟩ : Shape).Idx → EReal)
    (g1 be1 : (⟨1, ![128]⟩ : Shape).Idx → EReal) (g2 be2 : (⟨1, ![64]⟩ : Shape).Idx → EReal) : Args where
  x := fun n k => x (ix2 n k)
  W1a := fun k c => W1 (ix3 (0 : Fin 2) k c)
  W1b := fun k c => W1 (ix3 (1 : Fin 2) k c)
  b1 := fun c => b1 (ix1 c)
  W2a := fun k c => W2 (ix3 (0 : Fin 2) k c)
  W2b := fun k c => W2 (ix3 (1 : Fin 2) k c)
  b2 := fun c => b2 (ix1 c)
  W3a := fun k c => W3 (ix3 (0 : Fin 2) k c)
  W3b := fun k c => W3 (ix3 (1 : Fin 2) k c)
  b3 := fun c => b3 (ix1 c)
  g1 := fun c => g1 (ix1 c)
  be1 := fun c => be1 (ix1 c)
  g2 := fun c => g2 (ix1 c)
  be2 := fun c => be2 (ix1 c)

end Cert.Spec

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- The library's two-piece concatenation is `cat2` of its two pieces. -/
theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibVecGather.lean ====
/-
  VECTOR GATHER READ AT ONE ENTRY (a general lemma: any extents, any element type).

  A vector `x : [N]` is gathered at `E` start indices `S : [E, 1]` (what `x[idx]` lowers to for a rank-1 table):
  result entry `e` is the vector's entry at `S[e, 0]`, the start index read as a signed integer and clamped into
  `[0, N − 1]` — the same row `Cert.RowGS.srcRow` names for a row gather:
      gather x S (e) = x (srcRow S e)                                                  (`gather_vec_apply`).
  The one operand axis is collapsed and is the one the start index addresses; there is no offset axis and nothing is
  batched, so the operand coordinate is the clamped start alone.
-/
import proofs.«126863_j82781199663546_2_alg».proof.Proof.LibRowGatherScatter

noncomputable section

namespace Cert.VecGather

open Idealize.ShloMosaic Idealize.ShloMosaic.ValueIdx Cert.RowGS

variable {N E w : Nat}

/-- `g` gathers single entries of an `[N]` vector at `[E, 1]` start indices. -/
structure IsVecGather (g : GatherDims ⟨1, ![N]⟩ ⟨2, ![E, 1]⟩ ⟨1, ![E]⟩) : Prop where
  od : g.offsetDims = []
  cs : g.collapsedSliceDims = [0]
  ob : g.operandBatchingDims = []
  sb : g.startIndicesBatchingDims = []
  sim : g.startIndexMap = [0]
  ivd : g.indexVectorDim = 1
  ss : g.sliceSizes = ![1]

/-- The vector-gather dimension numbers as a literal record (any proof `wf` of their conditions). -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at the literal record, read at `e`: on the one operand axis the coordinate is the clamped start (no
    batching coordinate; the axis is collapsed, so no offset). -/
theorem gather_vecDims_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (S : IVec ⟨2, ![E, 1]⟩ w) (e : Fin E) :
    Host.gather (vecGatherDims N E wf) x S (ix1 e) = x (ix1 (srcRow hN S e)) := by
  unfold Host.gather
  congr 1
  funext a
  refine Fin.ext ?_
  obtain rfl : a = (0 : Fin 1) := Subsingleton.elim _ _
  show (vecGatherDims N E wf).start (ix1 e) S 0 + (vecGatherDims N E wf).batchCoord (ix1 e) 0
    + (vecGatherDims N E wf).offCoord (ix1 e) 0 = _
  rw [GatherDims.batchCoord_eq_zero _ _ _ List.not_mem_nil]
  rw [GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e)
      ⟨List.idxOf (0 : Fin 1) (vecGatherDims N E wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE VECTOR GATHER READ AT `e`: the vector at `srcRow S e` (the start index `S[e, 0]`, read signed and clamped
    into `[0, N − 1]`). -/
theorem gather_vec_apply {α : Type} {g : GatherDims ⟨1, ![N]⟩ ⟨2, ![E, 1]⟩ ⟨1, ![E]⟩} (hg : IsVecGather g)
    (hN : 0 < N) (x : (⟨1, ![N]⟩ : Shape).Idx → α) (S : IVec ⟨2, ![E, 1]⟩ w) (e : Fin E) :
    Host.gather g x S (ix1 e) = x (ix1 (srcRow hN S e)) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_vecDims_apply hN wf x S e

end Cert.VecGather

end
-- ==== Proof.KHost.lean ====
/-
  The stretches of host operations between the kernel's seven launches, read at an entry: for an arbitrary assignment
  of contents to the buffers at the start of a stretch, what the buffers that later steps read hold at its end.
  The short stretches compute a column mean (a column sum over the number of nodes) and the per-column factor and
  offset of a normalisation; the long ones cut the weight arrays into their two orders, lay biases out as rows, and
  run one propagation step over the graph (gather the rows the edges read, weight them, add them into the rows the
  edges enter). The first stretch also reads the two rows of the edge array and computes the edge weights from the
  node degrees. A buffer that no operation of a stretch writes holds afterwards what it held before.
-/
import proofs.«126863_j82781199663546_2_alg».proof.Proof.Gen.KernelIdeal.Frame
import proofs.«126863_j82781199663546_2_alg».proof.Proof.Spec
import proofs.«126863_j82781199663546_2_alg».proof.Proof.SpecGraph
import proofs.«126863_j82781199663546_2_alg».proof.Proof.LibHostWalk
import proofs.«126863_j82781199663546_2_alg».proof.Proof.LibBroadcast
import proofs.«126863_j82781199663546_2_alg».proof.Proof.LibVecGather
import Idealize.ShloMosaic.Lib.IdealHost
import Idealize.ShloMosaic.PureOps.Ideal.Laws
import Idealize.ShloMosaic.Lib.ValueLayout

set_option maxRecDepth 16384

noncomputable section

namespace Cert.KHost

open Idealize.ShloMosaic Idealize.ShloMosaic.StableHlo Idealize.ShloMosaic.ValueIdx
open Cert.KernelIdeal Cert.KernelIdeal.Gen Cert.HostWalk

local infixl:70 " *ₑ " => @HMul.hMul EReal EReal EReal instHMul
local infixl:65 " -ₑ " => @HSub.hSub EReal EReal EReal instHSub

/-! ## Layout lemmas: a leading slice of extent one, then the unit axis dropped -/

/-- Slice `o` along the leading axis of a `[2, a, b]` array, its unit axis dropped, read at `(i, j)`. -/
theorem lead3_apply {α : Type} {a b : Nat} (o : Nat) (X : (⟨3, ![2, a, b]⟩ : Shape).Idx → α)
    (h : (⟨3, ![2, a, b]⟩ : Shape).Slices ![o, 0, 0] ⟨3, ![1, a, b]⟩)
    (h' : (⟨3, ![1, a, b]⟩ : Shape).ShapeCasts ⟨2, ![a, b]⟩) (k : Fin 2) (hk : k.val = o) (i : Fin a) (j : Fin b) :
    shapeCast ⟨2, ![a, b]⟩ (extractStridedSlice ⟨3, ![1, a, b]⟩ ![o, 0, 0] X h) h' (ix2 i j) = X (ix3 k i j) :=
  (shapeCast_1ab_ab_apply _ h' i j).trans
    (extractStridedSlice_apply _ _ _ _ _ (fun ax => by
      match ax with
      | ⟨0, _⟩ => exact hk.trans (Nat.add_zero _).symm
      | ⟨1, _⟩ => exact (Nat.zero_add _).symm
      | ⟨2, _⟩ => exact (Nat.zero_add _).symm))

/-- Row `o` of a `[2, n]` array, its unit axis dropped, read at `e`. -/
theorem lead2_apply {α : Type} {n : Nat} (o : Nat) (X : (⟨2, ![2, n]⟩ : Shape).Idx → α)
    (h : (⟨2, ![2, n]⟩ : Shape).Slices ![o, 0] ⟨2, ![1, n]⟩)
    (h' : (⟨2, ![1, n]⟩ : Shape).ShapeCasts ⟨1, ![n]⟩) (k : Fin 2) (hk : k.val = o) (e : Fin n) :
    shapeCast ⟨1, ![n]⟩ (extractStridedSlice ⟨2, ![1, n]⟩ ![o, 0] X h) h' (ix1 e) = X (ix2 k e) :=
  (shapeCast_1a_a_apply _ h' e).trans (slice2_axis0_apply o X h (0 : Fin 1) e k (hk.trans (Nat.add_zero _).symm))

/-! ## The short stretches: a column sum divided by the number of nodes; the factor and offset of a normalisation -/

/-- The first layer's column means: entry `c` of the mean row is entry `c` of the row of column sums, divided by the number of nodes. -/
theorem s1_v53 (W : Valuation τ sig (Elt Ideal)) (c : Fin 128) :
    (StableHlo.after (hostOps1 (F := Ideal)) W (Proc.devRef .tc main_v53) : S1x128.Idx → EReal) (ix2 (0 : Fin 1) c)
    = Ideal.div ((W (Proc.devRef .tc main_v51_1) : S1x128.Idx → EReal) (ix2 (0 : Fin 1) c)) Cert.Spec.cnt := by
  walk_back []
  rfl

/-- The second layer's column means: entry `c` of the mean row is entry `c` of the row of column sums, divided by the number of nodes. -/
theorem s4_v87 (W : Valuation τ sig (Elt Ideal)) (c : Fin 64) :
    (StableHlo.after (hostOps4 (F := Ideal)) W (Proc.devRef .tc main_v87) : S1x64.Idx → EReal) (ix2 (0 : Fin 1) c)
    = Ideal.div ((W (Proc.devRef .tc main_v85_1) : S1x64.Idx → EReal) (ix2 (0 : Fin 1) c)) Cert.Spec.cnt := by
  walk_back []
  rfl

/-- The factor of the first normalisation at column `c`: the gain times the reciprocal square root of the variance (a row of column sums over the number of nodes) plus the small constant. -/
theorem s2_v62 (W : Valuation τ sig (Elt Ideal)) (c : Fin 128) :
    (StableHlo.after (hostOps2 (F := Ideal)) W (Proc.devRef .tc main_v62) : S1x128.Idx → EReal) (ix2 (0 : Fin 1) c)
    = (W (Proc.devRef .tc main_arg8) : S128.Idx → EReal) (ix1 c)
      *ₑ Ideal.rsqrt (Ideal.div ((W (Proc.devRef .tc main_v54) : S1x128.Idx → EReal) (ix2 (0 : Fin 1) c)) Cert.Spec.cnt + Cert.Spec.eps) := by
  walk_back []
  refine congrArg₂ (· * ·) ?_ rfl
  exact shapeCast_a_1a_apply (W (Proc.devRef .tc main_arg8)) shapeCasts_S128_S1x128 0 c

/-- The offset of the first normalisation: the shift minus the column mean times the factor. -/
theorem s2_v64 (W : Valuation τ sig (Elt Ideal)) (c : Fin 128) :
    (StableHlo.after (hostOps2 (F := Ideal)) W (Proc.devRef .tc main_v64) : S1x128.Idx → EReal) (ix2 (0 : Fin 1) c)
    = (W (Proc.devRef .tc main_arg9) : S128.Idx → EReal) (ix1 c)
      -ₑ (W (Proc.devRef .tc main_v53) : S1x128.Idx → EReal) (ix2 (0 : Fin 1) c) *ₑ
        ((W (Proc.devRef .tc main_arg8) : S128.Idx → EReal) (ix1 c)
          *ₑ Ideal.rsqrt (Ideal.div ((W (Proc.devRef .tc main_v54) : S1x128.Idx → EReal) (ix2 (0 : Fin 1) c)) Cert.Spec.cnt + Cert.Spec.eps)) := by
  walk_back []
  refine congrArg₂ (· - ·) ?_ (congrArg₂ (· * ·) rfl (congrArg₂ (· * ·) ?_ rfl))
  · exact shapeCast_a_1a_apply (W (Proc.devRef .tc main_arg9)) shapeCasts_S128_S1x128 0 c
  · exact shapeCast_a_1a_apply (W (Proc.devRef .tc main_arg8)) shapeCasts_S128_S1x128 0 c

/-- The second layer's weight matrix of order one is slice 1 of the weight argument along its leading axis. -/
theorem s2_v66 (W : Valuation τ sig (Elt Ideal)) (k : Fin 128) (c : Fin 64) :
    (StableHlo.after (hostOps2 (F := Ideal)) W (Proc.devRef .tc main_v66) : S128x64.Idx → EReal) (ix2 k c)
    = (W (Proc.devRef .tc main_arg4) : S2x128x64.Idx → EReal) (ix3 (1 : Fin 2) k c) := by
  walk_back []
  exact lead3_apply 1 (W (Proc.devRef .tc main_arg4)) _ _ 1 rfl k c

/-- The factor of the second normalisation at column `c`: the gain times the reciprocal square root of the variance (a row of column sums over the number of nodes) plus the small constant. -/
theorem s5_v96 (W : Valuation τ sig (Elt Ideal)) (c : Fin 64) :
    (StableHlo.after (hostOps5 (F := Ideal)) W (Proc.devRef .tc main_v96) : S1x64.Idx → EReal) (ix2 (0 : Fin 1) c)
    = (W (Proc.devRef .tc main_arg10) : S64.Idx → EReal) (ix1 c)
      *ₑ Ideal.rsqrt (Ideal.div ((W (Proc.devRef .tc main_v88) : S1x64.Idx → EReal) (ix2 (0 : Fin 1) c)) Cert.Spec.cnt + Cert.Spec.eps) := by
  walk_back []
  refine congrArg₂ (· * ·) ?_ rfl
  exact shapeCast_a_1a_apply (W (Proc.devRef .tc main_arg10)) shapeCasts_S64_S1x64 0 c

/-- The offset of the second normalisation: the shift minus the column mean times the factor. -/
theorem s5_v98 (W : Valuation τ sig (Elt Ideal)) (c : Fin 64) :
    (StableHlo.after (hostOps5 (F := Ideal)) W (Proc.devRef .tc main_v98) : S1x64.Idx → EReal) (ix2 (0 : Fin 1) c)
    = (W (Proc.devRef .tc main_arg11) : S64.Idx → EReal) (ix1 c)
      -ₑ (W (Proc.devRef .tc main_v87) : S1x64.Idx → EReal) (ix2 (0 : Fin 1) c) *ₑ
        ((W (Proc.devRef .tc main_arg10) : S64.Idx → EReal) (ix1 c)
          *ₑ Ideal.rsqrt (Ideal.div ((W (Proc.devRef .tc main_v88) : S1x64.Idx → EReal) (ix2 (0 : Fin 1) c)) Cert.Spec.cnt + Cert.Spec.eps)) := by
  walk_back []
  refine congrArg₂ (· - ·) ?_ (congrArg₂ (· * ·) rfl (congrArg₂ (· * ·) ?_ rfl))
  · exact shapeCast_a_1a_apply (W (Proc.devRef .tc main_arg11)) shapeCasts_S64_S1x64 0 c
  · exact shapeCast_a_1a_apply (W (Proc.devRef .tc main_arg10)) shapeCasts_S64_S1x64 0 c

/-! ## What a stretch leaves alone: a buffer that none of its operations writes holds afterwards what it held before -/

/-- The buffers the operations of `hostOps0` write. -/
abbrev written0a : List (Ref sig .tc) := [main_v0, main_v1, main_v2, main_v3, main_cst, main_v4, main_cst_0, main_v5, main_v6, main_v7, main_cst_1, main_v8, main_v9, main_cst_2, main_v10, main_v11, main_cst_3]
/-- Every operation of `hostOps0` writes only buffers of the list above. -/
theorem writes0a : (hostOps0 (F := Ideal)).Forall fun op => op.writes ⊆ (written0a.map (Proc.devRef (τ := τ) .tc)).toFinset := by
  simp only [List.Forall]
  repeat' apply And.intro
  all_goals (simp only [StableHlo.TRef.unary, StableHlo.TRef.ternary, StableHlo.TRef.toBuf, StableHlo.TRef.ofBuf, StableHlo.TRef.of, StableHlo.nullary_writes, StableHlo.unary_writes, StableHlo.binary_writes, StableHlo.ternary_writes, StableHlo.reshape_writes, Finset.singleton_subset_iff, List.mem_toFinset]; exact List.mem_map_of_mem (by decide))
/-- A buffer outside the list holds after `hostOps0` what it held before. -/
theorem s0a_kept (W : Valuation τ sig (Elt Ideal)) (r : Ref sig .tc) (h : r ∉ written0a) :
    StableHlo.after (hostOps0 (F := Ideal)) W (Proc.devRef .tc r) = W (Proc.devRef .tc r) :=
  StableHlo.after_of_writes_sub _ _ writes0a h

/-- The buffers the operations of `hostOps0_1` write. -/
abbrev written0b : List (Ref sig .tc) := [main_call0_v0, main_call0_v1, main_v12]
/-- Every operation of `hostOps0_1` writes only buffers of the list above. -/
theorem writes0b : (hostOps0_1 (F := Ideal)).Forall fun op => op.writes ⊆ (written0b.map (Proc.devRef (τ := τ) .tc)).toFinset := by
  simp only [List.Forall]
  repeat' apply And.intro
  all_goals (simp only [StableHlo.TRef.unary, StableHlo.TRef.ternary, StableHlo.TRef.toBuf, StableHlo.TRef.ofBuf, StableHlo.TRef.of, StableHlo.nullary_writes, StableHlo.unary_writes, StableHlo.binary_writes, StableHlo.ternary_writes, StableHlo.reshape_writes, Finset.singleton_subset_iff, List.mem_toFinset]; exact List.mem_map_of_mem (by decide))
/-- A buffer outside the list holds after `hostOps0_1` what it held before. -/
theorem s0b_kept (W : Valuation τ sig (Elt Ideal)) (r : Ref sig .tc) (h : r ∉ written0b) :
    StableHlo.after (hostOps0_1 (F := Ideal)) W (Proc.devRef .tc r) = W (Proc.devRef .tc r) :=
  StableHlo.after_of_writes_sub _ _ writes0b h

/-- The buffers the operations of `hostOps0_2` write. -/
abbrev written0c : List (Ref sig .tc) := [main_v13, main_cst_4]
/-- Every operation of `hostOps0_2` writes only buffers of the list above. -/
theorem writes0c : (hostOps0_2 (F := Ideal)).Forall fun op => op.writes ⊆ (written0c.map (Proc.devRef (τ := τ) .tc)).toFinset := by
  simp only [List.Forall]
  repeat' apply And.intro
  all_goals (simp only [StableHlo.TRef.unary, StableHlo.TRef.ternary, StableHlo.TRef.toBuf, StableHlo.TRef.ofBuf, StableHlo.TRef.of, StableHlo.nullary_writes, StableHlo.unary_writes, StableHlo.binary_writes, StableHlo.ternary_writes, StableHlo.reshape_writes, Finset.singleton_subset_iff, List.mem_toFinset]; exact List.mem_map_of_mem (by decide))
/-- A buffer outside the list holds after `hostOps0_2` what it held before. -/
theorem s0c_kept (W : Valuation τ sig (Elt Ideal)) (r : Ref sig .tc) (h : r ∉ written0c) :
    StableHlo.after (hostOps0_2 (F := Ideal)) W (Proc.devRef .tc r) = W (Proc.devRef .tc r) :=
  StableHlo.after_of_writes_sub _ _ writes0c h

/-- The buffers the operations of `hostOps0_3` write. -/
abbrev written0d : List (Ref sig .tc) := [main_call1_v0, main_call1_v1, main_v14]
/-- Every operation of `hostOps0_3` writes only buffers of the list above. -/
theorem writes0d : (hostOps0_3 (F := Ideal)).Forall fun op => op.writes ⊆ (written0d.map (Proc.devRef (τ := τ) .tc)).toFinset := by
  simp only [List.Forall]
  repeat' apply And.intro
  all_goals (simp only [StableHlo.TRef.unary, StableHlo.TRef.ternary, StableHlo.TRef.toBuf, StableHlo.TRef.ofBuf, StableHlo.TRef.of, StableHlo.nullary_writes, StableHlo.unary_writes, StableHlo.binary_writes, StableHlo.ternary_writes, StableHlo.reshape_writes, Finset.singleton_subset_iff, List.mem_toFinset]; exact List.mem_map_of_mem (by decide))
/-- A buffer outside the list holds after `hostOps0_3` what it held before. -/
theorem s0d_kept (W : Valuation τ sig (Elt Ideal)) (r : Ref sig .tc) (h : r ∉ written0d) :
    StableHlo.after (hostOps0_3 (F := Ideal)) W (Proc.devRef .tc r) = W (Proc.devRef .tc r) :=
  StableHlo.after_of_writes_sub _ _ writes0d h

/-- The buffers the operations of `hostOps0_4` write. -/
abbrev written0e : List (Ref sig .tc) := [main_c, main_v15, main_v16, main_c_5, main_v17, main_v18, main_v19, main_v20, main_v21, main_v22, main_c_6, main_v23, main_v24, main_c_7, main_v25, main_v26, main_v27, main_v28, main_v29, main_v30, main_v31, main_c_8, main_v32, main_v33, main_c_9, main_v34, main_v35, main_v36, main_v37, main_v38, main_v39, main_v40, main_v41, main_v42, main_cst_10, main_v43, main_v44, main_v45, main_v46, main_v47, main_v48, main_v49, main_v50]
/-- Every operation of `hostOps0_4` writes only buffers of the list above. -/
theorem writes0e : (hostOps0_4 (F := Ideal)).Forall fun op => op.writes ⊆ (written0e.map (Proc.devRef (τ := τ) .tc)).toFinset := by
  simp only [List.Forall]
  repeat' apply And.intro
  all_goals (simp only [StableHlo.TRef.unary, StableHlo.TRef.ternary, StableHlo.TRef.toBuf, StableHlo.TRef.ofBuf, StableHlo.TRef.of, StableHlo.nullary_writes, StableHlo.unary_writes, StableHlo.binary_writes, StableHlo.ternary_writes, StableHlo.reshape_writes, Finset.singleton_subset_iff, List.mem_toFinset]; exact List.mem_map_of_mem (by decide))
/-- A buffer outside the list holds after `hostOps0_4` what it held before. -/
theorem s0e_kept (W : Valuation τ sig (Elt Ideal)) (r : Ref sig .tc) (h : r ∉ written0e) :
    StableHlo.after (hostOps0_4 (F := Ideal)) W (Proc.devRef .tc r) = W (Proc.devRef .tc r) :=
  StableHlo.after_of_writes_sub _ _ writes0e h

/-- The buffers the operations of `hostOps1` write. -/
abbrev written1 : List (Ref sig .tc) := [main_cst_11, main_v52, main_v53]
/-- Every operation of `hostOps1` writes only buffers of the list above. -/
theorem writes1 : (hostOps1 (F := Ideal)).Forall fun op => op.writes ⊆ (written1.map (Proc.devRef (τ := τ) .tc)).toFinset := by
  simp only [List.Forall]
  repeat' apply And.intro
  all_goals (simp only [StableHlo.TRef.unary, StableHlo.TRef.ternary, StableHlo.TRef.toBuf, StableHlo.TRef.ofBuf, StableHlo.TRef.of, StableHlo.nullary_writes, StableHlo.unary_writes, StableHlo.binary_writes, StableHlo.ternary_writes, StableHlo.reshape_writes, Finset.singleton_subset_iff, List.mem_toFinset]; exact List.mem_map_of_mem (by decide))
/-- A buffer outside the list holds after `hostOps1` what it held before. -/
theorem s1_kept (W : Valuation τ sig (Elt Ideal)) (r : Ref sig .tc) (h : r ∉ written1) :
    StableHlo.after (hostOps1 (F := Ideal)) W (Proc.devRef .tc r) = W (Proc.devRef .tc r) :=
  StableHlo.after_of_writes_sub _ _ writes1 h

/-- The buffers the operations of `hostOps2` write. -/
abbrev written2 : List (Ref sig .tc) := [main_cst_12, main_v55, main_v56, main_v57, main_v58, main_cst_13, main_v59, main_v60, main_v61, main_v62, main_v63, main_v64, main_v65, main_v66]
/-- Every operation of `hostOps2` writes only buffers of the list above. -/
theorem writes2 : (hostOps2 (F := Ideal)).Forall fun op => op.writes ⊆ (written2.map (Proc.devRef (τ := τ) .tc)).toFinset := by
  simp only [List.Forall]
  repeat' apply And.intro
  all_goals (simp only [StableHlo.TRef.unary, StableHlo.TRef.ternary, StableHlo.TRef.toBuf, StableHlo.TRef.ofBuf, StableHlo.TRef.of, StableHlo.nullary_writes, StableHlo.unary_writes, StableHlo.binary_writes, StableHlo.ternary_writes, StableHlo.reshape_writes, Finset.singleton_subset_iff, List.mem_toFinset]; exact List.mem_map_of_mem (by decide))
/-- A buffer outside the list holds after `hostOps2` what it held before. -/
theorem s2_kept (W : Valuation τ sig (Elt Ideal)) (r : Ref sig .tc) (h : r ∉ written2) :
    StableHlo.after (hostOps2 (F := Ideal)) W (Proc.devRef .tc r) = W (Proc.devRef .tc r) :=
  StableHlo.after_of_writes_sub _ _ writes2 h

/-- The buffers the operations of `hostOps3` write. -/
abbrev written3 : List (Ref sig .tc) := [main_c_14, main_v68, main_v69, main_c_15, main_v70, main_v71, main_v72, main_v73, main_v74, main_v75, main_v76, main_v77, main_v78, main_cst_16, main_v79, main_v80, main_v81, main_v82, main_v83, main_v84]
/-- Every operation of `hostOps3` writes only buffers of the list above. -/
theorem writes3 : (hostOps3 (F := Ideal)).Forall fun op => op.writes ⊆ (written3.map (Proc.devRef (τ := τ) .tc)).toFinset := by
  simp only [List.Forall]
  repeat' apply And.intro
  all_goals (simp only [StableHlo.TRef.unary, StableHlo.TRef.ternary, StableHlo.TRef.toBuf, StableHlo.TRef.ofBuf, StableHlo.TRef.of, StableHlo.nullary_writes, StableHlo.unary_writes, StableHlo.binary_writes, StableHlo.ternary_writes, StableHlo.reshape_writes, Finset.singleton_subset_iff, List.mem_toFinset]; exact List.mem_map_of_mem (by decide))
/-- A buffer outside the list holds after `hostOps3` what it held before. -/
theorem s3_kept (W : Valuation τ sig (Elt Ideal)) (r : Ref sig .tc) (h : r ∉ written3) :
    StableHlo.after (hostOps3 (F := Ideal)) W (Proc.devRef .tc r) = W (Proc.devRef .tc r) :=
  StableHlo.after_of_writes_sub _ _ writes3 h

/-- The buffers the operations of `hostOps4` write. -/
abbrev written4 : List (Ref sig .tc) := [main_cst_17, main_v86, main_v87]
/-- Every operation of `hostOps4` writes only buffers of the list above. -/
theorem writes4 : (hostOps4 (F := Ideal)).Forall fun op => op.writes ⊆ (written4.map (Proc.devRef (τ := τ) .tc)).toFinset := by
  simp only [List.Forall]
  repeat' apply And.intro
  all_goals (simp only [StableHlo.TRef.unary, StableHlo.TRef.ternary, StableHlo.TRef.toBuf, StableHlo.TRef.ofBuf, StableHlo.TRef.of, StableHlo.nullary_writes, StableHlo.unary_writes, StableHlo.binary_writes, StableHlo.ternary_writes, StableHlo.reshape_writes, Finset.singleton_subset_iff, List.mem_toFinset]; exact List.mem_map_of_mem (by decide))
/-- A buffer outside the list holds after `hostOps4` what it held before. -/
theorem s4_kept (W : Valuation τ sig (Elt Ideal)) (r : Ref sig .tc) (h : r ∉ written4) :
    StableHlo.after (hostOps4 (F := Ideal)) W (Proc.devRef .tc r) = W (Proc.devRef .tc r) :=
  StableHlo.after_of_writes_sub _ _ writes4 h

/-- The buffers the operations of `hostOps5` write. -/
abbrev written5 : List (Ref sig .tc) := [main_cst_18, main_v89, main_v90, main_v91, main_v92, main_cst_19, main_v93, main_v94, main_v95, main_v96, main_v97, main_v98]
/-- Every operation of `hostOps5` writes only buffers of the list above. -/
theorem writes5 : (hostOps5 (F := Ideal)).Forall fun op => op.writes ⊆ (written5.map (Proc.devRef (τ := τ) .tc)).toFinset := by
  simp only [List.Forall]
  repeat' apply And.intro
  all_goals (simp only [StableHlo.TRef.unary, StableHlo.TRef.ternary, StableHlo.TRef.toBuf, StableHlo.TRef.ofBuf, StableHlo.TRef.of, StableHlo.nullary_writes, StableHlo.unary_writes, StableHlo.binary_writes, StableHlo.ternary_writes, StableHlo.reshape_writes, Finset.singleton_subset_iff, List.mem_toFinset]; exact List.mem_map_of_mem (by decide))
/-- A buffer outside the list holds after `hostOps5` what it held before. -/
theorem s5_kept (W : Valuation τ sig (Elt Ideal)) (r : Ref sig .tc) (h : r ∉ written5) :
    StableHlo.after (hostOps5 (F := Ideal)) W (Proc.devRef .tc r) = W (Proc.devRef .tc r) :=
  StableHlo.after_of_writes_sub _ _ writes5 h

/-- The buffers the operations of `hostOps6` write. -/
abbrev written6 : List (Ref sig .tc) := [main_c_20, main_v100, main_v101, main_c_21, main_v102, main_v103, main_v104, main_v105, main_v106, main_v107, main_v108, main_v109, main_v110, main_cst_22, main_v111, main_v112, main_v113, main_v114, main_v115, main_v116, main_v117, main_v118]
/-- Every operation of `hostOps6` writes only buffers of the list above. -/
theorem writes6 : (hostOps6 (F := Ideal)).Forall fun op => op.writes ⊆ (written6.map (Proc.devRef (τ := τ) .tc)).toFinset := by
  simp only [List.Forall]
  repeat' apply And.intro
  all_goals (simp only [StableHlo.TRef.unary, StableHlo.TRef.ternary, StableHlo.TRef.toBuf, StableHlo.TRef.ofBuf, StableHlo.TRef.of, StableHlo.nullary_writes, StableHlo.unary_writes, StableHlo.binary_writes, StableHlo.ternary_writes, StableHlo.reshape_writes, Finset.singleton_subset_iff, List.mem_toFinset]; exact List.mem_map_of_mem (by decide))
/-- A buffer outside the list holds after `hostOps6` what it held before. -/
theorem s6_kept (W : Valuation τ sig (Elt Ideal)) (r : Ref sig .tc) (h : r ∉ written6) :
    StableHlo.after (hostOps6 (F := Ideal)) W (Proc.devRef .tc r) = W (Proc.devRef .tc r) :=
  StableHlo.after_of_writes_sub _ _ writes6 h

/-- The buffers the first stretch (its five lines together) writes. -/
abbrev written0 : List (Ref sig .tc) := written0a ++ written0b ++ written0c ++ written0d ++ written0e
/-- A buffer that none of the first stretch's five lines writes holds after the stretch what it held before. -/
theorem s0_kept (W : Valuation τ sig (Elt Ideal)) (r : Ref sig .tc) (h : r ∉ written0) :
    StableHlo.after (hostOps0_4 (F := Ideal)) (StableHlo.after hostOps0_3 (StableHlo.after hostOps0_2
      (StableHlo.after hostOps0_1 (StableHlo.after hostOps0 W)))) (Proc.devRef .tc r) = W (Proc.devRef .tc r) := by
  have h' : r ∉ written0a ∧ r ∉ written0b ∧ r ∉ written0c ∧ r ∉ written0d ∧ r ∉ written0e := by
    simp only [written0, List.mem_append, not_or] at h
    exact ⟨h.1.1.1.1, h.1.1.1.2, h.1.1.2, h.1.2, h.2⟩
  rw [s0e_kept _ r h'.2.2.2.2, s0d_kept _ r h'.2.2.2.1, s0c_kept _ r h'.2.2.1, s0b_kept _ r h'.2.1, s0a_kept _ r h'.1]

/-! ## The slices and reshapes: the two rows of the edge array, the two orders of each weight array, the biases as rows -/

/-- The vector of the nodes the edges leave is row 0 of the edge array. -/
theorem s0_v1 (W : Valuation τ sig (Elt Ideal)) (e : Fin 1600000) :
    (StableHlo.after (hostOps0_4 (F := Ideal)) (StableHlo.after hostOps0_3 (StableHlo.after hostOps0_2
      (StableHlo.after hostOps0_1 (StableHlo.after hostOps0 W)))) (Proc.devRef .tc main_v1) : S1600000.Idx → BitVec 32) (ix1 e)
    = (W (Proc.devRef .tc main_arg1) : S2x1600000.Idx → BitVec 32) (ix2 (0 : Fin 2) e) := by
  rw [s0e_kept _ main_v1 (by decide), s0d_kept _ main_v1 (by decide), s0c_kept _ main_v1 (by decide),
    s0b_kept _ main_v1 (by decide)]
  walk_back []
  exact lead2_apply 0 (W (Proc.devRef .tc main_arg1)) _ _ 0 rfl e

/-- The vector of the nodes the edges enter is row 1 of the edge array. -/
theorem s0_v3 (W : Valuation τ sig (Elt Ideal)) (e : Fin 1600000) :
    (StableHlo.after (hostOps0_4 (F := Ideal)) (StableHlo.after hostOps0_3 (StableHlo.after hostOps0_2
      (StableHlo.after hostOps0_1 (StableHlo.after hostOps0 W)))) (Proc.devRef .tc main_v3) : S1600000.Idx → BitVec 32) (ix1 e)
    = (W (Proc.devRef .tc main_arg1) : S2x1600000.Idx → BitVec 32) (ix2 (1 : Fin 2) e) := by
  rw [s0e_kept _ main_v3 (by decide), s0d_kept _ main_v3 (by decide), s0c_kept _ main_v3 (by decide),
    s0b_kept _ main_v3 (by decide)]
  walk_back []
  exact lead2_apply 1 (W (Proc.devRef .tc main_arg1)) _ _ 1 rfl e

/-- The first layer's weight matrix of order zero is slice 0 of the weight argument along its leading axis. -/
theorem s0_v47 (W : Valuation τ sig (Elt Ideal)) (k : Fin 64) (c : Fin 128) :
    (StableHlo.after (hostOps0_4 (F := Ideal)) (StableHlo.after hostOps0_3 (StableHlo.after hostOps0_2
      (StableHlo.after hostOps0_1 (StableHlo.after hostOps0 W)))) (Proc.devRef .tc main_v47) : S64x128.Idx → EReal) (ix2 k c)
    = (W (Proc.devRef .tc main_arg2) : S2x64x128.Idx → EReal) (ix3 (0 : Fin 2) k c) := by
  walk_back []
  exact lead3_apply 0 (W (Proc.devRef .tc main_arg2)) _ _ 0 rfl k c

/-- The first layer's weight matrix of order one is slice 1 of the weight argument along its leading axis. -/
theorem s0_v49 (W : Valuation τ sig (Elt Ideal)) (k : Fin 64) (c : Fin 128) :
    (StableHlo.after (hostOps0_4 (F := Ideal)) (StableHlo.after hostOps0_3 (StableHlo.after hostOps0_2
      (StableHlo.after hostOps0_1 (StableHlo.after hostOps0 W)))) (Proc.devRef .tc main_v49) : S64x128.Idx → EReal) (ix2 k c)
    = (W (Proc.devRef .tc main_arg2) : S2x64x128.Idx → EReal) (ix3 (1 : Fin 2) k c) := by
  walk_back []
  exact lead3_apply 1 (W (Proc.devRef .tc main_arg2)) _ _ 1 rfl k c

/-- The first layer's bias laid out as a row: entry `(0, c)` of the row is entry `c` of the bias. -/
theorem s0_v50 (W : Valuation τ sig (Elt Ideal)) (c : Fin 128) :
    (StableHlo.after (hostOps0_4 (F := Ideal)) (StableHlo.after hostOps0_3 (StableHlo.after hostOps0_2
      (StableHlo.after hostOps0_1 (StableHlo.after hostOps0 W)))) (Proc.devRef .tc main_v50) : S1x128.Idx → EReal) (ix2 (0 : Fin 1) c)
    = (W (Proc.devRef .tc main_arg3) : S128.Idx → EReal) (ix1 c) := by
  walk_back []
  exact shapeCast_a_1a_apply (W (Proc.devRef .tc main_arg3)) shapeCasts_S128_S1x128 0 c

/-- The second layer's weight matrix of order zero is slice 0 of the weight argument along its leading axis. -/
theorem s3_v83 (W : Valuation τ sig (Elt Ideal)) (k : Fin 128) (c : Fin 64) :
    (StableHlo.after (hostOps3 (F := Ideal)) W (Proc.devRef .tc main_v83) : S128x64.Idx → EReal) (ix2 k c)
    = (W (Proc.devRef .tc main_arg4) : S2x128x64.Idx → EReal) (ix3 (0 : Fin 2) k c) := by
  walk_back []
  exact lead3_apply 0 (W (Proc.devRef .tc main_arg4)) _ _ 0 rfl k c

/-- The second layer's bias laid out as a row: entry `(0, c)` of the row is entry `c` of the bias. -/
theorem s3_v84 (W : Valuation τ sig (Elt Ideal)) (c : Fin 64) :
    (StableHlo.after (hostOps3 (F := Ideal)) W (Proc.devRef .tc main_v84) : S1x64.Idx → EReal) (ix2 (0 : Fin 1) c)
    = (W (Proc.devRef .tc main_arg5) : S64.Idx → EReal) (ix1 c) := by
  walk_back []
  exact shapeCast_a_1a_apply (W (Proc.devRef .tc main_arg5)) shapeCasts_S64_S1x64 0 c

/-- The third layer's weight matrix of order zero is slice 0 of the weight argument along its leading axis. -/
theorem s6_v115 (W : Valuation τ sig (Elt Ideal)) (k c : Fin 64) :
    (StableHlo.after (hostOps6 (F := Ideal)) W (Proc.devRef .tc main_v115) : S64x64.Idx → EReal) (ix2 k c)
    = (W (Proc.devRef .tc main_arg6) : S2x64x64.Idx → EReal) (ix3 (0 : Fin 2) k c) := by
  walk_back []
  exact lead3_apply 0 (W (Proc.devRef .tc main_arg6)) _ _ 0 rfl k c

/-- The third layer's weight matrix of order one is slice 1 of the weight argument along its leading axis. -/
theorem s6_v117 (W : Valuation τ sig (Elt Ideal)) (k c : Fin 64) :
    (StableHlo.after (hostOps6 (F := Ideal)) W (Proc.devRef .tc main_v117) : S64x64.Idx → EReal) (ix2 k c)
    = (W (Proc.devRef .tc main_arg6) : S2x64x64.Idx → EReal) (ix3 (1 : Fin 2) k c) := by
  walk_back []
  exact lead3_apply 1 (W (Proc.devRef .tc main_arg6)) _ _ 1 rfl k c

/-- The third layer's bias laid out as a row: entry `(0, c)` of the row is entry `c` of the bias. -/
theorem s6_v118 (W : Valuation τ sig (Elt Ideal)) (c : Fin 64) :
    (StableHlo.after (hostOps6 (F := Ideal)) W (Proc.devRef .tc main_v118) : S1x64.Idx → EReal) (ix2 (0 : Fin 1) c)
    = (W (Proc.devRef .tc main_arg7) : S64.Idx → EReal) (ix1 c) := by
  walk_back []
  exact shapeCast_a_1a_apply (W (Proc.devRef .tc main_arg7)) shapeCasts_S64_S1x64 0 c

/-! ## One propagation step on the host, read at an entry

The edge numbers arrive as two vectors: the nodes the edges leave (wrapped when negative, then clamped, to pick the
feature row an edge reads) and the nodes they enter (as written, to pick the row a message is added into). -/

/-- A vector of node numbers as a column of indices, as written. -/
def colOf (v : IVec S1600000 32) : IVec ⟨2, ![Cert.Spec.EE, 1]⟩ 32 := fun j => v (ix1 (j 0))

/-- A vector of node numbers as a column of indices, a negative entry counted from the end. -/
def wrapOf (v : IVec S1600000 32) : IVec ⟨2, ![Cert.Spec.EE, 1]⟩ 32 :=
  fun j => Scalar.select (IntOp.cmpi .slt (v (ix1 (j 0))) 0#32) (IntOp.addi (v (ix1 (j 0))) 100000#32) (v (ix1 (j 0)))

/-- Of a row of the edge array these are the specification's two columns. -/
theorem colOf_row (ei : Cert.Spec.EdgeArr) (k : Fin 2) : colOf (fun i => ei (ix2 k (i 0))) = Cert.Spec.rawCol ei k := rfl
/-- Of a row of the edge array the wrapped column is the specification's wrapped column. -/
theorem wrapOf_row (ei : Cert.Spec.EdgeArr) (k : Fin 2) : wrapOf (fun i => ei (ix2 k (i 0))) = Cert.Spec.wrapCol ei k := rfl

/-- A vector of node numbers broadcast to a column is that column. -/
theorem bcast_col (v : IVec S1600000 32) (h : S1600000.BroadcastsInDim S1600000x1 ![0]) :
    broadcastInDim S1600000x1 ![0] h v = colOf v := by
  funext j
  obtain ⟨a, b, rfl⟩ : ∃ a b, j = ix2 a b := ⟨_, _, eq_ix2 j⟩
  exact Cert.Bcast.col_apply (by decide) v h a b

/-- The wrapped vector (a negative entry has the number of nodes added) broadcast to a column. -/
theorem wrap_col (v : IVec S1600000 32) (h : S1600000.BroadcastsInDim S1600000x1 ![0])
    (h0 h1 : S_.BroadcastsInDim S1600000 ![]) :
    broadcastInDim S1600000x1 ![0] h
      (select (cmpi .slt v (broadcastInDim S1600000 ![] h0 (constantI S_ 32 0#32)))
        (addi v (broadcastInDim S1600000 ![] h1 (constantI S_ 32 100000#32))) v) = wrapOf v := by
  rw [bcast_col]
  rfl

/-- ONE PROPAGATION STEP READ AT `(n, c)`: the messages (edge weight times the feature row the edge reads) are
    scatter-added from zero into the rows the edges enter. The table may be held in the short format: at the
    extended reals widening it back is the identity. -/
theorem prop_apply (x : FVec Ideal S100000x64 .bf16) (v1 v3 : IVec S1600000 32) (w : FVec Ideal S1600000 .f32)
    (hz : S_.BroadcastsInDim S100000x64 ![]) (hc : S1600000.BroadcastsInDim S1600000x1 ![0])
    (hr : S1600000x1.BroadcastsInDim S1600000x64 ![0, 1]) (h0 h1 : S_.BroadcastsInDim S1600000 ![])
    (hb : FTy.bits .bf16 < FTy.bits .f32) (n : Fin 100000) (c : Fin 64) :
    Host.scatterAdd scatter_S100000x64_S1600000x1_S1600000x64_1_0_0_1
      (broadcastInDim S100000x64 ![] hz (constant (F := Ideal) S_ .f32 0x00000000#32))
      (broadcastInDim S1600000x1 ![0] hc v3)
      (mulf (broadcastInDim S1600000x64 ![0, 1] hr (broadcastInDim S1600000x1 ![0] hc w))
        (extf .f32 (Host.gather gather_S100000x64_S1600000x1_S1600000x64_1_0_n_n_0_1_164 x
          (broadcastInDim S1600000x1 ![0] hc
            (select (cmpi .slt v1 (broadcastInDim S1600000 ![] h0 (constantI S_ 32 0#32)))
              (addi v1 (broadcastInDim S1600000 ![] h1 (constantI S_ 32 100000#32))) v1))) hb)) (ix2 n c)
    = 0 + ∑ e ∈ Finset.univ.filter (fun e : Fin Cert.Spec.EE => Cert.RowGS.Lands (colOf v3) e n),
        w (ix1 e) * x (ix2 (Cert.RowGS.srcRow Cert.Spec.NN_pos (wrapOf v1) e) c) := by
  rw [Cert.RowGS.scatterAdd_row_apply ⟨rfl, rfl, rfl, rfl⟩, wrap_col, bcast_col]
  refine congrArg₂ (· + ·) ?_ (Finset.sum_congr rfl fun e _ => ?_)
  · rw [broadcastInDim_scalar_apply, constant_apply, Ideal.ofBits_zero_f32]
  · rw [mulf_apply, Cert.Bcast.rows_of_col_apply (by decide), Cert.Bcast.col_apply (by decide), extf_apply,
      Cert.RowGS.gather_row_apply ⟨rfl, rfl, rfl, rfl, rfl, rfl, rfl⟩ Cert.Spec.NN_pos]

/-! ## The propagation steps of the second and third layers -/

/-- The second layer's propagation as its stretch leaves it: entry `(n, c)` is, from zero, the sum over the edges entering node `n` of the edge weight times entry `c` of the feature row the edge reads. -/
theorem s3_v81 (W : Valuation τ sig (Elt Ideal)) (n : Fin 100000) (c : Fin 64) :
    (StableHlo.after (hostOps3 (F := Ideal)) W (Proc.devRef .tc main_v81) : S100000x64.Idx → EReal) (ix2 n c)
    = 0 + ∑ e ∈ Finset.univ.filter (fun e : Fin Cert.Spec.EE =>
        Cert.RowGS.Lands (colOf (W (Proc.devRef .tc main_v3))) e n),
        (W (Proc.devRef .tc main_v30) : S1600000.Idx → EReal) (ix1 e)
          *ₑ (W (Proc.devRef .tc main_v67_1) : S100000x64.Idx → EReal)
            (ix2 (Cert.RowGS.srcRow Cert.Spec.NN_pos (wrapOf (W (Proc.devRef .tc main_v1))) e) c) := by
  walk_back []
  exact prop_apply (W (Proc.devRef .tc main_v67_1)) (W (Proc.devRef .tc main_v1)) (W (Proc.devRef .tc main_v3))
    (W (Proc.devRef .tc main_v30)) _ _ _ _ _ _ n c

/-- The third layer's propagation as its stretch leaves it: entry `(n, c)` is, from zero, the sum over the edges entering node `n` of the edge weight times entry `c` of the feature row the edge reads. -/
theorem s6_v113 (W : Valuation τ sig (Elt Ideal)) (n : Fin 100000) (c : Fin 64) :
    (StableHlo.after (hostOps6 (F := Ideal)) W (Proc.devRef .tc main_v113) : S100000x64.Idx → EReal) (ix2 n c)
    = 0 + ∑ e ∈ Finset.univ.filter (fun e : Fin Cert.Spec.EE =>
        Cert.RowGS.Lands (colOf (W (Proc.devRef .tc main_v3))) e n),
        (W (Proc.devRef .tc main_v30) : S1600000.Idx → EReal) (ix1 e)
          *ₑ (W (Proc.devRef .tc main_v99) : S100000x64.Idx → EReal)
            (ix2 (Cert.RowGS.srcRow Cert.Spec.NN_pos (wrapOf (W (Proc.devRef .tc main_v1))) e) c) := by
  walk_back []
  exact prop_apply (W (Proc.devRef .tc main_v99)) (W (Proc.devRef .tc main_v1)) (W (Proc.devRef .tc main_v3))
    (W (Proc.devRef .tc main_v30)) _ _ _ _ _ _ n c

/-! ## The edge weights: the degree of a node, its normaliser, and minus the product of two normalisers -/

/-- Row `o` of the edge array as a vector of node numbers. -/
theorem row_eq {α : Type} (o : Nat) (X : S2x1600000.Idx → α) (h : S2x1600000.Slices ![o, 0] S1x1600000)
    (h' : S1x1600000.ShapeCasts S1600000) (k : Fin 2) (hk : k.val = o) :
    shapeCast S1600000 (extractStridedSlice S1x1600000 ![o, 0] X h) h' = fun i => X (ix2 k (i 0)) := by
  funext i
  obtain ⟨a, rfl⟩ : ∃ a, i = ix1 a := ⟨_, eq_ix1 i⟩
  exact lead2_apply o X h h' k hk a

/-- The degree of node `n`: a one scatter-added from zero for every edge whose number in the vector is `n`. -/
theorem deg_apply (r0 : IVec S1600000 32) (hzN : S_.BroadcastsInDim S100000 ![]) (hzE : S_.BroadcastsInDim S1600000 ![])
    (hcol : S1600000.BroadcastsInDim S1600000x1 ![0]) (n : Fin 100000) :
    (Host.scatterAdd scatter_S100000_S1600000x1_S1600000_n_0_0_1 (broadcastInDim S100000 ![] hzN (constant (F := Ideal) S_ .f32 0x00000000#32)) (broadcastInDim S1600000x1 ![0] hcol r0) (broadcastInDim S1600000 ![] hzE (constant (F := Ideal) S_ .f32 0x3F800000#32))) (ix1 n)
    = 0 + ∑ _e ∈ Finset.univ.filter (fun e : Fin Cert.Spec.EE => Cert.RowGS.Lands (colOf r0) e n), Cert.Spec.one := by
  rw [Cert.RowGS.scatterAdd_vec_apply ⟨rfl, rfl, rfl, rfl⟩, bcast_col]
  refine congrArg₂ (· + ·) ?_ (Finset.sum_congr rfl fun e _ => ?_)
  · rw [broadcastInDim_scalar_apply, constant_apply, Ideal.ofBits_zero_f32]
  · rw [broadcastInDim_scalar_apply, constant_apply]; rfl

/-- The normaliser of node `n` from the vector of degrees: the reciprocal square root of the degree where it is
    positive (taken of one elsewhere, and then discarded), zero elsewhere. -/
theorem dinv_apply (d : FVec Ideal S100000 .f32) (hzN : S_.BroadcastsInDim S100000 ![]) (n : Fin 100000) :
    (select (cmpf .ogt d (broadcastInDim S100000 ![] hzN (constant (F := Ideal) S_ .f32 0x00000000#32))) (Host.rsqrt (select (cmpf .ogt d (broadcastInDim S100000 ![] hzN (constant (F := Ideal) S_ .f32 0x00000000#32))) d (broadcastInDim S100000 ![] hzN (id (constant (F := Ideal) S_ .f32 0x3F800000#32))))) (broadcastInDim S100000 ![] hzN (id (constant (F := Ideal) S_ .f32 0x00000000#32)))) (ix1 n)
    = Scalar.select (Ideal.cmp .ogt (d (ix1 n)) 0)
        (Ideal.rsqrt (Scalar.select (Ideal.cmp .ogt (d (ix1 n)) 0) (d (ix1 n)) Cert.Spec.one)) 0 := by
  show Scalar.select (Ideal.cmp .ogt (d (ix1 n)) (Ideal.ofBits .f32 0x00000000#32))
      (Ideal.rsqrt (Scalar.select (Ideal.cmp .ogt (d (ix1 n)) (Ideal.ofBits .f32 0x00000000#32)) (d (ix1 n))
        (Ideal.ofBits .f32 0x3F800000#32))) (Ideal.ofBits .f32 0x00000000#32) = _
  rw [Ideal.ofBits_zero_f32]
  rfl

/-- Minus the product of the normalisers gathered at the two (wrapped, clamped) ends of edge `e`. -/
theorem edgeW_vec (D : FVec Ideal S100000 .f32) (r0 r1 : IVec S1600000 32) (hzE : S_.BroadcastsInDim S1600000 ![])
    (hcol : S1600000.BroadcastsInDim S1600000x1 ![0]) (e : Fin 1600000) :
    (mulf (Host.negf (Host.gather gather_S100000_S1600000x1_S1600000_n_0_n_n_0_1_1 D (broadcastInDim S1600000x1 ![0] hcol (select (cmpi .slt r0 (broadcastInDim S1600000 ![] hzE (constantI S_ 32 0#32))) (addi r0 (broadcastInDim S1600000 ![] hzE (constantI S_ 32 100000#32))) r0)))) (Host.gather gather_S100000_S1600000x1_S1600000_n_0_n_n_0_1_1 D (broadcastInDim S1600000x1 ![0] hcol (select (cmpi .slt r1 (broadcastInDim S1600000 ![] hzE (constantI S_ 32 0#32))) (addi r1 (broadcastInDim S1600000 ![] hzE (constantI S_ 32 100000#32))) r1)))) (ix1 e)
    = (-(D (ix1 (Cert.RowGS.srcRow Cert.Spec.NN_pos (wrapOf r0) e))))
        * D (ix1 (Cert.RowGS.srcRow Cert.Spec.NN_pos (wrapOf r1) e)) := by
  rw [wrap_col, wrap_col]
  show -(Host.gather gather_S100000_S1600000x1_S1600000_n_0_n_n_0_1_1 D (wrapOf r0) (ix1 e)) * Host.gather gather_S100000_S1600000x1_S1600000_n_0_n_n_0_1_1 D (wrapOf r1) (ix1 e) = _
  rw [Cert.VecGather.gather_vec_apply ⟨rfl, rfl, rfl, rfl, rfl, rfl, rfl⟩ Cert.Spec.NN_pos,
    Cert.VecGather.gather_vec_apply ⟨rfl, rfl, rfl, rfl, rfl, rfl, rfl⟩ Cert.Spec.NN_pos]

/-- The normaliser of node `n` as the first stretch computes it from row 0 of the edge array. -/
theorem dinv_rows (ei : Cert.Spec.EdgeArr) (hzN : S_.BroadcastsInDim S100000 ![]) (hzE : S_.BroadcastsInDim S1600000 ![])
    (hcol : S1600000.BroadcastsInDim S1600000x1 ![0]) (n : Fin 100000) :
    (select (cmpf .ogt (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (constant (F := Ideal) S_ .f32 0x00000000#32))) (Host.rsqrt (select (cmpf .ogt (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (constant (F := Ideal) S_ .f32 0x00000000#32))) (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (id (constant (F := Ideal) S_ .f32 0x3F800000#32))))) (broadcastInDim S100000 ![] hzN (id (constant (F := Ideal) S_ .f32 0x00000000#32)))) (ix1 n) = Cert.Spec.dinv ei n := by
  rw [dinv_apply, deg_apply, colOf_row ei 0]
  rfl

/-- The edge weights the first stretch computes, with the rows of the edge array as functions of the array. -/
theorem edgeW_rows (ei : Cert.Spec.EdgeArr) (hzN : S_.BroadcastsInDim S100000 ![]) (hzE : S_.BroadcastsInDim S1600000 ![])
    (hcol : S1600000.BroadcastsInDim S1600000x1 ![0]) (e : Fin 1600000) :
    (mulf (Host.negf (Host.gather gather_S100000_S1600000x1_S1600000_n_0_n_n_0_1_1 (select (cmpf .ogt (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (constant (F := Ideal) S_ .f32 0x00000000#32))) (Host.rsqrt (select (cmpf .ogt (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (constant (F := Ideal) S_ .f32 0x00000000#32))) (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (id (constant (F := Ideal) S_ .f32 0x3F800000#32))))) (broadcastInDim S100000 ![] hzN (id (constant (F := Ideal) S_ .f32 0x00000000#32)))) (broadcastInDim S1600000x1 ![0] hcol (select (cmpi .slt (fun i : S1600000.Idx => ei (ix2 (0 : Fin 2) (i 0))) (broadcastInDim S1600000 ![] hzE (constantI S_ 32 0#32))) (addi (fun i : S1600000.Idx => ei (ix2 (0 : Fin 2) (i 0))) (broadcastInDim S1600000 ![] hzE (constantI S_ 32 100000#32))) (fun i : S1600000.Idx => ei (ix2 (0 : Fin 2) (i 0))))))) (Host.gather gather_S100000_S1600000x1_S1600000_n_0_n_n_0_1_1 (select (cmpf .ogt (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (constant (F := Ideal) S_ .f32 0x00000000#32))) (Host.rsqrt (select (cmpf .ogt (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (constant (F := Ideal) S_ .f32 0x00000000#32))) (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (id (constant (F := Ideal) S_ .f32 0x3F800000#32))))) (broadcastInDim S100000 ![] hzN (id (constant (F := Ideal) S_ .f32 0x00000000#32)))) (broadcastInDim S1600000x1 ![0] hcol (select (cmpi .slt (fun i : S1600000.Idx => ei (ix2 (1 : Fin 2) (i 0))) (broadcastInDim S1600000 ![] hzE (constantI S_ 32 0#32))) (addi (fun i : S1600000.Idx => ei (ix2 (1 : Fin 2) (i 0))) (broadcastInDim S1600000 ![] hzE (constantI S_ 32 100000#32))) (fun i : S1600000.Idx => ei (ix2 (1 : Fin 2) (i 0))))))) (ix1 e) = Cert.Spec.edgeW ei e := by
  refine (edgeW_vec _ _ _ hzE hcol e).trans ?_
  rw [dinv_rows ei hzN hzE hcol, dinv_rows ei hzN hzE hcol, wrapOf_row ei 0, wrapOf_row ei 1]
  rfl

/-- The same with the rows as the host cuts them: a slice of extent one, its unit axis dropped. -/
theorem edgeW_term (ei : Cert.Spec.EdgeArr) (hs0 : S2x1600000.Slices ![0, 0] S1x1600000) (hs1 : S2x1600000.Slices ![1, 0] S1x1600000)
    (hc : S1x1600000.ShapeCasts S1600000) (hzN : S_.BroadcastsInDim S100000 ![]) (hzE : S_.BroadcastsInDim S1600000 ![])
    (hcol : S1600000.BroadcastsInDim S1600000x1 ![0]) (e : Fin 1600000) :
    (mulf (Host.negf (Host.gather gather_S100000_S1600000x1_S1600000_n_0_n_n_0_1_1 (select (cmpf .ogt (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (constant (F := Ideal) S_ .f32 0x00000000#32))) (Host.rsqrt (select (cmpf .ogt (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (constant (F := Ideal) S_ .f32 0x00000000#32))) (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (id (constant (F := Ideal) S_ .f32 0x3F800000#32))))) (broadcastInDim S100000 ![] hzN (id (constant (F := Ideal) S_ .f32 0x00000000#32)))) (broadcastInDim S1600000x1 ![0] hcol (select (cmpi .slt (shapeCast S1600000 (extractStridedSlice S1x1600000 ![0, 0] ei hs0) hc) (broadcastInDim S1600000 ![] hzE (constantI S_ 32 0#32))) (addi (shapeCast S1600000 (extractStridedSlice S1x1600000 ![0, 0] ei hs0) hc) (broadcastInDim S1600000 ![] hzE (constantI S_ 32 100000#32))) (shapeCast S1600000 (extractStridedSlice S1x1600000 ![0, 0] ei hs0) hc))))) (Host.gather gather_S100000_S1600000x1_S1600000_n_0_n_n_0_1_1 (select (cmpf .ogt (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (constant (F := Ideal) S_ .f32 0x00000000#32))) (Host.rsqrt (select (cmpf .ogt (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (constant (F := Ideal) S_ .f32 0x00000000#32))) (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (id (constant (F := Ideal) S_ .f32 0x3F800000#32))))) (broadcastInDim S100000 ![] hzN (id (constant (F := Ideal) S_ .f32 0x00000000#32)))) (broadcastInDim S1600000x1 ![0] hcol (select (cmpi .slt (shapeCast S1600000 (extractStridedSlice S1x1600000 ![1, 0] ei hs1) hc) (broadcastInDim S1600000 ![] hzE (constantI S_ 32 0#32))) (addi (shapeCast S1600000 (extractStridedSlice S1x1600000 ![1, 0] ei hs1) hc) (broadcastInDim S1600000 ![] hzE (constantI S_ 32 100000#32))) (shapeCast S1600000 (extractStridedSlice S1x1600000 ![1, 0] ei hs1) hc))))) (ix1 e) = Cert.Spec.edgeW ei e := by
  rw [row_eq 0 ei hs0 hc 0 rfl, row_eq 1 ei hs1 hc 1 rfl]
  exact edgeW_rows ei hzN hzE hcol e

/-- The weight of edge `e` as the first stretch computes it is the edge weight of the graph that the edge array denotes. -/
theorem s0_v30 (W : Valuation τ sig (Elt Ideal)) (e : Fin 1600000) :
    (StableHlo.after (hostOps0_4 (F := Ideal)) (StableHlo.after hostOps0_3 (StableHlo.after hostOps0_2
      (StableHlo.after hostOps0_1 (StableHlo.after hostOps0 W)))) (Proc.devRef .tc main_v30) : S1600000.Idx → EReal) (ix1 e)
    = Cert.Spec.edgeW (W (Proc.devRef .tc main_arg1)) e := by
  walk_back []
  exact edgeW_term (W (Proc.devRef .tc main_arg1)) _ _ _ _ _ _ e

/-! ## The first propagation step: over the graph of the edge array, of the input features -/

/-- With the rows of the edge array as functions of the array. -/
theorem prop_rows (ei : Cert.Spec.EdgeArr) (x0 : FVec Ideal S100000x64 .f32) (hzN : S_.BroadcastsInDim S100000 ![]) (hzE : S_.BroadcastsInDim S1600000 ![])
    (hcol : S1600000.BroadcastsInDim S1600000x1 ![0]) (hz : S_.BroadcastsInDim S100000x64 ![]) (hr : S1600000x1.BroadcastsInDim S1600000x64 ![0, 1])
    (hb : FTy.bits .bf16 < FTy.bits .f32)
    (n : Fin 100000) (k : Fin 64) :
    Host.scatterAdd scatter_S100000x64_S1600000x1_S1600000x64_1_0_0_1
      (broadcastInDim S100000x64 ![] hz (constant (F := Ideal) S_ .f32 0x00000000#32))
      (broadcastInDim S1600000x1 ![0] hcol (fun i : S1600000.Idx => ei (ix2 (1 : Fin 2) (i 0))))
      (mulf (broadcastInDim S1600000x64 ![0, 1] hr (broadcastInDim S1600000x1 ![0] hcol (mulf (Host.negf (Host.gather gather_S100000_S1600000x1_S1600000_n_0_n_n_0_1_1 (select (cmpf .ogt (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (constant (F := Ideal) S_ .f32 0x00000000#32))) (Host.rsqrt (select (cmpf .ogt (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (constant (F := Ideal) S_ .f32 0x00000000#32))) (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (id (constant (F := Ideal) S_ .f32 0x3F800000#32))))) (broadcastInDim S100000 ![] hzN (id (constant (F := Ideal) S_ .f32 0x00000000#32)))) (broadcastInDim S1600000x1 ![0] hcol (select (cmpi .slt (fun i : S1600000.Idx => ei (ix2 (0 : Fin 2) (i 0))) (broadcastInDim S1600000 ![] hzE (constantI S_ 32 0#32))) (addi (fun i : S1600000.Idx => ei (ix2 (0 : Fin 2) (i 0))) (broadcastInDim S1600000 ![] hzE (constantI S_ 32 100000#32))) (fun i : S1600000.Idx => ei (ix2 (0 : Fin 2) (i 0))))))) (Host.gather gather_S100000_S1600000x1_S1600000_n_0_n_n_0_1_1 (select (cmpf .ogt (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (constant (F := Ideal) S_ .f32 0x00000000#32))) (Host.rsqrt (select (cmpf .ogt (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (constant (F := Ideal) S_ .f32 0x00000000#32))) (Host.scatterAdd scatter_S100000_S1600000x1_S1600000_n_0_0_1 (broadcastInDim S100000 ![] hzN (constant (F := Ideal) S_ .f32 0x00000000#32)) (broadcastInDim S1600000x1 ![0] hcol (fun i : S1600000.Idx => ei (ix2 (0 : Fin 2) (i 0)))) (broadcastInDim S1600000 ![] hzE (constant (F := Ideal) S_ .f32 0x3F800000#32))) (broadcastInDim S100000 ![] hzN (id (constant (F := Ideal) S_ .f32 0x3F800000#32))))) (broadcastInDim S100000 ![] hzN (id (constant (F := Ideal) S_ .f32 0x00000000#32)))) (broadcastInDim S1600000x1 ![0] hcol (select (cmpi .slt (fun i : S1600000.Idx => ei (ix2 (1 : Fin 2) (i 0))) (broadcastInDim S1600000 ![] hzE (constantI S_ 32 0#32))) (addi (fun i : S1600000.Idx => ei (ix2 (1 : Fin 2) (i 0))) (broadcastInDim S1600000 ![] hzE (constantI S_ 32 100000#32))) (fun i : S1600000.Idx => ei (ix2 (1 : Fin 2) (i 0)))))))))
        (extf .f32 (Host.gather gather_S100000x64_S1600000x1_S1600000x64_1_0_n_n_0_1_164 (truncf .bf16 x0 hb) (broadcastInDim S1600000x1 ![0] hcol (select (cmpi .slt (fun i : S1600000.Idx => ei (ix2 (0 : Fin 2) (i 0))) (broadcastInDim S1600000 ![] hzE (constantI S_ 32 0#32))) (addi (fun i : S1600000.Idx => ei (ix2 (0 : Fin 2) (i 0))) (broadcastInDim S1600000 ![] hzE (constantI S_ 32 100000#32))) (fun i : S1600000.Idx => ei (ix2 (0 : Fin 2) (i 0)))))) hb)) (ix2 n k)
    = Cert.Spec.prop (Cert.Spec.graphOf ei) (fun n k => x0 (ix2 n k)) n k := by
  refine (prop_apply (truncf .bf16 x0 hb) _ _ _ hz hcol hr hzE hzE hb n k).trans ?_
  rw [colOf_row ei 1, wrapOf_row ei 0]
  refine congrArg₂ (· + ·) rfl (Finset.sum_congr rfl fun e _ => ?_)
  exact congrArg₂ (· * ·) (edgeW_rows ei hzN hzE hcol e) rfl

/-- With the rows as the host cuts them. -/
theorem prop_term (ei : Cert.Spec.EdgeArr) (x0 : FVec Ideal S100000x64 .f32) (hs0 : S2x1600000.Slices ![0, 0] S1x1600000) (hs1 : S2x1600000.Slices ![1, 0] S1x1600000)
    (hc : S1x1600000.ShapeCasts S1600000) (hzN : S_.BroadcastsInDim S100000 ![]) (hzE : S_.BroadcastsInDim S1600000 ![])
    (hcol : S1600000.BroadcastsInDim S1600000x1 ![0]) (hz : S_.BroadcastsInDim S100000x64 ![]) (hr : S1600000x1.BroadcastsInDim S1600000x64 ![0, 1])
    (hb : FTy.bits .bf16 < FTy.bits .f32)
    (n : Fin 100000) (k : Fin 64) :
    Host.scatterAdd scatter_S100000x64_S1600000x1_S1600000x64_1_0_0_1
      (broadcastInDim S100000x64 ![] hz (constant (F := Ideal) S_ .f32 0x00000000#32))
      (broadcastInDim S1600000x1 ![0] hcol (shapeCast S1600000 (extractStridedSlice S1x1600000 ![1, 0] ei hs1) hc))
      (mulf (broadcastInDim S1600000x64 ![0, 1] hr (broadcastInDim S1600000x1 ![0] hcol (mulf (Host.negf (Host.gather gather_S100000_S1600000x1_S1600000_n_0_n_n_0_1_1 (select (cmpf .ogt (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (constant (F := Ideal) S_ .f32 0x00000000#32))) (Host.rsqrt (select (cmpf .ogt (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (constant (F := Ideal) S_ .f32 0x00000000#32))) (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (id (constant (F := Ideal) S_ .f32 0x3F800000#32))))) (broadcastInDim S100000 ![] hzN (id (constant (F := Ideal) S_ .f32 0x00000000#32)))) (broadcastInDim S1600000x1 ![0] hcol (select (cmpi .slt (shapeCast S1600000 (extractStridedSlice S1x1600000 ![0, 0] ei hs0) hc) (broadcastInDim S1600000 ![] hzE (constantI S_ 32 0#32))) (addi (shapeCast S1600000 (extractStridedSlice S1x1600000 ![0, 0] ei hs0) hc) (broadcastInDim S1600000 ![] hzE (constantI S_ 32 100000#32))) (shapeCast S1600000 (extractStridedSlice S1x1600000 ![0, 0] ei hs0) hc))))) (Host.gather gather_S100000_S1600000x1_S1600000_n_0_n_n_0_1_1 (select (cmpf .ogt (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (constant (F := Ideal) S_ .f32 0x00000000#32))) (Host.rsqrt (select (cmpf .ogt (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (constant (F := Ideal) S_ .f32 0x00000000#32))) (Host.scatterAdd scatter_S100000_S1600000x1_S1600000_n_0_0_1 (broadcastInDim S100000 ![] hzN (constant (F := Ideal) S_ .f32 0x00000000#32)) (broadcastInDim S1600000x1 ![0] hcol (shapeCast S1600000 (extractStridedSlice S1x1600000 ![0, 0] ei hs0) hc)) (broadcastInDim S1600000 ![] hzE (constant (F := Ideal) S_ .f32 0x3F800000#32))) (broadcastInDim S100000 ![] hzN (id (constant (F := Ideal) S_ .f32 0x3F800000#32))))) (broadcastInDim S100000 ![] hzN (id (constant (F := Ideal) S_ .f32 0x00000000#32)))) (broadcastInDim S1600000x1 ![0] hcol (select (cmpi .slt (shapeCast S1600000 (extractStridedSlice S1x1600000 ![1, 0] ei hs1) hc) (broadcastInDim S1600000 ![] hzE (constantI S_ 32 0#32))) (addi (shapeCast S1600000 (extractStridedSlice S1x1600000 ![1, 0] ei hs1) hc) (broadcastInDim S1600000 ![] hzE (constantI S_ 32 100000#32))) (shapeCast S1600000 (extractStridedSlice S1x1600000 ![1, 0] ei hs1) hc)))))))
        (extf .f32 (Host.gather gather_S100000x64_S1600000x1_S1600000x64_1_0_n_n_0_1_164 (truncf .bf16 x0 hb) (broadcastInDim S1600000x1 ![0] hcol (select (cmpi .slt (shapeCast S1600000 (extractStridedSlice S1x1600000 ![0, 0] ei hs0) hc) (broadcastInDim S1600000 ![] hzE (constantI S_ 32 0#32))) (addi (shapeCast S1600000 (extractStridedSlice S1x1600000 ![0, 0] ei hs0) hc) (broadcastInDim S1600000 ![] hzE (constantI S_ 32 100000#32))) (shapeCast S1600000 (extractStridedSlice S1x1600000 ![0, 0] ei hs0) hc)))) hb)) (ix2 n k)
    = Cert.Spec.prop (Cert.Spec.graphOf ei) (fun n k => x0 (ix2 n k)) n k := by
  rw [row_eq 0 ei hs0 hc 0 rfl, row_eq 1 ei hs1 hc 1 rfl]
  exact prop_rows ei x0 hzN hzE hcol hz hr hb n k

/-- The first stretch propagates the input features one step over the graph that the edge array denotes. -/
theorem s0_v45 (W : Valuation τ sig (Elt Ideal)) (n : Fin 100000) (k : Fin 64) :
    (StableHlo.after (hostOps0_4 (F := Ideal)) (StableHlo.after hostOps0_3 (StableHlo.after hostOps0_2
      (StableHlo.after hostOps0_1 (StableHlo.after hostOps0 W)))) (Proc.devRef .tc main_v45) : S100000x64.Idx → EReal) (ix2 n k)
    = Cert.Spec.prop (Cert.Spec.graphOf (W (Proc.devRef .tc main_arg1)))
        (fun n k => (W (Proc.devRef .tc main_arg0) : S100000x64.Idx → EReal) (ix2 n k)) n k := by
  walk_back []
  exact prop_term (W (Proc.devRef .tc main_arg1)) (W (Proc.devRef .tc main_arg0)) _ _ _ _ _ _ _ _ _ n k

/-! ## The host's propagation sum as the specification's propagation step -/

/-- When the two vectors of node numbers are the two rows of an edge array and the weights are that array's edge
    weights, the sum a propagation stretch leaves is one propagation step over the array's graph. -/
theorem propSum_eq_prop (ei : Cert.Spec.EdgeArr) (v1 v3 : IVec S1600000 32) (w : S1600000.Idx → EReal)
    (h : S100000x64.Idx → EReal)
    (h1 : ∀ e : Fin 1600000, v1 (ix1 e) = ei (ix2 (0 : Fin 2) e))
    (h3 : ∀ e : Fin 1600000, v3 (ix1 e) = ei (ix2 (1 : Fin 2) e))
    (hw : ∀ e : Fin 1600000, w (ix1 e) = Cert.Spec.edgeW ei e) (n : Fin 100000) (c : Fin 64) :
    0 + ∑ e ∈ Finset.univ.filter (fun e : Fin Cert.Spec.EE => Cert.RowGS.Lands (colOf v3) e n),
        w (ix1 e) * h (ix2 (Cert.RowGS.srcRow Cert.Spec.NN_pos (wrapOf v1) e) c)
    = Cert.Spec.prop (Cert.Spec.graphOf ei) (fun n c => h (ix2 n c)) n c := by
  have e1 : v1 = fun i : S1600000.Idx => ei (ix2 (0 : Fin 2) (i 0)) := by
    funext i
    obtain ⟨a, rfl⟩ : ∃ a, i = ix1 a := ⟨_, eq_ix1 i⟩
    exact h1 a
  have e3 : v3 = fun i : S1600000.Idx => ei (ix2 (1 : Fin 2) (i 0)) := by
    funext i
    obtain ⟨a, rfl⟩ : ∃ a, i = ix1 a := ⟨_, eq_ix1 i⟩
    exact h3 a
  rw [e1, e3, colOf_row ei 1, wrapOf_row ei 0]
  refine congrArg₂ (· + ·) rfl (Finset.sum_congr rfl fun e _ => ?_)
  exact congrArg₂ (· * ·) (hw e) rfl

/-- Once the two vectors of node numbers are the rows of an edge array and the weights are that array's edge weights, the second layer's stretch propagates its feature table one step over the array's graph. -/
theorem s3_v81_prop (W : Valuation τ sig (Elt Ideal)) (ei : Cert.Spec.EdgeArr)
    (h1 : ∀ e : Fin 1600000, (W (Proc.devRef .tc main_v1) : S1600000.Idx → BitVec 32) (ix1 e) = ei (ix2 (0 : Fin 2) e))
    (h3 : ∀ e : Fin 1600000, (W (Proc.devRef .tc main_v3) : S1600000.Idx → BitVec 32) (ix1 e) = ei (ix2 (1 : Fin 2) e))
    (h30 : ∀ e : Fin 1600000, (W (Proc.devRef .tc main_v30) : S1600000.Idx → EReal) (ix1 e) = Cert.Spec.edgeW ei e)
    (n : Fin 100000) (c : Fin 64) :
    (StableHlo.after (hostOps3 (F := Ideal)) W (Proc.devRef .tc main_v81) : S100000x64.Idx → EReal) (ix2 n c)
    = Cert.Spec.prop (Cert.Spec.graphOf ei)
        (fun n k => (W (Proc.devRef .tc main_v67_1) : S100000x64.Idx → EReal) (ix2 n k)) n c :=
  (s3_v81 W n c).trans (propSum_eq_prop ei (W (Proc.devRef .tc main_v1)) (W (Proc.devRef .tc main_v3))
    (W (Proc.devRef .tc main_v30)) (W (Proc.devRef .tc main_v67_1)) h1 h3 h30 n c)

/-- Once the two vectors of node numbers are the rows of an edge array and the weights are that array's edge weights, the third layer's stretch propagates its feature table one step over the array's graph. -/
theorem s6_v113_prop (W : Valuation τ sig (Elt Ideal)) (ei : Cert.Spec.EdgeArr)
    (h1 : ∀ e : Fin 1600000, (W (Proc.devRef .tc main_v1) : S1600000.Idx → BitVec 32) (ix1 e) = ei (ix2 (0 : Fin 2) e))
    (h3 : ∀ e : Fin 1600000, (W (Proc.devRef .tc main_v3) : S1600000.Idx → BitVec 32) (ix1 e) = ei (ix2 (1 : Fin 2) e))
    (h30 : ∀ e : Fin 1600000, (W (Proc.devRef .tc main_v30) : S1600000.Idx → EReal) (ix1 e) = Cert.Spec.edgeW ei e)
    (n : Fin 100000) (c : Fin 64) :
    (StableHlo.after (hostOps6 (F := Ideal)) W (Proc.devRef .tc main_v113) : S100000x64.Idx → EReal) (ix2 n c)
    = Cert.Spec.prop (Cert.Spec.graphOf ei)
        (fun n k => (W (Proc.devRef .tc main_v99) : S100000x64.Idx → EReal) (ix2 n k)) n c :=
  (s6_v113 W n c).trans (propSum_eq_prop ei (W (Proc.devRef .tc main_v1)) (W (Proc.devRef .tc main_v3))
    (W (Proc.devRef .tc main_v30)) (W (Proc.devRef .tc main_v99)) h1 h3 h30 n c)

end Cert.KHost
end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibLayout.lean ====
/-
  General lemmas on small layout operations over the extended reals, read at an index.

  * a vector [a] laid out as the row [1, a] or as the column [a, 1], and a column [a, 1] read back as a vector: the entry
    at (0, n), at (r, 0), at r is the vector's (the column's) entry at n, at r, at (r, 0) (the row-major position is the
    same number);
  * a rank-0 constant broadcast over any shape is the splat of its one value;
  * a lane sum: the sum of row r of an [a, 128] array over its 128 lanes, from a zero initial value, as a finite sum.
  None depends on a program.
-/
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx

/-- A vector [a] laid out as the row [1, a]: the row's entry at (0, n) is the vector's entry at n (stated for any index
    k of the vector with k 0 = i 1, so that it meets an index function given by cases). -/
theorem bias_row {α : Type} {a : ℕ} (b : (⟨1, ![a]⟩ : Shape).Idx → α)
    (h : (⟨1, ![a]⟩ : Shape).ShapeCasts ⟨2, ![1, a]⟩) (i : (⟨2, ![1, a]⟩ : Shape).Idx)
    (k : (⟨1, ![a]⟩ : Shape).Idx) (hk : (k 0).val = (i 1).val) : shapeCast ⟨2, ![1, a]⟩ b h i = b k :=
  shapeCast_apply b h i k (by
    have h0 : (i 0).val < 1 := (i 0).isLt
    rw [Shape.rowMajor_val_one, Shape.rowMajor_val_two]
    show (k 0).val = (i 0).val * a + (i 1).val
    rw [show (i 0).val = 0 by omega, Nat.zero_mul, Nat.zero_add]
    exact hk)

/-- A vector [a] given a trailing unit axis: the column's entry at (r, 0) is the vector's entry at r. -/
theorem col_of_vec {α : Type} {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column [a, 1] with its unit axis dropped: the vector's entry at r is the column's entry at (r, 0). -/
theorem vec_of_col {α : Type} {a : ℕ} (v : (⟨2, ![a, 1]⟩ : Shape).Idx → α)
    (h : (⟨2, ![a, 1]⟩ : Shape).ShapeCasts ⟨1, ![a]⟩) (r : Fin a) :
    shapeCast ⟨1, ![a]⟩ v h (ix1 r) = v (ix2 r (0 : Fin 1)) :=
  shapeCast_apply v h _ _ (by
    rw [Shape.rowMajor_val_two, Shape.rowMajor_val_one]
    show r.val * 1 + 0 = r.val
    rw [Nat.mul_one, Nat.add_zero])

/-- A rank-0 constant broadcast over a shape is the splat of its one value. -/
theorem splat_eq {s : Shape} (h : (⟨0, ![]⟩ : Shape).BroadcastsInDim s ![]) (z : BitVec 32) :
    (broadcastInDim s ![] h (constant (F := Ideal) ⟨0, ![]⟩ .f32 z) : FVec Ideal s .f32)
      = broadcast s (Scalar.ofBits (F := Ideal) .f32 z) := by
  funext i
  exact broadcastInDim_apply (s := ⟨0, ![]⟩) ![] h (constant (F := Ideal) ⟨0, ![]⟩ .f32 z) i (fun a => a.elim0)
    (fun a => a.elim0)

/-- The sum of row r of an [a, 128] array over its 128 lanes, from a zero initial value (stated with the proofs the
    operation carries as variables: a printed operation's own proofs then meet it by proof irrelevance in term mode). -/
theorem lane_sum {a : ℕ} (v : FVec Ideal ⟨2, ![a, 128]⟩ .f32) (h : (⟨2, ![a, 128]⟩ : Shape).Reduces [1] ⟨1, ![a]⟩)
    (hφ : FKind.Formats .f32) (hacc : (0x00000000#32 : BitVec (FTy.f32).bits) = FKind.add.neutral .f32 hφ) (r : Fin a) :
    multiReduction .add [1] ⟨1, ![a]⟩ v 0x00000000#32 h hφ hacc (ix1 r) = ∑ k : Fin 128, v (ix2 r k) :=
  (Ideal.multiReduction_add_single v 0x00000000#32 h hφ hacc (ix1 r)).trans
    (Finset.sum_congr rfl fun k _ => congrArg v (funext fun c => Fin.ext (by
      match c with
      | ⟨0, _⟩ => rfl
      | ⟨1, _⟩ => rfl)))

end Cert.Lib

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.KReg0.lean ====
/-
  The first convolution kernel, point by point. At every grid point the body leaves, in the convolution's staging
  buffer, the convolution of the point's row blocks; in the column-sum's staging buffer it leaves, at the first point,
  zero plus the column sums of that block, and at every later point what the point before left plus the column sums of
  its own block. Over the twenty points of 5000 rows the blocks tile the 100000 rows, so the convolution ends as one
  array and the column-sum row as the sums over all rows.
-/
import proofs.«126863_j82781199663546_2_alg».proof.Proof.Gen.KernelIdeal.Frame
import proofs.«126863_j82781199663546_2_alg».proof.Proof.LibPlainDot
import proofs.«126863_j82781199663546_2_alg».proof.Proof.LibLayout
import proofs.«126863_j82781199663546_2_alg».proof.Proof.LibBlockSum
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open scoped BigOperators

namespace Cert.KReg0

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

/-- The zero offset on both axes, spelled both ways. -/
theorem hz : (![0, 0] : Fin 2 → Nat) = fun _ => 0 := funext fun a => by fin_cases a <;> rfl

/-! ## The body's arithmetic at an entry -/

/-- The body's products contract the left operand's columns against the right operand's rows. -/
theorem plain_64_128 : Cert.PlainDot.IsPlain dot_S5000x64_S64x128_S5000x128_1_0_0_1_n_n := ⟨rfl, rfl, rfl, rfl, rfl, rfl⟩

/-- A row [1, C] repeated down R rows: entry (r, c) is the row's entry c. -/
theorem row_down {α : Type} {R C : Nat} (hC : C ≠ 1) (v : (⟨2, ![1, C]⟩ : Shape).Idx → α)
    (hb : (⟨2, ![1, C]⟩ : Shape).Broadcasts ⟨2, ![R, C]⟩) (r : Fin R) (c : Fin C) :
    broadcastTo ⟨2, ![R, C]⟩ v hb (ix2 r c) = v (ix2 (0 : Fin 1) c) :=
  broadcastTo_apply v hb (ix2 r c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])

/-- The sum of column c of an [R, C] array over its R rows, from a zero initial value. -/
theorem col_sum {R C : ℕ} (v : FVec Ideal ⟨2, ![R, C]⟩ .f32) (h : (⟨2, ![R, C]⟩ : Shape).Reduces [0] ⟨1, ![C]⟩)
    (hφ : FKind.Formats .f32) (hacc : (0x00000000#32 : BitVec (FTy.f32).bits) = FKind.add.neutral .f32 hφ) (c : Fin C) :
    multiReduction .add [0] ⟨1, ![C]⟩ v 0x00000000#32 h hφ hacc (ix1 c) = ∑ r : Fin R, v (ix2 r c) :=
  (Ideal.multiReduction_add_single v 0x00000000#32 h hφ hacc (ix1 c)).trans
    (Finset.sum_congr rfl fun k _ => congrArg v (funext fun a => Fin.ext (by
      match a with
      | ⟨0, _⟩ => rfl
      | ⟨1, _⟩ => rfl)))

/-- First layer: a block of the convolution at (r, j). -/
theorem conv0_apply (v3 v5 : Vec Ideal S5000x64 .f32) (v8 v11 : Vec Ideal S64x128 .f32) (v17 : Vec Ideal S1x128 .f32)
    (r : Fin 5000) (j : Fin 128) :
    (k0_pay2 (F := Ideal) v3 v5 v8 v11 v17 : S5000x128.Idx → EReal) (ix2 r j)
      = (∑ k : Fin 64, (v3 : S5000x64.Idx → EReal) (ix2 r k) * (v8 : S64x128.Idx → EReal) (ix2 k j)
          + ∑ k : Fin 64, (v5 : S5000x64.Idx → EReal) (ix2 r k) * (v11 : S64x128.Idx → EReal) (ix2 k j))
        + (v17 : S1x128.Idx → EReal) (ix2 (0 : Fin 1) j) := by
  unfold k0_pay2
  simp only [shapeCast_self]
  show (matmul (F := Ideal) dot_S5000x64_S64x128_S5000x128_1_0_0_1_n_n none _ _ _ (ix2 r j)
      + matmul (F := Ideal) dot_S5000x64_S64x128_S5000x128_1_0_0_1_n_n none _ _ _ (ix2 r j))
      + broadcastTo S5000x128 v17 broadcasts_S1x128_S5000x128 (ix2 r j) = _
  rw [Cert.PlainDot.matmul_zero_apply plain_64_128, Cert.PlainDot.matmul_zero_apply plain_64_128,
    row_down (by decide) v17 broadcasts_S1x128_S5000x128 r j]
  rfl

/-- First layer: the accumulator row after a block, in column j. -/
theorem acc0_apply (v3 v5 : Vec Ideal S5000x64 .f32) (v8 v11 : Vec Ideal S64x128 .f32) (v17 v22 : Vec Ideal S1x128 .f32)
    (j : Fin 128) :
    (k0_pay3 (F := Ideal) v3 v5 v8 v11 v17 v22 : S1x128.Idx → EReal) (ix2 (0 : Fin 1) j)
      = (v22 : S1x128.Idx → EReal) (ix2 (0 : Fin 1) j)
        + ∑ r : Fin 5000, (k0_pay2 (F := Ideal) v3 v5 v8 v11 v17 : S5000x128.Idx → EReal) (ix2 r j) := by
  unfold k0_pay3
  simp only [shapeCast_self]
  show (v22 : S1x128.Idx → EReal) (ix2 (0 : Fin 1) j)
      + shapeCast S1x128 (multiReduction .add [0] S128 (k0_pay2 (F := Ideal) v3 v5 v8 v11 v17) 0x00000000#32
          reduces_S5000x128_S128 (.inl rfl) rfl) shapeCasts_S128_S1x128 (ix2 (0 : Fin 1) j) = _
  rw [Cert.Lib.bias_row _ shapeCasts_S128_S1x128 (ix2 (0 : Fin 1) j) (ix1 j) rfl]
  exact congrArg (fun z => (v22 : S1x128.Idx → EReal) (ix2 (0 : Fin 1) j) + z)
    (col_sum (k0_pay2 (F := Ideal) v3 v5 v8 v11 v17) reduces_S5000x128_S128 _ _ j)

/-! ## What each case of the body leaves -/

/-- At the first point the convolution's buffer holds the convolution of the blocks. -/
theorem out_A_5 (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (hc : cond0_0 i) (x0 : Vec F S5000x64 .f32) (x1 : Vec F S5000x64 .f32) (x2 : Vec F S64x128 .f32) (x3 : Vec F S64x128 .f32) (x4 : Vec F S1x128 .f32) :
    out0_A_5 c i a1 h1 a2 h2 a3 h3 a4 h4 a5 h5 a6 h6 a7 h7 hc x0 x1 x2 x3 x4 = k0_pay2 x0 x1 x2 x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  rw [View.canon_unit_zero hz]
  simp only [View.readAt_eq_ld, h1.read_unread, h2.read_unread, h3.read_unread, h4.read_unread, h5.read_unread, h7.read_unread, View.ld_unit_zero (S := S5000x64) hz, View.ld_unit_zero (S := S64x128) hz, View.ld_unit_zero (S := S1x128) hz]

/-- At a later point too. -/
theorem out_B_5 (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (hc : ¬cond0_0 i) (x0 : Vec F S5000x64 .f32) (x1 : Vec F S5000x64 .f32) (x2 : Vec F S64x128 .f32) (x3 : Vec F S64x128 .f32) (x4 : Vec F S1x128 .f32) (xo : Vec F S1x128 .f32) :
    out0_B_5 c i a1 h1 a2 h2 a3 h3 a4 h4 a5 h5 a6 h6 a7 h7 hc x0 x1 x2 x3 x4 xo = k0_pay2 x0 x1 x2 x3 x4 := by
  unfold out0_B_5
  rw [View.read_writes_eq_canon _ _ _ (cover0_B_5 c i a1 h1 a2 h2 a3 h3 a4 h4 a5 h5 a6 h6 a7 h7 hc x0 x1 x2 x3 x4 xo)]
  unfold kernelRun0_B
  dsimp only
  rw [View.canon_unit_zero hz]
  simp only [View.readAt_eq_ld, h1.read_unread, h2.read_unread, h3.read_unread, h4.read_unread, h5.read_unread, h7.read_unread, View.ld_unit_zero (S := S5000x64) hz, View.ld_unit_zero (S := S64x128) hz, View.ld_unit_zero (S := S1x128) hz]

/-- At the first point the column-sum's buffer is reset to zero, read back, and gains the block's column sums. -/
theorem out_A_6 (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (hc : cond0_0 i) (x0 : Vec F S5000x64 .f32) (x1 : Vec F S5000x64 .f32) (x2 : Vec F S64x128 .f32) (x3 : Vec F S64x128 .f32) (x4 : Vec F S1x128 .f32) :
    out0_A_6 c i a1 h1 a2 h2 a3 h3 a4 h4 a5 h5 a6 h6 a7 h7 hc x0 x1 x2 x3 x4 = k0_pay3 x0 x1 x2 x3 x4 (k0_pay1 (F := F)) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x128) hz]
  simp only [View.readCov_unit_zero (S := S1x128) _ hz, View.readAt_eq_ld, h1.read_unread, h2.read_unread, h3.read_unread, h4.read_unread, h5.read_unread, View.ld_unit_zero (S := S5000x64) hz, View.ld_unit_zero (S := S64x128) hz, View.ld_unit_zero (S := S1x128) hz]

/-- At a later point it gains the block's column sums over what it held. -/
theorem out_B_6 (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (hc : ¬cond0_0 i) (x0 : Vec F S5000x64 .f32) (x1 : Vec F S5000x64 .f32) (x2 : Vec F S64x128 .f32) (x3 : Vec F S64x128 .f32) (x4 : Vec F S1x128 .f32) (xo : Vec F S1x128 .f32) :
    out0_B_6 c i a1 h1 a2 h2 a3 h3 a4 h4 a5 h5 a6 h6 a7 h7 hc x0 x1 x2 x3 x4 xo = k0_pay3 x0 x1 x2 x3 x4 xo := by
  unfold out0_B_6
  rw [View.read_writes_eq_canon _ _ _ (cover0_B_6 c i a1 h1 a2 h2 a3 h3 a4 h4 a5 h5 a6 h6 a7 h7 hc x0 x1 x2 x3 x4 xo)]
  unfold kernelRun0_B
  dsimp only
  rw [View.canon_unit_zero hz]
  simp only [View.readAt_eq_ld, h1.read_unread, h2.read_unread, h3.read_unread, h4.read_unread, h5.read_unread, h7.read_unread, View.ld_unit_zero (S := S5000x64) hz, View.ld_unit_zero (S := S64x128) hz, View.ld_unit_zero (S := S1x128) hz]

/-! ## The two buffers after every point -/

variable (V : (c : Dev nD) → (b : Ref sig .tc) → Buf (Elt F) ((c : Thread nD τ).loc b))

/-- The convolution of the blocks of point `t`. -/
abbrev convAt (c : Dev nD) (t : Fin cfg0.N) : Vec F S5000x128 .f32 :=
  k0_pay2 (iblk0 V c 0 t) (iblk0 V c 1 t) (iblk0 V c 2 t) (iblk0 V c 3 t) (iblk0 V c 4 t)

/-- After point `n` the convolution's buffer holds the convolution of that point's blocks. -/
theorem outs_conv (c : Dev nD) (n : ℕ) (h : n < cfg0.N) : (outsAt0 V c n h).1 = convAt V c ⟨n, h⟩ := by
  by_cases h0 : n % 20 = 0
  · rw [outsAt0_A V c ⟨n, h⟩ h0, out_A_5]
  · rw [outsAt0_B V c ⟨n, h⟩ h0, out_B_5]

/-- The running column sums: zero plus the first block's, then each later block's added. -/
def chain (c : Dev nD) : (n : ℕ) → n < cfg0.N → Vec F S1x128 .f32
  | 0, h => k0_pay3 (iblk0 V c 0 ⟨0, h⟩) (iblk0 V c 1 ⟨0, h⟩) (iblk0 V c 2 ⟨0, h⟩) (iblk0 V c 3 ⟨0, h⟩) (iblk0 V c 4 ⟨0, h⟩) (k0_pay1 (F := F))
  | n + 1, h => k0_pay3 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (chain c n (Nat.lt_of_succ_lt h))

/-- After point `n` the column-sum's buffer holds the running column sums. -/
theorem outs_sum (c : Dev nD) : ∀ (n : ℕ) (h : n < cfg0.N), (outsAt0 V c n h).2 = chain V c n h
  | 0, h => (congrArg Prod.snd (outsAt0_A V c ⟨0, h⟩ rfl)).trans
      (out_A_6 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) (iblk0 V c 4 ⟨0, h⟩))
  | n + 1, h => by
    have hN : cfg0.N = 20 := N_0
    have hB : ¬(n + 1) % 20 = 0 := by omega
    refine (congrArg Prod.snd (outsAt0_B V c ⟨n + 1, h⟩ hB)).trans ?_
    refine (out_B_6 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) _).trans ?_
    show k0_pay3 _ _ _ _ _ (outsAt0 V c n _).2 = k0_pay3 _ _ _ _ _ (chain V c n _)
    rw [outs_sum c n]

/-! ## The arrays after the run -/

section Value

variable (V : (c : Dev nD) → (b : Ref sig .tc) → Buf (Elt Ideal) ((c : Thread nD τ).loc b))

/-- The windows' block indices over the grid: the row blocks move with the point, the small operands and the
    column-sum stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-- Entry (n, j) of a two-term convolution of plain arrays: features against the first weights, propagated features
    against the second, plus the bias. -/
def convOf (x p : S100000x64.Idx → EReal) (wa wb : S64x128.Idx → EReal) (b : S1x128.Idx → EReal)
    (n : Fin 100000) (j : Fin 128) : EReal :=
  (∑ k : Fin 64, x (ix2 n k) * wa (ix2 k j) + ∑ k : Fin 64, p (ix2 n k) * wb (ix2 k j)) + b (ix2 (0 : Fin 1) j)

/-- Entry (n, j) of the convolution, from the arrays the region finds. -/
abbrev convEntry (c : Dev nD) (n : Fin 100000) (j : Fin 128) : EReal :=
  convOf (V c main_arg0) (V c main_v45) (V c main_v47) (V c main_v49) (V c main_v50) n j

/-- The convolution as one array. -/
def convArr (c : Dev nD) : S100000x128.Idx → EReal := fun i => convEntry V c (i 0) (i 1)

/-- Row r of the features' block at point t is row 5000·t + r of the features. -/
theorem blk_x (c : Dev nD) (t : Fin cfg0.N) (r : Fin 5000) (k : Fin 64) (hn : 5000 * t.val + r.val < 100000) :
    (iblk0 V c 0 t : S5000x64.Idx → EReal) (ix2 r k) = (V c main_arg0 : S100000x64.Idx → EReal) (ix2 ⟨5000 * t.val + r.val, hn⟩ k) := by
  obtain ⟨e0, e1, -⟩ := idx_facts t
  show (V c main_arg0 : S100000x64.Idx → EReal) (((cfg0.win 0).blk t).view.emb (ix2 r k)) = _
  refine congrArg (V c main_arg0 : S100000x64.Idx → EReal) (funext fun a => Fin.ext ?_)
  match a with
  | ⟨0, _⟩ => show win0_0.index t (0 : Fin 2) * 5000 + 1 * r.val = 5000 * t.val + r.val; rw [e0]; omega
  | ⟨1, _⟩ => show win0_0.index t (1 : Fin 2) * 64 + 1 * k.val = k.val; rw [e1]; omega

/-- The same for the propagated features. -/
theorem blk_p (c : Dev nD) (t : Fin cfg0.N) (r : Fin 5000) (k : Fin 64) (hn : 5000 * t.val + r.val < 100000) :
    (iblk0 V c 1 t : S5000x64.Idx → EReal) (ix2 r k) = (V c main_v45 : S100000x64.Idx → EReal) (ix2 ⟨5000 * t.val + r.val, hn⟩ k) := by
  obtain ⟨-, -, e0, e1, -⟩ := idx_facts t
  show (V c main_v45 : S100000x64.Idx → EReal) (((cfg0.win 1).blk t).view.emb (ix2 r k)) = _
  refine congrArg (V c main_v45 : S100000x64.Idx → EReal) (funext fun a => Fin.ext ?_)
  match a with
  | ⟨0, _⟩ => show win0_1.index t (0 : Fin 2) * 5000 + 1 * r.val = 5000 * t.val + r.val; rw [e0]; omega
  | ⟨1, _⟩ => show win0_1.index t (1 : Fin 2) * 64 + 1 * k.val = k.val; rw [e1]; omega

/-- The weight blocks and the bias block are the whole arrays at every point. -/
theorem blk_wa (c : Dev nD) (t : Fin cfg0.N) (k : Fin 64) (j : Fin 128) :
    (iblk0 V c 2 t : S64x128.Idx → EReal) (ix2 k j) = (V c main_v47 : S64x128.Idx → EReal) (ix2 k j) := by
  obtain ⟨-, -, -, -, e0, e1, -⟩ := idx_facts t
  show (V c main_v47 : S64x128.Idx → EReal) (((cfg0.win 2).blk t).view.emb (ix2 k j)) = _
  refine congrArg (V c main_v47 : S64x128.Idx → EReal) (funext fun a => Fin.ext ?_)
  match a with
  | ⟨0, _⟩ => show win0_2.index t (0 : Fin 2) * 64 + 1 * k.val = k.val; rw [e0]; omega
  | ⟨1, _⟩ => show win0_2.index t (1 : Fin 2) * 128 + 1 * j.val = j.val; rw [e1]; omega

theorem blk_wb (c : Dev nD) (t : Fin cfg0.N) (k : Fin 64) (j : Fin 128) :
    (iblk0 V c 3 t : S64x128.Idx → EReal) (ix2 k j) = (V c main_v49 : S64x128.Idx → EReal) (ix2 k j) := by
  obtain ⟨-, -, -, -, -, -, e0, e1, -⟩ := idx_facts t
  show (V c main_v49 : S64x128.Idx → EReal) (((cfg0.win 3).blk t).view.emb (ix2 k j)) = _
  refine congrArg (V c main_v49 : S64x128.Idx → EReal) (funext fun a => Fin.ext ?_)
  match a with
  | ⟨0, _⟩ => show win0_3.index t (0 : Fin 2) * 64 + 1 * k.val = k.val; rw [e0]; omega
  | ⟨1, _⟩ => show win0_3.index t (1 : Fin 2) * 128 + 1 * j.val = j.val; rw [e1]; omega

theorem blk_b (c : Dev nD) (t : Fin cfg0.N) (j : Fin 128) :
    (iblk0 V c 4 t : S1x128.Idx → EReal) (ix2 (0 : Fin 1) j) = (V c main_v50 : S1x128.Idx → EReal) (ix2 (0 : Fin 1) j) := by
  obtain ⟨-, -, -, -, -, -, -, -, e0, e1, -⟩ := idx_facts t
  show (V c main_v50 : S1x128.Idx → EReal) (((cfg0.win 4).blk t).view.emb (ix2 (0 : Fin 1) j)) = _
  refine congrArg (V c main_v50 : S1x128.Idx → EReal) (funext fun a => Fin.ext ?_)
  match a with
  | ⟨0, _⟩ => show win0_4.index t (0 : Fin 2) * 1 + 1 * 0 = 0; rw [e0]
  | ⟨1, _⟩ => show win0_4.index t (1 : Fin 2) * 128 + 1 * j.val = j.val; rw [e1]; omega

/-- Row r of the convolution of point t's blocks is row 5000·t + r of the convolution. -/
theorem convAt_apply (c : Dev nD) (t : Fin cfg0.N) (r : Fin 5000) (j : Fin 128) (hn : 5000 * t.val + r.val < 100000) :
    (convAt V c t : S5000x128.Idx → EReal) (ix2 r j) = convEntry V c ⟨5000 * t.val + r.val, hn⟩ j := by
  refine (conv0_apply (iblk0 V c 0 t) (iblk0 V c 1 t) (iblk0 V c 2 t) (iblk0 V c 3 t) (iblk0 V c 4 t) r j).trans ?_
  show _ = convOf (V c main_arg0) (V c main_v45) (V c main_v47) (V c main_v49) (V c main_v50) ⟨5000 * t.val + r.val, hn⟩ j
  unfold convOf
  refine congrArg₂ (fun a b : EReal => a + b)
    (congrArg₂ (fun a b : EReal => a + b) (Finset.sum_congr rfl fun k _ => ?_) (Finset.sum_congr rfl fun k _ => ?_))
    (blk_b V c t j)
  · rw [blk_x V c t r k hn, blk_wa V c t k j]
  · rw [blk_p V c t r k hn, blk_wb V c t k j]

/-- What point t writes back of the convolution is block t of the convolution. -/
theorem flushed_conv (c : Dev nD) (t : Fin cfg0.N) :
    (dat0 V c).flushed 5 t = ((cfg0.win 5).blk t).view.read (Elt Ideal) (convArr V c) := by
  show (cfg0.win 5).cut (grid0.coords t) ((dat0 V c).after 5 t) = _
  rw [after0_5, outs_conv]
  have hN : t.val < 20 := lt_of_lt_of_eq t.isLt N_0
  obtain ⟨-, -, -, -, -, -, -, -, -, -, e0, e1, -⟩ := idx_facts t
  funext y
  obtain ⟨p, q, rfl⟩ : ∃ (p : Fin 5000) (q : Fin 128), y = ix2 p q := ⟨y 0, y 1, eq_ix2 y⟩
  have hp : p.val < 5000 := p.isLt
  show (convAt V c t : S5000x128.Idx → EReal) (ix2 p q) = convArr V c (((cfg0.win 5).blk t).view.emb (ix2 p q))
  rw [convAt_apply V c t p q (by omega)]
  show convArr V c (ix2 ⟨5000 * t.val + p.val, by omega⟩ q) = _
  refine congrArg (convArr V c) (funext fun a => Fin.ext ?_)
  match a with
  | ⟨0, _⟩ => show 5000 * t.val + p.val = win0_5.index t (0 : Fin 2) * 5000 + 1 * p.val; rw [e0]; omega
  | ⟨1, _⟩ => show q.val = win0_5.index t (1 : Fin 2) * 128 + 1 * q.val; rw [e1]; omega

/-- An index is in point t's block of the convolution iff each coordinate is in the block's range. -/
theorem mem_blk_conv (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v51_0).slice (win0_5.rect t)).set ↔ _
  rw [View.set_slice_whole, Rect.mem_set_unit]
  exact Iff.rfl

/-- Row n is in the block of point n / 5000. -/
theorem cover_conv (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < cfg0.N := lt_of_lt_of_eq (by omega : (i 0).val / 5000 < 20) N_0.symm
  refine ⟨⟨(i 0).val / 5000, hlt⟩, flush0_5 _, ?_⟩
  rw [mem_blk_conv]
  obtain ⟨-, -, -, -, -, -, -, -, -, -, e0, e1, -⟩ := idx_facts ⟨(i 0).val / 5000, hlt⟩
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; dsimp only; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]; omega

/-- THE CONVOLUTION after the run: entry `(n, j)` of the array the region leaves is row `n` of the features against
    column `j` of the first weights, plus row `n` of the propagated features against column `j` of the second, plus the
    bias of column `j`, all read from the arrays the region finds. -/
theorem r0_conv (c : Dev nD) (n : Fin 100000) (j : Fin 128) :
    ((dat0 V c).arrAt 5 cfg0.N : S100000x128.Idx → EReal) (ix2 n j) = convEntry V c n j := by
  rw [(dat0 V c).arrAt_eq_of_cover 5 (convArr V c) (fun t _ => flushed_conv V c t) cover_conv]
  rfl

/-! ### The column sums -/

/-- Row m of the convolution in column j, and zero past the last row: the summand of the running sums. -/
def rowTerm (c : Dev nD) (j : Fin 128) (m : ℕ) : EReal := if h : m < 100000 then convEntry V c ⟨m, h⟩ j else 0

/-- The column sums of point t's block. -/
theorem block_sum (c : Dev nD) (t : Fin cfg0.N) (j : Fin 128) :
    ∑ r : Fin 5000, (convAt V c t : S5000x128.Idx → EReal) (ix2 r j) = ∑ r : Fin 5000, rowTerm V c j (5000 * t.val + r.val) := by
  have hN : t.val < 20 := lt_of_lt_of_eq t.isLt N_0
  refine Finset.sum_congr rfl fun r _ => ?_
  have hr : r.val < 5000 := r.isLt
  have hn : 5000 * t.val + r.val < 100000 := by omega
  rw [convAt_apply V c t r j hn]
  unfold rowTerm
  rw [dif_pos hn]

/-- The running column sums after point n, in column j: zero plus the block sums of points 0 … n. -/
theorem chain_apply (c : Dev nD) (j : Fin 128) : ∀ (n : ℕ) (h : n < cfg0.N),
    (chain V c n h : S1x128.Idx → EReal) (ix2 (0 : Fin 1) j)
      = 0 + ∑ s ∈ Finset.range (n + 1), ∑ r : Fin 5000, rowTerm V c j (5000 * s + r.val)
  | 0, h => by
    show (k0_pay3 (F := Ideal) (iblk0 V c 0 ⟨0, h⟩) (iblk0 V c 1 ⟨0, h⟩) (iblk0 V c 2 ⟨0, h⟩) (iblk0 V c 3 ⟨0, h⟩) (iblk0 V c 4 ⟨0, h⟩) (k0_pay1 (F := Ideal)) : S1x128.Idx → EReal) (ix2 (0 : Fin 1) j) = _
    refine (acc0_apply (iblk0 V c 0 ⟨0, h⟩) (iblk0 V c 1 ⟨0, h⟩) (iblk0 V c 2 ⟨0, h⟩) (iblk0 V c 3 ⟨0, h⟩) (iblk0 V c 4 ⟨0, h⟩) (k0_pay1 (F := Ideal)) j).trans ?_
    rw [Finset.sum_range_one]
    refine congrArg₂ (fun a b : EReal => a + b) ?_ (block_sum V c ⟨0, h⟩ j)
    show Ideal.ofBits .f32 0x00000000#32 = 0
    exact Ideal.ofBits_zero_f32
  | n + 1, h => by
    show (k0_pay3 (F := Ideal) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (chain V c n (Nat.lt_of_succ_lt h)) : S1x128.Idx → EReal) (ix2 (0 : Fin 1) j) = _
    refine (acc0_apply (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (chain V c n (Nat.lt_of_succ_lt h)) j).trans ?_
    rw [chain_apply c j n (Nat.lt_of_succ_lt h), Finset.sum_range_succ _ (n + 1), add_assoc]
    exact congrArg (fun z => 0 + (∑ s ∈ Finset.range (n + 1), ∑ r : Fin 5000, rowTerm V c j (5000 * s + r.val) + z))
      (block_sum V c ⟨n + 1, h⟩ j)

/-- The last point is the twentieth. -/
theorem h19 : 19 < cfg0.N := lt_of_lt_of_eq (by decide : 19 < 20) N_0.symm

/-- The column sums as one row: the running sums after the last point. -/
def sumRow (c : Dev nD) : S1x128.Idx → EReal := chain V c 19 h19

/-- The one write-back of the column sums, after the last point, writes the running sums (its block is the row). -/
theorem flushed_sum (c : Dev nD) (t : Fin cfg0.N) (hf : (cfg0.win 6).flush t = true) :
    (dat0 V c).flushed 6 t = ((cfg0.win 6).blk t).view.read (Elt Ideal) (sumRow V c) := by
  have hN : t.val < 20 := lt_of_lt_of_eq t.isLt N_0
  have ht : t.val = 19 := by have := (flush0_6 t).mp hf; omega
  obtain rfl : t = ⟨19, h19⟩ := Fin.ext ht
  show (cfg0.win 6).cut (grid0.coords ⟨19, h19⟩) ((dat0 V c).after 6 ⟨19, h19⟩) = _
  rw [after0_6, outs_sum]
  obtain ⟨-, -, -, -, -, -, -, -, -, -, -, -, e0, e1⟩ := idx_facts ⟨19, h19⟩
  funext y
  show sumRow V c y = sumRow V c (((cfg0.win 6).blk ⟨19, h19⟩).view.emb y)
  refine congrArg (sumRow V c) (funext fun a => Fin.ext ?_)
  match a with
  | ⟨0, _⟩ => show (y 0).val = win0_6.index ⟨19, h19⟩ (0 : Fin 2) * 1 + 1 * (y 0).val; rw [e0]; omega
  | ⟨1, _⟩ => show (y 1).val = win0_6.index ⟨19, h19⟩ (1 : Fin 2) * 128 + 1 * (y 1).val; rw [e1]; omega

/-- An index is in point t's block of the column-sum row iff each coordinate is in the block's range. -/
theorem mem_blk_sum (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v51_1).slice (win0_6.rect t)).set ↔ _
  rw [View.set_slice_whole, Rect.mem_set_unit]
  exact Iff.rfl

/-- The block the last point writes back is the whole row. -/
theorem cover_sum (i : S1x128.Idx) :
    ∃ t : Fin cfg0.N, (cfg0.win 6).flush t = true ∧ i ∈ ((cfg0.win 6).blk t).view.set := by
  have hi0 : (i 0).val < 1 := (i 0).isLt
  have hi1 : (i 1).val < 128 := (i 1).isLt
  refine ⟨⟨19, h19⟩, (flush0_6 _).mpr rfl, ?_⟩
  rw [mem_blk_sum]
  obtain ⟨-, -, -, -, -, -, -, -, -, -, -, -, e0, e1⟩ := idx_facts ⟨19, h19⟩
  intro a
  match a with
  | ⟨0, _⟩ =>
    show win0_6.index ⟨19, h19⟩ (0 : Fin 2) * 1 ≤ (i 0).val ∧ (i 0).val < win0_6.index ⟨19, h19⟩ (0 : Fin 2) * 1 + 1
    rw [e0]; omega
  | ⟨1, _⟩ =>
    show win0_6.index ⟨19, h19⟩ (1 : Fin 2) * 128 ≤ (i 1).val ∧ (i 1).val < win0_6.index ⟨19, h19⟩ (1 : Fin 2) * 128 + 128
    rw [e1]; omega

/-- THE COLUMN SUMS after the run: column j of the row is the sum of column j of the convolution over all rows. -/
theorem r0_sum (c : Dev nD) (j : Fin 128) :
    ((dat0 V c).arrAt 6 cfg0.N : S1x128.Idx → EReal) (ix2 (0 : Fin 1) j) = ∑ n : Fin 100000, convEntry V c n j := by
  rw [(dat0 V c).arrAt_eq_of_cover 6 (sumRow V c) (flushed_sum V c) cover_sum]
  show (chain V c 19 h19 : S1x128.Idx → EReal) (ix2 (0 : Fin 1) j) = _
  rw [chain_apply V c j 19 h19]
  exact Cert.BlockSum.sum_20x5000 (fun n => convEntry V c n j) (rowTerm V c j) (fun n => by unfold rowTerm; rw [dif_pos n.isLt])

end Value

end Cert.KReg0

end
-- ==== Proof.KRegVar.lean ====
/-
  The two variance accumulators of the kernel, read back as sums.

  Each of the two regions treated here walks the one hundred thousand rows of a matrix in twenty blocks of five
  thousand rows. At every block it subtracts a fixed mean row from each row of the block, squares the differences
  entry by entry, sums each column of the block, and adds the column sums into a one-row accumulator, which is set to
  zero before the first block and written out after the last. Over the extended reals addition is commutative and
  associative, so what the accumulator's array holds after the region is, column by column, the sum over ALL rows of
  the squared difference between the row's entry and the mean row's entry: `r1_sum` (128 columns) and `r4_sum`
  (64 columns), for arbitrary contents of the arrays when the region is entered.

  The steps, per region: the two control cases of the body (first block: store zero, read it back, accumulate; later
  blocks: accumulate into what the block before left) leave the body's arithmetic of the staged blocks; that
  arithmetic at an entry is the carried value plus a finite sum; the buffer's contents after each block are a fold
  over the blocks, which at an entry is zero plus the blocks' sums one after the other; the one write-back, after the
  last block, covers the whole one-row array; a block's row `r` at block `s` is row `5000 s + r` of the matrix; and
  twenty sums of five thousand consecutive terms are the one sum of one hundred thousand.
-/
import proofs.«126863_j82781199663546_2_alg».proof.Proof.Gen.KernelIdeal.Frame
import proofs.«126863_j82781199663546_2_alg».proof.Proof.Spec
import proofs.«126863_j82781199663546_2_alg».proof.Proof.LibBlockSum
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KRegVar

open Cert.KernelIdeal Cert.KernelIdeal.Gen
open Idealize.ShloMosaic Idealize.ShloMosaic.ValueIdx Idealize.ShloMosaic.TcCoe Idealize.SL.Sem
open Idealize.ShloMosaic.Pipeline (Dat)

/-- The zero offsets of a rank-two block, however spelt. -/
theorem hz : (![0, 0] : Fin 2 → Nat) = fun _ => 0 := funext fun a => by fin_cases a <;> rfl

/-! ## Small layout facts, read at an entry -/

section Layout

/-- A vector of length `C` laid out as the one row of a `1 × C` matrix: entry `(0, k)` is the vector's entry `k`. -/
theorem row_of_vec {α : Type} {C : ℕ} (v : (⟨1, ![C]⟩ : Shape).Idx → α)
    (h : (⟨1, ![C]⟩ : Shape).ShapeCasts ⟨2, ![1, C]⟩) (k : Fin C) :
    shapeCast ⟨2, ![1, C]⟩ v h (ix2 (0 : Fin 1) k) = v (ix1 k) :=
  shapeCast_apply v h _ _ (by
    rw [Shape.rowMajor_val_one, Shape.rowMajor_val_two]
    show k.val = 0 * C + k.val
    rw [Nat.zero_mul, Nat.zero_add])

/-- A `1 × C` row repeated down `R` rows: entry `(p, k)` is the row's entry `(0, k)` (for `C ≠ 1`). -/
theorem row_repeat {α : Type} {R C : ℕ} (hC : C ≠ 1) (x : (⟨2, ![1, C]⟩ : Shape).Idx → α)
    (hb : (⟨2, ![1, C]⟩ : Shape).Broadcasts ⟨2, ![R, C]⟩) (p : Fin R) (k : Fin C) :
    broadcastTo ⟨2, ![R, C]⟩ x hb (ix2 p k) = x (ix2 (0 : Fin 1) k) :=
  broadcastTo_apply x hb (ix2 p k) (ix2 (0 : Fin 1) k) (fun a => by
    match a with
    | ⟨0, _⟩ => show (0 : ℕ) = if (1 : ℕ) = 1 then 0 else _; rw [if_pos rfl]
    | ⟨1, _⟩ => show k.val = if C = 1 then 0 else k.val; rw [if_neg hC])

/-- The sum of column `k` of an `R × C` array over its `R` rows, from a zero initial value, as a finite sum. -/
theorem col_sum {R C : ℕ} (v : FVec Ideal ⟨2, ![R, C]⟩ .f32) (h : (⟨2, ![R, C]⟩ : Shape).Reduces [0] ⟨1, ![C]⟩)
    (hφ : FKind.Formats .f32) (hacc : (0x00000000#32 : BitVec (FTy.f32).bits) = FKind.add.neutral .f32 hφ) (k : Fin C) :
    multiReduction .add [0] ⟨1, ![C]⟩ v 0x00000000#32 h hφ hacc (ix1 k) = ∑ r : Fin R, v (ix2 r k) :=
  (Ideal.multiReduction_add_single v 0x00000000#32 h hφ hacc (ix1 k)).trans
    (Finset.sum_congr rfl fun r _ => congrArg v (funext fun c => Fin.ext (by
      match c with
      | ⟨0, _⟩ => rfl
      | ⟨1, _⟩ => rfl)))

end Layout

/-! ## The summand as a function of every natural -/

/-- The squared centred entry of row `n`, column `k`, as a function of every natural `n` (zero past the last row):
    the block sums index rows by naturals. -/
def sqAt (C : ℕ) (X : (⟨2, ![100000, C]⟩ : Shape).Idx → EReal) (μ : (⟨2, ![1, C]⟩ : Shape).Idx → EReal) (k : Fin C)
    (n : ℕ) : EReal :=
  if h : n < 100000 then (X (ix2 ⟨n, h⟩ k) - μ (ix2 (0 : Fin 1) k)) * (X (ix2 ⟨n, h⟩ k) - μ (ix2 (0 : Fin 1) k)) else 0

/-- Entry `k` of the row `out` is the sum, over all one hundred thousand rows of `X`, of the squared difference between
    the row's entry in column `k` and entry `k` of the row `μ`. (The arrays are typed here as functions into the extended
    reals, so that the subtraction and the product are the extended reals' own.) -/
abbrev IsColSumSq (C : ℕ) (out : (⟨2, ![1, C]⟩ : Shape).Idx → EReal) (X : (⟨2, ![100000, C]⟩ : Shape).Idx → EReal)
    (μ : (⟨2, ![1, C]⟩ : Shape).Idx → EReal) (k : Fin C) : Prop :=
  out (ix2 (0 : Fin 1) k)
    = ∑ n : Fin 100000, (X (ix2 n k) - μ (ix2 (0 : Fin 1) k)) * (X (ix2 n k) - μ (ix2 (0 : Fin 1) k))

/-! ## Region 1: what each control case leaves in the accumulator's buffer -/

section Cases1
variable {F : FTy → Type} [FloatOps F]

/-- A later point: the body's one store leaves the accumulating step of the two input blocks and the carried value. -/
theorem out1_B (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec F S5000x128 .f32) (x1 : Vec F S1x128 .f32) (xo : Vec F S1x128 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  rw [View.canon_unit_zero hz]
  simp only [View.readAt_eq_ld, h1.read_unread, h2.read_unread, h3.read_unread,
    View.ld_unit_zero (S := S5000x128) hz, View.ld_unit_zero (S := S1x128) hz]

/-- The first point: the body stores the zero row, reads it back, and leaves the accumulating step over it. -/
theorem out1_A (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec F S5000x128 .f32) (x1 : Vec F S1x128 .f32) :
    out1_A_2 c i a1 h1 a2 h2 a3 h3 hc x0 x1 = k1_pay2 x0 x1 k1_pay1 := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

end Cases1

/-! ## Region 1: the body's arithmetic at an entry -/

section Payload1

/-- The centred block: entry `(r, k)` of the row block minus the repeated mean row. -/
theorem centred1 (x0 : Vec Ideal S5000x128 .f32) (x1 : Vec Ideal S1x128 .f32) (r : Fin 5000) (k : Fin 128) :
    subf (F := Ideal) (φ := .f32) (shapeCast S5000x128 x0 shapeCasts_S5000x128_S5000x128)
        (broadcastTo S5000x128 (shapeCast S1x128 x1 shapeCasts_S1x128_S1x128) broadcasts_S1x128_S5000x128) (ix2 r k)
      = x0 (ix2 r k) - x1 (ix2 (0 : Fin 1) k) := by
  refine (subf_apply _ _ _).trans ?_
  rw [shapeCast_self, shapeCast_self, row_repeat (by decide)]

/-- The accumulating step at an entry: the carried value plus the block's sum of squared centred entries. -/
theorem pay1_apply (x0 : Vec Ideal S5000x128 .f32) (x1 acc : Vec Ideal S1x128 .f32) (k : Fin 128) :
    k1_pay2 (F := Ideal) x0 x1 acc (ix2 (0 : Fin 1) k)
      = acc (ix2 (0 : Fin 1) k)
        + ∑ r : Fin 5000, (x0 (ix2 r k) - x1 (ix2 (0 : Fin 1) k)) * (x0 (ix2 r k) - x1 (ix2 (0 : Fin 1) k)) := by
  unfold k1_pay2
  dsimp only
  refine (addf_apply _ _ _).trans ?_
  refine congrArg₂ (· + ·) ?_ ?_
  · rw [shapeCast_self]
  · refine (row_of_vec _ _ k).trans ?_
    refine (col_sum _ _ _ _ k).trans ?_
    refine Finset.sum_congr rfl fun r _ => ?_
    refine (mulf_apply _ _ _).trans ?_
    rw [centred1]

/-- The reset value at any entry: zero. -/
theorem zero1_apply (i : S1x128.Idx) : k1_pay1 (F := Ideal) i = 0 := by
  unfold k1_pay1
  exact (broadcast_apply _ _).trans Ideal.ofBits_zero_f32

end Payload1

/-! ## Region 1: the accumulator over the twenty points -/

section Run1

variable (V : (c : Dev nD) → (b : Ref sig .tc) → Buf (Elt Ideal) ((c : Thread nD τ).loc b))

/-- The index maps, decided over the grid: the row block moves with the point, the mean row stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Row `r` of the block at point `t` is row `5000 t + r` of the whole array. -/
theorem blk1_0 (c : Dev nD) (t : Fin cfg1.N) (r : Fin 5000) (k : Fin 128) (hb : 5000 * t.val + r.val < 100000) :
    (iblk1 V c 0 t : Vec Ideal S5000x128 .f32) (ix2 r k)
      = (V c main_v51_0 : S100000x128.Idx → EReal) (ix2 ⟨5000 * t.val + r.val, hb⟩ k) := by
  obtain ⟨e0, e1, -, -⟩ := idx1 t
  unfold iblk1
  rw [View.read_apply]
  show V c main_v51_0 _ = V c main_v51_0 _
  congr 1
  funext a
  apply Fin.ext
  match a with
  | ⟨0, _⟩ => show win1_0.index t 0 * 5000 + 1 * r.val = 5000 * t.val + r.val; rw [e0]; omega
  | ⟨1, _⟩ => show win1_0.index t 1 * 128 + 1 * k.val = k.val; rw [e1]; omega

/-- The mean row's block at every point is the whole mean row. -/
theorem blk1_1 (c : Dev nD) (t : Fin cfg1.N) (k : Fin 128) :
    (iblk1 V c 1 t : Vec Ideal S1x128 .f32) (ix2 (0 : Fin 1) k) = (V c main_v53 : S1x128.Idx → EReal) (ix2 (0 : Fin 1) k) := by
  obtain ⟨-, -, e0, e1⟩ := idx1 t
  unfold iblk1
  rw [View.read_apply]
  show V c main_v53 _ = V c main_v53 _
  congr 1
  funext a
  apply Fin.ext
  match a with
  | ⟨0, _⟩ => show win1_1.index t 0 * 1 + 1 * (0 : Fin 1).val = (0 : Fin 1).val; rw [e0]; rfl
  | ⟨1, _⟩ => show win1_1.index t 1 * 128 + 1 * k.val = k.val; rw [e1]; omega

/-- One row's squared centred entry in column `k`, read from the blocks at point `t`. -/
theorem term1 (c : Dev nD) (t : Fin cfg1.N) (r : Fin 5000) (k : Fin 128)
    (x0 : Vec Ideal S5000x128 .f32) (x1 : Vec Ideal S1x128 .f32) (h0 : x0 = iblk1 V c 0 t) (h1 : x1 = iblk1 V c 1 t) :
    (x0 (ix2 r k) - x1 (ix2 (0 : Fin 1) k)) * (x0 (ix2 r k) - x1 (ix2 (0 : Fin 1) k))
      = sqAt 128 (V c main_v51_0) (V c main_v53) k (5000 * t.val + r.val) := by
  have hN : t.val < 20 := lt_of_lt_of_eq t.isLt (show cfg1.N = 20 from N_1)
  have hb : 5000 * t.val + r.val < 100000 := by have := r.isLt; omega
  subst h0 h1
  unfold sqAt
  rw [dif_pos hb, blk1_0 V c t r k hb, blk1_1 V c t k]

/-- The accumulating step of point `t` at any entry: the carried value plus the block's column sum of squares. -/
theorem step1_apply (c : Dev nD) (t : Fin cfg1.N) (acc : Vec Ideal S1x128 .f32) (i : S1x128.Idx) :
    k1_pay2 (F := Ideal) (iblk1 V c 0 t) (iblk1 V c 1 t) acc i
      = acc i + ∑ r : Fin 5000, sqAt 128 (V c main_v51_0) (V c main_v53) (i 1) (5000 * t.val + r.val) := by
  obtain ⟨p, q, rfl⟩ : ∃ (p : Fin 1) (q : Fin 128), i = ix2 p q := ⟨i 0, i 1, eq_ix2 i⟩
  obtain rfl : p = 0 := Subsingleton.elim _ _
  refine (pay1_apply _ _ _ q).trans ?_
  exact congrArg (acc (ix2 (0 : Fin 1) q) + ·) (Finset.sum_congr rfl fun r _ => term1 V c t r q _ _ rfl rfl)

/-- The value the first point leaves. -/
abbrev reset1 (c : Dev nD) (n : ℕ) (h : n < cfg1.N) : Vec Ideal S1x128 .f32 :=
  k1_pay2 (iblk1 V c 0 ⟨n, h⟩) (iblk1 V c 1 ⟨n, h⟩) (k1_pay1 (F := Ideal))
/-- The step a later point applies to what the point before left. -/
abbrev step1 (c : Dev nD) (n : ℕ) (h : n < cfg1.N) (acc : Vec Ideal S1x128 .f32) : Vec Ideal S1x128 .f32 :=
  k1_pay2 (iblk1 V c 0 ⟨n, h⟩) (iblk1 V c 1 ⟨n, h⟩) acc

/-- After the last point the accumulator's buffer holds the fold of the twenty steps from the reset. -/
theorem outsAt1_fold (c : Dev nD) (h : 20 * 0 + 19 < cfg1.N) :
    outsAt1 V c (20 * 0 + 19) h = Pipeline.accAt (reset1 V c) (step1 V c) (20 * 0) 19 h :=
  Pipeline.eq_accAt (outsAt1 V c) 20 (reset1 V c) (step1 V c)
    (fun n h hm => (outsAt1_A V c ⟨n, h⟩ hm).trans
      (out1_A (F := Ideal) c (grid1.coords ⟨n, h⟩) (ms1_0 ⟨n, h⟩) (hs1_0 ⟨n, h⟩) (ms1_1 ⟨n, h⟩) (hs1_1 ⟨n, h⟩)
        (ms1_2 ⟨n, h⟩) (hs1_2 ⟨n, h⟩) ((hcond1_0 ⟨n, h⟩).mpr hm) (iblk1 V c 0 ⟨n, h⟩) (iblk1 V c 1 ⟨n, h⟩)))
    (fun n h hm => (outsAt1_B V c ⟨n + 1, h⟩ hm).trans
      (out1_B (F := Ideal) c (grid1.coords ⟨n + 1, h⟩) (ms1_0 ⟨n + 1, h⟩) (hs1_0 ⟨n + 1, h⟩) (ms1_1 ⟨n + 1, h⟩)
        (hs1_1 ⟨n + 1, h⟩) (ms1_2 ⟨n + 1, h⟩) (hs1_2 ⟨n + 1, h⟩) (fun h' => hm ((hcond1_0 ⟨n + 1, h⟩).mp h'))
        (iblk1 V c 0 ⟨n + 1, h⟩) (iblk1 V c 1 ⟨n + 1, h⟩) (outsAt1 V c n (Nat.lt_of_succ_lt h))))
    0 19 (by decide) h

/-- That fold at an entry: zero plus, block after block, the blocks' column sums of squares. -/
theorem fold1_apply (c : Dev nD) (h : 20 * 0 + 19 < cfg1.N) (k : Fin 128) :
    Pipeline.accAt (reset1 V c) (step1 V c) (20 * 0) 19 h (ix2 (0 : Fin 1) k)
      = (0 : EReal) + ∑ s ∈ Finset.range (19 + 1), ∑ r : Fin 5000,
          sqAt 128 (V c main_v51_0) (V c main_v53) k (5000 * s + r.val) := by
  have e := Pipeline.accAt_add_apply (reset1 V c) (step1 V c) (fun _ => (0 : EReal))
    (fun n i => ∑ r : Fin 5000, sqAt 128 (V c main_v51_0) (V c main_v53) (i 1) (5000 * n + r.val)) (20 * 0) 19
    (fun h i => by
      show k1_pay2 (F := Ideal) (iblk1 V c 0 ⟨20 * 0, h⟩) (iblk1 V c 1 ⟨20 * 0, h⟩) (k1_pay1 (F := Ideal)) i
        = (0 : EReal) + ∑ r : Fin 5000, sqAt 128 (V c main_v51_0) (V c main_v53) (i 1) (5000 * (20 * 0) + r.val)
      rw [step1_apply V c ⟨20 * 0, h⟩, zero1_apply])
    (fun n h acc i _ _ => step1_apply V c ⟨n, h⟩ acc i) 19 (le_refl _) h (ix2 (0 : Fin 1) k)
  simp only [Nat.mul_zero, Nat.zero_add] at e
  exact e

/-- The last point. -/
abbrev last1 : Fin cfg1.N := ⟨19, by rw [show cfg1.N = 20 from N_1]; decide⟩

/-- What the accumulator's array ends holding: the buffer's contents after the last point. -/
abbrev result1 (c : Dev nD) : Buf (Elt Ideal) ((c : Thread nD τ).loc main_v54) :=
  outsAt1 V c (20 * 0 + 19) (by rw [show cfg1.N = 20 from N_1]; decide)

/-- The one write-back, after the last point: its block, read through zero offsets, is the whole `1 × 128` array. -/
theorem flushed1 (c : Dev nD) (t : Fin cfg1.N) (hf : (cfg1.win 2).flush t = true) :
    (dat1 V c).flushed 2 t = ((cfg1.win 2).blk t).view.read (Elt Ideal) (result1 V c) := by
  have hN : cfg1.N = 20 := N_1
  have h19 : t.val = 19 := by have := (flush1_2 t).mp hf; have := t.isLt; omega
  obtain rfl : t = last1 := Fin.ext h19
  show (cfg1.win 2).cut (grid1.coords last1) ((dat1 V c).after 2 last1) = _
  rw [after1_2]
  have hz' : (fun a => win1_2.index last1 a * main_v54.ty.shape.size a) = fun _ => 0 :=
    funext fun a => by fin_cases a <;> decide
  exact (Memref.read_access_unit_zero (Elt Ideal) main_v54 hz' (fun a => by rw [congrFun hz' a]; simp) (result1 V c)).symm

/-- So the array ends holding it: the last point's block covers the array. -/
theorem final1 (c : Dev nD) : (dat1 V c).arrAt 2 cfg1.N = result1 V c :=
  (dat1 V c).arrAt_eq_of_cover 2 (result1 V c) (flushed1 V c) fun i =>
    ⟨last1, (flush1_2 last1).mpr rfl, by
      show i ∈ ((View.whole main_v54).slice (win1_2.rect last1)).set
      rw [View.set_slice_whole, Rect.mem_set_unit]
      intro a
      have h0 : (i 0 : Nat) < 1 := (i 0).isLt
      have h1 : (i 1 : Nat) < 128 := (i 1).isLt
      match a with
      | ⟨0, _⟩ => show win1_2.index last1 0 * win1_2.size 0 ≤ (i 0 : Nat) ∧ (i 0 : Nat) < win1_2.index last1 0 * win1_2.size 0 + win1_2.xsize (grid1.coords last1) 0
                  rw [show win1_2.index last1 0 * win1_2.size 0 = 0 from by decide +kernel, show win1_2.xsize (grid1.coords last1) 0 = 1 from by decide +kernel]; omega
      | ⟨1, _⟩ => show win1_2.index last1 1 * win1_2.size 1 ≤ (i 1 : Nat) ∧ (i 1 : Nat) < win1_2.index last1 1 * win1_2.size 1 + win1_2.xsize (grid1.coords last1) 1
                  rw [show win1_2.index last1 1 * win1_2.size 1 = 0 from by decide +kernel, show win1_2.xsize (grid1.coords last1) 1 = 128 from by decide +kernel]; omega⟩

/-- THE RESULT for region 1: entry `k` of the accumulator's array after the region is the sum, over all one hundred
    thousand rows, of the squared difference between the row's entry in column `k` and the mean row's entry `k`. -/
theorem r1_sum (c : Dev nD) (k : Fin 128) :
    IsColSumSq 128 ((dat1 V c).arrAt 2 cfg1.N) (V c main_v51_0) (V c main_v53) k := by
  show (dat1 V c).arrAt 2 cfg1.N (ix2 (0 : Fin 1) k) = _
  rw [final1]
  show outsAt1 V c (20 * 0 + 19) _ (ix2 (0 : Fin 1) k) = _
  rw [outsAt1_fold, fold1_apply]
  exact Cert.BlockSum.sum_20x5000 _ _ (fun n => dif_pos n.isLt)

end Run1

/-! ## Region 4: what each control case leaves in the accumulator's buffer -/

section Cases4
variable {F : FTy → Type} [FloatOps F]

/-- A later point: the body's one store leaves the accumulating step of the two input blocks and the carried value. -/
theorem out4_B (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond4_0 i) (x0 : Vec F S5000x64 .f32) (x1 : Vec F S1x64 .f32) (xo : Vec F S1x64 .f32) :
    out4_B_2 c i a1 h1 a2 h2 a3 h3 hc x0 x1 xo = k4_pay2 x0 x1 xo := by
  unfold out4_B_2
  rw [View.read_writes_eq_canon _ _ _ (cover4_B_2 c i a1 h1 a2 h2 a3 h3 hc x0 x1 xo)]
  unfold kernelRun4_B
  dsimp only
  rw [View.canon_unit_zero hz]
  simp only [View.readAt_eq_ld, h1.read_unread, h2.read_unread, h3.read_unread,
    View.ld_unit_zero (S := S5000x64) hz, View.ld_unit_zero (S := S1x64) hz]

/-- The first point: the body stores the zero row, reads it back, and leaves the accumulating step over it. -/
theorem out4_A (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond4_0 i) (x0 : Vec F S5000x64 .f32) (x1 : Vec F S1x64 .f32) :
    out4_A_2 c i a1 h1 a2 h2 a3 h3 hc x0 x1 = k4_pay2 x0 x1 k4_pay1 := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S1x64) hz, View.readCov_unit_zero (S := S1x64) _ hz]
  simp only [View.readAt_eq_ld, h1.read_unread, h2.read_unread,
    View.ld_unit_zero (S := S5000x64) hz, View.ld_unit_zero (S := S1x64) hz]

end Cases4

/-! ## Region 4: the body's arithmetic at an entry -/

section Payload4

/-- The centred block: entry `(r, k)` of the row block minus the repeated mean row. -/
theorem centred4 (x0 : Vec Ideal S5000x64 .f32) (x1 : Vec Ideal S1x64 .f32) (r : Fin 5000) (k : Fin 64) :
    subf (F := Ideal) (φ := .f32) (shapeCast S5000x64 x0 shapeCasts_S5000x64_S5000x64)
        (broadcastTo S5000x64 (shapeCast S1x64 x1 shapeCasts_S1x64_S1x64) broadcasts_S1x64_S5000x64) (ix2 r k)
      = x0 (ix2 r k) - x1 (ix2 (0 : Fin 1) k) := by
  refine (subf_apply _ _ _).trans ?_
  rw [shapeCast_self, shapeCast_self, row_repeat (by decide)]

/-- The accumulating step at an entry: the carried value plus the block's sum of squared centred entries. -/
theorem pay4_apply (x0 : Vec Ideal S5000x64 .f32) (x1 acc : Vec Ideal S1x64 .f32) (k : Fin 64) :
    k4_pay2 (F := Ideal) x0 x1 acc (ix2 (0 : Fin 1) k)
      = acc (ix2 (0 : Fin 1) k)
        + ∑ r : Fin 5000, (x0 (ix2 r k) - x1 (ix2 (0 : Fin 1) k)) * (x0 (ix2 r k) - x1 (ix2 (0 : Fin 1) k)) := by
  unfold k4_pay2
  dsimp only
  refine (addf_apply _ _ _).trans ?_
  refine congrArg₂ (· + ·) ?_ ?_
  · rw [shapeCast_self]
  · refine (row_of_vec _ _ k).trans ?_
    refine (col_sum _ _ _ _ k).trans ?_
    refine Finset.sum_congr rfl fun r _ => ?_
    refine (mulf_apply _ _ _).trans ?_
    rw [centred4]

/-- The reset value at any entry: zero. -/
theorem zero4_apply (i : S1x64.Idx) : k4_pay1 (F := Ideal) i = 0 := by
  unfold k4_pay1
  exact (broadcast_apply _ _).trans Ideal.ofBits_zero_f32

end Payload4

/-! ## Region 4: the accumulator over the twenty points -/

section Run4

variable (V : (c : Dev nD) → (b : Ref sig .tc) → Buf (Elt Ideal) ((c : Thread nD τ).loc b))

/-- The index maps, decided over the grid: the row block moves with the point, the mean row stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- Row `r` of the block at point `t` is row `5000 t + r` of the whole array. -/
theorem blk4_0 (c : Dev nD) (t : Fin cfg4.N) (r : Fin 5000) (k : Fin 64) (hb : 5000 * t.val + r.val < 100000) :
    (iblk4 V c 0 t : Vec Ideal S5000x64 .f32) (ix2 r k)
      = (V c main_v85_0 : S100000x64.Idx → EReal) (ix2 ⟨5000 * t.val + r.val, hb⟩ k) := by
  obtain ⟨e0, e1, -, -⟩ := idx4 t
  unfold iblk4
  rw [View.read_apply]
  show V c main_v85_0 _ = V c main_v85_0 _
  congr 1
  funext a
  apply Fin.ext
  match a with
  | ⟨0, _⟩ => show win4_0.index t 0 * 5000 + 1 * r.val = 5000 * t.val + r.val; rw [e0]; omega
  | ⟨1, _⟩ => show win4_0.index t 1 * 64 + 1 * k.val = k.val; rw [e1]; omega

/-- The mean row's block at every point is the whole mean row. -/
theorem blk4_1 (c : Dev nD) (t : Fin cfg4.N) (k : Fin 64) :
    (iblk4 V c 1 t : Vec Ideal S1x64 .f32) (ix2 (0 : Fin 1) k) = (V c main_v87 : S1x64.Idx → EReal) (ix2 (0 : Fin 1) k) := by
  obtain ⟨-, -, e0, e1⟩ := idx4 t
  unfold iblk4
  rw [View.read_apply]
  show V c main_v87 _ = V c main_v87 _
  congr 1
  funext a
  apply Fin.ext
  match a with
  | ⟨0, _⟩ => show win4_1.index t 0 * 1 + 1 * (0 : Fin 1).val = (0 : Fin 1).val; rw [e0]; rfl
  | ⟨1, _⟩ => show win4_1.index t 1 * 64 + 1 * k.val = k.val; rw [e1]; omega

/-- One row's squared centred entry in column `k`, read from the blocks at point `t`. -/
theorem term4 (c : Dev nD) (t : Fin cfg4.N) (r : Fin 5000) (k : Fin 64)
    (x0 : Vec Ideal S5000x64 .f32) (x1 : Vec Ideal S1x64 .f32) (h0 : x0 = iblk4 V c 0 t) (h1 : x1 = iblk4 V c 1 t) :
    (x0 (ix2 r k) - x1 (ix2 (0 : Fin 1) k)) * (x0 (ix2 r k) - x1 (ix2 (0 : Fin 1) k))
      = sqAt 64 (V c main_v85_0) (V c main_v87) k (5000 * t.val + r.val) := by
  have hN : t.val < 20 := lt_of_lt_of_eq t.isLt (show cfg4.N = 20 from N_4)
  have hb : 5000 * t.val + r.val < 100000 := by have := r.isLt; omega
  subst h0 h1
  unfold sqAt
  rw [dif_pos hb, blk4_0 V c t r k hb, blk4_1 V c t k]

/-- The accumulating step of point `t` at any entry: the carried value plus the block's column sum of squares. -/
theorem step4_apply (c : Dev nD) (t : Fin cfg4.N) (acc : Vec Ideal S1x64 .f32) (i : S1x64.Idx) :
    k4_pay2 (F := Ideal) (iblk4 V c 0 t) (iblk4 V c 1 t) acc i
      = acc i + ∑ r : Fin 5000, sqAt 64 (V c main_v85_0) (V c main_v87) (i 1) (5000 * t.val + r.val) := by
  obtain ⟨p, q, rfl⟩ : ∃ (p : Fin 1) (q : Fin 64), i = ix2 p q := ⟨i 0, i 1, eq_ix2 i⟩
  obtain rfl : p = 0 := Subsingleton.elim _ _
  refine (pay4_apply _ _ _ q).trans ?_
  exact congrArg (acc (ix2 (0 : Fin 1) q) + ·) (Finset.sum_congr rfl fun r _ => term4 V c t r q _ _ rfl rfl)

/-- The value the first point leaves. -/
abbrev reset4 (c : Dev nD) (n : ℕ) (h : n < cfg4.N) : Vec Ideal S1x64 .f32 :=
  k4_pay2 (iblk4 V c 0 ⟨n, h⟩) (iblk4 V c 1 ⟨n, h⟩) (k4_pay1 (F := Ideal))
/-- The step a later point applies to what the point before left. -/
abbrev step4 (c : Dev nD) (n : ℕ) (h : n < cfg4.N) (acc : Vec Ideal S1x64 .f32) : Vec Ideal S1x64 .f32 :=
  k4_pay2 (iblk4 V c 0 ⟨n, h⟩) (iblk4 V c 1 ⟨n, h⟩) acc

/-- After the last point the accumulator's buffer holds the fold of the twenty steps from the reset. -/
theorem outsAt4_fold (c : Dev nD) (h : 20 * 0 + 19 < cfg4.N) :
    outsAt4 V c (20 * 0 + 19) h = Pipeline.accAt (reset4 V c) (step4 V c) (20 * 0) 19 h :=
  Pipeline.eq_accAt (outsAt4 V c) 20 (reset4 V c) (step4 V c)
    (fun n h hm => (outsAt4_A V c ⟨n, h⟩ hm).trans
      (out4_A (F := Ideal) c (grid4.coords ⟨n, h⟩) (ms4_0 ⟨n, h⟩) (hs4_0 ⟨n, h⟩) (ms4_1 ⟨n, h⟩) (hs4_1 ⟨n, h⟩)
        (ms4_2 ⟨n, h⟩) (hs4_2 ⟨n, h⟩) ((hcond4_0 ⟨n, h⟩).mpr hm) (iblk4 V c 0 ⟨n, h⟩) (iblk4 V c 1 ⟨n, h⟩)))
    (fun n h hm => (outsAt4_B V c ⟨n + 1, h⟩ hm).trans
      (out4_B (F := Ideal) c (grid4.coords ⟨n + 1, h⟩) (ms4_0 ⟨n + 1, h⟩) (hs4_0 ⟨n + 1, h⟩) (ms4_1 ⟨n + 1, h⟩)
        (hs4_1 ⟨n + 1, h⟩) (ms4_2 ⟨n + 1, h⟩) (hs4_2 ⟨n + 1, h⟩) (fun h' => hm ((hcond4_0 ⟨n + 1, h⟩).mp h'))
        (iblk4 V c 0 ⟨n + 1, h⟩) (iblk4 V c 1 ⟨n + 1, h⟩) (outsAt4 V c n (Nat.lt_of_succ_lt h))))
    0 19 (by decide) h

/-- That fold at an entry: zero plus, block after block, the blocks' column sums of squares. -/
theorem fold4_apply (c : Dev nD) (h : 20 * 0 + 19 < cfg4.N) (k : Fin 64) :
    Pipeline.accAt (reset4 V c) (step4 V c) (20 * 0) 19 h (ix2 (0 : Fin 1) k)
      = (0 : EReal) + ∑ s ∈ Finset.range (19 + 1), ∑ r : Fin 5000,
          sqAt 64 (V c main_v85_0) (V c main_v87) k (5000 * s + r.val) := by
  have e := Pipeline.accAt_add_apply (reset4 V c) (step4 V c) (fun _ => (0 : EReal))
    (fun n i => ∑ r : Fin 5000, sqAt 64 (V c main_v85_0) (V c main_v87) (i 1) (5000 * n + r.val)) (20 * 0) 19
    (fun h i => by
      show k4_pay2 (F := Ideal) (iblk4 V c 0 ⟨20 * 0, h⟩) (iblk4 V c 1 ⟨20 * 0, h⟩) (k4_pay1 (F := Ideal)) i
        = (0 : EReal) + ∑ r : Fin 5000, sqAt 64 (V c main_v85_0) (V c main_v87) (i 1) (5000 * (20 * 0) + r.val)
      rw [step4_apply V c ⟨20 * 0, h⟩, zero4_apply])
    (fun n h acc i _ _ => step4_apply V c ⟨n, h⟩ acc i) 19 (le_refl _) h (ix2 (0 : Fin 1) k)
  simp only [Nat.mul_zero, Nat.zero_add] at e
  exact e

/-- The last point. -/
abbrev last4 : Fin cfg4.N := ⟨19, by rw [show cfg4.N = 20 from N_4]; decide⟩

/-- What the accumulator's array ends holding: the buffer's contents after the last point. -/
abbrev result4 (c : Dev nD) : Buf (Elt Ideal) ((c : Thread nD τ).loc main_v88) :=
  outsAt4 V c (20 * 0 + 19) (by rw [show cfg4.N = 20 from N_4]; decide)

/-- The one write-back, after the last point: its block, read through zero offsets, is the whole `1 × 64` array. -/
theorem flushed4 (c : Dev nD) (t : Fin cfg4.N) (hf : (cfg4.win 2).flush t = true) :
    (dat4 V c).flushed 2 t = ((cfg4.win 2).blk t).view.read (Elt Ideal) (result4 V c) := by
  have hN : cfg4.N = 20 := N_4
  have h19 : t.val = 19 := by have := (flush4_2 t).mp hf; have := t.isLt; omega
  obtain rfl : t = last4 := Fin.ext h19
  show (cfg4.win 2).cut (grid4.coords last4) ((dat4 V c).after 2 last4) = _
  rw [after4_2]
  have hz' : (fun a => win4_2.index last4 a * main_v88.ty.shape.size a) = fun _ => 0 :=
    funext fun a => by fin_cases a <;> decide
  exact (Memref.read_access_unit_zero (Elt Ideal) main_v88 hz' (fun a => by rw [congrFun hz' a]; simp) (result4 V c)).symm

/-- So the array ends holding it: the last point's block covers the array. -/
theorem final4 (c : Dev nD) : (dat4 V c).arrAt 2 cfg4.N = result4 V c :=
  (dat4 V c).arrAt_eq_of_cover 2 (result4 V c) (flushed4 V c) fun i =>
    ⟨last4, (flush4_2 last4).mpr rfl, by
      show i ∈ ((View.whole main_v88).slice (win4_2.rect last4)).set
      rw [View.set_slice_whole, Rect.mem_set_unit]
      intro a
      have h0 : (i 0 : Nat) < 1 := (i 0).isLt
      have h1 : (i 1 : Nat) < 64 := (i 1).isLt
      match a with
      | ⟨0, _⟩ => show win4_2.index last4 0 * win4_2.size 0 ≤ (i 0 : Nat) ∧ (i 0 : Nat) < win4_2.index last4 0 * win4_2.size 0 + win4_2.xsize (grid4.coords last4) 0
                  rw [show win4_2.index last4 0 * win4_2.size 0 = 0 from by decide +kernel, show win4_2.xsize (grid4.coords last4) 0 = 1 from by decide +kernel]; omega
      | ⟨1, _⟩ => show win4_2.index last4 1 * win4_2.size 1 ≤ (i 1 : Nat) ∧ (i 1 : Nat) < win4_2.index last4 1 * win4_2.size 1 + win4_2.xsize (grid4.coords last4) 1
                  rw [show win4_2.index last4 1 * win4_2.size 1 = 0 from by decide +kernel, show win4_2.xsize (grid4.coords last4) 1 = 64 from by decide +kernel]; omega⟩

/-- THE RESULT for region 4: entry `k` of the accumulator's array after the region is the sum, over all one hundred
    thousand rows, of the squared difference between the row's entry in column `k` and the mean row's entry `k`. -/
theorem r4_sum (c : Dev nD) (k : Fin 64) :
    IsColSumSq 64 ((dat4 V c).arrAt 2 cfg4.N) (V c main_v85_0) (V c main_v87) k := by
  show (dat4 V c).arrAt 2 cfg4.N (ix2 (0 : Fin 1) k) = _
  rw [final4]
  show outsAt4 V c (20 * 0 + 19) _ (ix2 (0 : Fin 1) k) = _
  rw [outsAt4_fold, fold4_apply]
  exact Cert.BlockSum.sum_20x5000 _ _ (fun n => dif_pos n.isLt)

end Run4

end Cert.KRegVar

end
-- ==== Proof.KRegMap.lean ====
/-
  The three regions of the kernel that act on each block of 5000 rows independently, read entry by entry.

  Each of them runs over twenty grid points; point `t` is handed rows `5000 t … 5000 t + 4999` of every row-indexed
  array and the whole of every small operand (a row of per-column scales or shifts, a weight matrix, a bias row), and
  writes back rows `5000 t … 5000 t + 4999` of its outputs. What a point writes depends only on the row it writes
  and on the small operands, so the blocks are restrictions of one function of the arrays the region finds; since the
  twenty blocks tile the hundred thousand rows, the array a region leaves is that function. The functions are:
  a column-wise scale and shift followed by the leaky rectifier; that, followed by a product with a weight matrix;
  and the sum of two matrix products plus a bias row. Changes of float format are the identity on the extended reals.
-/
import proofs.«126863_j82781199663546_2_alg».proof.Proof.Gen.KernelIdeal.Frame
import proofs.«126863_j82781199663546_2_alg».proof.Proof.Spec
import proofs.«126863_j82781199663546_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KRegMap

open Cert.KernelIdeal Cert.KernelIdeal.Gen Idealize.ShloMosaic Idealize.ShloMosaic.ValueIdx
open Idealize.ShloMosaic.TcCoe Idealize.SL.Sem
open Idealize.ShloMosaic.Pipeline (Dat)
open Cert.Spec (lrelu)

-- products and sums of array entries, with the extended reals named as the carrier
local infixl:70 " ⋆ " => @HMul.hMul EReal EReal EReal instHMul
local infixl:65 " ⊹ " => @HAdd.hAdd EReal EReal EReal instHAdd

/-- The zero offsets of a rank-two block, however spelt. -/
theorem hz : (![0, 0] : Fin 2 → Nat) = fun _ => 0 := funext fun a => by fin_cases a <;> rfl

/-! ## Region 5: scale, shift and rectify each row block -/

/-- One entry of the block the body stores: the rectifier of the entry times its column's scale plus its column's shift. -/
theorem pay5_apply (x0 : Vec Ideal S5000x64 .f32) (x1 : Vec Ideal S1x64 .f32) (x2 : Vec Ideal S1x64 .f32)
    (r : Fin 5000) (k : Fin 64) :
    k5_pay1 x0 x1 x2 (ix2 r k) = lrelu (x0 (ix2 r k) * x1 (ix2 (0 : Fin 1) k) + x2 (ix2 (0 : Fin 1) k)) := by
  unfold k5_pay1
  simp only [shapeCast_self]
  show Scalar.select (Ideal.cmp .oge (x0 (ix2 r k) * broadcastTo S5000x64 x1 broadcasts_S1x64_S5000x64 (ix2 r k)
        + broadcastTo S5000x64 x2 broadcasts_S1x64_S5000x64 (ix2 r k)) (Ideal.ofBits .f32 0x00000000#32))
      (x0 (ix2 r k) * broadcastTo S5000x64 x1 broadcasts_S1x64_S5000x64 (ix2 r k)
        + broadcastTo S5000x64 x2 broadcasts_S1x64_S5000x64 (ix2 r k))
      (Ideal.ofBits .f32 0x3C23D70A#32 * (x0 (ix2 r k) * broadcastTo S5000x64 x1 broadcasts_S1x64_S5000x64 (ix2 r k)
        + broadcastTo S5000x64 x2 broadcasts_S1x64_S5000x64 (ix2 r k))) = _
  rw [broadcastTo_1b_ab_apply x1, broadcastTo_1b_ab_apply x2, Ideal.ofBits_zero_f32]
  rfl

/-- The block index maps over the grid: the row blocks move with the point, the small operands stay. -/
theorem idx_facts5 : ∀ t : Fin cfg5.N,
    win5_0.index t (0 : Fin 2) = t.val ∧ win5_0.index t (1 : Fin 2) = 0
  ∧ win5_1.index t (0 : Fin 2) = 0 ∧ win5_1.index t (1 : Fin 2) = 0
  ∧ win5_2.index t (0 : Fin 2) = 0 ∧ win5_2.index t (1 : Fin 2) = 0
  ∧ win5_3.index t (0 : Fin 2) = t.val ∧ win5_3.index t (1 : Fin 2) = 0 :=
  (by decide +kernel : ∀ t : Fin grid5.N, _)

/-! ## Region 2: scale, shift and rectify each row block, and project it by a weight matrix -/

/-- One entry of the first block the body stores. -/
theorem pay2h_apply (x0 : Vec Ideal S5000x128 .f32) (x1 : Vec Ideal S1x128 .f32) (x2 : Vec Ideal S1x128 .f32)
    (r : Fin 5000) (k : Fin 128) :
    k2_pay1 x0 x1 x2 (ix2 r k) = lrelu (x0 (ix2 r k) * x1 (ix2 (0 : Fin 1) k) + x2 (ix2 (0 : Fin 1) k)) := by
  unfold k2_pay1
  simp only [shapeCast_self]
  show Scalar.select (Ideal.cmp .oge (x0 (ix2 r k) * broadcastTo S5000x128 x1 broadcasts_S1x128_S5000x128 (ix2 r k)
        + broadcastTo S5000x128 x2 broadcasts_S1x128_S5000x128 (ix2 r k)) (Ideal.ofBits .f32 0x00000000#32))
      (x0 (ix2 r k) * broadcastTo S5000x128 x1 broadcasts_S1x128_S5000x128 (ix2 r k)
        + broadcastTo S5000x128 x2 broadcasts_S1x128_S5000x128 (ix2 r k))
      (Ideal.ofBits .f32 0x3C23D70A#32 * (x0 (ix2 r k) * broadcastTo S5000x128 x1 broadcasts_S1x128_S5000x128 (ix2 r k)
        + broadcastTo S5000x128 x2 broadcasts_S1x128_S5000x128 (ix2 r k))) = _
  rw [broadcastTo_1b_ab_apply x1, broadcastTo_1b_ab_apply x2, Ideal.ofBits_zero_f32]
  rfl

/-- The body's product contracts the left operand's columns against the right operand's rows. -/
theorem plain_128_64 : Cert.PlainDot.IsPlain dot_S5000x128_S128x64_S5000x64_1_0_0_1_n_n := ⟨rfl, rfl, rfl, rfl, rfl, rfl⟩

/-- One entry of the second block the body stores: row `r` of the first block against column `j` of the weights. -/
theorem pay2z_apply (x0 : Vec Ideal S5000x128 .f32) (x1 : Vec Ideal S1x128 .f32) (x2 : Vec Ideal S1x128 .f32)
    (x3 : Vec Ideal S128x64 .f32) (r : Fin 5000) (j : Fin 64) :
    k2_pay2 x0 x1 x2 x3 (ix2 r j)
      = ∑ q : Fin 128, lrelu (x0 (ix2 r q) * x1 (ix2 (0 : Fin 1) q) + x2 (ix2 (0 : Fin 1) q)) * x3 (ix2 q j) := by
  unfold k2_pay2
  simp only [shapeCast_self]
  show matmul dot_S5000x128_S128x64_S5000x64_1_0_0_1_n_n none (k2_pay1 x0 x1 x2) (truncf .bf16 x3 bitsLt_bf16_f32)
      (constant S5000x64 .f32 0x00000000#32) (ix2 r j) = _
  refine (Cert.PlainDot.matmul_zero_apply plain_128_64 none (k2_pay1 x0 x1 x2) (truncf .bf16 x3 bitsLt_bf16_f32) r j).trans ?_
  refine Finset.sum_congr rfl fun q _ => ?_
  rw [pay2h_apply]
  rfl

/-- The block index maps over the grid: the row blocks move with the point, the small operands stay. -/
theorem idx_facts2 : ∀ t : Fin cfg2.N,
    win2_0.index t (0 : Fin 2) = t.val ∧ win2_0.index t (1 : Fin 2) = 0
  ∧ win2_1.index t (0 : Fin 2) = 0 ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = t.val ∧ win2_4.index t (1 : Fin 2) = 0
  ∧ win2_5.index t (0 : Fin 2) = t.val ∧ win2_5.index t (1 : Fin 2) = 0 :=
  (by decide +kernel : ∀ t : Fin grid2.N, _)

/-! ## Region 6: two matrix products of each row block, added, plus a bias row -/

/-- The body's products contract the left operand's columns against the right operand's rows. -/
theorem plain_64_64 : Cert.PlainDot.IsPlain dot_S5000x64_S64x64_S5000x64_1_0_0_1_n_n := ⟨rfl, rfl, rfl, rfl, rfl, rfl⟩

/-- One entry of the block the body stores: row `r` of each of the two feature blocks against column `j` of its
    weight matrix, the two sums added, plus the bias of column `j`. -/
theorem pay6_apply (x0 : Vec Ideal S5000x64 .bf16) (x1 : Vec Ideal S5000x64 .f32) (x2 : Vec Ideal S64x64 .f32)
    (x3 : Vec Ideal S64x64 .f32) (x4 : Vec Ideal S1x64 .f32) (r : Fin 5000) (j : Fin 64) :
    k6_pay1 x0 x1 x2 x3 x4 (ix2 r j)
      = (∑ q : Fin 64, x0 (ix2 r q) ⋆ x2 (ix2 q j) ⊹ ∑ q : Fin 64, x1 (ix2 r q) ⋆ x3 (ix2 q j)) ⊹ x4 (ix2 (0 : Fin 1) j) := by
  unfold k6_pay1
  simp only [shapeCast_self]
  show matmul (F := Ideal) dot_S5000x64_S64x64_S5000x64_1_0_0_1_n_n none x0 (truncf .bf16 x2 bitsLt_bf16_f32)
        (constant (F := Ideal) S5000x64 .f32 0x00000000#32) (ix2 r j)
      ⊹ matmul (F := Ideal) dot_S5000x64_S64x64_S5000x64_1_0_0_1_n_n none (truncf .bf16 x1 bitsLt_bf16_f32)
        (truncf .bf16 x3 bitsLt_bf16_f32) (constant (F := Ideal) S5000x64 .f32 0x00000000#32) (ix2 r j)
      ⊹ broadcastTo S5000x64 x4 broadcasts_S1x64_S5000x64 (ix2 r j) = _
  rw [Cert.PlainDot.matmul_zero_apply plain_64_64 none x0 (truncf .bf16 x2 bitsLt_bf16_f32) r j,
    Cert.PlainDot.matmul_zero_apply plain_64_64 none (truncf .bf16 x1 bitsLt_bf16_f32) (truncf .bf16 x3 bitsLt_bf16_f32) r j,
    broadcastTo_1b_ab_apply x4]
  rfl

/-- The block index maps over the grid: the row blocks move with the point, the small operands stay. -/
theorem idx_facts6 : ∀ t : Fin cfg6.N,
    win6_0.index t (0 : Fin 2) = t.val ∧ win6_0.index t (1 : Fin 2) = 0
  ∧ win6_1.index t (0 : Fin 2) = t.val ∧ win6_1.index t (1 : Fin 2) = 0
  ∧ win6_2.index t (0 : Fin 2) = 0 ∧ win6_2.index t (1 : Fin 2) = 0
  ∧ win6_3.index t (0 : Fin 2) = 0 ∧ win6_3.index t (1 : Fin 2) = 0
  ∧ win6_4.index t (0 : Fin 2) = 0 ∧ win6_4.index t (1 : Fin 2) = 0
  ∧ win6_5.index t (0 : Fin 2) = t.val ∧ win6_5.index t (1 : Fin 2) = 0 :=
  (by decide +kernel : ∀ t : Fin grid6.N, _)

variable (V : (c : Dev nD) → (b : Ref sig .tc) → Buf (Elt Ideal) ((c : Thread nD τ).loc b))

/-- The whole-array function region 5 writes: entry `(n, k)` is the rectifier of the input's entry times column `k`'s
    scale plus column `k`'s shift. -/
abbrev G5 (a0 : S100000x64.Idx → EReal) (a1 a2 : S1x64.Idx → EReal) : S100000x64.Idx → EReal :=
  fun i => lrelu (a0 i * a1 (ix2 (0 : Fin 1) (i 1 : Fin 64)) + a2 (ix2 (0 : Fin 1) (i 1 : Fin 64)))

/-- What point `t` writes back is block `t` of that function of the arrays the region finds. -/
theorem flushed5_eq (c : Dev nD) (t : Fin cfg5.N) :
    (dat5 V c).flushed 3 t = ((cfg5.win 3).blk t).view.read (Elt Ideal) (G5 (V c main_v85_0) (V c main_v96) (V c main_v98)) := by
  show (cfg5.win 3).cut (grid5.coords t) ((dat5 V c).after 3 t) = _
  rw [after5_3]
  unfold out5_3
  rw [View.canon_unit_zero hz]
  simp only [View.ld_unit_zero (S := S5000x64) hz, View.ld_unit_zero (S := S1x64) hz]
  obtain ⟨e00, e01, e10, e11, e20, e21, e30, e31⟩ := idx_facts5 t
  refine funext fun (j : S5000x64.Idx) => ?_
  obtain ⟨r, k, rfl⟩ : ∃ (r : Fin 5000) (k : Fin 64), j = ix2 r k := ⟨j 0, j 1, eq_ix2 j⟩
  show k5_pay1 (iblk5 V c 0 t) (iblk5 V c 1 t) (iblk5 V c 2 t) (ix2 r k)
      = G5 (V c main_v85_0) (V c main_v96) (V c main_v98) (((cfg5.win 3).blk t).view.emb (ix2 r k))
  refine (pay5_apply _ _ _ r k).trans ?_
  have hcol : ((((cfg5.win 3).blk t).view.emb (ix2 r k)) 1 : Fin 64) = k := by
    apply Fin.ext
    show win5_3.index t (1 : Fin 2) * 64 + 1 * k.val = k.val
    omega
  have h0 : iblk5 V c 0 t (ix2 r k) = V c main_v85_0 (((cfg5.win 3).blk t).view.emb (ix2 r k)) := by
    show V c main_v85_0 (((cfg5.win 0).blk t).view.emb (ix2 r k)) = V c main_v85_0 (((cfg5.win 3).blk t).view.emb (ix2 r k))
    refine congrArg (V c main_v85_0) ?_
    funext a; apply Fin.ext
    match a with
    | ⟨0, _⟩ => show win5_0.index t (0 : Fin 2) * 5000 + 1 * r.val = win5_3.index t (0 : Fin 2) * 5000 + 1 * r.val; omega
    | ⟨1, _⟩ => show win5_0.index t (1 : Fin 2) * 64 + 1 * k.val = win5_3.index t (1 : Fin 2) * 64 + 1 * k.val; omega
  have h1 : iblk5 V c 1 t (ix2 (0 : Fin 1) k) = V c main_v96 (ix2 (0 : Fin 1) k) := by
    show V c main_v96 (((cfg5.win 1).blk t).view.emb (ix2 (0 : Fin 1) k)) = V c main_v96 (ix2 (0 : Fin 1) k)
    refine congrArg (V c main_v96) ?_
    funext a; apply Fin.ext
    match a with
    | ⟨0, _⟩ => show win5_1.index t (0 : Fin 2) * 1 + 1 * 0 = 0; omega
    | ⟨1, _⟩ => show win5_1.index t (1 : Fin 2) * 64 + 1 * k.val = k.val; omega
  have h2 : iblk5 V c 2 t (ix2 (0 : Fin 1) k) = V c main_v98 (ix2 (0 : Fin 1) k) := by
    show V c main_v98 (((cfg5.win 2).blk t).view.emb (ix2 (0 : Fin 1) k)) = V c main_v98 (ix2 (0 : Fin 1) k)
    refine congrArg (V c main_v98) ?_
    funext a; apply Fin.ext
    match a with
    | ⟨0, _⟩ => show win5_2.index t (0 : Fin 2) * 1 + 1 * 0 = 0; omega
    | ⟨1, _⟩ => show win5_2.index t (1 : Fin 2) * 64 + 1 * k.val = k.val; omega
  show lrelu (iblk5 V c 0 t (ix2 r k) ⋆ iblk5 V c 1 t (ix2 (0 : Fin 1) k) ⊹ iblk5 V c 2 t (ix2 (0 : Fin 1) k))
    = lrelu (V c main_v85_0 (((cfg5.win 3).blk t).view.emb (ix2 r k))
        ⋆ V c main_v96 (ix2 (0 : Fin 1) ((((cfg5.win 3).blk t).view.emb (ix2 r k)) 1 : Fin 64))
        ⊹ V c main_v98 (ix2 (0 : Fin 1) ((((cfg5.win 3).blk t).view.emb (ix2 r k)) 1 : Fin 64)))
  rw [hcol, h0, h1, h2]

/-- An index of the array is in point `t`'s block iff each coordinate is in the block's range on its axis. -/
theorem mem_blk5 (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v99).slice (win5_3.rect t)).set ↔ _
  rw [View.set_slice_whole, Rect.mem_set_unit]
  exact Iff.rfl

/-- Row `n` of the array lies in the block of the point `n / 5000`, and every point writes back. -/
theorem cover5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  let t : Fin cfg5.N := ⟨(i 0).val / 5000, by rw [show cfg5.N = 20 from N_5]; omega⟩
  obtain ⟨e00, e01, e10, e11, e20, e21, e30, e31⟩ := idx_facts5 t
  have ht : t.val = (i 0).val / 5000 := rfl
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- The array region 5 leaves, as one function of the arrays it finds. -/
theorem final5 (c : Dev nD) :
    (dat5 V c).arrAt 3 cfg5.N = G5 (V c main_v85_0) (V c main_v96) (V c main_v98) :=
  (dat5 V c).arrAt_eq_of_cover 3 (G5 (V c main_v85_0) (V c main_v96) (V c main_v98))
    (fun t _ => flushed5_eq V c t) cover5

/-- Region 5's output, entry by entry. -/
theorem r5_h (c : Dev nD) (n : Fin 100000) (k : Fin 64) :
    (dat5 V c).arrAt 3 cfg5.N (ix2 n k)
      = lrelu (V c main_v85_0 (ix2 n k) ⋆ V c main_v96 (ix2 (0 : Fin 1) k) ⊹ V c main_v98 (ix2 (0 : Fin 1) k)) := by
  rw [final5]

/-- The first array region 2 writes: the rectifier of each entry scaled and shifted by its column. -/
abbrev G2h (a0 : S100000x128.Idx → EReal) (a1 a2 : S1x128.Idx → EReal) : S100000x128.Idx → EReal :=
  fun i => lrelu (a0 i * a1 (ix2 (0 : Fin 1) (i 1 : Fin 128)) + a2 (ix2 (0 : Fin 1) (i 1 : Fin 128)))

/-- The second: each row of the first against each column of the weight matrix. -/
abbrev G2z (a0 : S100000x128.Idx → EReal) (a1 a2 : S1x128.Idx → EReal) (a3 : S128x64.Idx → EReal) :
    S100000x64.Idx → EReal :=
  fun i => ∑ q : Fin 128, lrelu (a0 (ix2 (i 0 : Fin 100000) q) * a1 (ix2 (0 : Fin 1) q) + a2 (ix2 (0 : Fin 1) q))
    * a3 (ix2 q (i 1 : Fin 64))

/-- What point `t` writes back to the first output is block `t` of `G2h` of the arrays the region finds. -/
theorem flushed2h_eq (c : Dev nD) (t : Fin cfg2.N) :
    (dat2 V c).flushed 4 t = ((cfg2.win 4).blk t).view.read (Elt Ideal) (G2h (V c main_v51_0) (V c main_v62) (V c main_v64)) := by
  show (cfg2.win 4).cut (grid2.coords t) ((dat2 V c).after 4 t) = _
  rw [after2_4]
  unfold out2_4
  rw [View.canon_unit_zero hz]
  simp only [View.ld_unit_zero (S := S5000x128) hz, View.ld_unit_zero (S := S1x128) hz]
  obtain ⟨e00, e01, e10, e11, e20, e21, e30, e31, e40, e41, e50, e51⟩ := idx_facts2 t
  refine funext fun (j : S5000x128.Idx) => ?_
  obtain ⟨r, k, rfl⟩ : ∃ (r : Fin 5000) (k : Fin 128), j = ix2 r k := ⟨j 0, j 1, eq_ix2 j⟩
  show k2_pay1 (iblk2 V c 0 t) (iblk2 V c 1 t) (iblk2 V c 2 t) (ix2 r k)
      = G2h (V c main_v51_0) (V c main_v62) (V c main_v64) (((cfg2.win 4).blk t).view.emb (ix2 r k))
  refine (pay2h_apply _ _ _ r k).trans ?_
  have hcol : ((((cfg2.win 4).blk t).view.emb (ix2 r k)) 1 : Fin 128) = k := by
    apply Fin.ext
    show win2_4.index t (1 : Fin 2) * 128 + 1 * k.val = k.val
    omega
  have h0 : iblk2 V c 0 t (ix2 r k) = V c main_v51_0 (((cfg2.win 4).blk t).view.emb (ix2 r k)) := by
    show V c main_v51_0 (((cfg2.win 0).blk t).view.emb (ix2 r k)) = V c main_v51_0 (((cfg2.win 4).blk t).view.emb (ix2 r k))
    refine congrArg (V c main_v51_0) ?_
    funext a; apply Fin.ext
    match a with
    | ⟨0, _⟩ => show win2_0.index t (0 : Fin 2) * 5000 + 1 * r.val = win2_4.index t (0 : Fin 2) * 5000 + 1 * r.val; omega
    | ⟨1, _⟩ => show win2_0.index t (1 : Fin 2) * 128 + 1 * k.val = win2_4.index t (1 : Fin 2) * 128 + 1 * k.val; omega
  have h1 : iblk2 V c 1 t (ix2 (0 : Fin 1) k) = V c main_v62 (ix2 (0 : Fin 1) k) := by
    show V c main_v62 (((cfg2.win 1).blk t).view.emb (ix2 (0 : Fin 1) k)) = V c main_v62 (ix2 (0 : Fin 1) k)
    refine congrArg (V c main_v62) ?_
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : iblk2 V c 2 t (ix2 (0 : Fin 1) k) = V c main_v64 (ix2 (0 : Fin 1) k) := by
    show V c main_v64 (((cfg2.win 2).blk t).view.emb (ix2 (0 : Fin 1) k)) = V c main_v64 (ix2 (0 : Fin 1) k)
    refine congrArg (V c main_v64) ?_
    funext a; apply Fin.ext
    match a with
    | ⟨0, _⟩ => show win2_2.index t (0 : Fin 2) * 1 + 1 * 0 = 0; omega
    | ⟨1, _⟩ => show win2_2.index t (1 : Fin 2) * 128 + 1 * k.val = k.val; omega
  show lrelu (iblk2 V c 0 t (ix2 r k) ⋆ iblk2 V c 1 t (ix2 (0 : Fin 1) k) ⊹ iblk2 V c 2 t (ix2 (0 : Fin 1) k))
    = lrelu (V c main_v51_0 (((cfg2.win 4).blk t).view.emb (ix2 r k))
        ⋆ V c main_v62 (ix2 (0 : Fin 1) ((((cfg2.win 4).blk t).view.emb (ix2 r k)) 1 : Fin 128))
        ⊹ V c main_v64 (ix2 (0 : Fin 1) ((((cfg2.win 4).blk t).view.emb (ix2 r k)) 1 : Fin 128)))
  rw [hcol, h0, h1, h2]

/-- What point `t` writes back to the second output is block `t` of `G2z` of the arrays the region finds. -/
theorem flushed2z_eq (c : Dev nD) (t : Fin cfg2.N) :
    (dat2 V c).flushed 5 t = ((cfg2.win 5).blk t).view.read (Elt Ideal)
      (G2z (V c main_v51_0) (V c main_v62) (V c main_v64) (V c main_v66)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz, View.ld_unit_zero (S := S128x64) hz]
  obtain ⟨e00, e01, e10, e11, e20, e21, e30, e31, e40, e41, e50, e51⟩ := idx_facts2 t
  refine funext fun (j : S5000x64.Idx) => ?_
  obtain ⟨r, p, rfl⟩ : ∃ (r : Fin 5000) (p : Fin 64), j = ix2 r p := ⟨j 0, j 1, eq_ix2 j⟩
  show k2_pay2 (iblk2 V c 0 t) (iblk2 V c 1 t) (iblk2 V c 2 t) (iblk2 V c 3 t) (ix2 r p)
      = G2z (V c main_v51_0) (V c main_v62) (V c main_v64) (V c main_v66) (((cfg2.win 5).blk t).view.emb (ix2 r p))
  refine (pay2z_apply _ _ _ _ r p).trans ?_
  have hcol : ((((cfg2.win 5).blk t).view.emb (ix2 r p)) 1 : Fin 64) = p := by
    apply Fin.ext
    show win2_5.index t (1 : Fin 2) * 64 + 1 * p.val = p.val
    omega
  have h0 : ∀ q : Fin 128, iblk2 V c 0 t (ix2 r q)
      = V c main_v51_0 (ix2 ((((cfg2.win 5).blk t).view.emb (ix2 r p)) 0 : Fin 100000) q) := fun q => by
    show V c main_v51_0 (((cfg2.win 0).blk t).view.emb (ix2 r q))
      = V c main_v51_0 (ix2 ((((cfg2.win 5).blk t).view.emb (ix2 r p)) 0 : Fin 100000) q)
    refine congrArg (V c main_v51_0) ?_
    funext a; apply Fin.ext
    match a with
    | ⟨0, _⟩ => show win2_0.index t (0 : Fin 2) * 5000 + 1 * r.val = win2_5.index t (0 : Fin 2) * 5000 + 1 * r.val; omega
    | ⟨1, _⟩ => show win2_0.index t (1 : Fin 2) * 128 + 1 * q.val = q.val; omega
  have h1 : ∀ q : Fin 128, iblk2 V c 1 t (ix2 (0 : Fin 1) q) = V c main_v62 (ix2 (0 : Fin 1) q) := fun q => by
    show V c main_v62 (((cfg2.win 1).blk t).view.emb (ix2 (0 : Fin 1) q)) = V c main_v62 (ix2 (0 : Fin 1) q)
    refine congrArg (V c main_v62) ?_
    funext a; apply Fin.ext
    match a with
    | ⟨0, _⟩ => show win2_1.index t (0 : Fin 2) * 1 + 1 * 0 = 0; omega
    | ⟨1, _⟩ => show win2_1.index t (1 : Fin 2) * 128 + 1 * q.val = q.val; omega
  have h2 : ∀ q : Fin 128, iblk2 V c 2 t (ix2 (0 : Fin 1) q) = V c main_v64 (ix2 (0 : Fin 1) q) := fun q => by
    show V c main_v64 (((cfg2.win 2).blk t).view.emb (ix2 (0 : Fin 1) q)) = V c main_v64 (ix2 (0 : Fin 1) q)
    refine congrArg (V c main_v64) ?_
    funext a; apply Fin.ext
    match a with
    | ⟨0, _⟩ => show win2_2.index t (0 : Fin 2) * 1 + 1 * 0 = 0; omega
    | ⟨1, _⟩ => show win2_2.index t (1 : Fin 2) * 128 + 1 * q.val = q.val; omega
  have h3 : ∀ q : Fin 128, iblk2 V c 3 t (ix2 q p) = V c main_v66 (ix2 q p) := fun q => by
    show V c main_v66 (((cfg2.win 3).blk t).view.emb (ix2 q p)) = V c main_v66 (ix2 q p)
    refine congrArg (V c main_v66) ?_
    funext a; apply Fin.ext
    match a with
    | ⟨0, _⟩ => show win2_3.index t (0 : Fin 2) * 128 + 1 * q.val = q.val; omega
    | ⟨1, _⟩ => show win2_3.index t (1 : Fin 2) * 64 + 1 * p.val = p.val; omega
  show (∑ q : Fin 128, lrelu (iblk2 V c 0 t (ix2 r q) ⋆ iblk2 V c 1 t (ix2 (0 : Fin 1) q) ⊹ iblk2 V c 2 t (ix2 (0 : Fin 1) q))
        ⋆ iblk2 V c 3 t (ix2 q p))
    = ∑ q : Fin 128, lrelu (V c main_v51_0 (ix2 ((((cfg2.win 5).blk t).view.emb (ix2 r p)) 0 : Fin 100000) q)
          ⋆ V c main_v62 (ix2 (0 : Fin 1) q) ⊹ V c main_v64 (ix2 (0 : Fin 1) q))
        ⋆ V c main_v66 (ix2 q ((((cfg2.win 5).blk t).view.emb (ix2 r p)) 1 : Fin 64))
  rw [hcol]
  refine Finset.sum_congr rfl fun q _ => ?_
  rw [h0 q, h1 q, h2 q, h3 q]

/-- An index of the first output is in point `t`'s block iff each coordinate is in the block's range on its axis. -/
theorem mem_blk2h (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v67_0).slice (win2_4.rect t)).set ↔ _
  rw [View.set_slice_whole, Rect.mem_set_unit]
  exact Iff.rfl

/-- The same for the second output. -/
theorem mem_blk2z (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v67_1).slice (win2_5.rect t)).set ↔ _
  rw [View.set_slice_whole, Rect.mem_set_unit]
  exact Iff.rfl

/-- Row `n` of the first output lies in the block of the point `n / 5000`, and every point writes back. -/
theorem cover2h (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  let t : Fin cfg2.N := ⟨(i 0).val / 5000, by rw [show cfg2.N = 20 from N_2]; omega⟩
  obtain ⟨e00, e01, e10, e11, e20, e21, e30, e31, e40, e41, e50, e51⟩ := idx_facts2 t
  have ht : t.val = (i 0).val / 5000 := rfl
  refine ⟨t, flush2_4 t, ?_⟩
  rw [mem_blk2h]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The same for the second output. -/
theorem cover2z (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 5000, by rw [show cfg2.N = 20 from N_2]; omega⟩
  obtain ⟨e00, e01, e10, e11, e20, e21, e30, e31, e40, e41, e50, e51⟩ := idx_facts2 t
  have ht : t.val = (i 0).val / 5000 := rfl
  refine ⟨t, flush2_5 t, ?_⟩
  rw [mem_blk2z]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The first array region 2 leaves, as one function of the arrays it finds. -/
theorem final2h (c : Dev nD) :
    (dat2 V c).arrAt 4 cfg2.N = G2h (V c main_v51_0) (V c main_v62) (V c main_v64) :=
  (dat2 V c).arrAt_eq_of_cover 4 (G2h (V c main_v51_0) (V c main_v62) (V c main_v64))
    (fun t _ => flushed2h_eq V c t) cover2h

/-- The second. -/
theorem final2z (c : Dev nD) :
    (dat2 V c).arrAt 5 cfg2.N = G2z (V c main_v51_0) (V c main_v62) (V c main_v64) (V c main_v66) :=
  (dat2 V c).arrAt_eq_of_cover 5 (G2z (V c main_v51_0) (V c main_v62) (V c main_v64) (V c main_v66))
    (fun t _ => flushed2z_eq V c t) cover2z

/-- Region 2's first output, entry by entry. -/
theorem r2_h (c : Dev nD) (n : Fin 100000) (k : Fin 128) :
    (dat2 V c).arrAt 4 cfg2.N (ix2 n k)
      = lrelu (V c main_v51_0 (ix2 n k) ⋆ V c main_v62 (ix2 (0 : Fin 1) k) ⊹ V c main_v64 (ix2 (0 : Fin 1) k)) := by
  rw [final2h]

/-- Region 2's second output, entry by entry. -/
theorem r2_z (c : Dev nD) (n : Fin 100000) (j : Fin 64) :
    (dat2 V c).arrAt 5 cfg2.N (ix2 n j)
      = ∑ k : Fin 128, lrelu (V c main_v51_0 (ix2 n k) ⋆ V c main_v62 (ix2 (0 : Fin 1) k) ⊹ V c main_v64 (ix2 (0 : Fin 1) k))
          ⋆ V c main_v66 (ix2 k j) := by
  rw [final2z]

/-- The array region 6 writes: each row of the two feature arrays against each column of its weight matrix, the two
    products added, plus the bias row. -/
abbrev G6 (a0 a1 : S100000x64.Idx → EReal) (a2 a3 : S64x64.Idx → EReal) (a4 : S1x64.Idx → EReal) :
    S100000x64.Idx → EReal :=
  fun i => (∑ q : Fin 64, a0 (ix2 (i 0 : Fin 100000) q) * a2 (ix2 q (i 1 : Fin 64))
      + ∑ q : Fin 64, a1 (ix2 (i 0 : Fin 100000) q) * a3 (ix2 q (i 1 : Fin 64))) + a4 (ix2 (0 : Fin 1) (i 1 : Fin 64))

/-- What point `t` writes back is block `t` of `G6` of the arrays the region finds. -/
theorem flushed6_eq (c : Dev nD) (t : Fin cfg6.N) :
    (dat6 V c).flushed 5 t = ((cfg6.win 5).blk t).view.read (Elt Ideal)
      (G6 (V c main_v99) (V c main_v113) (V c main_v115) (V c main_v117) (V c main_v118)) := by
  show (cfg6.win 5).cut (grid6.coords t) ((dat6 V c).after 5 t) = _
  rw [after6_5]
  unfold out6_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts6 t
  refine funext fun (j : S5000x64.Idx) => ?_
  obtain ⟨r, p, rfl⟩ : ∃ (r : Fin 5000) (p : Fin 64), j = ix2 r p := ⟨j 0, j 1, eq_ix2 j⟩
  show k6_pay1 (iblk6 V c 0 t) (iblk6 V c 1 t) (iblk6 V c 2 t) (iblk6 V c 3 t) (iblk6 V c 4 t) (ix2 r p)
      = G6 (V c main_v99) (V c main_v113) (V c main_v115) (V c main_v117) (V c main_v118)
          (((cfg6.win 5).blk t).view.emb (ix2 r p))
  refine (pay6_apply _ _ _ _ _ r p).trans ?_
  have hcol : ((((cfg6.win 5).blk t).view.emb (ix2 r p)) 1 : Fin 64) = p := by
    apply Fin.ext
    show win6_5.index t (1 : Fin 2) * 64 + 1 * p.val = p.val
    omega
  have h0 : ∀ q : Fin 64, iblk6 V c 0 t (ix2 r q)
      = V c main_v99 (ix2 ((((cfg6.win 5).blk t).view.emb (ix2 r p)) 0 : Fin 100000) q) := fun q => by
    show V c main_v99 (((cfg6.win 0).blk t).view.emb (ix2 r q))
      = V c main_v99 (ix2 ((((cfg6.win 5).blk t).view.emb (ix2 r p)) 0 : Fin 100000) q)
    refine congrArg (V c main_v99) ?_
    funext a; apply Fin.ext
    match a with
    | ⟨0, _⟩ => show win6_0.index t (0 : Fin 2) * 5000 + 1 * r.val = win6_5.index t (0 : Fin 2) * 5000 + 1 * r.val; omega
    | ⟨1, _⟩ => show win6_0.index t (1 : Fin 2) * 64 + 1 * q.val = q.val; omega
  have h1 : ∀ q : Fin 64, iblk6 V c 1 t (ix2 r q)
      = V c main_v113 (ix2 ((((cfg6.win 5).blk t).view.emb (ix2 r p)) 0 : Fin 100000) q) := fun q => by
    show V c main_v113 (((cfg6.win 1).blk t).view.emb (ix2 r q))
      = V c main_v113 (ix2 ((((cfg6.win 5).blk t).view.emb (ix2 r p)) 0 : Fin 100000) q)
    refine congrArg (V c main_v113) ?_
    funext a; apply Fin.ext
    match a with
    | ⟨0, _⟩ => show win6_1.index t (0 : Fin 2) * 5000 + 1 * r.val = win6_5.index t (0 : Fin 2) * 5000 + 1 * r.val; omega
    | ⟨1, _⟩ => show win6_1.index t (1 : Fin 2) * 64 + 1 * q.val = q.val; omega
  have h2 : ∀ q : Fin 64, iblk6 V c 2 t (ix2 q p) = V c main_v115 (ix2 q p) := fun q => by
    show V c main_v115 (((cfg6.win 2).blk t).view.emb (ix2 q p)) = V c main_v115 (ix2 q p)
    refine congrArg (V c main_v115) ?_
    funext a; apply Fin.ext
    match a with
    | ⟨0, _⟩ => show win6_2.index t (0 : Fin 2) * 64 + 1 * q.val = q.val; omega
    | ⟨1, _⟩ => show win6_2.index t (1 : Fin 2) * 64 + 1 * p.val = p.val; omega
  have h3 : ∀ q : Fin 64, iblk6 V c 3 t (ix2 q p) = V c main_v117 (ix2 q p) := fun q => by
    show V c main_v117 (((cfg6.win 3).blk t).view.emb (ix2 q p)) = V c main_v117 (ix2 q p)
    refine congrArg (V c main_v117) ?_
    funext a; apply Fin.ext
    match a with
    | ⟨0, _⟩ => show win6_3.index t (0 : Fin 2) * 64 + 1 * q.val = q.val; omega
    | ⟨1, _⟩ => show win6_3.index t (1 : Fin 2) * 64 + 1 * p.val = p.val; omega
  have h4 : iblk6 V c 4 t (ix2 (0 : Fin 1) p) = V c main_v118 (ix2 (0 : Fin 1) p) := by
    show V c main_v118 (((cfg6.win 4).blk t).view.emb (ix2 (0 : Fin 1) p)) = V c main_v118 (ix2 (0 : Fin 1) p)
    refine congrArg (V c main_v118) ?_
    funext a; apply Fin.ext
    match a with
    | ⟨0, _⟩ => show win6_4.index t (0 : Fin 2) * 1 + 1 * 0 = 0; omega
    | ⟨1, _⟩ => show win6_4.index t (1 : Fin 2) * 64 + 1 * p.val = p.val; omega
  show ((∑ q : Fin 64, iblk6 V c 0 t (ix2 r q) ⋆ iblk6 V c 2 t (ix2 q p))
        ⊹ (∑ q : Fin 64, iblk6 V c 1 t (ix2 r q) ⋆ iblk6 V c 3 t (ix2 q p))) ⊹ iblk6 V c 4 t (ix2 (0 : Fin 1) p)
    = ((∑ q : Fin 64, V c main_v99 (ix2 ((((cfg6.win 5).blk t).view.emb (ix2 r p)) 0 : Fin 100000) q)
            ⋆ V c main_v115 (ix2 q ((((cfg6.win 5).blk t).view.emb (ix2 r p)) 1 : Fin 64)))
        ⊹ (∑ q : Fin 64, V c main_v113 (ix2 ((((cfg6.win 5).blk t).view.emb (ix2 r p)) 0 : Fin 100000) q)
            ⋆ V c main_v117 (ix2 q ((((cfg6.win 5).blk t).view.emb (ix2 r p)) 1 : Fin 64))))
      ⊹ V c main_v118 (ix2 (0 : Fin 1) ((((cfg6.win 5).blk t).view.emb (ix2 r p)) 1 : Fin 64))
  rw [hcol, h4]
  refine congrArg (· ⊹ V c main_v118 (ix2 (0 : Fin 1) p)) ?_
  refine congrArg₂ (· ⊹ ·) (Finset.sum_congr rfl fun q _ => ?_) (Finset.sum_congr rfl fun q _ => ?_)
  · rw [h0 q, h2 q]
  · rw [h1 q, h3 q]

/-- An index of the output is in point `t`'s block iff each coordinate is in the block's range on its axis. -/
theorem mem_blk6 (t : Fin cfg6.N) (i : S100000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole main_v119).slice (win6_5.rect t)).set ↔ _
  rw [View.set_slice_whole, Rect.mem_set_unit]
  exact Iff.rfl

/-- Row `n` of the output lies in the block of the point `n / 5000`, and every point writes back. -/
theorem cover6 (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  let t : Fin cfg6.N := ⟨(i 0).val / 5000, by rw [show cfg6.N = 20 from N_6]; omega⟩
  obtain ⟨e00, e01, e10, e11, e20, e21, e30, e31, e40, e41, e50, e51⟩ := idx_facts6 t
  have ht : t.val = (i 0).val / 5000 := rfl
  refine ⟨t, flush6_5 t, ?_⟩
  rw [mem_blk6]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 64 ≤ (i 1).val ∧ (i 1).val < win6_5.index t (1 : Fin 2) * 64 + 64; omega

/-- The array region 6 leaves, as one function of the arrays it finds. -/
theorem final6 (c : Dev nD) :
    (dat6 V c).arrAt 5 cfg6.N = G6 (V c main_v99) (V c main_v113) (V c main_v115) (V c main_v117) (V c main_v118) :=
  (dat6 V c).arrAt_eq_of_cover 5 (G6 (V c main_v99) (V c main_v113) (V c main_v115) (V c main_v117) (V c main_v118))
    (fun t _ => flushed6_eq V c t) cover6

/-- Region 6's output, entry by entry. -/
theorem r6_out (c : Dev nD) (n : Fin 100000) (j : Fin 64) :
    (dat6 V c).arrAt 5 cfg6.N (ix2 n j)
      = (∑ k : Fin 64, V c main_v99 (ix2 n k) ⋆ V c main_v115 (ix2 k j)
          ⊹ ∑ k : Fin 64, V c main_v113 (ix2 n k) ⋆ V c main_v117 (ix2 k j)) ⊹ V c main_v118 (ix2 (0 : Fin 1) j) := by
  rw [final6]

end Cert.KRegMap

end
-- ==== Proof.KReg3.lean ====
/-
  The second convolution kernel, point by point, and its two arrays after the run. A block of the convolution is, at
  row r and column j, the row of the features against column j of the weights, plus the already propagated and
  projected entry, plus the bias; the column-sum row gains, at every point, the column sums of that point's block,
  from zero at the first point. Over the twenty points of 5000 rows the blocks tile the 100000 rows, so the
  convolution ends as one array and the column-sum row as the sums over all rows.
-/
import proofs.«126863_j82781199663546_2_alg».proof.Proof.Gen.KernelIdeal.Frame
import proofs.«126863_j82781199663546_2_alg».proof.Proof.LibPlainDot
import proofs.«126863_j82781199663546_2_alg».proof.Proof.LibLayout
import proofs.«126863_j82781199663546_2_alg».proof.Proof.LibBlockSum
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open scoped BigOperators

namespace Cert.KReg3

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

/-- The zero offset on both axes, spelled both ways. -/
theorem hz : (![0, 0] : Fin 2 → Nat) = fun _ => 0 := funext fun a => by fin_cases a <;> rfl

/-! ## The body's arithmetic at an entry -/

/-- The body's product contracts the left operand's columns against the right operand's rows. -/
theorem plain_128_64 : Cert.PlainDot.IsPlain dot_S5000x128_S128x64_S5000x64_1_0_0_1_n_n := ⟨rfl, rfl, rfl, rfl, rfl, rfl⟩
/-- A row [1, C] repeated down R rows: entry (r, c) is the row's entry c. -/
theorem row_down {α : Type} {R C : Nat} (hC : C ≠ 1) (v : (⟨2, ![1, C]⟩ : Shape).Idx → α)
    (hb : (⟨2, ![1, C]⟩ : Shape).Broadcasts ⟨2, ![R, C]⟩) (r : Fin R) (c : Fin C) :
    broadcastTo ⟨2, ![R, C]⟩ v hb (ix2 r c) = v (ix2 (0 : Fin 1) c) :=
  broadcastTo_apply v hb (ix2 r c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])

/-- The sum of column c of an [R, C] array over its R rows, from a zero initial value. -/
theorem col_sum {R C : ℕ} (v : FVec Ideal ⟨2, ![R, C]⟩ .f32) (h : (⟨2, ![R, C]⟩ : Shape).Reduces [0] ⟨1, ![C]⟩)
    (hφ : FKind.Formats .f32) (hacc : (0x00000000#32 : BitVec (FTy.f32).bits) = FKind.add.neutral .f32 hφ) (c : Fin C) :
    multiReduction .add [0] ⟨1, ![C]⟩ v 0x00000000#32 h hφ hacc (ix1 c) = ∑ r : Fin R, v (ix2 r c) :=
  (Ideal.multiReduction_add_single v 0x00000000#32 h hφ hacc (ix1 c)).trans
    (Finset.sum_congr rfl fun k _ => congrArg v (funext fun a => Fin.ext (by
      match a with
      | ⟨0, _⟩ => rfl
      | ⟨1, _⟩ => rfl)))

/-- Second layer: a block of the convolution at (r, j). -/
theorem conv3_apply (v3 : Vec Ideal S5000x128 .bf16) (v5 : Vec Ideal S128x64 .f32) (v9 : Vec Ideal S5000x64 .f32)
    (v12 : Vec Ideal S1x64 .f32) (r : Fin 5000) (j : Fin 64) :
    (k3_pay2 (F := Ideal) v3 v5 v9 v12 : S5000x64.Idx → EReal) (ix2 r j)
      = (∑ k : Fin 128, (v3 : S5000x128.Idx → EReal) (ix2 r k) * (v5 : S128x64.Idx → EReal) (ix2 k j)
          + (v9 : S5000x64.Idx → EReal) (ix2 r j))
        + (v12 : S1x64.Idx → EReal) (ix2 (0 : Fin 1) j) := by
  unfold k3_pay2
  simp only [shapeCast_self]
  show (matmul (F := Ideal) dot_S5000x128_S128x64_S5000x64_1_0_0_1_n_n none _ _ _ (ix2 r j) + (v9 : S5000x64.Idx → EReal) (ix2 r j))
      + broadcastTo S5000x64 v12 broadcasts_S1x64_S5000x64 (ix2 r j) = _
  rw [Cert.PlainDot.matmul_zero_apply plain_128_64, row_down (by decide) v12 broadcasts_S1x64_S5000x64 r j]
  rfl

/-- Second layer: the accumulator row after a block, in column j. -/
theorem acc3_apply (v3 : Vec Ideal S5000x128 .bf16) (v5 : Vec Ideal S128x64 .f32) (v9 : Vec Ideal S5000x64 .f32)
    (v12 v17 : Vec Ideal S1x64 .f32) (j : Fin 64) :
    (k3_pay3 (F := Ideal) v3 v5 v9 v12 v17 : S1x64.Idx → EReal) (ix2 (0 : Fin 1) j)
      = (v17 : S1x64.Idx → EReal) (ix2 (0 : Fin 1) j)
        + ∑ r : Fin 5000, (k3_pay2 (F := Ideal) v3 v5 v9 v12 : S5000x64.Idx → EReal) (ix2 r j) := by
  unfold k3_pay3
  simp only [shapeCast_self]
  show (v17 : S1x64.Idx → EReal) (ix2 (0 : Fin 1) j)
      + shapeCast S1x64 (multiReduction .add [0] S64 (k3_pay2 (F := Ideal) v3 v5 v9 v12) 0x00000000#32
          reduces_S5000x64_S64 (.inl rfl) rfl) shapeCasts_S64_S1x64 (ix2 (0 : Fin 1) j) = _
  rw [Cert.Lib.bias_row _ shapeCasts_S64_S1x64 (ix2 (0 : Fin 1) j) (ix1 j) rfl]
  exact congrArg (fun z => (v17 : S1x64.Idx → EReal) (ix2 (0 : Fin 1) j) + z)
    (col_sum (k3_pay2 (F := Ideal) v3 v5 v9 v12) reduces_S5000x64_S64 _ _ j)

/-! ## What each case of the body leaves -/

/-- At the first point the convolution's buffer holds the convolution of the blocks. -/
theorem out_A_4 (c : Dev nD) (i : grid3.Coords) (a1 : Memref sig .tc .vmem S5000x128 .bf16) (h1 : a1.IsWhole) (a2 : Memref sig .tc .vmem S5000x64 .f32) (h2 : a2.IsWhole) (a3 : Memref sig .tc .vmem S128x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (hc : cond3_0 i) (x0 : Vec F S5000x128 .bf16) (x1 : Vec F S5000x64 .f32) (x2 : Vec F S128x64 .f32) (x3 : Vec F S1x64 .f32) :
    out3_A_4 c i a1 h1 a2 h2 a3 h3 a4 h4 a5 h5 a6 h6 hc x0 x1 x2 x3 = k3_pay2 x0 x2 x1 x3 := by
  unfold out3_A_4
  rw [View.read_writes_eq_canon _ _ _ (cover3_A_4 c i a1 h1 a2 h2 a3 h3 a4 h4 a5 h5 a6 h6 hc x0 x1 x2 x3)]
  unfold kernelRun3_A
  dsimp only
  rw [View.canon_unit_zero hz]
  simp only [View.readAt_eq_ld, h1.read_unread, h2.read_unread, h3.read_unread, h4.read_unread, h6.read_unread, View.ld_unit_zero (S := S5000x128) hz, View.ld_unit_zero (S := S5000x64) hz, View.ld_unit_zero (S := S128x64) hz, View.ld_unit_zero (S := S1x64) hz]

/-- At a later point too. -/
theorem out_B_4 (c : Dev nD) (i : grid3.Coords) (a1 : Memref sig .tc .vmem S5000x128 .bf16) (h1 : a1.IsWhole) (a2 : Memref sig .tc .vmem S5000x64 .f32) (h2 : a2.IsWhole) (a3 : Memref sig .tc .vmem S128x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (hc : ¬cond3_0 i) (x0 : Vec F S5000x128 .bf16) (x1 : Vec F S5000x64 .f32) (x2 : Vec F S128x64 .f32) (x3 : Vec F S1x64 .f32) (xo : Vec F S1x64 .f32) :
    out3_B_4 c i a1 h1 a2 h2 a3 h3 a4 h4 a5 h5 a6 h6 hc x0 x1 x2 x3 xo = k3_pay2 x0 x2 x1 x3 := by
  unfold out3_B_4
  rw [View.read_writes_eq_canon _ _ _ (cover3_B_4 c i a1 h1 a2 h2 a3 h3 a4 h4 a5 h5 a6 h6 hc x0 x1 x2 x3 xo)]
  unfold kernelRun3_B
  dsimp only
  rw [View.canon_unit_zero hz]
  simp only [View.readAt_eq_ld, h1.read_unread, h2.read_unread, h3.read_unread, h4.read_unread, h6.read_unread, View.ld_unit_zero (S := S5000x128) hz, View.ld_unit_zero (S := S5000x64) hz, View.ld_unit_zero (S := S128x64) hz, View.ld_unit_zero (S := S1x64) hz]

/-- At the first point the column-sum's buffer is reset to zero, read back, and gains the block's column sums. -/
theorem out_A_5 (c : Dev nD) (i : grid3.Coords) (a1 : Memref sig .tc .vmem S5000x128 .bf16) (h1 : a1.IsWhole) (a2 : Memref sig .tc .vmem S5000x64 .f32) (h2 : a2.IsWhole) (a3 : Memref sig .tc .vmem S128x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (hc : cond3_0 i) (x0 : Vec F S5000x128 .bf16) (x1 : Vec F S5000x64 .f32) (x2 : Vec F S128x64 .f32) (x3 : Vec F S1x64 .f32) :
    out3_A_5 c i a1 h1 a2 h2 a3 h3 a4 h4 a5 h5 a6 h6 hc x0 x1 x2 x3 = k3_pay3 x0 x2 x1 x3 (k3_pay1 (F := F)) := by
  unfold out3_A_5
  rw [View.read_writes_eq_canon _ _ _ (cover3_A_5 c i a1 h1 a2 h2 a3 h3 a4 h4 a5 h5 a6 h6 hc x0 x1 x2 x3)]
  unfold kernelRun3_A
  dsimp only
  sl_unfold_words
  rw [View.canon_cons_unit_zero (S := S1x64) hz]
  simp only [View.readCov_unit_zero (S := S1x64) _ hz, View.readAt_eq_ld, h1.read_unread, h2.read_unread, h3.read_unread, h4.read_unread, View.ld_unit_zero (S := S5000x128) hz, View.ld_unit_zero (S := S5000x64) hz, View.ld_unit_zero (S := S128x64) hz, View.ld_unit_zero (S := S1x64) hz]

/-- At a later point it gains the block's column sums over what it held. -/
theorem out_B_5 (c : Dev nD) (i : grid3.Coords) (a1 : Memref sig .tc .vmem S5000x128 .bf16) (h1 : a1.IsWhole) (a2 : Memref sig .tc .vmem S5000x64 .f32) (h2 : a2.IsWhole) (a3 : Memref sig .tc .vmem S128x64 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (hc : ¬cond3_0 i) (x0 : Vec F S5000x128 .bf16) (x1 : Vec F S5000x64 .f32) (x2 : Vec F S128x64 .f32) (x3 : Vec F S1x64 .f32) (xo : Vec F S1x64 .f32) :
    out3_B_5 c i a1 h1 a2 h2 a3 h3 a4 h4 a5 h5 a6 h6 hc x0 x1 x2 x3 xo = k3_pay3 x0 x2 x1 x3 xo := by
  unfold out3_B_5
  rw [View.read_writes_eq_canon _ _ _ (cover3_B_5 c i a1 h1 a2 h2 a3 h3 a4 h4 a5 h5 a6 h6 hc x0 x1 x2 x3 xo)]
  unfold kernelRun3_B
  dsimp only
  rw [View.canon_unit_zero hz]
  simp only [View.readAt_eq_ld, h1.read_unread, h2.read_unread, h3.read_unread, h4.read_unread, h6.read_unread, View.ld_unit_zero (S := S5000x128) hz, View.ld_unit_zero (S := S5000x64) hz, View.ld_unit_zero (S := S128x64) hz, View.ld_unit_zero (S := S1x64) hz]

/-! ## The two buffers after every point -/

section Points

variable (V : (c : Dev nD) → (b : Ref sig .tc) → Buf (Elt F) ((c : Thread nD τ).loc b))

/-- The convolution of the blocks of point `t`. -/
abbrev convAt (c : Dev nD) (t : Fin cfg3.N) : Vec F S5000x64 .f32 := k3_pay2 (iblk3 V c 0 t) (iblk3 V c 2 t) (iblk3 V c 1 t) (iblk3 V c 3 t)

/-- After point `n` the convolution's buffer holds the convolution of that point's blocks. -/
theorem outs_conv (c : Dev nD) (n : ℕ) (h : n < cfg3.N) : (outsAt3 V c n h).1 = convAt V c ⟨n, h⟩ := by
  by_cases h0 : n % 20 = 0
  · rw [outsAt3_A V c ⟨n, h⟩ h0, out_A_4]
  · rw [outsAt3_B V c ⟨n, h⟩ h0, out_B_4]

/-- The running column sums: zero plus the first block's, then each later block's added. -/
def chain (c : Dev nD) : (n : ℕ) → n < cfg3.N → Vec F S1x64 .f32
  | 0, h => k3_pay3 (iblk3 V c 0 ⟨0, h⟩) (iblk3 V c 2 ⟨0, h⟩) (iblk3 V c 1 ⟨0, h⟩) (iblk3 V c 3 ⟨0, h⟩) (k3_pay1 (F := F))
  | n + 1, h => k3_pay3 (iblk3 V c 0 ⟨n + 1, h⟩) (iblk3 V c 2 ⟨n + 1, h⟩) (iblk3 V c 1 ⟨n + 1, h⟩) (iblk3 V c 3 ⟨n + 1, h⟩) (chain c n (Nat.lt_of_succ_lt h))

/-- After point `n` the column-sum's buffer holds the running column sums. -/
theorem outs_sum (c : Dev nD) : ∀ (n : ℕ) (h : n < cfg3.N), (outsAt3 V c n h).2 = chain V c n h
  | 0, h => by
    rw [outsAt3_A V c ⟨0, h⟩ rfl, out_A_5]
    rfl
  | n + 1, h => by
    have hN : cfg3.N = 20 := N_3
    have hB : ¬(n + 1) % 20 = 0 := by omega
    rw [outsAt3_B V c ⟨n + 1, h⟩ hB, out_B_5]
    show k3_pay3 _ _ _ _ (outsAt3 V c n _).2 = k3_pay3 _ _ _ _ (chain V c n _)
    rw [outs_sum c n]

end Points

/-! ## The arrays after the run -/

section Value

variable (V : (c : Dev nD) → (b : Ref sig .tc) → Buf (Elt Ideal) ((c : Thread nD τ).loc b))

/-- The windows' block indices over the grid: the row blocks move with the point, the small operands and the
    column-sum stay at block zero. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0 :=
  (by decide +kernel : ∀ t : Fin grid3.N, _)

/-- Entry (n, j) of the convolution of plain arrays: features against the weights, plus the propagated projection,
    plus the bias. -/
def convOf (x : S100000x128.Idx → EReal) (pz : S100000x64.Idx → EReal) (w : S128x64.Idx → EReal) (b : S1x64.Idx → EReal)
    (n : Fin 100000) (j : Fin 64) : EReal :=
  (∑ k : Fin 128, x (ix2 n k) * w (ix2 k j) + pz (ix2 n j)) + b (ix2 (0 : Fin 1) j)

/-- Entry (n, j) of the convolution, from the arrays the region finds. -/
abbrev convEntry (c : Dev nD) (n : Fin 100000) (j : Fin 64) : EReal :=
  convOf (V c main_v67_0) (V c main_v81) (V c main_v83) (V c main_v84) n j

/-- The convolution as one array. -/
def convArr (c : Dev nD) : S100000x64.Idx → EReal := fun i => convEntry V c (i 0) (i 1)

/-- Row r of the features' block at point t is row 5000·t + r of the features. -/
theorem blk_x (c : Dev nD) (t : Fin cfg3.N) (r : Fin 5000) (k : Fin 128) (hn : 5000 * t.val + r.val < 100000) :
    (iblk3 V c 0 t : S5000x128.Idx → EReal) (ix2 r k) = (V c main_v67_0 : S100000x128.Idx → EReal) (ix2 ⟨5000 * t.val + r.val, hn⟩ k) := by
  obtain ⟨e0, e1, -⟩ := idx_facts t
  show (V c main_v67_0 : S100000x128.Idx → EReal) (((cfg3.win 0).blk t).view.emb (ix2 r k)) = _
  refine congrArg (V c main_v67_0 : S100000x128.Idx → EReal) (funext fun a => Fin.ext ?_)
  match a with
  | ⟨0, _⟩ => show win3_0.index t (0 : Fin 2) * 5000 + 1 * r.val = 5000 * t.val + r.val; rw [e0]; omega
  | ⟨1, _⟩ => show win3_0.index t (1 : Fin 2) * 128 + 1 * k.val = k.val; rw [e1]; omega

/-- The same for the propagated projection. -/
theorem blk_p (c : Dev nD) (t : Fin cfg3.N) (r : Fin 5000) (j : Fin 64) (hn : 5000 * t.val + r.val < 100000) :
    (iblk3 V c 1 t : S5000x64.Idx → EReal) (ix2 r j) = (V c main_v81 : S100000x64.Idx → EReal) (ix2 ⟨5000 * t.val + r.val, hn⟩ j) := by
  obtain ⟨-, -, e0, e1, -⟩ := idx_facts t
  show (V c main_v81 : S100000x64.Idx → EReal) (((cfg3.win 1).blk t).view.emb (ix2 r j)) = _
  refine congrArg (V c main_v81 : S100000x64.Idx → EReal) (funext fun a => Fin.ext ?_)
  match a with
  | ⟨0, _⟩ => show win3_1.index t (0 : Fin 2) * 5000 + 1 * r.val = 5000 * t.val + r.val; rw [e0]; omega
  | ⟨1, _⟩ => show win3_1.index t (1 : Fin 2) * 64 + 1 * j.val = j.val; rw [e1]; omega

/-- The weight block and the bias block are the whole arrays at every point. -/
theorem blk_w (c : Dev nD) (t : Fin cfg3.N) (k : Fin 128) (j : Fin 64) :
    (iblk3 V c 2 t : S128x64.Idx → EReal) (ix2 k j) = (V c main_v83 : S128x64.Idx → EReal) (ix2 k j) := by
  obtain ⟨-, -, -, -, e0, e1, -⟩ := idx_facts t
  show (V c main_v83 : S128x64.Idx → EReal) (((cfg3.win 2).blk t).view.emb (ix2 k j)) = _
  refine congrArg (V c main_v83 : S128x64.Idx → EReal) (funext fun a => Fin.ext ?_)
  match a with
  | ⟨0, _⟩ => show win3_2.index t (0 : Fin 2) * 128 + 1 * k.val = k.val; rw [e0]; omega
  | ⟨1, _⟩ => show win3_2.index t (1 : Fin 2) * 64 + 1 * j.val = j.val; rw [e1]; omega

theorem blk_b (c : Dev nD) (t : Fin cfg3.N) (j : Fin 64) :
    (iblk3 V c 3 t : S1x64.Idx → EReal) (ix2 (0 : Fin 1) j) = (V c main_v84 : S1x64.Idx → EReal) (ix2 (0 : Fin 1) j) := by
  obtain ⟨-, -, -, -, -, -, e0, e1, -⟩ := idx_facts t
  show (V c main_v84 : S1x64.Idx → EReal) (((cfg3.win 3).blk t).view.emb (ix2 (0 : Fin 1) j)) = _
  refine congrArg (V c main_v84 : S1x64.Idx → EReal) (funext fun a => Fin.ext ?_)
  match a with
  | ⟨0, _⟩ => show win3_3.index t (0 : Fin 2) * 1 + 1 * 0 = 0; rw [e0]
  | ⟨1, _⟩ => show win3_3.index t (1 : Fin 2) * 64 + 1 * j.val = j.val; rw [e1]; omega

/-- Row r of the convolution of point t's blocks is row 5000·t + r of the convolution. -/
theorem convAt_apply (c : Dev nD) (t : Fin cfg3.N) (r : Fin 5000) (j : Fin 64) (hn : 5000 * t.val + r.val < 100000) :
    (convAt V c t : S5000x64.Idx → EReal) (ix2 r j) = convEntry V c ⟨5000 * t.val + r.val, hn⟩ j := by
  refine (conv3_apply (iblk3 V c 0 t) (iblk3 V c 2 t) (iblk3 V c 1 t) (iblk3 V c 3 t) r j).trans ?_
  show _ = convOf (V c main_v67_0) (V c main_v81) (V c main_v83) (V c main_v84) ⟨5000 * t.val + r.val, hn⟩ j
  unfold convOf
  refine congrArg₂ (fun a b : EReal => a + b)
    (congrArg₂ (fun a b : EReal => a + b) (Finset.sum_congr rfl fun k _ => ?_) (blk_p V c t r j hn))
    (blk_b V c t j)
  rw [blk_x V c t r k hn, blk_w V c t k j]

/-- What point t writes back of the convolution is block t of the convolution. -/
theorem flushed_conv (c : Dev nD) (t : Fin cfg3.N) :
    (dat3 V c).flushed 4 t = ((cfg3.win 4).blk t).view.read (Elt Ideal) (convArr V c) := by
  show (cfg3.win 4).cut (grid3.coords t) ((dat3 V c).after 4 t) = _
  rw [after3_4, outs_conv]
  have hN : t.val < 20 := lt_of_lt_of_eq t.isLt N_3
  obtain ⟨-, -, -, -, -, -, -, -, e0, e1, -⟩ := idx_facts t
  funext y
  obtain ⟨p, q, rfl⟩ : ∃ (p : Fin 5000) (q : Fin 64), y = ix2 p q := ⟨y 0, y 1, eq_ix2 y⟩
  have hp : p.val < 5000 := p.isLt
  show (convAt V c t : S5000x64.Idx → EReal) (ix2 p q) = convArr V c (((cfg3.win 4).blk t).view.emb (ix2 p q))
  rw [convAt_apply V c t p q (by omega)]
  show convArr V c (ix2 ⟨5000 * t.val + p.val, by omega⟩ q) = _
  refine congrArg (convArr V c) (funext fun a => Fin.ext ?_)
  match a with
  | ⟨0, _⟩ => show 5000 * t.val + p.val = win3_4.index t (0 : Fin 2) * 5000 + 1 * p.val; rw [e0]; omega
  | ⟨1, _⟩ => show q.val = win3_4.index t (1 : Fin 2) * 64 + 1 * q.val; rw [e1]; omega

/-- An index is in point t's block of the convolution iff each coordinate is in the block's range. -/
theorem mem_blk_conv (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v85_0).slice (win3_4.rect t)).set ↔ _
  rw [View.set_slice_whole, Rect.mem_set_unit]
  exact Iff.rfl

/-- Row n is in the block of point n / 5000. -/
theorem cover_conv (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hlt : (i 0).val / 5000 < cfg3.N := lt_of_lt_of_eq (by omega : (i 0).val / 5000 < 20) N_3.symm
  refine ⟨⟨(i 0).val / 5000, hlt⟩, flush3_4 _, ?_⟩
  rw [mem_blk_conv]
  obtain ⟨-, -, -, -, -, -, -, -, e0, e1, -⟩ := idx_facts ⟨(i 0).val / 5000, hlt⟩
  intro a
  match a with
  | ⟨0, _⟩ =>
    show win3_4.index ⟨(i 0).val / 5000, hlt⟩ (0 : Fin 2) * 5000 ≤ (i 0).val ∧ (i 0).val < win3_4.index ⟨(i 0).val / 5000, hlt⟩ (0 : Fin 2) * 5000 + 5000
    rw [e0]; dsimp only; omega
  | ⟨1, _⟩ =>
    show win3_4.index ⟨(i 0).val / 5000, hlt⟩ (1 : Fin 2) * 64 ≤ (i 1).val ∧ (i 1).val < win3_4.index ⟨(i 0).val / 5000, hlt⟩ (1 : Fin 2) * 64 + 64
    rw [e1]; omega

/-- THE CONVOLUTION after the run: entry `(n, j)` of the array the region leaves is row `n` of the features against
    column `j` of the weights, plus entry `(n, j)` of the propagated projection, plus the bias of column `j`, all read
    from the arrays the region finds. -/
theorem r3_conv (c : Dev nD) (n : Fin 100000) (j : Fin 64) :
    ((dat3 V c).arrAt 4 cfg3.N : S100000x64.Idx → EReal) (ix2 n j) = convEntry V c n j := by
  rw [(dat3 V c).arrAt_eq_of_cover 4 (convArr V c) (fun t _ => flushed_conv V c t) cover_conv]
  rfl

/-! ### The column sums -/

/-- Row m of the convolution in column j, and zero past the last row: the summand of the running sums. -/
def rowTerm (c : Dev nD) (j : Fin 64) (m : ℕ) : EReal := if h : m < 100000 then convEntry V c ⟨m, h⟩ j else 0

/-- The column sums of point t's block. -/
theorem block_sum (c : Dev nD) (t : Fin cfg3.N) (j : Fin 64) :
    ∑ r : Fin 5000, (convAt V c t : S5000x64.Idx → EReal) (ix2 r j) = ∑ r : Fin 5000, rowTerm V c j (5000 * t.val + r.val) := by
  have hN : t.val < 20 := lt_of_lt_of_eq t.isLt N_3
  refine Finset.sum_congr rfl fun r _ => ?_
  have hr : r.val < 5000 := r.isLt
  have hn : 5000 * t.val + r.val < 100000 := by omega
  rw [convAt_apply V c t r j hn]
  unfold rowTerm
  rw [dif_pos hn]

/-- The running column sums after point n, in column j: zero plus the block sums of points 0 … n. -/
theorem chain_apply (c : Dev nD) (j : Fin 64) : ∀ (n : ℕ) (h : n < cfg3.N),
    (chain V c n h : S1x64.Idx → EReal) (ix2 (0 : Fin 1) j)
      = 0 + ∑ s ∈ Finset.range (n + 1), ∑ r : Fin 5000, rowTerm V c j (5000 * s + r.val)
  | 0, h => by
    show (k3_pay3 (F := Ideal) (iblk3 V c 0 ⟨0, h⟩) (iblk3 V c 2 ⟨0, h⟩) (iblk3 V c 1 ⟨0, h⟩) (iblk3 V c 3 ⟨0, h⟩) (k3_pay1 (F := Ideal)) : S1x64.Idx → EReal) (ix2 (0 : Fin 1) j) = _
    refine (acc3_apply (iblk3 V c 0 ⟨0, h⟩) (iblk3 V c 2 ⟨0, h⟩) (iblk3 V c 1 ⟨0, h⟩) (iblk3 V c 3 ⟨0, h⟩) (k3_pay1 (F := Ideal)) j).trans ?_
    rw [Finset.sum_range_one]
    refine congrArg₂ (fun a b : EReal => a + b) ?_ (block_sum V c ⟨0, h⟩ j)
    show Ideal.ofBits .f32 0x00000000#32 = 0
    exact Ideal.ofBits_zero_f32
  | n + 1, h => by
    show (k3_pay3 (F := Ideal) (iblk3 V c 0 ⟨n + 1, h⟩) (iblk3 V c 2 ⟨n + 1, h⟩) (iblk3 V c 1 ⟨n + 1, h⟩) (iblk3 V c 3 ⟨n + 1, h⟩) (chain V c n (Nat.lt_of_succ_lt h)) : S1x64.Idx → EReal) (ix2 (0 : Fin 1) j) = _
    refine (acc3_apply (iblk3 V c 0 ⟨n + 1, h⟩) (iblk3 V c 2 ⟨n + 1, h⟩) (iblk3 V c 1 ⟨n + 1, h⟩) (iblk3 V c 3 ⟨n + 1, h⟩) (chain V c n (Nat.lt_of_succ_lt h)) j).trans ?_
    rw [chain_apply c j n (Nat.lt_of_succ_lt h), Finset.sum_range_succ _ (n + 1), add_assoc]
    exact congrArg (fun z => 0 + (∑ s ∈ Finset.range (n + 1), ∑ r : Fin 5000, rowTerm V c j (5000 * s + r.val) + z))
      (block_sum V c ⟨n + 1, h⟩ j)

/-- The last point is the twentieth. -/
theorem h19 : 19 < cfg3.N := lt_of_lt_of_eq (by decide : 19 < 20) N_3.symm

/-- The column sums as one row: the running sums after the last point. -/
def sumRow (c : Dev nD) : S1x64.Idx → EReal := chain V c 19 h19

/-- The one write-back of the column sums, after the last point, writes the running sums (its block is the row). -/
theorem flushed_sum (c : Dev nD) (t : Fin cfg3.N) (hf : (cfg3.win 5).flush t = true) :
    (dat3 V c).flushed 5 t = ((cfg3.win 5).blk t).view.read (Elt Ideal) (sumRow V c) := by
  have hN : t.val < 20 := lt_of_lt_of_eq t.isLt N_3
  have ht : t.val = 19 := by have := (flush3_5 t).mp hf; omega
  obtain rfl : t = ⟨19, h19⟩ := Fin.ext ht
  show (cfg3.win 5).cut (grid3.coords ⟨19, h19⟩) ((dat3 V c).after 5 ⟨19, h19⟩) = _
  rw [after3_5, outs_sum]
  obtain ⟨-, -, -, -, -, -, -, -, -, -, e0, e1⟩ := idx_facts ⟨19, h19⟩
  funext y
  show sumRow V c y = sumRow V c (((cfg3.win 5).blk ⟨19, h19⟩).view.emb y)
  refine congrArg (sumRow V c) (funext fun a => Fin.ext ?_)
  match a with
  | ⟨0, _⟩ => show (y 0).val = win3_5.index ⟨19, h19⟩ (0 : Fin 2) * 1 + 1 * (y 0).val; rw [e0]; omega
  | ⟨1, _⟩ => show (y 1).val = win3_5.index ⟨19, h19⟩ (1 : Fin 2) * 64 + 1 * (y 1).val; rw [e1]; omega

/-- An index is in point t's block of the column-sum row iff each coordinate is in the block's range. -/
theorem mem_blk_sum (t : Fin cfg3.N) (i : S1x64.Idx) :
    i ∈ ((cfg3.win 5).blk t).view.set ↔ ∀ a : Fin 2, win3_5.index t a * S1x64.size a ≤ (i a).val ∧ (i a).val < win3_5.index t a * S1x64.size a + S1x64.size a := by
  show i ∈ ((View.whole main_v85_1).slice (win3_5.rect t)).set ↔ _
  rw [View.set_slice_whole, Rect.mem_set_unit]
  exact Iff.rfl

/-- The block the last point writes back is the whole row. -/
theorem cover_sum (i : S1x64.Idx) :
    ∃ t : Fin cfg3.N, (cfg3.win 5).flush t = true ∧ i ∈ ((cfg3.win 5).blk t).view.set := by
  have hi0 : (i 0).val < 1 := (i 0).isLt
  have hi1 : (i 1).val < 64 := (i 1).isLt
  refine ⟨⟨19, h19⟩, (flush3_5 _).mpr rfl, ?_⟩
  rw [mem_blk_sum]
  obtain ⟨-, -, -, -, -, -, -, -, -, -, e0, e1⟩ := idx_facts ⟨19, h19⟩
  intro a
  match a with
  | ⟨0, _⟩ =>
    show win3_5.index ⟨19, h19⟩ (0 : Fin 2) * 1 ≤ (i 0).val ∧ (i 0).val < win3_5.index ⟨19, h19⟩ (0 : Fin 2) * 1 + 1
    rw [e0]; omega
  | ⟨1, _⟩ =>
    show win3_5.index ⟨19, h19⟩ (1 : Fin 2) * 64 ≤ (i 1).val ∧ (i 1).val < win3_5.index ⟨19, h19⟩ (1 : Fin 2) * 64 + 64
    rw [e1]; omega

/-- THE COLUMN SUMS after the run: column j of the row is the sum of column j of the convolution over all rows. -/
theorem r3_sum (c : Dev nD) (j : Fin 64) :
    ((dat3 V c).arrAt 5 cfg3.N : S1x64.Idx → EReal) (ix2 (0 : Fin 1) j) = ∑ n : Fin 100000, convEntry V c n j := by
  rw [(dat3 V c).arrAt_eq_of_cover 5 (sumRow V c) (flushed_sum V c) cover_sum]
  show (chain V c 19 h19 : S1x64.Idx → EReal) (ix2 (0 : Fin 1) j) = _
  rw [chain_apply V c j 19 h19]
  exact Cert.BlockSum.sum_20x5000 (fun n => convEntry V c n j) (rowTerm V c j) (fun n => by unfold rowTerm; rw [dif_pos n.isLt])

end Value

end Cert.KReg3

end
-- ==== Proof.KChain2.lean ====
/-
  The second half of the kernel's chain of boundary contents: from the boundary after the third launch, where the first
  layer's features and their projection are in place, to the result. Each group of facts says what the buffers that
  later steps read hold at one boundary, and follows from the previous group by one step: a line of host operations
  (a propagation over the graph, a slice of a weight array, a bias laid out as a row, a column mean, the factor and
  offset of a normalisation) or one launch (the second convolution and its column sums; the column sums of squared
  deviations; scale, shift and rectify; the third convolution). A buffer that a step does not write is carried.
-/
import proofs.«126863_j82781199663546_2_alg».proof.Proof.Gen.KernelIdeal.Frame
import proofs.«126863_j82781199663546_2_alg».proof.Proof.SpecGraph
import proofs.«126863_j82781199663546_2_alg».proof.Proof.KHost
import proofs.«126863_j82781199663546_2_alg».proof.Proof.KReg3
import proofs.«126863_j82781199663546_2_alg».proof.Proof.KRegVar
import proofs.«126863_j82781199663546_2_alg».proof.Proof.KRegMap

set_option maxRecDepth 16384

noncomputable section

open scoped BigOperators

namespace Cert.KChain2

open Idealize.ShloMosaic Idealize.ShloMosaic.TcCoe Idealize.SL.Sem
open Idealize.ShloMosaic.ValueIdx
open Idealize.ShloMosaic.Pipeline (Dat)
open Cert.KernelIdeal Cert.KernelIdeal.Gen

/-- A buffer that no operation of a line of host operations writes holds after the line what it held before. -/
macro "host_carry" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-- An array of extended reals with its index shape stated. -/
abbrev arr (S : Shape) (x : S.Idx → EReal) : S.Idx → EReal := x
/-- An array of 32-bit words with its index shape stated. -/
abbrev iarr (S : Shape) (x : S.Idx → BitVec 32) : S.Idx → BitVec 32 := x

/-- The edge array as launched. -/
abbrev ei : Spec.EdgeArr := m ((c.tc : Thread nD τ).loc main_arg1)
/-- The weighted graph of the launched edge array. -/
abbrev G : Spec.Graph := Spec.graphOf (ei m c)
/-- The launched argument arrays, packaged. -/
abbrev A : Spec.Args := Spec.argsOf (m ((c.tc : Thread nD τ).loc main_arg0)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))
  (m ((c.tc : Thread nD τ).loc main_arg9)) (m ((c.tc : Thread nD τ).loc main_arg10)) (m ((c.tc : Thread nD τ).loc main_arg11))

/-! ## What each buffer keeps across the steps that do not write it -/

/-- The second layer's weight argument is as launched at boundary 8: no step before it writes it. -/
theorem keep_arg4_8 : W8 m ρ c (Proc.devRef .tc main_arg4) = m ((c.tc : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by host_carry hostOps1
    _ = W5 m ρ c (Proc.devRef .tc main_arg4) := W6_of_ne m ρ c main_arg4 (by decide)
    _ = W4 m ρ c (Proc.devRef .tc main_arg4) := by host_carry hostOps0_4
    _ = W3 m ρ c (Proc.devRef .tc main_arg4) := by host_carry hostOps0_3
    _ = W2 m ρ c (Proc.devRef .tc main_arg4) := by host_carry hostOps0_2
    _ = W1 m ρ c (Proc.devRef .tc main_arg4) := by host_carry hostOps0_1
    _ = W0 m ρ c (Proc.devRef .tc main_arg4) := by host_carry hostOps0
    _ = m ((c.tc : Thread nD τ).loc main_arg4) := rfl

/-- The second layer's weight argument is as launched at boundary 10. -/
theorem keep_arg4_10 : W10 m ρ c (Proc.devRef .tc main_arg4) = m ((c.tc : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := by host_carry hostOps2
    _ = m ((c.tc : Thread nD τ).loc main_arg4) := keep_arg4_8 m ρ c

/-- The second layer's bias argument is as launched at boundary 10. -/
theorem keep_arg5_10 : W10 m ρ c (Proc.devRef .tc main_arg5) = m ((c.tc : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := by host_carry hostOps2
    _ = W7 m ρ c (Proc.devRef .tc main_arg5) := W8_of_ne m ρ c main_arg5 (by decide)
    _ = W6 m ρ c (Proc.devRef .tc main_arg5) := by host_carry hostOps1
    _ = W5 m ρ c (Proc.devRef .tc main_arg5) := W6_of_ne m ρ c main_arg5 (by decide)
    _ = W4 m ρ c (Proc.devRef .tc main_arg5) := by host_carry hostOps0_4
    _ = W3 m ρ c (Proc.devRef .tc main_arg5) := by host_carry hostOps0_3
    _ = W2 m ρ c (Proc.devRef .tc main_arg5) := by host_carry hostOps0_2
    _ = W1 m ρ c (Proc.devRef .tc main_arg5) := by host_carry hostOps0_1
    _ = W0 m ρ c (Proc.devRef .tc main_arg5) := by host_carry hostOps0
    _ = m ((c.tc : Thread nD τ).loc main_arg5) := rfl

/-- The second normalisation's gain argument is as launched at boundary 14. -/
theorem keep_arg10_14 : W14 m ρ c (Proc.devRef .tc main_arg10) = m ((c.tc : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := by host_carry hostOps4
    _ = W11 m ρ c (Proc.devRef .tc main_arg10) := W12_of_ne m ρ c main_arg10 (by decide)
    _ = W10 m ρ c (Proc.devRef .tc main_arg10) := by host_carry hostOps3
    _ = W9 m ρ c (Proc.devRef .tc main_arg10) := W10_of_ne m ρ c main_arg10 (by decide)
    _ = W8 m ρ c (Proc.devRef .tc main_arg10) := by host_carry hostOps2
    _ = W7 m ρ c (Proc.devRef .tc main_arg10) := W8_of_ne m ρ c main_arg10 (by decide)
    _ = W6 m ρ c (Proc.devRef .tc main_arg10) := by host_carry hostOps1
    _ = W5 m ρ c (Proc.devRef .tc main_arg10) := W6_of_ne m ρ c main_arg10 (by decide)
    _ = W4 m ρ c (Proc.devRef .tc main_arg10) := by host_carry hostOps0_4
    _ = W3 m ρ c (Proc.devRef .tc main_arg10) := by host_carry hostOps0_3
    _ = W2 m ρ c (Proc.devRef .tc main_arg10) := by host_carry hostOps0_2
    _ = W1 m ρ c (Proc.devRef .tc main_arg10) := by host_carry hostOps0_1
    _ = W0 m ρ c (Proc.devRef .tc main_arg10) := by host_carry hostOps0
    _ = m ((c.tc : Thread nD τ).loc main_arg10) := rfl

/-- The second normalisation's offset argument is as launched at boundary 14. -/
theorem keep_arg11_14 : W14 m ρ c (Proc.devRef .tc main_arg11) = m ((c.tc : Thread nD τ).loc main_arg11) :=
  calc W14 m ρ c (Proc.devRef .tc main_arg11)
    _ = W13 m ρ c (Proc.devRef .tc main_arg11) := W14_of_ne m ρ c main_arg11 (by decide)
    _ = W12 m ρ c (Proc.devRef .tc main_arg11) := by host_carry hostOps4
    _ = W11 m ρ c (Proc.devRef .tc main_arg11) := W12_of_ne m ρ c main_arg11 (by decide)
    _ = W10 m ρ c (Proc.devRef .tc main_arg11) := by host_carry hostOps3
    _ = W9 m ρ c (Proc.devRef .tc main_arg11) := W10_of_ne m ρ c main_arg11 (by decide)
    _ = W8 m ρ c (Proc.devRef .tc main_arg11) := by host_carry hostOps2
    _ = W7 m ρ c (Proc.devRef .tc main_arg11) := W8_of_ne m ρ c main_arg11 (by decide)
    _ = W6 m ρ c (Proc.devRef .tc main_arg11) := by host_carry hostOps1
    _ = W5 m ρ c (Proc.devRef .tc main_arg11) := W6_of_ne m ρ c main_arg11 (by decide)
    _ = W4 m ρ c (Proc.devRef .tc main_arg11) := by host_carry hostOps0_4
    _ = W3 m ρ c (Proc.devRef .tc main_arg11) := by host_carry hostOps0_3
    _ = W2 m ρ c (Proc.devRef .tc main_arg11) := by host_carry hostOps0_2
    _ = W1 m ρ c (Proc.devRef .tc main_arg11) := by host_carry hostOps0_1
    _ = W0 m ρ c (Proc.devRef .tc main_arg11) := by host_carry hostOps0
    _ = m ((c.tc : Thread nD τ).loc main_arg11) := rfl

/-- The third layer's weight argument is as launched at boundary 16. -/
theorem keep_arg6_16 : W16 m ρ c (Proc.devRef .tc main_arg6) = m ((c.tc : Thread nD τ).loc main_arg6) :=
  calc W16 m ρ c (Proc.devRef .tc main_arg6)
    _ = W15 m ρ c (Proc.devRef .tc main_arg6) := W16_of_ne m ρ c main_arg6 (by decide)
    _ = W14 m ρ c (Proc.devRef .tc main_arg6) := by host_carry hostOps5
    _ = W13 m ρ c (Proc.devRef .tc main_arg6) := W14_of_ne m ρ c main_arg6 (by decide)
    _ = W12 m ρ c (Proc.devRef .tc main_arg6) := by host_carry hostOps4
    _ = W11 m ρ c (Proc.devRef .tc main_arg6) := W12_of_ne m ρ c main_arg6 (by decide)
    _ = W10 m ρ c (Proc.devRef .tc main_arg6) := by host_carry hostOps3
    _ = W9 m ρ c (Proc.devRef .tc main_arg6) := W10_of_ne m ρ c main_arg6 (by decide)
    _ = W8 m ρ c (Proc.devRef .tc main_arg6) := by host_carry hostOps2
    _ = W7 m ρ c (Proc.devRef .tc main_arg6) := W8_of_ne m ρ c main_arg6 (by decide)
    _ = W6 m ρ c (Proc.devRef .tc main_arg6) := by host_carry hostOps1
    _ = W5 m ρ c (Proc.devRef .tc main_arg6) := W6_of_ne m ρ c main_arg6 (by decide)
    _ = W4 m ρ c (Proc.devRef .tc main_arg6) := by host_carry hostOps0_4
    _ = W3 m ρ c (Proc.devRef .tc main_arg6) := by host_carry hostOps0_3
    _ = W2 m ρ c (Proc.devRef .tc main_arg6) := by host_carry hostOps0_2
    _ = W1 m ρ c (Proc.devRef .tc main_arg6) := by host_carry hostOps0_1
    _ = W0 m ρ c (Proc.devRef .tc main_arg6) := by host_carry hostOps0
    _ = m ((c.tc : Thread nD τ).loc main_arg6) := rfl

/-- The third layer's bias argument is as launched at boundary 16. -/
theorem keep_arg7_16 : W16 m ρ c (Proc.devRef .tc main_arg7) = m ((c.tc : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := by host_carry hostOps5
    _ = W13 m ρ c (Proc.devRef .tc main_arg7) := W14_of_ne m ρ c main_arg7 (by decide)
    _ = W12 m ρ c (Proc.devRef .tc main_arg7) := by host_carry hostOps4
    _ = W11 m ρ c (Proc.devRef .tc main_arg7) := W12_of_ne m ρ c main_arg7 (by decide)
    _ = W10 m ρ c (Proc.devRef .tc main_arg7) := by host_carry hostOps3
    _ = W9 m ρ c (Proc.devRef .tc main_arg7) := W10_of_ne m ρ c main_arg7 (by decide)
    _ = W8 m ρ c (Proc.devRef .tc main_arg7) := by host_carry hostOps2
    _ = W7 m ρ c (Proc.devRef .tc main_arg7) := W8_of_ne m ρ c main_arg7 (by decide)
    _ = W6 m ρ c (Proc.devRef .tc main_arg7) := by host_carry hostOps1
    _ = W5 m ρ c (Proc.devRef .tc main_arg7) := W6_of_ne m ρ c main_arg7 (by decide)
    _ = W4 m ρ c (Proc.devRef .tc main_arg7) := by host_carry hostOps0_4
    _ = W3 m ρ c (Proc.devRef .tc main_arg7) := by host_carry hostOps0_3
    _ = W2 m ρ c (Proc.devRef .tc main_arg7) := by host_carry hostOps0_2
    _ = W1 m ρ c (Proc.devRef .tc main_arg7) := by host_carry hostOps0_1
    _ = W0 m ρ c (Proc.devRef .tc main_arg7) := by host_carry hostOps0
    _ = m ((c.tc : Thread nD τ).loc main_arg7) := rfl

/-- The vector of the nodes the edges leave holds at boundary 16 what it held at boundary 10: no step between them writes it. -/
theorem keep_v1_16_10 : W16 m ρ c (Proc.devRef .tc main_v1) = W10 m ρ c (Proc.devRef .tc main_v1) :=
  calc W16 m ρ c (Proc.devRef .tc main_v1)
    _ = W15 m ρ c (Proc.devRef .tc main_v1) := W16_of_ne m ρ c main_v1 (by decide)
    _ = W14 m ρ c (Proc.devRef .tc main_v1) := by host_carry hostOps5
    _ = W13 m ρ c (Proc.devRef .tc main_v1) := W14_of_ne m ρ c main_v1 (by decide)
    _ = W12 m ρ c (Proc.devRef .tc main_v1) := by host_carry hostOps4
    _ = W11 m ρ c (Proc.devRef .tc main_v1) := W12_of_ne m ρ c main_v1 (by decide)
    _ = W10 m ρ c (Proc.devRef .tc main_v1) := by host_carry hostOps3

/-- The vector of the nodes the edges enter holds at boundary 16 what it held at boundary 10. -/
theorem keep_v3_16_10 : W16 m ρ c (Proc.devRef .tc main_v3) = W10 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := by host_carry hostOps5
    _ = W13 m ρ c (Proc.devRef .tc main_v3) := W14_of_ne m ρ c main_v3 (by decide)
    _ = W12 m ρ c (Proc.devRef .tc main_v3) := by host_carry hostOps4
    _ = W11 m ρ c (Proc.devRef .tc main_v3) := W12_of_ne m ρ c main_v3 (by decide)
    _ = W10 m ρ c (Proc.devRef .tc main_v3) := by host_carry hostOps3

/-- The edge-weight vector holds at boundary 16 what it held at boundary 10. -/
theorem keep_v30_16_10 : W16 m ρ c (Proc.devRef .tc main_v30) = W10 m ρ c (Proc.devRef .tc main_v30) :=
  calc W16 m ρ c (Proc.devRef .tc main_v30)
    _ = W15 m ρ c (Proc.devRef .tc main_v30) := W16_of_ne m ρ c main_v30 (by decide)
    _ = W14 m ρ c (Proc.devRef .tc main_v30) := by host_carry hostOps5
    _ = W13 m ρ c (Proc.devRef .tc main_v30) := W14_of_ne m ρ c main_v30 (by decide)
    _ = W12 m ρ c (Proc.devRef .tc main_v30) := by host_carry hostOps4
    _ = W11 m ρ c (Proc.devRef .tc main_v30) := W12_of_ne m ρ c main_v30 (by decide)
    _ = W10 m ρ c (Proc.devRef .tc main_v30) := by host_carry hostOps3

/-- The first layer's features are carried over the line of host operations after the third kernel. -/
theorem keep_v67_0_11_10 : W11 m ρ c (Proc.devRef .tc main_v67_0) = W10 m ρ c (Proc.devRef .tc main_v67_0) :=
  calc W11 m ρ c (Proc.devRef .tc main_v67_0)
    _ = W10 m ρ c (Proc.devRef .tc main_v67_0) := by host_carry hostOps3

/-- The second convolution is carried over the line of host operations that computes its column means. -/
theorem keep_v85_0_13_12 : W13 m ρ c (Proc.devRef .tc main_v85_0) = W12 m ρ c (Proc.devRef .tc main_v85_0) :=
  calc W13 m ρ c (Proc.devRef .tc main_v85_0)
    _ = W12 m ρ c (Proc.devRef .tc main_v85_0) := by host_carry hostOps4

/-- The second convolution is carried over the fifth kernel (which only reads it) and the line after it. -/
theorem keep_v85_0_15_13 : W15 m ρ c (Proc.devRef .tc main_v85_0) = W13 m ρ c (Proc.devRef .tc main_v85_0) :=
  calc W15 m ρ c (Proc.devRef .tc main_v85_0)
    _ = W14 m ρ c (Proc.devRef .tc main_v85_0) := by host_carry hostOps5
    _ = W13 m ρ c (Proc.devRef .tc main_v85_0) := (W14_arr m ρ c 0).trans (((dat4 (V13 m ρ) c).arrAt_in 0 rfl _).trans (A_eq4 (V13 m ρ) c 0))

/-- The mean row is carried over the fifth kernel, which only reads it. -/
theorem keep_v87_14_13 : W14 m ρ c (Proc.devRef .tc main_v87) = W13 m ρ c (Proc.devRef .tc main_v87) :=
  calc W14 m ρ c (Proc.devRef .tc main_v87)
    _ = W13 m ρ c (Proc.devRef .tc main_v87) := (W14_arr m ρ c 1).trans (((dat4 (V13 m ρ) c).arrAt_in 1 rfl _).trans (A_eq4 (V13 m ρ) c 1))

/-- The second layer's features are carried over the line of host operations after the sixth kernel. -/
theorem keep_v99_17_16 : W17 m ρ c (Proc.devRef .tc main_v99) = W16 m ρ c (Proc.devRef .tc main_v99) :=
  calc W17 m ρ c (Proc.devRef .tc main_v99)
    _ = W16 m ρ c (Proc.devRef .tc main_v99) := by host_carry hostOps6

/-! ## The steps this half composes, each in the spelling the chain uses -/

section Pieces

variable (W : Valuation τ sig (Elt Ideal))

/-- The propagation after the third kernel, as its line of host operations leaves it from any contents: a sum over the edges landing on a node. -/
theorem dep_h3_v81 (n : Fin 100000) (j : Fin 64) : arr S100000x64 ((StableHlo.after hostOps3 W) (Proc.devRef .tc main_v81)) (ix2 n j)
    = 0 + ∑ e ∈ Finset.univ.filter (fun e : Fin Spec.EE => Cert.RowGS.Lands (Cert.KHost.colOf (iarr S1600000 (W (Proc.devRef .tc main_v3)))) e n), arr S1600000 (W (Proc.devRef .tc main_v30)) (ix1 e) * arr S100000x64 (W (Proc.devRef .tc main_v67_1)) (ix2 (Cert.RowGS.srcRow Spec.NN_pos (Cert.KHost.wrapOf (iarr S1600000 (W (Proc.devRef .tc main_v1)))) e) j) := Cert.KHost.s3_v81 W n j
/-- The second layer's first weight slice, from any contents. -/
theorem dep_h3_v83 (k : Fin 128) (j : Fin 64) : arr S128x64 ((StableHlo.after hostOps3 W) (Proc.devRef .tc main_v83)) (ix2 k j) = arr S2x128x64 (W (Proc.devRef .tc main_arg4)) (ix3 (0 : Fin 2) k j) := Cert.KHost.s3_v83 W k j
/-- The second layer's bias laid out as a row, from any contents. -/
theorem dep_h3_v84 (j : Fin 64) : arr S1x64 ((StableHlo.after hostOps3 W) (Proc.devRef .tc main_v84)) (ix2 (0 : Fin 1) j) = arr S64 (W (Proc.devRef .tc main_arg5)) (ix1 j) := Cert.KHost.s3_v84 W j

/-- The column means of the second convolution: its column sums over the number of nodes. -/
theorem dep_h4_v87 (j : Fin 64) : arr S1x64 ((StableHlo.after hostOps4 W) (Proc.devRef .tc main_v87)) (ix2 (0 : Fin 1) j)
    = Ideal.div (arr S1x64 (W (Proc.devRef .tc main_v85_1)) (ix2 (0 : Fin 1) j)) Spec.cnt := Cert.KHost.s4_v87 W j

/-- The second normalisation's factor, from any contents. -/
theorem dep_h5_v96 (j : Fin 64) : arr S1x64 ((StableHlo.after hostOps5 W) (Proc.devRef .tc main_v96)) (ix2 (0 : Fin 1) j) = arr S64 (W (Proc.devRef .tc main_arg10)) (ix1 j) * Ideal.rsqrt (Ideal.div (arr S1x64 (W (Proc.devRef .tc main_v88)) (ix2 (0 : Fin 1) j)) Spec.cnt + Spec.eps) := Cert.KHost.s5_v96 W j
/-- The second normalisation's offset, from any contents. -/
theorem dep_h5_v98 (j : Fin 64) : arr S1x64 ((StableHlo.after hostOps5 W) (Proc.devRef .tc main_v98)) (ix2 (0 : Fin 1) j)
    = arr S64 (W (Proc.devRef .tc main_arg11)) (ix1 j) - arr S1x64 (W (Proc.devRef .tc main_v87)) (ix2 (0 : Fin 1) j) * (arr S64 (W (Proc.devRef .tc main_arg10)) (ix1 j) * Ideal.rsqrt (Ideal.div (arr S1x64 (W (Proc.devRef .tc main_v88)) (ix2 (0 : Fin 1) j)) Spec.cnt + Spec.eps)) := Cert.KHost.s5_v98 W j

/-- The propagation after the sixth kernel, as its line of host operations leaves it from any contents. -/
theorem dep_h6_v113 (n : Fin 100000) (j : Fin 64) : arr S100000x64 ((StableHlo.after hostOps6 W) (Proc.devRef .tc main_v113)) (ix2 n j)
    = 0 + ∑ e ∈ Finset.univ.filter (fun e : Fin Spec.EE => Cert.RowGS.Lands (Cert.KHost.colOf (iarr S1600000 (W (Proc.devRef .tc main_v3)))) e n), arr S1600000 (W (Proc.devRef .tc main_v30)) (ix1 e) * arr S100000x64 (W (Proc.devRef .tc main_v99)) (ix2 (Cert.RowGS.srcRow Spec.NN_pos (Cert.KHost.wrapOf (iarr S1600000 (W (Proc.devRef .tc main_v1)))) e) j) := Cert.KHost.s6_v113 W n j
/-- The third layer's first weight slice, from any contents. -/
theorem dep_h6_v115 (k : Fin 64) (j : Fin 64) : arr S64x64 ((StableHlo.after hostOps6 W) (Proc.devRef .tc main_v115)) (ix2 k j) = arr S2x64x64 (W (Proc.devRef .tc main_arg6)) (ix3 (0 : Fin 2) k j) := Cert.KHost.s6_v115 W k j
/-- The third layer's second weight slice, from any contents. -/
theorem dep_h6_v117 (k : Fin 64) (j : Fin 64) : arr S64x64 ((StableHlo.after hostOps6 W) (Proc.devRef .tc main_v117)) (ix2 k j) = arr S2x64x64 (W (Proc.devRef .tc main_arg6)) (ix3 (1 : Fin 2) k j) := Cert.KHost.s6_v117 W k j
/-- The third layer's bias laid out as a row, from any contents. -/
theorem dep_h6_v118 (j : Fin 64) : arr S1x64 ((StableHlo.after hostOps6 W) (Proc.devRef .tc main_v118)) (ix2 (0 : Fin 1) j) = arr S64 (W (Proc.devRef .tc main_arg7)) (ix1 j) := Cert.KHost.s6_v118 W j

variable (V : (c : Dev nD) → (b : Ref sig .tc) → Buf (Elt Ideal) ((c : Thread nD τ).loc b))

/-- The fourth kernel's first output, entry by entry, for any contents it finds: the features against the weights, plus the propagated projection, plus the bias. -/
theorem dep_r3_conv (n : Fin 100000) (j : Fin 64) :
    arr S100000x64 ((dat3 V c).arrAt 4 cfg3.N) (ix2 n j) = (∑ k : Fin 128, arr S100000x128 (V c main_v67_0) (ix2 n k) * arr S128x64 (V c main_v83) (ix2 k j) + arr S100000x64 (V c main_v81) (ix2 n j)) + arr S1x64 (V c main_v84) (ix2 (0 : Fin 1) j) := Cert.KReg3.r3_conv V c n j
/-- Its second output: the column sums of the first over all rows. -/
theorem dep_r3_sum (j : Fin 64) :
    arr S1x64 ((dat3 V c).arrAt 5 cfg3.N) (ix2 (0 : Fin 1) j) = ∑ n : Fin 100000, ((∑ k : Fin 128, arr S100000x128 (V c main_v67_0) (ix2 n k) * arr S128x64 (V c main_v83) (ix2 k j) + arr S100000x64 (V c main_v81) (ix2 n j)) + arr S1x64 (V c main_v84) (ix2 (0 : Fin 1) j)) := Cert.KReg3.r3_sum V c j
/-- The fifth kernel's output: per column, the sum over all rows of the squared difference from the mean row. -/
theorem dep_r4_sum (k : Fin 64) :
    arr S1x64 ((dat4 V c).arrAt 2 cfg4.N) (ix2 (0 : Fin 1) k)
      = ∑ n : Fin 100000, (arr S100000x64 (V c main_v85_0) (ix2 n k) - arr S1x64 (V c main_v87) (ix2 (0 : Fin 1) k)) * (arr S100000x64 (V c main_v85_0) (ix2 n k) - arr S1x64 (V c main_v87) (ix2 (0 : Fin 1) k)) := Cert.KRegVar.r4_sum V c k
/-- The sixth kernel's output: each entry scaled and shifted by its column, through the rectifier. -/
theorem dep_r5_h (n : Fin 100000) (k : Fin 64) :
    arr S100000x64 ((dat5 V c).arrAt 3 cfg5.N) (ix2 n k)
      = Spec.lrelu (arr S100000x64 (V c main_v85_0) (ix2 n k) * arr S1x64 (V c main_v96) (ix2 (0 : Fin 1) k) + arr S1x64 (V c main_v98) (ix2 (0 : Fin 1) k)) := Cert.KRegMap.r5_h V c n k
/-- The last kernel's output: two matrix products added, plus the bias row. -/
theorem dep_r6_out (n : Fin 100000) (j : Fin 64) :
    arr S100000x64 ((dat6 V c).arrAt 5 cfg6.N) (ix2 n j)
      = (∑ k : Fin 64, arr S100000x64 (V c main_v99) (ix2 n k) * arr S64x64 (V c main_v115) (ix2 k j) + ∑ k : Fin 64, arr S100000x64 (V c main_v113) (ix2 n k) * arr S64x64 (V c main_v117) (ix2 k j)) + arr S1x64 (V c main_v118) (ix2 (0 : Fin 1) j) := Cert.KRegMap.r6_out V c n j

end Pieces

/-- The flattened row 1 of the edge array, as a column of indices, is the specification's. -/
theorem colOf_eq (v : S1600000.Idx → BitVec 32) (ea : Spec.EdgeArr)
    (h : ∀ e : Fin 1600000, v (ix1 e) = ea (ix2 (1 : Fin 2) e)) : Cert.KHost.colOf v = Spec.rawCol ea 1 := by
  funext j
  unfold Cert.KHost.colOf Spec.rawCol
  exact h (j 0)

/-- The flattened row 0, wrapped, as a column of indices, is the specification's. -/
theorem wrapOf_eq (v : S1600000.Idx → BitVec 32) (ea : Spec.EdgeArr)
    (h : ∀ e : Fin 1600000, v (ix1 e) = ea (ix2 (0 : Fin 2) e)) : Cert.KHost.wrapOf v = Spec.wrapCol ea 0 := by
  funext j
  unfold Cert.KHost.wrapOf Spec.wrapCol
  rw [h (j 0)]

/-! ## The chain from the boundary after the third launch -/

/-- What the boundary after the third launch holds: the first layer's features and their projection, the two rows of
    the edge array, and the edge weights. -/
structure At10 : Prop where
  h : ∀ (n : Fin 100000) (k : Fin 128), arr S100000x128 (W10 m ρ c (Proc.devRef .tc main_v67_0)) (ix2 n k) = Spec.hK (G m c) (A m c) n k
  z : ∀ (n : Fin 100000) (j : Fin 64), arr S100000x64 (W10 m ρ c (Proc.devRef .tc main_v67_1)) (ix2 n j) = Spec.zK (G m c) (A m c) n j
  v1 : ∀ e : Fin 1600000, iarr S1600000 (W10 m ρ c (Proc.devRef .tc main_v1)) (ix1 e) = ei m c (ix2 (0 : Fin 2) e)
  v3 : ∀ e : Fin 1600000, iarr S1600000 (W10 m ρ c (Proc.devRef .tc main_v3)) (ix1 e) = ei m c (ix2 (1 : Fin 2) e)
  v30 : ∀ e : Fin 1600000, arr S1600000 (W10 m ρ c (Proc.devRef .tc main_v30)) (ix1 e) = Spec.edgeW (ei m c) e

/-- At boundary 10 the first slice of the second layer's weight argument is the packaged first weight matrix. -/
theorem f10_arg4 (k : Fin 128) (j : Fin 64) : arr S2x128x64 (W10 m ρ c (Proc.devRef .tc main_arg4)) (ix3 (0 : Fin 2) k j) = (A m c).W2a k j :=
  congrFun (keep_arg4_10 m ρ c) (ix3 (0 : Fin 2) k j)
/-- At boundary 10 the second layer's bias argument is the packaged bias. -/
theorem f10_arg5 (j : Fin 64) : arr S64 (W10 m ρ c (Proc.devRef .tc main_arg5)) (ix1 j) = (A m c).b2 j := congrFun (keep_arg5_10 m ρ c) (ix1 j)

section Tail

variable (H : At10 m ρ c)
include H

/-! ### The projected features propagated -/

/-- At boundary 11 the propagated projection is one propagation step, over the launched graph, of the projected first-layer features. -/
theorem f11_v81 (n : Fin 100000) (j : Fin 64) : arr S100000x64 (W11 m ρ c (Proc.devRef .tc main_v81)) (ix2 n j) = Spec.prop (G m c) (Spec.zK (G m c) (A m c)) n j := by
  have h := dep_h3_v81 (W10 m ρ c) n j
  rw [colOf_eq _ (ei m c) (H.v3), wrapOf_eq _ (ei m c) (H.v1)] at h
  simp only [H.v30, H.z] at h
  exact h
/-- At boundary 11 the weight matrix the fourth kernel reads is the second layer's first weight matrix. -/
theorem f11_v83 (k : Fin 128) (j : Fin 64) : arr S128x64 (W11 m ρ c (Proc.devRef .tc main_v83)) (ix2 k j) = (A m c).W2a k j :=
  (dep_h3_v83 (W10 m ρ c) k j).trans (f10_arg4 m ρ c k j)
/-- At boundary 11 the bias row the fourth kernel reads is the second layer's bias. -/
theorem f11_v84 (j : Fin 64) : arr S1x64 (W11 m ρ c (Proc.devRef .tc main_v84)) (ix2 (0 : Fin 1) j) = (A m c).b2 j :=
  (dep_h3_v84 (W10 m ρ c) j).trans (f10_arg5 m ρ c j)
/-- At boundary 11 the first layer's features are still in place. -/
theorem f11_h (n : Fin 100000) (k : Fin 128) : arr S100000x128 (W11 m ρ c (Proc.devRef .tc main_v67_0)) (ix2 n k) = Spec.hK (G m c) (A m c) n k :=
  (congrFun (keep_v67_0_11_10 m ρ c) (ix2 n k)).trans (H.h n k)

/-! ### The second convolution and its column sums -/

/-- At boundary 12 the fourth kernel has left the second convolution. -/
theorem f12_c2 (n : Fin 100000) (j : Fin 64) : arr S100000x64 (W12 m ρ c (Proc.devRef .tc main_v85_0)) (ix2 n j) = Spec.c2K (G m c) (A m c) n j := by
  have h : arr S100000x64 (W12 m ρ c (Proc.devRef .tc main_v85_0)) (ix2 n j) = arr S100000x64 ((dat3 (V11 m ρ) c).arrAt 4 cfg3.N) (ix2 n j) :=
    congrFun (W12_arr m ρ c 4) (ix2 n j)
  rw [h, dep_r3_conv c (V11 m ρ) n j]
  simp only [f11_h m ρ c H, f11_v83 m ρ c H, f11_v81 m ρ c H, f11_v84 m ρ c H]
  rfl

/-- …and its column sums. -/
theorem f12_s (j : Fin 64) : arr S1x64 (W12 m ρ c (Proc.devRef .tc main_v85_1)) (ix2 (0 : Fin 1) j) = ∑ n : Fin 100000, Spec.c2K (G m c) (A m c) n j := by
  have h : arr S1x64 (W12 m ρ c (Proc.devRef .tc main_v85_1)) (ix2 (0 : Fin 1) j) = arr S1x64 ((dat3 (V11 m ρ) c).arrAt 5 cfg3.N) (ix2 (0 : Fin 1) j) :=
    congrFun (W12_arr m ρ c 5) (ix2 (0 : Fin 1) j)
  rw [h, dep_r3_sum c (V11 m ρ) j]
  simp only [f11_h m ρ c H, f11_v83 m ρ c H, f11_v81 m ρ c H, f11_v84 m ρ c H]
  rfl

/-! ### Its column means, sums of squared deviations, factor and offset -/

/-- At boundary 13 the second convolution is still in place. -/
theorem f13_c2 (n : Fin 100000) (j : Fin 64) : arr S100000x64 (W13 m ρ c (Proc.devRef .tc main_v85_0)) (ix2 n j) = Spec.c2K (G m c) (A m c) n j :=
  (congrFun (keep_v85_0_13_12 m ρ c) (ix2 n j)).trans (f12_c2 m ρ c H n j)
/-- At boundary 13 the mean row holds the second convolution's column means. -/
theorem f13_mean (j : Fin 64) : arr S1x64 (W13 m ρ c (Proc.devRef .tc main_v87)) (ix2 (0 : Fin 1) j) = Spec.mean (Spec.c2K (G m c) (A m c)) j := by
  have h := dep_h4_v87 (W12 m ρ c) j
  rw [f12_s m ρ c H j] at h
  exact h
/-- At boundary 14 the fifth kernel has left, per column, the sum of squared deviations of the second convolution from its mean. -/
theorem f14_v88 (j : Fin 64) : arr S1x64 (W14 m ρ c (Proc.devRef .tc main_v88)) (ix2 (0 : Fin 1) j) = ∑ n : Fin 100000, (Spec.c2K (G m c) (A m c) n j - Spec.mean (Spec.c2K (G m c) (A m c)) j) * (Spec.c2K (G m c) (A m c) n j - Spec.mean (Spec.c2K (G m c) (A m c)) j) := by
  have h : arr S1x64 (W14 m ρ c (Proc.devRef .tc main_v88)) (ix2 (0 : Fin 1) j) = arr S1x64 ((dat4 (V13 m ρ) c).arrAt 2 cfg4.N) (ix2 (0 : Fin 1) j) :=
    congrFun (W14_arr m ρ c 2) (ix2 (0 : Fin 1) j)
  rw [h, dep_r4_sum c (V13 m ρ) j]
  simp only [f13_c2 m ρ c H, f13_mean m ρ c H]

/-- At boundary 14 the mean row is still in place. -/
theorem f14_v87 (j : Fin 64) : arr S1x64 (W14 m ρ c (Proc.devRef .tc main_v87)) (ix2 (0 : Fin 1) j) = Spec.mean (Spec.c2K (G m c) (A m c)) j :=
  (congrFun (keep_v87_14_13 m ρ c) (ix2 (0 : Fin 1) j)).trans (f13_mean m ρ c H j)
/-- At boundary 14 the gain argument is the packaged gain. -/
theorem f14_arg10 (j : Fin 64) : arr S64 (W14 m ρ c (Proc.devRef .tc main_arg10)) (ix1 j) = (A m c).g2 j := congrFun (keep_arg10_14 m ρ c) (ix1 j)
/-- At boundary 14 the offset argument is the packaged offset. -/
theorem f14_arg11 (j : Fin 64) : arr S64 (W14 m ρ c (Proc.devRef .tc main_arg11)) (ix1 j) = (A m c).be2 j := congrFun (keep_arg11_14 m ρ c) (ix1 j)
/-- At boundary 15 the factor row is the second normalisation's per-column factor. -/
theorem f15_v96 (j : Fin 64) : arr S1x64 (W15 m ρ c (Proc.devRef .tc main_v96)) (ix2 (0 : Fin 1) j) = Spec.scale (A m c).g2 (Spec.c2K (G m c) (A m c)) j := by
  have h := dep_h5_v96 (W14 m ρ c) j
  rw [f14_arg10 m ρ c H j, f14_v88 m ρ c H j] at h
  exact h
/-- At boundary 15 the offset row is the second normalisation's per-column offset. -/
theorem f15_v98 (j : Fin 64) : arr S1x64 (W15 m ρ c (Proc.devRef .tc main_v98)) (ix2 (0 : Fin 1) j) = Spec.shift (A m c).g2 (A m c).be2 (Spec.c2K (G m c) (A m c)) j := by
  have h := dep_h5_v98 (W14 m ρ c) j
  rw [f14_arg11 m ρ c H j, f14_v87 m ρ c H j, f14_arg10 m ρ c H j, f14_v88 m ρ c H j] at h
  exact h
/-- At boundary 15 the second convolution is still in place. -/
theorem f15_c2 (n : Fin 100000) (j : Fin 64) : arr S100000x64 (W15 m ρ c (Proc.devRef .tc main_v85_0)) (ix2 n j) = Spec.c2K (G m c) (A m c) n j :=
  (congrFun (keep_v85_0_15_13 m ρ c) (ix2 n j)).trans (f13_c2 m ρ c H n j)

/-! ### The second layer's features, propagated -/

/-- At boundary 16 the sixth kernel has left the second layer's features. -/
theorem f16_h3 (n : Fin 100000) (k : Fin 64) : arr S100000x64 (W16 m ρ c (Proc.devRef .tc main_v99)) (ix2 n k) = Spec.h3K (G m c) (A m c) n k := by
  have h : arr S100000x64 (W16 m ρ c (Proc.devRef .tc main_v99)) (ix2 n k) = arr S100000x64 ((dat5 (V15 m ρ) c).arrAt 3 cfg5.N) (ix2 n k) :=
    congrFun (W16_arr m ρ c 3) (ix2 n k)
  rw [h, dep_r5_h c (V15 m ρ) n k]
  simp only [f15_c2 m ρ c H, f15_v96 m ρ c H, f15_v98 m ρ c H]
  rfl

/-- At boundary 16 the vector of the nodes the edges leave is still row 0 of the edge array. -/
theorem f16_v1 (e : Fin 1600000) : iarr S1600000 (W16 m ρ c (Proc.devRef .tc main_v1)) (ix1 e) = ei m c (ix2 (0 : Fin 2) e) :=
  (congrFun (keep_v1_16_10 m ρ c) (ix1 e)).trans (H.v1 e)
/-- At boundary 16 the vector of the nodes the edges enter is still row 1 of the edge array. -/
theorem f16_v3 (e : Fin 1600000) : iarr S1600000 (W16 m ρ c (Proc.devRef .tc main_v3)) (ix1 e) = ei m c (ix2 (1 : Fin 2) e) :=
  (congrFun (keep_v3_16_10 m ρ c) (ix1 e)).trans (H.v3 e)
/-- At boundary 16 the edge-weight vector still holds the edge weights. -/
theorem f16_v30 (e : Fin 1600000) : arr S1600000 (W16 m ρ c (Proc.devRef .tc main_v30)) (ix1 e) = Spec.edgeW (ei m c) e :=
  (congrFun (keep_v30_16_10 m ρ c) (ix1 e)).trans (H.v30 e)
/-- At boundary 16 the first slice of the third layer's weight argument is the packaged first weight matrix. -/
theorem f16_arg6a (k : Fin 64) (j : Fin 64) : arr S2x64x64 (W16 m ρ c (Proc.devRef .tc main_arg6)) (ix3 (0 : Fin 2) k j) = (A m c).W3a k j :=
  congrFun (keep_arg6_16 m ρ c) (ix3 (0 : Fin 2) k j)
/-- At boundary 16 its second slice is the packaged second weight matrix. -/
theorem f16_arg6b (k : Fin 64) (j : Fin 64) : arr S2x64x64 (W16 m ρ c (Proc.devRef .tc main_arg6)) (ix3 (1 : Fin 2) k j) = (A m c).W3b k j :=
  congrFun (keep_arg6_16 m ρ c) (ix3 (1 : Fin 2) k j)
/-- At boundary 16 the third layer's bias argument is the packaged bias. -/
theorem f16_arg7 (j : Fin 64) : arr S64 (W16 m ρ c (Proc.devRef .tc main_arg7)) (ix1 j) = (A m c).b3 j := congrFun (keep_arg7_16 m ρ c) (ix1 j)

/-- At boundary 17 the propagated features are one propagation step, over the launched graph, of the second layer's features. -/
theorem f17_v113 (n : Fin 100000) (j : Fin 64) : arr S100000x64 (W17 m ρ c (Proc.devRef .tc main_v113)) (ix2 n j) = Spec.prop (G m c) (Spec.h3K (G m c) (A m c)) n j := by
  have h := dep_h6_v113 (W16 m ρ c) n j
  rw [colOf_eq _ (ei m c) (f16_v3 m ρ c H), wrapOf_eq _ (ei m c) (f16_v1 m ρ c H)] at h
  simp only [f16_v30 m ρ c H, f16_h3 m ρ c H] at h
  exact h
/-- At boundary 17 the first weight matrix the last kernel reads is the third layer's first. -/
theorem f17_v115 (k : Fin 64) (j : Fin 64) : arr S64x64 (W17 m ρ c (Proc.devRef .tc main_v115)) (ix2 k j) = (A m c).W3a k j :=
  (dep_h6_v115 (W16 m ρ c) k j).trans (f16_arg6a m ρ c H k j)
/-- At boundary 17 the second weight matrix the last kernel reads is the third layer's second. -/
theorem f17_v117 (k : Fin 64) (j : Fin 64) : arr S64x64 (W17 m ρ c (Proc.devRef .tc main_v117)) (ix2 k j) = (A m c).W3b k j :=
  (dep_h6_v117 (W16 m ρ c) k j).trans (f16_arg6b m ρ c H k j)
/-- At boundary 17 the bias row the last kernel reads is the third layer's bias. -/
theorem f17_v118 (j : Fin 64) : arr S1x64 (W17 m ρ c (Proc.devRef .tc main_v118)) (ix2 (0 : Fin 1) j) = (A m c).b3 j :=
  (dep_h6_v118 (W16 m ρ c) j).trans (f16_arg7 m ρ c H j)
/-- At boundary 17 the second layer's features are still in place. -/
theorem f17_h3 (n : Fin 100000) (k : Fin 64) : arr S100000x64 (W17 m ρ c (Proc.devRef .tc main_v99)) (ix2 n k) = Spec.h3K (G m c) (A m c) n k :=
  (congrFun (keep_v99_17_16 m ρ c) (ix2 n k)).trans (f16_h3 m ρ c H n k)

/-! ### The result -/

/-- At the last boundary the result array holds the scale-and-shift arrangement's output. -/
theorem f18_out (n : Fin 100000) (j : Fin 64) : arr S100000x64 (W18 m ρ c (Proc.devRef .tc main_v119)) (ix2 n j) = Spec.outK (G m c) (A m c) n j := by
  have h : arr S100000x64 (W18 m ρ c (Proc.devRef .tc main_v119)) (ix2 n j) = arr S100000x64 ((dat6 (V17 m ρ) c).arrAt 5 cfg6.N) (ix2 n j) :=
    congrFun (W18_arr m ρ c 5) (ix2 n j)
  rw [h, dep_r6_out c (V17 m ρ) n j]
  simp only [f17_h3 m ρ c H, f17_v115 m ρ c H, f17_v113 m ρ c H, f17_v117 m ρ c H, f17_v118 m ρ c H]
  rfl

end Tail

/-- THE SECOND HALF: if the boundary after the third launch holds the first layer's features, their projection, the
    edge rows and the edge weights, the result array ends holding, entry by entry, the scale-and-shift arrangement of
    the three-layer convolution of the launched arguments over the launched graph. -/
theorem tail_eq
    (h10_h : ∀ (n : Fin 100000) (k : Fin 128), arr S100000x128 (W10 m ρ c (Proc.devRef .tc main_v67_0)) (ix2 n k) = Spec.hK (G m c) (A m c) n k)
    (h10_z : ∀ (n : Fin 100000) (j : Fin 64), arr S100000x64 (W10 m ρ c (Proc.devRef .tc main_v67_1)) (ix2 n j) = Spec.zK (G m c) (A m c) n j)
    (h10_v1 : ∀ e : Fin 1600000, iarr S1600000 (W10 m ρ c (Proc.devRef .tc main_v1)) (ix1 e) = ei m c (ix2 (0 : Fin 2) e))
    (h10_v3 : ∀ e : Fin 1600000, iarr S1600000 (W10 m ρ c (Proc.devRef .tc main_v3)) (ix1 e) = ei m c (ix2 (1 : Fin 2) e))
    (h10_v30 : ∀ e : Fin 1600000, arr S1600000 (W10 m ρ c (Proc.devRef .tc main_v30)) (ix1 e) = Spec.edgeW (ei m c) e)
    (n : Fin 100000) (j : Fin 64) :
    arr S100000x64 (W18 m ρ c (Proc.devRef .tc main_v119)) (ix2 n j) = Spec.outK (G m c) (A m c) n j :=
  f18_out m ρ c ⟨h10_h, h10_z, h10_v1, h10_v3, h10_v30⟩ n j

end Cert.KChain2

end
-- ==== Proof.KChain.lean ====
/-
  The idealized kernel's result, read back through the whole program. The program is a line of host operations, then
  seven kernels with short lines of host operations between them. Reading each line at its entry contents and each
  kernel at the contents it finds, and carrying along the buffers that later segments still read, the contents at each
  boundary are identified in turn: the graph's rows and edge weights and the first propagation; the first convolution
  and its column sums; their means; the sums of squared deviations; the factor and offset of the normalisation; the
  first layer's features and their projection. From there the second half of the program is read the same way, and the
  last convolution is the scale-and-shift arrangement of the specification at the launched arguments.
-/
import proofs.«126863_j82781199663546_2_alg».proof.Proof.Gen.KernelIdeal.Frame
import proofs.«126863_j82781199663546_2_alg».proof.Proof.SpecGraph
import proofs.«126863_j82781199663546_2_alg».proof.Proof.KHost
import proofs.«126863_j82781199663546_2_alg».proof.Proof.KReg0
import proofs.«126863_j82781199663546_2_alg».proof.Proof.KRegVar
import proofs.«126863_j82781199663546_2_alg».proof.Proof.KRegMap
import proofs.«126863_j82781199663546_2_alg».proof.Proof.KChain2

set_option maxRecDepth 16384

noncomputable section

open scoped BigOperators

namespace Cert.KChain

open Idealize.ShloMosaic Idealize.ShloMosaic.TcCoe Idealize.SL.Sem
open Idealize.ShloMosaic.ValueIdx
open Idealize.ShloMosaic.Pipeline (Dat)
open Cert.KernelIdeal Cert.KernelIdeal.Gen

/-- A buffer that no operation of a line of host operations writes holds after the line what it held before. -/
macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-- An array of extended reals with its index shape stated. -/
abbrev arr (S : Shape) (x : S.Idx → EReal) : S.Idx → EReal := x
/-- An array of 32-bit words with its index shape stated. -/
abbrev iarr (S : Shape) (x : S.Idx → BitVec 32) : S.Idx → BitVec 32 := x

/-- The edge array as launched. -/
abbrev ei : Spec.EdgeArr := m ((c.tc : Thread nD τ).loc main_arg1)
/-- The weighted graph of the launched edge array. -/
abbrev G : Spec.Graph := Spec.graphOf (ei m c)
/-- The launched argument arrays, packaged. -/
abbrev A : Spec.Args := Spec.argsOf (m ((c.tc : Thread nD τ).loc main_arg0)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))
  (m ((c.tc : Thread nD τ).loc main_arg9)) (m ((c.tc : Thread nD τ).loc main_arg10)) (m ((c.tc : Thread nD τ).loc main_arg11))

/-! ## What each buffer keeps across the segments that do not write it -/

/-- The node features reach the first kernel as launched: none of the five opening lines of host operations writes them. -/
theorem keep_arg0_5 : W5 m ρ c (Proc.devRef .tc main_arg0) = m ((c.tc : Thread nD τ).loc main_arg0) :=
  calc W5 m ρ c (Proc.devRef .tc main_arg0)
    _ = W4 m ρ c (Proc.devRef .tc main_arg0) := by host_keep hostOps0_4
    _ = W3 m ρ c (Proc.devRef .tc main_arg0) := by host_keep hostOps0_3
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = m ((c.tc : Thread nD τ).loc main_arg0) := rfl

/-- The second layer's weight array is as launched when the first normalisation's factor and offset are formed: neither kernel before that point has it among its arrays, and no line writes it. -/
theorem keep_arg4_8 : W8 m ρ c (Proc.devRef .tc main_arg4) = m ((c.tc : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by host_keep hostOps1
    _ = W5 m ρ c (Proc.devRef .tc main_arg4) := W6_of_ne m ρ c main_arg4 (by decide)
    _ = W4 m ρ c (Proc.devRef .tc main_arg4) := by host_keep hostOps0_4
    _ = W3 m ρ c (Proc.devRef .tc main_arg4) := by host_keep hostOps0_3
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0
    _ = m ((c.tc : Thread nD τ).loc main_arg4) := rfl

/-- So is the first gain. -/
theorem keep_arg8_8 : W8 m ρ c (Proc.devRef .tc main_arg8) = m ((c.tc : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by host_keep hostOps1
    _ = W5 m ρ c (Proc.devRef .tc main_arg8) := W6_of_ne m ρ c main_arg8 (by decide)
    _ = W4 m ρ c (Proc.devRef .tc main_arg8) := by host_keep hostOps0_4
    _ = W3 m ρ c (Proc.devRef .tc main_arg8) := by host_keep hostOps0_3
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0
    _ = m ((c.tc : Thread nD τ).loc main_arg8) := rfl

/-- So is the first offset. -/
theorem keep_arg9_8 : W8 m ρ c (Proc.devRef .tc main_arg9) = m ((c.tc : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := by host_keep hostOps1
    _ = W5 m ρ c (Proc.devRef .tc main_arg9) := W6_of_ne m ρ c main_arg9 (by decide)
    _ = W4 m ρ c (Proc.devRef .tc main_arg9) := by host_keep hostOps0_4
    _ = W3 m ρ c (Proc.devRef .tc main_arg9) := by host_keep hostOps0_3
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0
    _ = m ((c.tc : Thread nD τ).loc main_arg9) := rfl

/-- The flattened row 0 of the edge array, formed before the first kernel, is still there after the third: no kernel in between has it among its arrays and no line in between writes it. -/
theorem keep_v1_10_5 : W10 m ρ c (Proc.devRef .tc main_v1) = W5 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by host_keep hostOps2
    _ = W7 m ρ c (Proc.devRef .tc main_v1) := W8_of_ne m ρ c main_v1 (by decide)
    _ = W6 m ρ c (Proc.devRef .tc main_v1) := by host_keep hostOps1
    _ = W5 m ρ c (Proc.devRef .tc main_v1) := W6_of_ne m ρ c main_v1 (by decide)

/-- So is the flattened row 1. -/
theorem keep_v3_10_5 : W10 m ρ c (Proc.devRef .tc main_v3) = W5 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keep hostOps2
    _ = W7 m ρ c (Proc.devRef .tc main_v3) := W8_of_ne m ρ c main_v3 (by decide)
    _ = W6 m ρ c (Proc.devRef .tc main_v3) := by host_keep hostOps1
    _ = W5 m ρ c (Proc.devRef .tc main_v3) := W6_of_ne m ρ c main_v3 (by decide)

/-- So are the edge weights. -/
theorem keep_v30_10_5 : W10 m ρ c (Proc.devRef .tc main_v30) = W5 m ρ c (Proc.devRef .tc main_v30) :=
  calc W10 m ρ c (Proc.devRef .tc main_v30)
    _ = W9 m ρ c (Proc.devRef .tc main_v30) := W10_of_ne m ρ c main_v30 (by decide)
    _ = W8 m ρ c (Proc.devRef .tc main_v30) := by host_keep hostOps2
    _ = W7 m ρ c (Proc.devRef .tc main_v30) := W8_of_ne m ρ c main_v30 (by decide)
    _ = W6 m ρ c (Proc.devRef .tc main_v30) := by host_keep hostOps1
    _ = W5 m ρ c (Proc.devRef .tc main_v30) := W6_of_ne m ρ c main_v30 (by decide)

/-- The first convolution survives the line that forms its column means. -/
theorem keep_v51_0_7_6 : W7 m ρ c (Proc.devRef .tc main_v51_0) = W6 m ρ c (Proc.devRef .tc main_v51_0) :=
  calc W7 m ρ c (Proc.devRef .tc main_v51_0)
    _ = W6 m ρ c (Proc.devRef .tc main_v51_0) := by host_keep hostOps1

/-- It also survives the kernel that sums its squared deviations, which only reads it, and the line after that kernel. -/
theorem keep_v51_0_9_7 : W9 m ρ c (Proc.devRef .tc main_v51_0) = W7 m ρ c (Proc.devRef .tc main_v51_0) :=
  calc W9 m ρ c (Proc.devRef .tc main_v51_0)
    _ = W8 m ρ c (Proc.devRef .tc main_v51_0) := by host_keep hostOps2
    _ = W7 m ρ c (Proc.devRef .tc main_v51_0) := (W8_arr m ρ c 0).trans (((dat1 (V7 m ρ) c).arrAt_in 0 rfl _).trans (A_eq1 (V7 m ρ) c 0))

/-- The column means survive the kernel that sums the squared deviations, which only reads them. -/
theorem keep_v53_8_7 : W8 m ρ c (Proc.devRef .tc main_v53) = W7 m ρ c (Proc.devRef .tc main_v53) :=
  calc W8 m ρ c (Proc.devRef .tc main_v53)
    _ = W7 m ρ c (Proc.devRef .tc main_v53) := (W8_arr m ρ c 1).trans (((dat1 (V7 m ρ) c).arrAt_in 1 rfl _).trans (A_eq1 (V7 m ρ) c 1))

/-! ## The pieces this chain composes

Each is stated here in the form the chain uses it; its proof is the corresponding lemma about one line of host
operations (at an arbitrary entry valuation) or about one kernel (at arbitrary entry contents). -/

section Pieces

variable (W : Valuation τ sig (Elt Ideal))

/-- After the opening lines, the flattened row 0 of the edge array holds row 0 of the array. -/
theorem dep_h0_v1 (e : Fin 1600000) : iarr S1600000 ((StableHlo.after hostOps0_4 (StableHlo.after hostOps0_3 (StableHlo.after hostOps0_2 (StableHlo.after hostOps0_1 (StableHlo.after hostOps0 W))))) (Proc.devRef .tc main_v1)) (ix1 e) = iarr S2x1600000 (W (Proc.devRef .tc main_arg1)) (ix2 (0 : Fin 2) e) := KHost.s0_v1 W e
/-- The flattened row 1 holds row 1. -/
theorem dep_h0_v3 (e : Fin 1600000) : iarr S1600000 ((StableHlo.after hostOps0_4 (StableHlo.after hostOps0_3 (StableHlo.after hostOps0_2 (StableHlo.after hostOps0_1 (StableHlo.after hostOps0 W))))) (Proc.devRef .tc main_v3)) (ix1 e) = iarr S2x1600000 (W (Proc.devRef .tc main_arg1)) (ix2 (1 : Fin 2) e) := KHost.s0_v3 W e
/-- The edge-weight vector holds the specification's weight of each edge. -/
theorem dep_h0_v30 (e : Fin 1600000) : arr S1600000 ((StableHlo.after hostOps0_4 (StableHlo.after hostOps0_3 (StableHlo.after hostOps0_2 (StableHlo.after hostOps0_1 (StableHlo.after hostOps0 W))))) (Proc.devRef .tc main_v30)) (ix1 e) = Spec.edgeW (iarr S2x1600000 (W (Proc.devRef .tc main_arg1))) e := KHost.s0_v30 W e
/-- The propagated-features array holds one propagation step of the node features over the graph of the edge array. -/
theorem dep_h0_v45 (n : Fin 100000) (k : Fin 64) : arr S100000x64 ((StableHlo.after hostOps0_4 (StableHlo.after hostOps0_3 (StableHlo.after hostOps0_2 (StableHlo.after hostOps0_1 (StableHlo.after hostOps0 W))))) (Proc.devRef .tc main_v45)) (ix2 n k)
    = Spec.prop (Spec.graphOf (iarr S2x1600000 (W (Proc.devRef .tc main_arg1)))) (fun n k => arr S100000x64 (W (Proc.devRef .tc main_arg0)) (ix2 n k)) n k := KHost.s0_v45 W n k
/-- The first slice of the first weight array. -/
theorem dep_h0_v47 (k : Fin 64) (j : Fin 128) : arr S64x128 ((StableHlo.after hostOps0_4 (StableHlo.after hostOps0_3 (StableHlo.after hostOps0_2 (StableHlo.after hostOps0_1 (StableHlo.after hostOps0 W))))) (Proc.devRef .tc main_v47)) (ix2 k j) = arr S2x64x128 (W (Proc.devRef .tc main_arg2)) (ix3 (0 : Fin 2) k j) := KHost.s0_v47 W k j
/-- Its second slice. -/
theorem dep_h0_v49 (k : Fin 64) (j : Fin 128) : arr S64x128 ((StableHlo.after hostOps0_4 (StableHlo.after hostOps0_3 (StableHlo.after hostOps0_2 (StableHlo.after hostOps0_1 (StableHlo.after hostOps0 W))))) (Proc.devRef .tc main_v49)) (ix2 k j) = arr S2x64x128 (W (Proc.devRef .tc main_arg2)) (ix3 (1 : Fin 2) k j) := KHost.s0_v49 W k j
/-- The first bias as a row. -/
theorem dep_h0_v50 (j : Fin 128) : arr S1x128 ((StableHlo.after hostOps0_4 (StableHlo.after hostOps0_3 (StableHlo.after hostOps0_2 (StableHlo.after hostOps0_1 (StableHlo.after hostOps0 W))))) (Proc.devRef .tc main_v50)) (ix2 (0 : Fin 1) j) = arr S128 (W (Proc.devRef .tc main_arg3)) (ix1 j) := KHost.s0_v50 W j

/-- The line after the first kernel divides the column sums by the number of nodes. -/
theorem dep_h1_v53 (j : Fin 128) : arr S1x128 ((StableHlo.after hostOps1 W) (Proc.devRef .tc main_v53)) (ix2 (0 : Fin 1) j)
    = Ideal.div (arr S1x128 (W (Proc.devRef .tc main_v51_1)) (ix2 (0 : Fin 1) j)) Spec.cnt := KHost.s1_v53 W j

/-- The line after the second kernel forms the factor: the gain times the reciprocal square root of the summed squared deviations over the number of nodes, plus the small constant. -/
theorem dep_h2_v62 (j : Fin 128) : arr S1x128 ((StableHlo.after hostOps2 W) (Proc.devRef .tc main_v62)) (ix2 (0 : Fin 1) j) = arr S128 (W (Proc.devRef .tc main_arg8)) (ix1 j) * Ideal.rsqrt (Ideal.div (arr S1x128 (W (Proc.devRef .tc main_v54)) (ix2 (0 : Fin 1) j)) Spec.cnt + Spec.eps) := KHost.s2_v62 W j
/-- It forms the offset: the normalisation's offset minus the column mean times the factor. -/
theorem dep_h2_v64 (j : Fin 128) : arr S1x128 ((StableHlo.after hostOps2 W) (Proc.devRef .tc main_v64)) (ix2 (0 : Fin 1) j)
    = arr S128 (W (Proc.devRef .tc main_arg9)) (ix1 j) - arr S1x128 (W (Proc.devRef .tc main_v53)) (ix2 (0 : Fin 1) j) * (arr S128 (W (Proc.devRef .tc main_arg8)) (ix1 j) * Ideal.rsqrt (Ideal.div (arr S1x128 (W (Proc.devRef .tc main_v54)) (ix2 (0 : Fin 1) j)) Spec.cnt + Spec.eps)) := KHost.s2_v64 W j
/-- It also slices the second weight array's second half. -/
theorem dep_h2_v66 (k : Fin 128) (j : Fin 64) : arr S128x64 ((StableHlo.after hostOps2 W) (Proc.devRef .tc main_v66)) (ix2 k j) = arr S2x128x64 (W (Proc.devRef .tc main_arg4)) (ix3 (1 : Fin 2) k j) := KHost.s2_v66 W k j

variable (V : (c : Dev nD) → (b : Ref sig .tc) → Buf (Elt Ideal) ((c : Thread nD τ).loc b))

/-- The first kernel leaves the two-term convolution of the arrays it finds. -/
theorem dep_r0_conv (n : Fin 100000) (j : Fin 128) :
    arr S100000x128 ((dat0 V c).arrAt 5 cfg0.N) (ix2 n j) = (∑ k : Fin 64, arr S100000x64 (V c main_arg0) (ix2 n k) * arr S64x128 (V c main_v47) (ix2 k j) + ∑ k : Fin 64, arr S100000x64 (V c main_v45) (ix2 n k) * arr S64x128 (V c main_v49) (ix2 k j)) + arr S1x128 (V c main_v50) (ix2 (0 : Fin 1) j) := KReg0.r0_conv V c n j
/-- It also leaves that convolution's column sums. -/
theorem dep_r0_sum (j : Fin 128) :
    arr S1x128 ((dat0 V c).arrAt 6 cfg0.N) (ix2 (0 : Fin 1) j) = ∑ n : Fin 100000, ((∑ k : Fin 64, arr S100000x64 (V c main_arg0) (ix2 n k) * arr S64x128 (V c main_v47) (ix2 k j) + ∑ k : Fin 64, arr S100000x64 (V c main_v45) (ix2 n k) * arr S64x128 (V c main_v49) (ix2 k j)) + arr S1x128 (V c main_v50) (ix2 (0 : Fin 1) j)) := KReg0.r0_sum V c j
/-- The second kernel leaves, per column, the sum over the nodes of the squared deviation from the row it is given. -/
theorem dep_r1_sum (k : Fin 128) :
    arr S1x128 ((dat1 V c).arrAt 2 cfg1.N) (ix2 (0 : Fin 1) k)
      = ∑ n : Fin 100000, (arr S100000x128 (V c main_v51_0) (ix2 n k) - arr S1x128 (V c main_v53) (ix2 (0 : Fin 1) k)) * (arr S100000x128 (V c main_v51_0) (ix2 n k) - arr S1x128 (V c main_v53) (ix2 (0 : Fin 1) k)) := KRegVar.r1_sum V c k
/-- The third kernel leaves the rectifier of each entry scaled and shifted by its column's factor and offset. -/
theorem dep_r2_h (n : Fin 100000) (k : Fin 128) :
    arr S100000x128 ((dat2 V c).arrAt 4 cfg2.N) (ix2 n k) = Spec.lrelu (arr S100000x128 (V c main_v51_0) (ix2 n k) * arr S1x128 (V c main_v62) (ix2 (0 : Fin 1) k) + arr S1x128 (V c main_v64) (ix2 (0 : Fin 1) k)) := KRegMap.r2_h V c n k
/-- It also leaves those entries multiplied into the weight matrix it is given. -/
theorem dep_r2_z (n : Fin 100000) (j : Fin 64) :
    arr S100000x64 ((dat2 V c).arrAt 5 cfg2.N) (ix2 n j) = ∑ k : Fin 128, Spec.lrelu (arr S100000x128 (V c main_v51_0) (ix2 n k) * arr S1x128 (V c main_v62) (ix2 (0 : Fin 1) k) + arr S1x128 (V c main_v64) (ix2 (0 : Fin 1) k)) * arr S128x64 (V c main_v66) (ix2 k j) := KRegMap.r2_z V c n j

end Pieces

/-! ## The chain: what each buffer holds at each boundary between segments -/

/-! ### Entry of the first kernel -/

/-- Before the first kernel the feature buffer holds the launched features. -/
theorem f5_arg0 (n : Fin 100000) (k : Fin 64) : arr S100000x64 (W5 m ρ c (Proc.devRef .tc main_arg0)) (ix2 n k) = (A m c).x n k :=
  congrFun (keep_arg0_5 m ρ c) (ix2 n k)
/-- The flattened row 0 holds row 0 of the launched edge array. -/
theorem f5_v1 (e : Fin 1600000) : iarr S1600000 (W5 m ρ c (Proc.devRef .tc main_v1)) (ix1 e) = ei m c (ix2 (0 : Fin 2) e) := dep_h0_v1 (W0 m ρ c) e
/-- The flattened row 1 holds row 1. -/
theorem f5_v3 (e : Fin 1600000) : iarr S1600000 (W5 m ρ c (Proc.devRef .tc main_v3)) (ix1 e) = ei m c (ix2 (1 : Fin 2) e) := dep_h0_v3 (W0 m ρ c) e
/-- The edge-weight vector holds the weights of the launched graph. -/
theorem f5_v30 (e : Fin 1600000) : arr S1600000 (W5 m ρ c (Proc.devRef .tc main_v30)) (ix1 e) = Spec.edgeW (ei m c) e := dep_h0_v30 (W0 m ρ c) e
/-- The propagated features are one propagation step of the launched features over the launched graph. -/
theorem f5_v45 (n : Fin 100000) (k : Fin 64) : arr S100000x64 (W5 m ρ c (Proc.devRef .tc main_v45)) (ix2 n k) = Spec.prop (G m c) (A m c).x n k :=
  dep_h0_v45 (W0 m ρ c) n k
/-- The first-order weights of the first layer. -/
theorem f5_v47 (k : Fin 64) (j : Fin 128) : arr S64x128 (W5 m ρ c (Proc.devRef .tc main_v47)) (ix2 k j) = (A m c).W1a k j := dep_h0_v47 (W0 m ρ c) k j
/-- Its second-order weights. -/
theorem f5_v49 (k : Fin 64) (j : Fin 128) : arr S64x128 (W5 m ρ c (Proc.devRef .tc main_v49)) (ix2 k j) = (A m c).W1b k j := dep_h0_v49 (W0 m ρ c) k j
/-- Its bias. -/
theorem f5_v50 (j : Fin 128) : arr S1x128 (W5 m ρ c (Proc.devRef .tc main_v50)) (ix2 (0 : Fin 1) j) = (A m c).b1 j := dep_h0_v50 (W0 m ρ c) j

/-! ### The first convolution and its column sums -/

/-- After the first kernel the convolution buffer holds the first layer's convolution. -/
theorem f6_c1 (n : Fin 100000) (j : Fin 128) : arr S100000x128 (W6 m ρ c (Proc.devRef .tc main_v51_0)) (ix2 n j) = Spec.c1 (G m c) (A m c) n j := by
  have h : arr S100000x128 (W6 m ρ c (Proc.devRef .tc main_v51_0)) (ix2 n j) = arr S100000x128 ((dat0 (V5 m ρ) c).arrAt 5 cfg0.N) (ix2 n j) :=
    congrFun (W6_arr m ρ c 5) (ix2 n j)
  rw [h, dep_r0_conv c (V5 m ρ) n j]
  unfold Spec.c1 Spec.conv Spec.mm
  simp only [f5_arg0 m ρ c, f5_v45 m ρ c, f5_v47 m ρ c, f5_v49 m ρ c, f5_v50 m ρ c]

/-- The column-sum buffer holds that convolution's column sums. -/
theorem f6_s1 (j : Fin 128) : arr S1x128 (W6 m ρ c (Proc.devRef .tc main_v51_1)) (ix2 (0 : Fin 1) j) = ∑ n : Fin 100000, Spec.c1 (G m c) (A m c) n j := by
  have h : arr S1x128 (W6 m ρ c (Proc.devRef .tc main_v51_1)) (ix2 (0 : Fin 1) j) = arr S1x128 ((dat0 (V5 m ρ) c).arrAt 6 cfg0.N) (ix2 (0 : Fin 1) j) :=
    congrFun (W6_arr m ρ c 6) (ix2 (0 : Fin 1) j)
  rw [h, dep_r0_sum c (V5 m ρ) j]
  refine Finset.sum_congr rfl (fun n _ => ?_)
  unfold Spec.c1 Spec.conv Spec.mm
  simp only [f5_arg0 m ρ c, f5_v45 m ρ c, f5_v47 m ρ c, f5_v49 m ρ c, f5_v50 m ρ c]

/-! ### Its column means -/

/-- The convolution is still there after the next line. -/
theorem f7_c1 (n : Fin 100000) (j : Fin 128) : arr S100000x128 (W7 m ρ c (Proc.devRef .tc main_v51_0)) (ix2 n j) = Spec.c1 (G m c) (A m c) n j :=
  (congrFun (keep_v51_0_7_6 m ρ c) (ix2 n j)).trans (f6_c1 m ρ c n j)
/-- That line leaves the convolution's column means. -/
theorem f7_mean (j : Fin 128) : arr S1x128 (W7 m ρ c (Proc.devRef .tc main_v53)) (ix2 (0 : Fin 1) j) = Spec.mean (Spec.c1 (G m c) (A m c)) j := by
  have h := dep_h1_v53 (W6 m ρ c) j
  rw [f6_s1 m ρ c j] at h
  exact h

/-! ### Its column sums of squared deviations -/

/-- After the second kernel the accumulator holds, per column, the sum of squared deviations from the mean. -/
theorem f8_v54 (j : Fin 128) : arr S1x128 (W8 m ρ c (Proc.devRef .tc main_v54)) (ix2 (0 : Fin 1) j) = ∑ n : Fin 100000, (Spec.c1 (G m c) (A m c) n j - Spec.mean (Spec.c1 (G m c) (A m c)) j) * (Spec.c1 (G m c) (A m c) n j - Spec.mean (Spec.c1 (G m c) (A m c)) j) := by
  have h : arr S1x128 (W8 m ρ c (Proc.devRef .tc main_v54)) (ix2 (0 : Fin 1) j) = arr S1x128 ((dat1 (V7 m ρ) c).arrAt 2 cfg1.N) (ix2 (0 : Fin 1) j) :=
    congrFun (W8_arr m ρ c 2) (ix2 (0 : Fin 1) j)
  rw [h, dep_r1_sum c (V7 m ρ) j]
  simp only [f7_c1 m ρ c, f7_mean m ρ c]

/-- The column means are still there. -/
theorem f8_v53 (j : Fin 128) : arr S1x128 (W8 m ρ c (Proc.devRef .tc main_v53)) (ix2 (0 : Fin 1) j) = Spec.mean (Spec.c1 (G m c) (A m c)) j :=
  (congrFun (keep_v53_8_7 m ρ c) (ix2 (0 : Fin 1) j)).trans (f7_mean m ρ c j)
/-- The gain buffer holds the launched gain. -/
theorem f8_arg8 (j : Fin 128) : arr S128 (W8 m ρ c (Proc.devRef .tc main_arg8)) (ix1 j) = (A m c).g1 j := congrFun (keep_arg8_8 m ρ c) (ix1 j)
/-- The offset buffer holds the launched offset. -/
theorem f8_arg9 (j : Fin 128) : arr S128 (W8 m ρ c (Proc.devRef .tc main_arg9)) (ix1 j) = (A m c).be1 j := congrFun (keep_arg9_8 m ρ c) (ix1 j)
/-- The second half of the second layer's weight buffer holds the launched second-order weights. -/
theorem f8_arg4 (k : Fin 128) (j : Fin 64) : arr S2x128x64 (W8 m ρ c (Proc.devRef .tc main_arg4)) (ix3 (1 : Fin 2) k j) = (A m c).W2b k j :=
  congrFun (keep_arg4_8 m ρ c) (ix3 (1 : Fin 2) k j)

/-! ### The first normalisation's factor and offset -/

/-- After the next line the factor row is the specification's per-column factor of the first normalisation. -/
theorem f9_v62 (j : Fin 128) : arr S1x128 (W9 m ρ c (Proc.devRef .tc main_v62)) (ix2 (0 : Fin 1) j) = Spec.scale (A m c).g1 (Spec.c1 (G m c) (A m c)) j := by
  have h := dep_h2_v62 (W8 m ρ c) j
  rw [f8_arg8 m ρ c j, f8_v54 m ρ c j] at h
  exact h
/-- The offset row is its per-column offset. -/
theorem f9_v64 (j : Fin 128) : arr S1x128 (W9 m ρ c (Proc.devRef .tc main_v64)) (ix2 (0 : Fin 1) j) = Spec.shift (A m c).g1 (A m c).be1 (Spec.c1 (G m c) (A m c)) j := by
  have h := dep_h2_v64 (W8 m ρ c) j
  rw [f8_arg9 m ρ c j, f8_v53 m ρ c j, f8_arg8 m ρ c j, f8_v54 m ρ c j] at h
  exact h
/-- The sliced weights are the second layer's second-order weights. -/
theorem f9_v66 (k : Fin 128) (j : Fin 64) : arr S128x64 (W9 m ρ c (Proc.devRef .tc main_v66)) (ix2 k j) = (A m c).W2b k j :=
  (dep_h2_v66 (W8 m ρ c) k j).trans (f8_arg4 m ρ c k j)
/-- The first convolution is still there for the third kernel. -/
theorem f9_c1 (n : Fin 100000) (j : Fin 128) : arr S100000x128 (W9 m ρ c (Proc.devRef .tc main_v51_0)) (ix2 n j) = Spec.c1 (G m c) (A m c) n j :=
  (congrFun (keep_v51_0_9_7 m ρ c) (ix2 n j)).trans (f7_c1 m ρ c n j)

/-! ### The first layer's features and their projection -/

/-- After the third kernel the feature buffer holds the first layer's features: the rectifier of the scaled and shifted convolution. -/
theorem f10_h (n : Fin 100000) (k : Fin 128) : arr S100000x128 (W10 m ρ c (Proc.devRef .tc main_v67_0)) (ix2 n k) = Spec.hK (G m c) (A m c) n k := by
  have h : arr S100000x128 (W10 m ρ c (Proc.devRef .tc main_v67_0)) (ix2 n k) = arr S100000x128 ((dat2 (V9 m ρ) c).arrAt 4 cfg2.N) (ix2 n k) :=
    congrFun (W10_arr m ρ c 4) (ix2 n k)
  rw [h, dep_r2_h c (V9 m ρ) n k]
  simp only [f9_c1 m ρ c, f9_v62 m ρ c, f9_v64 m ρ c]
  rfl

/-- The projection buffer holds those features times the second layer's second-order weights. -/
theorem f10_z (n : Fin 100000) (j : Fin 64) : arr S100000x64 (W10 m ρ c (Proc.devRef .tc main_v67_1)) (ix2 n j) = Spec.zK (G m c) (A m c) n j := by
  have h : arr S100000x64 (W10 m ρ c (Proc.devRef .tc main_v67_1)) (ix2 n j) = arr S100000x64 ((dat2 (V9 m ρ) c).arrAt 5 cfg2.N) (ix2 n j) :=
    congrFun (W10_arr m ρ c 5) (ix2 n j)
  rw [h, dep_r2_z c (V9 m ρ) n j]
  simp only [f9_c1 m ρ c, f9_v62 m ρ c, f9_v64 m ρ c, f9_v66 m ρ c]
  rfl

/-- The flattened row 0 of the edge array is still there. -/
theorem f10_v1 (e : Fin 1600000) : iarr S1600000 (W10 m ρ c (Proc.devRef .tc main_v1)) (ix1 e) = ei m c (ix2 (0 : Fin 2) e) :=
  (congrFun (keep_v1_10_5 m ρ c) (ix1 e)).trans (f5_v1 m ρ c e)
/-- So is the flattened row 1. -/
theorem f10_v3 (e : Fin 1600000) : iarr S1600000 (W10 m ρ c (Proc.devRef .tc main_v3)) (ix1 e) = ei m c (ix2 (1 : Fin 2) e) :=
  (congrFun (keep_v3_10_5 m ρ c) (ix1 e)).trans (f5_v3 m ρ c e)
/-- So are the edge weights. -/
theorem f10_v30 (e : Fin 1600000) : arr S1600000 (W10 m ρ c (Proc.devRef .tc main_v30)) (ix1 e) = Spec.edgeW (ei m c) e :=
  (congrFun (keep_v30_10_5 m ρ c) (ix1 e)).trans (f5_v30 m ρ c e)
/-! ### The result -/

/-- THE KERNEL'S RESULT: after the last kernel the result array holds, entry by entry, the scale-and-shift arrangement
    of the three-layer convolution of the launched arguments over the launched graph. The second half of the program
    takes the contents found here after the third kernel to the result. -/
theorem result_eq (m : (ℓ : Loc nD τ sig) → Buf (Elt Ideal) ℓ) (ρ : Dev nD → PrngReg) (c : Dev nD) (n : Fin 100000) (j : Fin 64) :
    ((W18 m ρ c (Proc.devRef .tc main_v119) : S100000x64.Idx → EReal)) (ix2 n j)
      = Cert.Spec.outK (Cert.Spec.graphOf (m ((c.tc : Thread nD τ).loc main_arg1)))
          (Cert.Spec.argsOf (m ((c.tc : Thread nD τ).loc main_arg0)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
            (m ((c.tc : Thread nD τ).loc main_arg11))) n j :=
  Cert.KChain2.tail_eq m ρ c (f10_h m ρ c) (f10_z m ρ c) (f10_v1 m ρ c) (f10_v3 m ρ c) (f10_v30 m ρ c) n j

end Cert.KChain
end
-- ==== Proof.RefRunLite.lean ====
/-
  The reference's host program read without writing out its composed term. The program is a straight line of 197
  operations, and each operation's stage value is defined from the stage values of its operands. The line is cut
  into ten segments and read segment by segment: if at the start of a segment the argument arrays are untouched and
  every buffer written earlier that a later operation still reads holds its stage value, then the same holds at the
  end of the segment (each new buffer holds its operation applied to stage values, which is its own stage value by
  definition). Chained from the launch contents to the end of the program this gives: the result buffer holds the last
  stage's value of the argument arrays, and the argument arrays are unchanged. The run of the program follows from the
  library's theorem on running a list of host operations.
-/
import proofs.«126863_j82781199663546_2_alg».proof.Proof.RefOps
import proofs.«126863_j82781199663546_2_alg».proof.Proof.RefStages
import proofs.«126863_j82781199663546_2_alg».proof.Proof.LibHostWalk
import Idealize.ShloMosaic.Lib.StableHlo.Run

set_option maxRecDepth 16384

noncomputable section

namespace Cert.RefRunLite
open Cert.ReferenceIdeal Cert.ReferenceIdeal.Gen Cert.ReferenceIdeal.Read Idealize.ShloMosaic Idealize.ShloMosaic.TcCoe Idealize.SL.Sem Idealize.ShloMosaic.StableHlo Cert.HostWalk
variable {F : FTy → Type} [FloatOps F]

/-- Operations 1 to 25 of the reference's host program. -/
abbrev seg1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x00000000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v11) (TRef.of (T := ⟨S100000, .f32⟩) main_v7) (TRef.of (T := ⟨S100000, .f32⟩) main_call0_v1) (TRef.of (T := ⟨S100000, .f32⟩) main_v12) select,
    unary main_v12 main_v13 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v9) (TRef.of (T := ⟨S100000, .f32⟩) main_v13) (TRef.of (T := ⟨S100000, .f32⟩) main_call1_v1) (TRef.of (T := ⟨S100000, .f32⟩) main_v14) select ]

/-- Operations 26 to 45 of the reference's host program. -/
abbrev seg2 : List (HloOp τ sig (Elt F)) :=
  [ nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v14 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v21 main_v22 (Host.negf : (⟨S1600000, .f32⟩ : BufTy).Contents (Elt F) → (⟨S1600000, .f32⟩ : BufTy).Contents (Elt F)),
    nullary main_c_6 (constantI S_ 32 0#32),
    unary main_c_6 main_v23 (broadcastInDim S1600000 ![] bcast_S_S1600000 : (⟨S_, .i32⟩ : BufTy).Contents (Elt F) → (⟨S1600000, .i32⟩ : BufTy).Contents (Elt F)),
    binary main_v3 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v25 (broadcastInDim S1600000 ![] bcast_S_S1600000 : (⟨S_, .i32⟩ : BufTy).Contents (Elt F) → (⟨S1600000, .i32⟩ : BufTy).Contents (Elt F)),
    binary main_v3 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v14 main_v28 main_v29 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v22 main_v29 main_v30 (mulf : (⟨S1600000, .f32⟩ : BufTy).Contents (Elt F) → (⟨S1600000, .f32⟩ : BufTy).Contents (Elt F) → (⟨S1600000, .f32⟩ : BufTy).Contents (Elt F)) ]

/-- Operations 46 to 68 of the reference's host program. -/
abbrev seg3 : List (HloOp τ sig (Elt F)) :=
  [ unary main_arg2 main_v31 ((extractStridedSlice S1x64x128 ![0, 0, 0] · slices_S2x64x128_S1x64x128_0_0_0) : (⟨S2x64x128, .f32⟩ : BufTy).Contents (Elt F) → (⟨S1x64x128, .f32⟩ : BufTy).Contents (Elt F)),
    reshape main_v31 main_v32 rfl shapeCasts_S1x64x128_S64x128,
    binary main_arg0 main_v32 main_v33 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_v30 main_v34 (broadcastInDim S1600000x1 ![0] bcast_S1600000_S1600000x1_0 : (⟨S1600000, .f32⟩ : BufTy).Contents (Elt F) → (⟨S1600000x1, .f32⟩ : BufTy).Contents (Elt F)),
    nullary main_c_8 (constantI S_ 32 0#32),
    unary main_c_8 main_v35 (broadcastInDim S1600000 ![] bcast_S_S1600000 : (⟨S_, .i32⟩ : BufTy).Contents (Elt F) → (⟨S1600000, .i32⟩ : BufTy).Contents (Elt F)),
    binary main_v1 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v37 (broadcastInDim S1600000 ![] bcast_S_S1600000 : (⟨S_, .i32⟩ : BufTy).Contents (Elt F) → (⟨S1600000, .i32⟩ : BufTy).Contents (Elt F)),
    binary main_v1 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_v1 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_arg0 main_v40 main_v41 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v34 main_v42 (broadcastInDim S1600000x64 ![0, 1] bcast_S1600000x1_S1600000x64_0_1 : (⟨S1600000x1, .f32⟩ : BufTy).Contents (Elt F) → (⟨S1600000x64, .f32⟩ : BufTy).Contents (Elt F)),
    binary main_v42 main_v41 main_v43 (mulf : (⟨S1600000x64, .f32⟩ : BufTy).Contents (Elt F) → (⟨S1600000x64, .f32⟩ : BufTy).Contents (Elt F) → (⟨S1600000x64, .f32⟩ : BufTy).Contents (Elt F)),
    nullary main_cst_10 (constant S_ .f32 0x00000000#32),
    unary main_cst_10 main_v44 (broadcastInDim S100000x64 ![] bcast_S_S100000x64 : (⟨S_, .f32⟩ : BufTy).Contents (Elt F) → (⟨S100000x64, .f32⟩ : BufTy).Contents (Elt F)),
    unary main_v3 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg2 main_v47 ((extractStridedSlice S1x64x128 ![1, 0, 0] · slices_S2x64x128_S1x64x128_1_0_0) : (⟨S2x64x128, .f32⟩ : BufTy).Contents (Elt F) → (⟨S1x64x128, .f32⟩ : BufTy).Contents (Elt F)),
    reshape main_v47 main_v48 rfl shapeCasts_S1x64x128_S64x128,
    binary main_v46 main_v48 main_v49 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v33 main_v49 main_v50 (addf : (⟨S100000x128, .f32⟩ : BufTy).Contents (Elt F) → (⟨S100000x128, .f32⟩ : BufTy).Contents (Elt F) → (⟨S100000x128, .f32⟩ : BufTy).Contents (Elt F)) ]

/-- Operations 69 to 88 of the reference's host program. -/
abbrev seg4 : List (HloOp τ sig (Elt F)) :=
  [ unary main_arg3 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v50 main_v52 main_v53 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v53 main_cst_11 main_v54 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v53 main_v58 main_v59 (subf : (⟨S100000x128, .f32⟩ : BufTy).Contents (Elt F) → (⟨S100000x128, .f32⟩ : BufTy).Contents (Elt F) → (⟨S100000x128, .f32⟩ : BufTy).Contents (Elt F)),
    binary main_v59 main_v59 main_v60 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x00000000#32),
    binary main_v60 main_cst_13 main_v61 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_14 (constant S_ .f32 0x47C35000#32),
    unary main_cst_14 main_v62 (broadcastInDim S128 ![] bcast_S_S128 : (⟨S_, .f32⟩ : BufTy).Contents (Elt F) → (⟨S128, .f32⟩ : BufTy).Contents (Elt F)),
    binary main_v61 main_v62 main_v63 (Host.divf : (⟨S128, .f32⟩ : BufTy).Contents (Elt F) → (⟨S128, .f32⟩ : BufTy).Contents (Elt F) → (⟨S128, .f32⟩ : BufTy).Contents (Elt F)),
    unary main_v56 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v53 main_v65 main_v66 (subf : (⟨S100000x128, .f32⟩ : BufTy).Contents (Elt F) → (⟨S100000x128, .f32⟩ : BufTy).Contents (Elt F) → (⟨S100000x128, .f32⟩ : BufTy).Contents (Elt F)) ]

/-- Operations 89 to 108 of the reference's host program. -/
abbrev seg5 : List (HloOp τ sig (Elt F)) :=
  [ unary main_arg8 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v68 main_v66 main_v69 (mulf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x3727C5AC#32),
    unary main_cst_15 main_v70 (broadcastInDim S128 ![] bcast_S_S128 : (⟨S_, .f32⟩ : BufTy).Contents (Elt F) → (⟨S128, .f32⟩ : BufTy).Contents (Elt F)),
    binary main_v63 main_v70 main_v71 (addf : (⟨S128, .f32⟩ : BufTy).Contents (Elt F) → (⟨S128, .f32⟩ : BufTy).Contents (Elt F) → (⟨S128, .f32⟩ : BufTy).Contents (Elt F)),
    unary main_v71 main_v72 (Host.rsqrt : (⟨S128, .f32⟩ : BufTy).Contents (Elt F) → (⟨S128, .f32⟩ : BufTy).Contents (Elt F)),
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v69 main_v74 main_v75 (mulf : (⟨S100000x128, .f32⟩ : BufTy).Contents (Elt F) → (⟨S100000x128, .f32⟩ : BufTy).Contents (Elt F) → (⟨S100000x128, .f32⟩ : BufTy).Contents (Elt F)),
    unary main_arg9 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (addf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    unary main_cst_16 main_v79 (broadcastInDim S100000x128 ![] bcast_S_S100000x128 : (⟨S_, .f32⟩ : BufTy).Contents (Elt F) → (⟨S100000x128, .f32⟩ : BufTy).Contents (Elt F)),
    binary main_v78 main_v79 main_v80 (cmpf .oge : (⟨S100000x128, .f32⟩ : BufTy).Contents (Elt F) → (⟨S100000x128, .f32⟩ : BufTy).Contents (Elt F) → (⟨S100000x128, .i1⟩ : BufTy).Contents (Elt F)),
    nullary main_cst_17 (constant S_ .f32 0x3C23D70A#32),
    unary main_cst_17 main_v81 (broadcastInDim S100000x128 ![] bcast_S_S100000x128 : (⟨S_, .f32⟩ : BufTy).Contents (Elt F) → (⟨S100000x128, .f32⟩ : BufTy).Contents (Elt F)),
    binary main_v81 main_v78 main_v82 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v80) (TRef.of (T := ⟨S100000x128, .f32⟩) main_v78) (TRef.of (T := ⟨S100000x128, .f32⟩) main_v82) (TRef.of (T := ⟨S100000x128, .f32⟩) main_v83) select ]

/-- Operations 109 to 131 of the reference's host program. -/
abbrev seg6 : List (HloOp τ sig (Elt F)) :=
  [ unary main_arg4 main_v84 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v84 main_v85 rfl shapeCasts_S1x128x64_S128x64,
    binary main_v83 main_v85 main_v86 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v30 main_v87 (broadcastInDim S1600000x1 ![0] bcast_S1600000_S1600000x1_0 : (⟨S1600000, .f32⟩ : BufTy).Contents (Elt F) → (⟨S1600000x1, .f32⟩ : BufTy).Contents (Elt F)),
    nullary main_c_18 (constantI S_ 32 0#32),
    unary main_c_18 main_v88 (broadcastInDim S1600000 ![] bcast_S_S1600000 : (⟨S_, .i32⟩ : BufTy).Contents (Elt F) → (⟨S1600000, .i32⟩ : BufTy).Contents (Elt F)),
    binary main_v1 main_v88 main_v89 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v90 (broadcastInDim S1600000 ![] bcast_S_S1600000 : (⟨S_, .i32⟩ : BufTy).Contents (Elt F) → (⟨S1600000, .i32⟩ : BufTy).Contents (Elt F)),
    binary main_v1 main_v90 main_v91 (addi : (⟨S1600000, .i32⟩ : BufTy).Contents (Elt F) → (⟨S1600000, .i32⟩ : BufTy).Contents (Elt F) → (⟨S1600000, .i32⟩ : BufTy).Contents (Elt F)),
    ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v92 main_v93 (broadcastInDim S1600000x1 ![0] bcast_S1600000_S1600000x1_0 : (⟨S1600000, .i32⟩ : BufTy).Contents (Elt F) → (⟨S1600000x1, .i32⟩ : BufTy).Contents (Elt F)),
    binary main_v83 main_v93 main_v94 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v87 main_v95 (broadcastInDim S1600000x128 ![0, 1] bcast_S1600000x1_S1600000x128_0_1 : (⟨S1600000x1, .f32⟩ : BufTy).Contents (Elt F) → (⟨S1600000x128, .f32⟩ : BufTy).Contents (Elt F)),
    binary main_v95 main_v94 main_v96 (mulf : (⟨S1600000x128, .f32⟩ : BufTy).Contents (Elt F) → (⟨S1600000x128, .f32⟩ : BufTy).Contents (Elt F) → (⟨S1600000x128, .f32⟩ : BufTy).Contents (Elt F)),
    nullary main_cst_20 (constant S_ .f32 0x00000000#32),
    unary main_cst_20 main_v97 (broadcastInDim S100000x128 ![] bcast_S_S100000x128 : (⟨S_, .f32⟩ : BufTy).Contents (Elt F) → (⟨S100000x128, .f32⟩ : BufTy).Contents (Elt F)),
    unary main_v3 main_v98 (broadcastInDim S1600000x1 ![0] bcast_S1600000_S1600000x1_0 : (⟨S1600000, .i32⟩ : BufTy).Contents (Elt F) → (⟨S1600000x1, .i32⟩ : BufTy).Contents (Elt F)),
    ternary main_v97 main_v98 main_v96 main_v99 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg4 main_v100 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v100 main_v101 rfl shapeCasts_S1x128x64_S128x64,
    binary main_v99 main_v101 main_v102 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v86 main_v102 main_v103 (addf : (⟨S100000x64, .f32⟩ : BufTy).Contents (Elt F) → (⟨S100000x64, .f32⟩ : BufTy).Contents (Elt F) → (⟨S100000x64, .f32⟩ : BufTy).Contents (Elt F)) ]

/-- Operations 132 to 151 of the reference's host program. -/
abbrev seg7 : List (HloOp τ sig (Elt F)) :=
  [ unary main_arg5 main_v104 (broadcastInDim S1x64 ![1] bcast_S64_S1x64_1 : (⟨S64, .f32⟩ : BufTy).Contents (Elt F) → (⟨S1x64, .f32⟩ : BufTy).Contents (Elt F)),
    unary main_v104 main_v105 (broadcastInDim S100000x64 ![0, 1] bcast_S1x64_S100000x64_0_1 : (⟨S1x64, .f32⟩ : BufTy).Contents (Elt F) → (⟨S100000x64, .f32⟩ : BufTy).Contents (Elt F)),
    binary main_v103 main_v105 main_v106 (addf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x00000000#32),
    binary main_v106 main_cst_21 main_v107 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_22 (constant S_ .f32 0x47C35000#32),
    unary main_cst_22 main_v108 (broadcastInDim S64 ![] bcast_S_S64 : (⟨S_, .f32⟩ : BufTy).Contents (Elt F) → (⟨S64, .f32⟩ : BufTy).Contents (Elt F)),
    binary main_v107 main_v108 main_v109 (Host.divf : (⟨S64, .f32⟩ : BufTy).Contents (Elt F) → (⟨S64, .f32⟩ : BufTy).Contents (Elt F) → (⟨S64, .f32⟩ : BufTy).Contents (Elt F)),
    unary main_v109 main_v110 (broadcastInDim S1x64 ![1] bcast_S64_S1x64_1 : (⟨S64, .f32⟩ : BufTy).Contents (Elt F) → (⟨S1x64, .f32⟩ : BufTy).Contents (Elt F)),
    unary main_v110 main_v111 (broadcastInDim S100000x64 ![0, 1] bcast_S1x64_S100000x64_0_1 : (⟨S1x64, .f32⟩ : BufTy).Contents (Elt F) → (⟨S100000x64, .f32⟩ : BufTy).Contents (Elt F)),
    binary main_v106 main_v111 main_v112 (subf : (⟨S100000x64, .f32⟩ : BufTy).Contents (Elt F) → (⟨S100000x64, .f32⟩ : BufTy).Contents (Elt F) → (⟨S100000x64, .f32⟩ : BufTy).Contents (Elt F)),
    binary main_v112 main_v112 main_v113 (mulf : (⟨S100000x64, .f32⟩ : BufTy).Contents (Elt F) → (⟨S100000x64, .f32⟩ : BufTy).Contents (Elt F) → (⟨S100000x64, .f32⟩ : BufTy).Contents (Elt F)),
    nullary main_cst_23 (constant S_ .f32 0x00000000#32),
    binary main_v113 main_cst_23 main_v114 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_24 (constant S_ .f32 0x47C35000#32),
    unary main_cst_24 main_v115 (broadcastInDim S64 ![] bcast_S_S64 : (⟨S_, .f32⟩ : BufTy).Contents (Elt F) → (⟨S64, .f32⟩ : BufTy).Contents (Elt F)),
    binary main_v114 main_v115 main_v116 (Host.divf : (⟨S64, .f32⟩ : BufTy).Contents (Elt F) → (⟨S64, .f32⟩ : BufTy).Contents (Elt F) → (⟨S64, .f32⟩ : BufTy).Contents (Elt F)),
    unary main_v109 main_v117 (broadcastInDim S1x64 ![1] bcast_S64_S1x64_1 : (⟨S64, .f32⟩ : BufTy).Contents (Elt F) → (⟨S1x64, .f32⟩ : BufTy).Contents (Elt F)),
    unary main_v117 main_v118 (broadcastInDim S100000x64 ![0, 1] bcast_S1x64_S100000x64_0_1 : (⟨S1x64, .f32⟩ : BufTy).Contents (Elt F) → (⟨S100000x64, .f32⟩ : BufTy).Contents (Elt F)),
    binary main_v106 main_v118 main_v119 (subf : (⟨S100000x64, .f32⟩ : BufTy).Contents (Elt F) → (⟨S100000x64, .f32⟩ : BufTy).Contents (Elt F) → (⟨S100000x64, .f32⟩ : BufTy).Contents (Elt F)) ]

/-- Operations 152 to 171 of the reference's host program. -/
abbrev seg8 : List (HloOp τ sig (Elt F)) :=
  [ unary main_arg10 main_v120 (broadcastInDim S1x64 ![1] bcast_S64_S1x64_1 : (⟨S64, .f32⟩ : BufTy).Contents (Elt F) → (⟨S1x64, .f32⟩ : BufTy).Contents (Elt F)),
    unary main_v120 main_v121 (broadcastInDim S100000x64 ![0, 1] bcast_S1x64_S100000x64_0_1 : (⟨S1x64, .f32⟩ : BufTy).Contents (Elt F) → (⟨S100000x64, .f32⟩ : BufTy).Contents (Elt F)),
    binary main_v121 main_v119 main_v122 (mulf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3727C5AC#32),
    unary main_cst_25 main_v123 (broadcastInDim S64 ![] bcast_S_S64 : (⟨S_, .f32⟩ : BufTy).Contents (Elt F) → (⟨S64, .f32⟩ : BufTy).Contents (Elt F)),
    binary main_v116 main_v123 main_v124 (addf : (⟨S64, .f32⟩ : BufTy).Contents (Elt F) → (⟨S64, .f32⟩ : BufTy).Contents (Elt F) → (⟨S64, .f32⟩ : BufTy).Contents (Elt F)),
    unary main_v124 main_v125 (Host.rsqrt : (⟨S64, .f32⟩ : BufTy).Contents (Elt F) → (⟨S64, .f32⟩ : BufTy).Contents (Elt F)),
    unary main_v125 main_v126 (broadcastInDim S1x64 ![1] bcast_S64_S1x64_1 : (⟨S64, .f32⟩ : BufTy).Contents (Elt F) → (⟨S1x64, .f32⟩ : BufTy).Contents (Elt F)),
    unary main_v126 main_v127 (broadcastInDim S100000x64 ![0, 1] bcast_S1x64_S100000x64_0_1 : (⟨S1x64, .f32⟩ : BufTy).Contents (Elt F) → (⟨S100000x64, .f32⟩ : BufTy).Contents (Elt F)),
    binary main_v122 main_v127 main_v128 (mulf : (⟨S100000x64, .f32⟩ : BufTy).Contents (Elt F) → (⟨S100000x64, .f32⟩ : BufTy).Contents (Elt F) → (⟨S100000x64, .f32⟩ : BufTy).Contents (Elt F)),
    unary main_arg11 main_v129 (broadcastInDim S1x64 ![1] bcast_S64_S1x64_1 : (⟨S64, .f32⟩ : BufTy).Contents (Elt F) → (⟨S1x64, .f32⟩ : BufTy).Contents (Elt F)),
    unary main_v129 main_v130 (broadcastInDim S100000x64 ![0, 1] bcast_S1x64_S100000x64_0_1 : (⟨S1x64, .f32⟩ : BufTy).Contents (Elt F) → (⟨S100000x64, .f32⟩ : BufTy).Contents (Elt F)),
    binary main_v128 main_v130 main_v131 (addf : (⟨S100000x64, .f32⟩ : BufTy).Contents (Elt F) → (⟨S100000x64, .f32⟩ : BufTy).Contents (Elt F) → (⟨S100000x64, .f32⟩ : BufTy).Contents (Elt F)),
    nullary main_cst_26 (constant S_ .f32 0x00000000#32),
    unary main_cst_26 main_v132 (broadcastInDim S100000x64 ![] bcast_S_S100000x64 : (⟨S_, .f32⟩ : BufTy).Contents (Elt F) → (⟨S100000x64, .f32⟩ : BufTy).Contents (Elt F)),
    binary main_v131 main_v132 main_v133 (cmpf .oge : (⟨S100000x64, .f32⟩ : BufTy).Contents (Elt F) → (⟨S100000x64, .f32⟩ : BufTy).Contents (Elt F) → (⟨S100000x64, .i1⟩ : BufTy).Contents (Elt F)),
    nullary main_cst_27 (constant S_ .f32 0x3C23D70A#32),
    unary main_cst_27 main_v134 (broadcastInDim S100000x64 ![] bcast_S_S100000x64 : (⟨S_, .f32⟩ : BufTy).Contents (Elt F) → (⟨S100000x64, .f32⟩ : BufTy).Contents (Elt F)),
    binary main_v134 main_v131 main_v135 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v133) (TRef.of (T := ⟨S100000x64, .f32⟩) main_v131) (TRef.of (T := ⟨S100000x64, .f32⟩) main_v135) (TRef.of (T := ⟨S100000x64, .f32⟩) main_v136) select ]

/-- Operations 172 to 186 of the reference's host program. -/
abbrev seg9 : List (HloOp τ sig (Elt F)) :=
  [ unary main_arg6 main_v137 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v137 main_v138 rfl shapeCasts_S1x64x64_S64x64,
    binary main_v136 main_v138 main_v139 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v30 main_v140 (broadcastInDim S1600000x1 ![0] bcast_S1600000_S1600000x1_0 : (⟨S1600000, .f32⟩ : BufTy).Contents (Elt F) → (⟨S1600000x1, .f32⟩ : BufTy).Contents (Elt F)),
    nullary main_c_28 (constantI S_ 32 0#32),
    unary main_c_28 main_v141 (broadcastInDim S1600000 ![] bcast_S_S1600000 : (⟨S_, .i32⟩ : BufTy).Contents (Elt F) → (⟨S1600000, .i32⟩ : BufTy).Contents (Elt F)),
    binary main_v1 main_v141 main_v142 (cmpi .slt : (⟨S1600000, .i32⟩ : BufTy).Contents (Elt F) → (⟨S1600000, .i32⟩ : BufTy).Contents (Elt F) → (⟨S1600000, .i1⟩ : BufTy).Contents (Elt F)),
    nullary main_c_29 (constantI S_ 32 100000#32),
    unary main_c_29 main_v143 (broadcastInDim S1600000 ![] bcast_S_S1600000 : (⟨S_, .i32⟩ : BufTy).Contents (Elt F) → (⟨S1600000, .i32⟩ : BufTy).Contents (Elt F)),
    binary main_v1 main_v143 main_v144 (addi : (⟨S1600000, .i32⟩ : BufTy).Contents (Elt F) → (⟨S1600000, .i32⟩ : BufTy).Contents (Elt F) → (⟨S1600000, .i32⟩ : BufTy).Contents (Elt F)),
    ternary main_v142 main_v144 main_v1 main_v145 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v145 main_v146 (broadcastInDim S1600000x1 ![0] bcast_S1600000_S1600000x1_0 : (⟨S1600000, .i32⟩ : BufTy).Contents (Elt F) → (⟨S1600000x1, .i32⟩ : BufTy).Contents (Elt F)),
    binary main_v136 main_v146 main_v147 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v140 main_v148 (broadcastInDim S1600000x64 ![0, 1] bcast_S1600000x1_S1600000x64_0_1 : (⟨S1600000x1, .f32⟩ : BufTy).Contents (Elt F) → (⟨S1600000x64, .f32⟩ : BufTy).Contents (Elt F)),
    binary main_v148 main_v147 main_v149 (mulf : (⟨S1600000x64, .f32⟩ : BufTy).Contents (Elt F) → (⟨S1600000x64, .f32⟩ : BufTy).Contents (Elt F) → (⟨S1600000x64, .f32⟩ : BufTy).Contents (Elt F)) ]

/-- Operations 187 to 197 of the reference's host program. -/
abbrev seg10 : List (HloOp τ sig (Elt F)) :=
  [ nullary main_cst_30 (constant S_ .f32 0x00000000#32),
    unary main_cst_30 main_v150 (broadcastInDim S100000x64 ![] bcast_S_S100000x64 : (⟨S_, .f32⟩ : BufTy).Contents (Elt F) → (⟨S100000x64, .f32⟩ : BufTy).Contents (Elt F)),
    unary main_v3 main_v151 (broadcastInDim S1600000x1 ![0] bcast_S1600000_S1600000x1_0 : (⟨S1600000, .i32⟩ : BufTy).Contents (Elt F) → (⟨S1600000x1, .i32⟩ : BufTy).Contents (Elt F)),
    ternary main_v150 main_v151 main_v149 main_v152 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg6 main_v153 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v153 main_v154 rfl shapeCasts_S1x64x64_S64x64,
    binary main_v152 main_v154 main_v155 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v139 main_v155 main_v156 (addf : (⟨S100000x64, .f32⟩ : BufTy).Contents (Elt F) → (⟨S100000x64, .f32⟩ : BufTy).Contents (Elt F) → (⟨S100000x64, .f32⟩ : BufTy).Contents (Elt F)),
    unary main_arg7 main_v157 (broadcastInDim S1x64 ![1] bcast_S64_S1x64_1 : (⟨S64, .f32⟩ : BufTy).Contents (Elt F) → (⟨S1x64, .f32⟩ : BufTy).Contents (Elt F)),
    unary main_v157 main_v158 (broadcastInDim S100000x64 ![0, 1] bcast_S1x64_S100000x64_0_1 : (⟨S1x64, .f32⟩ : BufTy).Contents (Elt F) → (⟨S100000x64, .f32⟩ : BufTy).Contents (Elt F)),
    binary main_v156 main_v158 main_v159 (addf : (⟨S100000x64, .f32⟩ : BufTy).Contents (Elt F) → (⟨S100000x64, .f32⟩ : BufTy).Contents (Elt F) → (⟨S100000x64, .f32⟩ : BufTy).Contents (Elt F)) ]

/-- After the first 0 operations: the arguments are untouched, and each buffer written so far that a later
    operation reads holds its stage value. -/
def Inv0 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11

/-- After the first 25 operations: the arguments are untouched, and each buffer written so far that a later
    operation reads holds its stage value. -/
def Inv1 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11 ∧
  W (Proc.devRef .tc main_v1) = val_main_v1 (F := F) x1 ∧
  W (Proc.devRef .tc main_v3) = val_main_v3 (F := F) x1 ∧
  W (Proc.devRef .tc main_v14) = val_main_v14 (F := F) x1

/-- After the first 45 operations: the arguments are untouched, and each buffer written so far that a later
    operation reads holds its stage value. -/
def Inv2 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11 ∧
  W (Proc.devRef .tc main_v1) = val_main_v1 (F := F) x1 ∧
  W (Proc.devRef .tc main_v3) = val_main_v3 (F := F) x1 ∧
  W (Proc.devRef .tc main_v30) = val_main_v30 (F := F) x1

/-- After the first 68 operations: the arguments are untouched, and each buffer written so far that a later
    operation reads holds its stage value. -/
def Inv3 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11 ∧
  W (Proc.devRef .tc main_v1) = val_main_v1 (F := F) x1 ∧
  W (Proc.devRef .tc main_v3) = val_main_v3 (F := F) x1 ∧
  W (Proc.devRef .tc main_v30) = val_main_v30 (F := F) x1 ∧
  W (Proc.devRef .tc main_v50) = val_main_v50 (F := F) x0 x1 x2

/-- After the first 88 operations: the arguments are untouched, and each buffer written so far that a later
    operation reads holds its stage value. -/
def Inv4 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11 ∧
  W (Proc.devRef .tc main_v1) = val_main_v1 (F := F) x1 ∧
  W (Proc.devRef .tc main_v3) = val_main_v3 (F := F) x1 ∧
  W (Proc.devRef .tc main_v30) = val_main_v30 (F := F) x1 ∧
  W (Proc.devRef .tc main_v63) = val_main_v63 (F := F) x0 x1 x2 x3 ∧
  W (Proc.devRef .tc main_v66) = val_main_v66 (F := F) x0 x1 x2 x3

/-- After the first 108 operations: the arguments are untouched, and each buffer written so far that a later
    operation reads holds its stage value. -/
def Inv5 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11 ∧
  W (Proc.devRef .tc main_v1) = val_main_v1 (F := F) x1 ∧
  W (Proc.devRef .tc main_v3) = val_main_v3 (F := F) x1 ∧
  W (Proc.devRef .tc main_v30) = val_main_v30 (F := F) x1 ∧
  W (Proc.devRef .tc main_v83) = val_main_v83 (F := F) x0 x1 x2 x3 x8 x9

/-- After the first 131 operations: the arguments are untouched, and each buffer written so far that a later
    operation reads holds its stage value. -/
def Inv6 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11 ∧
  W (Proc.devRef .tc main_v1) = val_main_v1 (F := F) x1 ∧
  W (Proc.devRef .tc main_v3) = val_main_v3 (F := F) x1 ∧
  W (Proc.devRef .tc main_v30) = val_main_v30 (F := F) x1 ∧
  W (Proc.devRef .tc main_v103) = val_main_v103 (F := F) x0 x1 x2 x3 x4 x8 x9

/-- After the first 151 operations: the arguments are untouched, and each buffer written so far that a later
    operation reads holds its stage value. -/
def Inv7 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11 ∧
  W (Proc.devRef .tc main_v1) = val_main_v1 (F := F) x1 ∧
  W (Proc.devRef .tc main_v3) = val_main_v3 (F := F) x1 ∧
  W (Proc.devRef .tc main_v30) = val_main_v30 (F := F) x1 ∧
  W (Proc.devRef .tc main_v116) = val_main_v116 (F := F) x0 x1 x2 x3 x4 x5 x8 x9 ∧
  W (Proc.devRef .tc main_v119) = val_main_v119 (F := F) x0 x1 x2 x3 x4 x5 x8 x9

/-- After the first 171 operations: the arguments are untouched, and each buffer written so far that a later
    operation reads holds its stage value. -/
def Inv8 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11 ∧
  W (Proc.devRef .tc main_v1) = val_main_v1 (F := F) x1 ∧
  W (Proc.devRef .tc main_v3) = val_main_v3 (F := F) x1 ∧
  W (Proc.devRef .tc main_v30) = val_main_v30 (F := F) x1 ∧
  W (Proc.devRef .tc main_v136) = val_main_v136 (F := F) x0 x1 x2 x3 x4 x5 x8 x9 x10 x11

/-- After the first 186 operations: the arguments are untouched, and each buffer written so far that a later
    operation reads holds its stage value. -/
def Inv9 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11 ∧
  W (Proc.devRef .tc main_v3) = val_main_v3 (F := F) x1 ∧
  W (Proc.devRef .tc main_v139) = val_main_v139 (F := F) x0 x1 x2 x3 x4 x5 x6 x8 x9 x10 x11 ∧
  W (Proc.devRef .tc main_v149) = val_main_v149 (F := F) x0 x1 x2 x3 x4 x5 x8 x9 x10 x11

/-- After the first 197 operations: the arguments are untouched, and each buffer written so far that a later
    operation reads holds its stage value. -/
def Inv10 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_arg5) = x5 ∧
  W (Proc.devRef .tc main_arg6) = x6 ∧
  W (Proc.devRef .tc main_arg7) = x7 ∧
  W (Proc.devRef .tc main_arg8) = x8 ∧
  W (Proc.devRef .tc main_arg9) = x9 ∧
  W (Proc.devRef .tc main_arg10) = x10 ∧
  W (Proc.devRef .tc main_arg11) = x11 ∧
  W (Proc.devRef .tc main_v159) = val_main_v159 (F := F) x0 x1 x2 x3 x4 x5 x6 x7 x8 x9 x10 x11

set_option maxHeartbeats 4000000 in
/-- Segment 1 keeps the invariant: if it holds of the contents before operations 1 to 25, it holds (in its next form) of the contents after them. -/
theorem step1 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F))
    (h : Inv0 (F := F) W x0 x1 x2 x3 x4 x5 x6 x7 x8 x9 x10 x11) : Inv1 (F := F) (StableHlo.after (seg1 (F := F)) W) x0 x1 x2 x3 x4 x5 x6 x7 x8 x9 x10 x11 := by
  obtain ⟨a0, a1, a2, a3, a4, a5, a6, a7, a8, a9, a10, a11⟩ := h
  refine ⟨?_, ?_, ?_, ?_, ?_, ?_, ?_, ?_, ?_, ?_, ?_, ?_, ?_, ?_, ?_⟩ <;>
    (walk_back [a0, a1, a2, a3, a4, a5, a6, a7, a8, a9, a10, a11] <;> rfl)

set_option maxHeartbeats 4000000 in
/-- Segment 2 keeps the invariant: if it holds of the contents before operations 26 to 45, it holds (in its next form) of the contents after them. -/
theorem step2 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F))
    (h : Inv1 (F := F) W x0 x1 x2 x3 x4 x5 x6 x7 x8 x9 x10 x11) : Inv2 (F := F) (StableHlo.after (seg2 (F := F)) W) x0 x1 x2 x3 x4 x5 x6 x7 x8 x9 x10 x11 := by
  obtain ⟨a0, a1, a2, a3, a4, a5, a6, a7, a8, a9, a10, a11, h_v1, h_v3, h_v14⟩ := h
  refine ⟨?_, ?_, ?_, ?_, ?_, ?_, ?_, ?_, ?_, ?_, ?_, ?_, ?_, ?_, ?_⟩ <;>
    (walk_back [a0, a1, a2, a3, a4, a5, a6, a7, a8, a9, a10, a11, h_v1, h_v3, h_v14] <;> rfl)

set_option maxHeartbeats 4000000 in
/-- Segment 3 keeps the invariant: if it holds of the contents before operations 46 to 68, it holds (in its next form) of the contents after them. -/
theorem step3 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F))
    (h : Inv2 (F := F) W x0 x1 x2 x3 x4 x5 x6 x7 x8 x9 x10 x11) : Inv3 (F := F) (StableHlo.after (seg3 (F := F)) W) x0 x1 x2 x3 x4 x5 x6 x7 x8 x9 x10 x11 := by
  obtain ⟨a0, a1, a2, a3, a4, a5, a6, a7, a8, a9, a10, a11, h_v1, h_v3, h_v30⟩ := h
  refine ⟨?_, ?_, ?_, ?_, ?_, ?_, ?_, ?_, ?_, ?_, ?_, ?_, ?_, ?_, ?_, ?_⟩ <;>
    (walk_back [a0, a1, a2, a3, a4, a5, a6, a7, a8, a9, a10, a11, h_v1, h_v3, h_v30] <;> rfl)

set_option maxHeartbeats 4000000 in
/-- Segment 4 keeps the invariant: if it holds of the contents before operations 69 to 88, it holds (in its next form) of the contents after them. -/
theorem step4 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F))
    (h : Inv3 (F := F) W x0 x1 x2 x3 x4 x5 x6 x7 x8 x9 x10 x11) : Inv4 (F := F) (StableHlo.after (seg4 (F := F)) W) x0 x1 x2 x3 x4 x5 x6 x7 x8 x9 x10 x11 := by
  obtain ⟨a0, a1, a2, a3, a4, a5, a6, a7, a8, a9, a10, a11, h_v1, h_v3, h_v30, h_v50⟩ := h
  refine ⟨?_, ?_, ?_, ?_, ?_, ?_, ?_, ?_, ?_, ?_, ?_, ?_, ?_, ?_, ?_, ?_, ?_⟩ <;>
    (walk_back [a0, a1, a2, a3, a4, a5, a6, a7, a8, a9, a10, a11, h_v1, h_v3, h_v30, h_v50] <;> rfl)

set_option maxHeartbeats 4000000 in
/-- Segment 5 keeps the invariant: if it holds of the contents before operations 89 to 108, it holds (in its next form) of the contents after them. -/
theorem step5 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F))
    (h : Inv4 (F := F) W x0 x1 x2 x3 x4 x5 x6 x7 x8 x9 x10 x11) : Inv5 (F := F) (StableHlo.after (seg5 (F := F)) W) x0 x1 x2 x3 x4 x5 x6 x7 x8 x9 x10 x11 := by
  obtain ⟨a0, a1, a2, a3, a4, a5, a6, a7, a8, a9, a10, a11, h_v1, h_v3, h_v30, h_v63, h_v66⟩ := h
  refine ⟨?_, ?_, ?_, ?_, ?_, ?_, ?_, ?_, ?_, ?_, ?_, ?_, ?_, ?_, ?_, ?_⟩ <;>
    (walk_back [a0, a1, a2, a3, a4, a5, a6, a7, a8, a9, a10, a11, h_v1, h_v3, h_v30, h_v63, h_v66] <;> rfl)

set_option maxHeartbeats 4000000 in
/-- Segment 6 keeps the invariant: if it holds of the contents before operations 109 to 131, it holds (in its next form) of the contents after them. -/
theorem step6 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F))
    (h : Inv5 (F := F) W x0 x1 x2 x3 x4 x5 x6 x7 x8 x9 x10 x11) : Inv6 (F := F) (StableHlo.after (seg6 (F := F)) W) x0 x1 x2 x3 x4 x5 x6 x7 x8 x9 x10 x11 := by
  obtain ⟨a0, a1, a2, a3, a4, a5, a6, a7, a8, a9, a10, a11, h_v1, h_v3, h_v30, h_v83⟩ := h
  refine ⟨?_, ?_, ?_, ?_, ?_, ?_, ?_, ?_, ?_, ?_, ?_, ?_, ?_, ?_, ?_, ?_⟩ <;>
    (walk_back [a0, a1, a2, a3, a4, a5, a6, a7, a8, a9, a10, a11, h_v1, h_v3, h_v30, h_v83] <;> rfl)

set_option maxHeartbeats 4000000 in
/-- Segment 7 keeps the invariant: if it holds of the contents before operations 132 to 151, it holds (in its next form) of the contents after them. -/
theorem step7 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F))
    (h : Inv6 (F := F) W x0 x1 x2 x3 x4 x5 x6 x7 x8 x9 x10 x11) : Inv7 (F := F) (StableHlo.after (seg7 (F := F)) W) x0 x1 x2 x3 x4 x5 x6 x7 x8 x9 x10 x11 := by
  obtain ⟨a0, a1, a2, a3, a4, a5, a6, a7, a8, a9, a10, a11, h_v1, h_v3, h_v30, h_v103⟩ := h
  refine ⟨?_, ?_, ?_, ?_, ?_, ?_, ?_, ?_, ?_, ?_, ?_, ?_, ?_, ?_, ?_, ?_, ?_⟩ <;>
    (walk_back [a0, a1, a2, a3, a4, a5, a6, a7, a8, a9, a10, a11, h_v1, h_v3, h_v30, h_v103] <;> rfl)

set_option maxHeartbeats 4000000 in
/-- Segment 8 keeps the invariant: if it holds of the contents before operations 152 to 171, it holds (in its next form) of the contents after them. -/
theorem step8 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F))
    (h : Inv7 (F := F) W x0 x1 x2 x3 x4 x5 x6 x7 x8 x9 x10 x11) : Inv8 (F := F) (StableHlo.after (seg8 (F := F)) W) x0 x1 x2 x3 x4 x5 x6 x7 x8 x9 x10 x11 := by
  obtain ⟨a0, a1, a2, a3, a4, a5, a6, a7, a8, a9, a10, a11, h_v1, h_v3, h_v30, h_v116, h_v119⟩ := h
  refine ⟨?_, ?_, ?_, ?_, ?_, ?_, ?_, ?_, ?_, ?_, ?_, ?_, ?_, ?_, ?_, ?_⟩ <;>
    (walk_back [a0, a1, a2, a3, a4, a5, a6, a7, a8, a9, a10, a11, h_v1, h_v3, h_v30, h_v116, h_v119] <;> rfl)

set_option maxHeartbeats 4000000 in
/-- Segment 9 keeps the invariant: if it holds of the contents before operations 172 to 186, it holds (in its next form) of the contents after them. -/
theorem step9 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F))
    (h : Inv8 (F := F) W x0 x1 x2 x3 x4 x5 x6 x7 x8 x9 x10 x11) : Inv9 (F := F) (StableHlo.after (seg9 (F := F)) W) x0 x1 x2 x3 x4 x5 x6 x7 x8 x9 x10 x11 := by
  obtain ⟨a0, a1, a2, a3, a4, a5, a6, a7, a8, a9, a10, a11, h_v1, h_v3, h_v30, h_v136⟩ := h
  refine ⟨?_, ?_, ?_, ?_, ?_, ?_, ?_, ?_, ?_, ?_, ?_, ?_, ?_, ?_, ?_⟩ <;>
    (walk_back [a0, a1, a2, a3, a4, a5, a6, a7, a8, a9, a10, a11, h_v1, h_v3, h_v30, h_v136] <;> rfl)

set_option maxHeartbeats 4000000 in
/-- Segment 10 keeps the invariant: if it holds of the contents before operations 187 to 197, it holds (in its next form) of the contents after them. -/
theorem step10 (W : Valuation τ sig (Elt F)) (x0 : (⟨S100000x64, .f32⟩ : BufTy).Contents (Elt F)) (x1 : (⟨S2x1600000, .i32⟩ : BufTy).Contents (Elt F)) (x2 : (⟨S2x64x128, .f32⟩ : BufTy).Contents (Elt F)) (x3 : (⟨S128, .f32⟩ : BufTy).Contents (Elt F)) (x4 : (⟨S2x128x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S128, .f32⟩ : BufTy).Contents (Elt F)) (x9 : (⟨S128, .f32⟩ : BufTy).Contents (Elt F)) (x10 : (⟨S64, .f32⟩ : BufTy).Contents (Elt F)) (x11 : (⟨S64, .f32⟩ : BufTy).Contents (Elt F))
    (h : Inv9 (F := F) W x0 x1 x2 x3 x4 x5 x6 x7 x8 x9 x10 x11) : Inv10 (F := F) (StableHlo.after (seg10 (F := F)) W) x0 x1 x2 x3 x4 x5 x6 x7 x8 x9 x10 x11 := by
  obtain ⟨a0, a1, a2, a3, a4, a5, a6, a7, a8, a9, a10, a11, h_v3, h_v139, h_v149⟩ := h
  refine ⟨?_, ?_, ?_, ?_, ?_, ?_, ?_, ?_, ?_, ?_, ?_, ?_, ?_⟩ <;>
    (walk_back [a0, a1, a2, a3, a4, a5, a6, a7, a8, a9, a10, a11, h_v3, h_v139, h_v149] <;> rfl)

/-- Running one list of operations after another is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, after_cons, ih]

/-- The reference's host program is its ten segments in order. -/
theorem ops_split : (Cert.ReferenceIdeal.Value.ops (F := F)) = seg1 ++ (seg2 ++ (seg3 ++ (seg4 ++ (seg5 ++ (seg6 ++ (seg7 ++ (seg8 ++ (seg9 ++ (seg10))))))))) := rfl

/-- After the whole program, from any contents: the arguments are untouched and the result buffer holds its stage
    value of the arguments. -/
theorem read_all (W : Valuation τ sig (Elt F)) :
    Inv10 (F := F) (StableHlo.after (Cert.ReferenceIdeal.Value.ops (F := F)) W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [ops_split]
  simp only [after_append]
  exact (step10 _ _ _ _ _ _ _ _ _ _ _ _ _ (step9 _ _ _ _ _ _ _ _ _ _ _ _ _ (step8 _ _ _ _ _ _ _ _ _ _ _ _ _ (step7 _ _ _ _ _ _ _ _ _ _ _ _ _ (step6 _ _ _ _ _ _ _ _ _ _ _ _ _ (step5 _ _ _ _ _ _ _ _ _ _ _ _ _ (step4 _ _ _ _ _ _ _ _ _ _ _ _ _ (step3 _ _ _ _ _ _ _ _ _ _ _ _ _ (step2 _ _ _ _ _ _ _ _ _ _ _ _ _ (step1 W _ _ _ _ _ _ _ _ _ _ _ _ ⟨rfl, rfl, rfl, rfl, rfl, rfl, rfl, rfl, rfl, rfl, rfl, rfl⟩))))))))))

/-- After the whole program, from any contents, the result buffer holds the last stage's value of the argument arrays. -/
theorem read_v159 (W : Valuation τ sig (Elt F)) :
    StableHlo.after (Cert.ReferenceIdeal.Value.ops (F := F)) W (Proc.devRef .tc main_v159)
      = val_main_v159 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  obtain ⟨a0, a1, a2, a3, a4, a5, a6, a7, a8, a9, a10, a11, h⟩ := read_all (F := F) W
  exact h

/-- After the whole program, from any contents, each of the twelve argument arrays is as it was. -/
theorem read_arg (W : Valuation τ sig (Elt F)) :
    StableHlo.after (Cert.ReferenceIdeal.Value.ops (F := F)) W (Proc.devRef .tc main_arg0) = W (Proc.devRef .tc main_arg0) ∧
    StableHlo.after (Cert.ReferenceIdeal.Value.ops (F := F)) W (Proc.devRef .tc main_arg1) = W (Proc.devRef .tc main_arg1) ∧
    StableHlo.after (Cert.ReferenceIdeal.Value.ops (F := F)) W (Proc.devRef .tc main_arg2) = W (Proc.devRef .tc main_arg2) ∧
    StableHlo.after (Cert.ReferenceIdeal.Value.ops (F := F)) W (Proc.devRef .tc main_arg3) = W (Proc.devRef .tc main_arg3) ∧
    StableHlo.after (Cert.ReferenceIdeal.Value.ops (F := F)) W (Proc.devRef .tc main_arg4) = W (Proc.devRef .tc main_arg4) ∧
    StableHlo.after (Cert.ReferenceIdeal.Value.ops (F := F)) W (Proc.devRef .tc main_arg5) = W (Proc.devRef .tc main_arg5) ∧
    StableHlo.after (Cert.ReferenceIdeal.Value.ops (F := F)) W (Proc.devRef .tc main_arg6) = W (Proc.devRef .tc main_arg6) ∧
    StableHlo.after (Cert.ReferenceIdeal.Value.ops (F := F)) W (Proc.devRef .tc main_arg7) = W (Proc.devRef .tc main_arg7) ∧
    StableHlo.after (Cert.ReferenceIdeal.Value.ops (F := F)) W (Proc.devRef .tc main_arg8) = W (Proc.devRef .tc main_arg8) ∧
    StableHlo.after (Cert.ReferenceIdeal.Value.ops (F := F)) W (Proc.devRef .tc main_arg9) = W (Proc.devRef .tc main_arg9) ∧
    StableHlo.after (Cert.ReferenceIdeal.Value.ops (F := F)) W (Proc.devRef .tc main_arg10) = W (Proc.devRef .tc main_arg10) ∧
    StableHlo.after (Cert.ReferenceIdeal.Value.ops (F := F)) W (Proc.devRef .tc main_arg11) = W (Proc.devRef .tc main_arg11) := by
  obtain ⟨a0, a1, a2, a3, a4, a5, a6, a7, a8, a9, a10, a11, h⟩ := read_all (F := F) W
  exact ⟨a0, a1, a2, a3, a4, a5, a6, a7, a8, a9, a10, a11⟩

open Cert.ReferenceIdeal.Value

/-- On every device, from any memory with zero counters: every weakly fair execution of the reference terminates with
    its result at the last stage's value of the argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159) = val_main_v159 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    have ha := read_arg (F := F) (launchContents m c)
    ⟨(h c main_v159).trans (read_v159 (launchContents m c)),
      (h c main_arg0).trans ha.1,
      (h c main_arg1).trans ha.2.1,
      (h c main_arg2).trans ha.2.2.1,
      (h c main_arg3).trans ha.2.2.2.1,
      (h c main_arg4).trans ha.2.2.2.2.1,
      (h c main_arg5).trans ha.2.2.2.2.2.1,
      (h c main_arg6).trans ha.2.2.2.2.2.2.1,
      (h c main_arg7).trans ha.2.2.2.2.2.2.2.1,
      (h c main_arg8).trans ha.2.2.2.2.2.2.2.2.1,
      (h c main_arg9).trans ha.2.2.2.2.2.2.2.2.2.1,
      (h c main_arg10).trans ha.2.2.2.2.2.2.2.2.2.2.1,
      (h c main_arg11).trans ha.2.2.2.2.2.2.2.2.2.2.2⟩)
    (run_seq scopedRefs_eq scopedSems_eq defs main (fun _ => ops) main_eq (fun _ => ops_sub) m ρ)

end Cert.RefRunLite
end
-- ==== Proof.RefValue.lean ====
/-
  The reference program's result, read entry by entry, is the centred-then-scaled, propagate-then-project arrangement
  of the three-layer graph convolution on the extended reals.

  Each stage of the reference is read at one entry and identified with the corresponding definition of the
  specification: the two index columns (the edge array's rows, as written and with negative entries counted from the
  end), the degree of a node (a scatter-add of ones), its normaliser, an edge's weight, one propagation step of a
  feature array (a row gather, a product with the edge weights, a row scatter-add from zero), a convolution (two
  matrix products and a bias), a column's mean and variance (a sum over the nodes from zero, divided by the number of
  nodes), the normalisation followed by the leaky rectifier, and so on through the three layers. Every step is an
  unfolding, a re-indexing, or the removal of a zero summand; no finiteness is needed.
-/
import proofs.«126863_j82781199663546_2_alg».proof.Proof.RefStages
import proofs.«126863_j82781199663546_2_alg».proof.Proof.Spec
import proofs.«126863_j82781199663546_2_alg».proof.Proof.SpecGraph
import proofs.«126863_j82781199663546_2_alg».proof.Proof.LibRowGatherScatter
import proofs.«126863_j82781199663546_2_alg».proof.Proof.LibVecGather
import proofs.«126863_j82781199663546_2_alg».proof.Proof.LibBroadcast
import proofs.«126863_j82781199663546_2_alg».proof.Proof.LibPlainDot

noncomputable section

open scoped BigOperators

namespace Cert.RefValue

open Idealize.ShloMosaic Idealize.ShloMosaic.TcCoe Idealize.SL.Sem Idealize.ShloMosaic.ValueIdx Cert.ReferenceIdeal Cert.ReferenceIdeal.Gen Cert.ReferenceIdeal.Read
open Cert.RowGS Cert.VecGather Cert.Spec

/-! ## Indices -/

/-- Two rank-1 indices with the same coordinate are equal. -/
theorem idx1_eq {n : Nat} (i j : (⟨1, ![n]⟩ : Shape).Idx) (h : (i 0).val = (j 0).val) : i = j :=
  funext fun a => Fin.ext (by match a with | ⟨0, _⟩ => exact h)

/-- Two rank-2 indices with the same coordinates are equal. -/
theorem idx2_eq {n0 n1 : Nat} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

/-- Two rank-3 indices with the same coordinates are equal. -/
theorem idx3_eq {n0 n1 n2 : Nat} (i j : (⟨3, ![n0, n1, n2]⟩ : Shape).Idx) (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-! ## The index columns -/

section Columns
variable (ei : IVec S2x1600000 32)

/-- The edge array's row 0, flattened, at position `i`. -/
theorem row0_at (i : S1600000.Idx) : val_main_v1 (F := Ideal) ei i = ei (ix2 (0 : Fin 2) (i 0)) := by
  rw [val_main_v1_apply, val_main_v0_apply]
  exact congrArg ei (idx2_eq _ _ rfl (Nat.mod_eq_of_lt (i 0).isLt))

/-- The edge array's row 1, flattened, at position `i`. -/
theorem row1_at (i : S1600000.Idx) : val_main_v3 (F := Ideal) ei i = ei (ix2 (1 : Fin 2) (i 0)) := by
  rw [val_main_v3_apply, val_main_v2_apply]
  exact congrArg ei (idx2_eq _ _ rfl (Nat.mod_eq_of_lt (i 0).isLt))

/-- Row 0 as written, as a column: the index column of the degree count. -/
theorem col_v6 : val_main_v6 (F := Ideal) ei = rawCol ei 0 := by
  funext j
  rw [val_main_v6_apply, row0_at]
  rfl

/-- Row 1 as written, as a column: the index column of every propagation's scatter. -/
theorem col_v45 : val_main_v45 (F := Ideal) ei = rawCol ei 1 := by
  funext j
  rw [val_main_v45_apply, row1_at]
  rfl

/-- The same column, computed again by the program for a later stage. -/
theorem col_v98 : val_main_v98 (F := Ideal) ei = rawCol ei 1 := col_v45 ei
/-- The same column, computed again by the program for a later stage. -/
theorem col_v151 : val_main_v151 (F := Ideal) ei = rawCol ei 1 := col_v45 ei

/-- Row 0 with negative entries counted from the end, as a column: the start indices of the gathers from row 0. -/
theorem col_v20 : val_main_v20 (F := Ideal) ei = wrapCol ei 0 := by
  funext j
  rw [val_main_v20_apply, val_main_v19_apply, val_main_v16_apply, val_main_v18_apply, val_main_v15_apply,
    val_main_v17_apply, val_main_c_apply, val_main_c_5_apply, row0_at]
  rfl

/-- The same column, computed again by the program for a later stage. -/
theorem col_v40 : val_main_v40 (F := Ideal) ei = wrapCol ei 0 := col_v20 ei
/-- The same column, computed again by the program for a later stage. -/
theorem col_v93 : val_main_v93 (F := Ideal) ei = wrapCol ei 0 := col_v20 ei
/-- The same column, computed again by the program for a later stage. -/
theorem col_v146 : val_main_v146 (F := Ideal) ei = wrapCol ei 0 := col_v20 ei

/-- Row 1 with negative entries counted from the end, as a column: the start indices of the gather from row 1. -/
theorem col_v28 : val_main_v28 (F := Ideal) ei = wrapCol ei 1 := by
  funext j
  rw [val_main_v28_apply, val_main_v27_apply, val_main_v24_apply, val_main_v26_apply, val_main_v23_apply,
    val_main_v25_apply, val_main_c_6_apply, val_main_c_7_apply, row1_at]
  rfl

/-! ## Degree, normaliser, edge weight -/

/-- The program's degree count is a scatter of scalars into a vector. -/
theorem vecScatter_rec : IsVecScatter scatter_S100000_S1600000x1_S1600000_n_0_0_1 := ⟨rfl, rfl, rfl, rfl⟩
/-- The program's read of a normaliser per edge is a gather of single entries of a vector. -/
theorem vecGather_rec : IsVecGather gather_S100000_S1600000x1_S1600000_n_0_n_n_0_1_1 := ⟨rfl, rfl, rfl, rfl, rfl, rfl, rfl⟩

/-- The degree count: ones scatter-added from zero at the row-0 entries. -/
theorem deg_at (n : Fin 100000) : val_main_v7 (F := Ideal) ei (ix1 n) = deg ei n := by
  unfold val_main_v7
  rw [scatterAdd_vec_apply vecScatter_rec, col_v6]
  unfold deg
  refine congrArg₂ (· + ·) ?_ ?_
  · rw [val_main_v5_apply, val_main_cst_0_apply]
    exact Ideal.ofBits_zero_f32
  · refine Finset.sum_congr rfl fun e _ => ?_
    rw [val_main_v4_apply, val_main_cst_apply]
    rfl

/-- The normaliser: the reciprocal square root of a positive degree, zero elsewhere. -/
theorem dinv_at (n : Fin 100000) : val_main_v14 (F := Ideal) ei (ix1 n) = dinv ei n := by
  rw [val_main_v14_apply, val_main_v9_apply, val_main_v13_apply, val_main_v12_apply, val_main_v11_apply,
    val_main_v8_apply, val_main_v10_apply, val_main_call1_v1_apply, val_main_call0_v1_apply,
    val_main_call1_v0_apply, val_main_call0_v0_apply, val_main_cst_1_apply, val_main_cst_2_apply,
    val_main_cst_3_apply, val_main_cst_4_apply, deg_at]
  simp only [Ideal.ofBits_def, Ideal.ofBits_zero_f32, Ideal.cmpf_def, Ideal.hostUnary_rsqrt_def]
  rfl

/-- The weight of an edge: minus the product of the normalisers of its two end nodes. -/
theorem edgeW_at (e : Fin 1600000) : val_main_v30 (F := Ideal) ei (ix1 e) = edgeW ei e := by
  rw [val_main_v30_apply, val_main_v22_apply]
  unfold val_main_v21 val_main_v29
  rw [gather_vec_apply vecGather_rec NN_pos, gather_vec_apply vecGather_rec NN_pos, col_v20, col_v28, dinv_at,
    dinv_at]
  simp only [Ideal.hostNegf_def, Ideal.negf_def, Ideal.mulf_def]
  rfl

/-- The edge weights as a column. -/
theorem edgeCol_at (e : Fin 1600000) : val_main_v34 (F := Ideal) ei (ix2 e (0 : Fin 1)) = edgeW ei e := by
  rw [val_main_v34_apply, show idx_main_v34 (ix2 e (0 : Fin 1)) = ix1 e from idx1_eq _ _ rfl]
  exact edgeW_at ei e

/-- The same column, computed again by the program for a later stage. -/
theorem edgeCol87_at (e : Fin 1600000) : val_main_v87 (F := Ideal) ei (ix2 e (0 : Fin 1)) = edgeW ei e := edgeCol_at ei e
/-- The same column, computed again by the program for a later stage. -/
theorem edgeCol140_at (e : Fin 1600000) : val_main_v140 (F := Ideal) ei (ix2 e (0 : Fin 1)) = edgeW ei e := edgeCol_at ei e

end Columns

/-! ## One propagation step -/

/-- The program's gather of whole feature rows is a row gather. -/
theorem rowGather64_rec : IsRowGather gather_S100000x64_S1600000x1_S1600000x64_1_0_n_n_0_1_164 :=
  ⟨rfl, rfl, rfl, rfl, rfl, rfl, rfl⟩
/-- The program's scatter of whole feature rows is a row scatter. -/
theorem rowScatter64_rec : IsRowScatter scatter_S100000x64_S1600000x1_S1600000x64_1_0_0_1 := ⟨rfl, rfl, rfl, rfl⟩
/-- The program's gather of whole feature rows is a row gather. -/
theorem rowGather128_rec : IsRowGather gather_S100000x128_S1600000x1_S1600000x128_1_0_n_n_0_1_1128 :=
  ⟨rfl, rfl, rfl, rfl, rfl, rfl, rfl⟩
/-- The program's scatter of whole feature rows is a row scatter. -/
theorem rowScatter128_rec : IsRowScatter scatter_S100000x128_S1600000x1_S1600000x128_1_0_0_1 := ⟨rfl, rfl, rfl, rfl⟩
/-- The program's matrix product contracts the left operand's columns against the right operand's rows. -/
theorem plain_64_128 : PlainDot.IsPlain dot_S100000x64_S64x128_S100000x128_1_0_0_1_n_n := ⟨rfl, rfl, rfl, rfl, rfl, rfl⟩
/-- The program's matrix product contracts the left operand's columns against the right operand's rows. -/
theorem plain_128_64 : PlainDot.IsPlain dot_S100000x128_S128x64_S100000x64_1_0_0_1_n_n := ⟨rfl, rfl, rfl, rfl, rfl, rfl⟩
/-- The program's matrix product contracts the left operand's columns against the right operand's rows. -/
theorem plain_64_64 : PlainDot.IsPlain dot_S100000x64_S64x64_S100000x64_1_0_0_1_n_n := ⟨rfl, rfl, rfl, rfl, rfl, rfl⟩

/-- One propagation step of a feature array of any width: the rows the edges read are gathered, each is multiplied
    by its edge's weight, and the products are scatter-added, from zero, into the rows the edges enter. -/
theorem prop_at {C : Nat} {g : GatherDims ⟨2, ![100000, C]⟩ ⟨2, ![1600000, 1]⟩ ⟨2, ![1600000, C]⟩} (hg : IsRowGather g)
    {d : ScatterDims ⟨2, ![100000, C]⟩ ⟨2, ![1600000, 1]⟩ ⟨2, ![1600000, C]⟩} (hd : IsRowScatter d)
    (hz : (⟨0, ![]⟩ : Shape).BroadcastsInDim ⟨2, ![100000, C]⟩ ![])
    (hb : (⟨2, ![1600000, 1]⟩ : Shape).BroadcastsInDim ⟨2, ![1600000, C]⟩ ![0, 1])
    (ei : IVec S2x1600000 32) (w : FVec Ideal ⟨2, ![1600000, 1]⟩ .f32)
    (hw : ∀ e : Fin 1600000, w (ix2 e (0 : Fin 1)) = edgeW ei e)
    (S D : IVec ⟨2, ![1600000, 1]⟩ 32) (hS : S = wrapCol ei 0) (hD : D = rawCol ei 1)
    (h : FVec Ideal ⟨2, ![100000, C]⟩ .f32) (n : Fin 100000) (c : Fin C) :
    Host.scatterAdd d (broadcastInDim ⟨2, ![100000, C]⟩ ![] hz (constant (F := Ideal) ⟨0, ![]⟩ .f32 0x00000000#32)) D
        (mulf (broadcastInDim ⟨2, ![1600000, C]⟩ ![0, 1] hb w) (Host.gather g h S)) (ix2 n c)
      = Spec.prop (graphOf ei) (fun n k => h (ix2 n k)) n c := by
  subst hS hD
  rw [scatterAdd_row_apply hd, Bcast.scalar_apply]
  unfold Spec.prop
  refine congrArg₂ (· + ·) ?_ ?_
  · exact Ideal.ofBits_zero_f32
  · refine Finset.sum_congr rfl fun e _ => ?_
    rw [mulf_apply, Bcast.rows_of_col_apply (N := 1600000) (by decide), gather_row_apply hg NN_pos, hw]
    rfl

/-! ## The weight slices -/

/-- A leading slice of a weight array, as a matrix, read at an entry. -/
theorem W1a_at (W1 : FVec Ideal S2x64x128 .f32) (k : Fin 64) (c : Fin 128) :
    val_main_v32 (F := Ideal) W1 (ix2 k c) = W1 (ix3 (0 : Fin 2) k c) := by
  rw [val_main_v32_apply, val_main_v31_apply]
  have hk := k.isLt
  have hc := c.isLt
  exact congrArg W1 (idx3_eq _ _ rfl (by show (k.val * 128 + c.val) / 128 % 64 = k.val; omega)
    (by show (k.val * 128 + c.val) % 128 = c.val; omega))

/-- A leading slice of a weight array, as a matrix, read at an entry. -/
theorem W1b_at (W1 : FVec Ideal S2x64x128 .f32) (k : Fin 64) (c : Fin 128) :
    val_main_v48 (F := Ideal) W1 (ix2 k c) = W1 (ix3 (1 : Fin 2) k c) := by
  rw [val_main_v48_apply, val_main_v47_apply]
  have hk := k.isLt
  have hc := c.isLt
  exact congrArg W1 (idx3_eq _ _ rfl (by show (k.val * 128 + c.val) / 128 % 64 = k.val; omega)
    (by show (k.val * 128 + c.val) % 128 = c.val; omega))

/-- A leading slice of a weight array, as a matrix, read at an entry. -/
theorem W2a_at (W2 : FVec Ideal S2x128x64 .f32) (k : Fin 128) (c : Fin 64) :
    val_main_v85 (F := Ideal) W2 (ix2 k c) = W2 (ix3 (0 : Fin 2) k c) := by
  rw [val_main_v85_apply, val_main_v84_apply]
  have hk := k.isLt
  have hc := c.isLt
  exact congrArg W2 (idx3_eq _ _ rfl (by show (k.val * 64 + c.val) / 64 % 128 = k.val; omega)
    (by show (k.val * 64 + c.val) % 64 = c.val; omega))

/-- A leading slice of a weight array, as a matrix, read at an entry. -/
theorem W2b_at (W2 : FVec Ideal S2x128x64 .f32) (k : Fin 128) (c : Fin 64) :
    val_main_v101 (F := Ideal) W2 (ix2 k c) = W2 (ix3 (1 : Fin 2) k c) := by
  rw [val_main_v101_apply, val_main_v100_apply]
  have hk := k.isLt
  have hc := c.isLt
  exact congrArg W2 (idx3_eq _ _ rfl (by show (k.val * 64 + c.val) / 64 % 128 = k.val; omega)
    (by show (k.val * 64 + c.val) % 64 = c.val; omega))

/-- A leading slice of a weight array, as a matrix, read at an entry. -/
theorem W3a_at (W3 : FVec Ideal S2x64x64 .f32) (k : Fin 64) (c : Fin 64) :
    val_main_v138 (F := Ideal) W3 (ix2 k c) = W3 (ix3 (0 : Fin 2) k c) := by
  rw [val_main_v138_apply, val_main_v137_apply]
  have hk := k.isLt
  have hc := c.isLt
  exact congrArg W3 (idx3_eq _ _ rfl (by show (k.val * 64 + c.val) / 64 % 64 = k.val; omega)
    (by show (k.val * 64 + c.val) % 64 = c.val; omega))

/-- A leading slice of a weight array, as a matrix, read at an entry. -/
theorem W3b_at (W3 : FVec Ideal S2x64x64 .f32) (k : Fin 64) (c : Fin 64) :
    val_main_v154 (F := Ideal) W3 (ix2 k c) = W3 (ix3 (1 : Fin 2) k c) := by
  rw [val_main_v154_apply, val_main_v153_apply]
  have hk := k.isLt
  have hc := c.isLt
  exact congrArg W3 (idx3_eq _ _ rfl (by show (k.val * 64 + c.val) / 64 % 64 = k.val; omega)
    (by show (k.val * 64 + c.val) % 64 = c.val; omega))

/-! ## The first convolution -/

/-- The input features, propagated once. -/
theorem prop1_at (x : FVec Ideal S100000x64 .f32) (ei : IVec S2x1600000 32) (n : Fin 100000) (k : Fin 64) :
    val_main_v46 (F := Ideal) x ei (ix2 n k) = Spec.prop (graphOf ei) (fun n k => x (ix2 n k)) n k := by
  unfold val_main_v46 val_main_v44 val_main_cst_10 val_main_v43 val_main_v42 val_main_v41
  exact prop_at rowGather64_rec rowScatter64_rec _ _ ei _ (edgeCol_at ei) _ _ (col_v40 ei) (col_v45 ei) x n k

/-- The first convolution: the features times the first slice of the weights, plus the propagated features times the
    second, plus the bias. -/
theorem c1_at (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 128) :
    val_main_v53 (F := Ideal) x ei W1 b1 (ix2 n c) = c1 (graphOf ei) (argsOf x W1 b1 W2 b2 W3 b3 g1 be1 g2 be2) n c := by
  rw [val_main_v53_apply, val_main_v50_apply]
  unfold val_main_v33 val_main_v49 val_main_v52 val_main_v51
  rw [PlainDot.dotGeneral_apply plain_64_128, PlainDot.dotGeneral_apply plain_64_128,
    Bcast.bias_rows_apply (C := 128) (by decide)]
  simp only [W1a_at, W1b_at, prop1_at, Ideal.addf_def]
  rfl

/-! ## Normalisation and rectifier, layer 1 -/

/-- The column mean: the sum over the nodes, from zero, over the number of nodes. -/
theorem mean1_at (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (c : Fin 128) :
    val_main_v56 (F := Ideal) x ei W1 b1 (ix1 c) = Spec.mean (c1 (graphOf ei) (argsOf x W1 b1 W2 b2 W3 b3 g1 be1 g2 be2)) c := by
  rw [val_main_v56_apply, val_main_v54_apply, val_main_v55_apply, val_main_cst_11_apply,
    val_main_cst_12_apply]
  simp only [Ideal.ofBits_def, Ideal.ofBits_zero_f32, zero_add, Ideal.hostDivf_def]
  have hpt : ∀ k : Fin 100000, val_main_v53 (F := Ideal) x ei W1 b1 (idx_main_v54 (ix1 c) k) = c1 (graphOf ei) (argsOf x W1 b1 W2 b2 W3 b3 g1 be1 g2 be2) k c := fun k => by
    rw [show idx_main_v54 (ix1 c) k = ix2 k c from idx2_eq _ _ rfl rfl]
    exact c1_at x ei W1 b1 W2 b2 W3 b3 g1 be1 g2 be2 k c
  simp only [hpt]
  rfl

/-- A per-column value laid out as a row and repeated down the rows: the entry at `(n, c)` is the value at `c`. -/
theorem bc_v58 (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 128) :
    val_main_v58 (F := Ideal) x ei W1 b1 (ix2 n c) = val_main_v56 (F := Ideal) x ei W1 b1 (ix1 c) := by
  unfold val_main_v58 val_main_v57
  exact Bcast.bias_rows_apply (C := 128) (by decide) _ _ _ n c

/-- A per-column value laid out as a row and repeated down the rows: the entry at `(n, c)` is the value at `c`. -/
theorem bc_v65 (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 128) :
    val_main_v65 (F := Ideal) x ei W1 b1 (ix2 n c) = val_main_v56 (F := Ideal) x ei W1 b1 (ix1 c) := by
  unfold val_main_v65 val_main_v64
  exact Bcast.bias_rows_apply (C := 128) (by decide) _ _ _ n c

/-- A per-column value laid out as a row and repeated down the rows: the entry at `(n, c)` is the value at `c`. -/
theorem bc_v68 (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 128) :
    val_main_v68 (F := Ideal) g1 (ix2 n c) = g1 (ix1 c) := by
  unfold val_main_v68 val_main_v67
  exact Bcast.bias_rows_apply (C := 128) (by decide) _ _ _ n c

/-- A per-column value laid out as a row and repeated down the rows: the entry at `(n, c)` is the value at `c`. -/
theorem bc_v74 (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 128) :
    val_main_v74 (F := Ideal) x ei W1 b1 (ix2 n c) = val_main_v72 (F := Ideal) x ei W1 b1 (ix1 c) := by
  unfold val_main_v74 val_main_v73
  exact Bcast.bias_rows_apply (C := 128) (by decide) _ _ _ n c

/-- A per-column value laid out as a row and repeated down the rows: the entry at `(n, c)` is the value at `c`. -/
theorem bc_v77 (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 128) :
    val_main_v77 (F := Ideal) be1 (ix2 n c) = be1 (ix1 c) := by
  unfold val_main_v77 val_main_v76
  exact Bcast.bias_rows_apply (C := 128) (by decide) _ _ _ n c

/-- The column variance: the sum over the nodes, from zero, of the squared centred entries, over the number of nodes. -/
theorem var1_at (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (c : Fin 128) :
    val_main_v63 (F := Ideal) x ei W1 b1 (ix1 c) = Spec.var (c1 (graphOf ei) (argsOf x W1 b1 W2 b2 W3 b3 g1 be1 g2 be2)) c := by
  rw [val_main_v63_apply, val_main_v61_apply, val_main_v62_apply, val_main_cst_13_apply,
    val_main_cst_14_apply]
  simp only [Ideal.ofBits_def, Ideal.ofBits_zero_f32, zero_add, Ideal.hostDivf_def]
  have hpt : ∀ k : Fin 100000, val_main_v60 (F := Ideal) x ei W1 b1 (idx_main_v61 (ix1 c) k)
      = (c1 (graphOf ei) (argsOf x W1 b1 W2 b2 W3 b3 g1 be1 g2 be2) k c - Spec.mean (c1 (graphOf ei) (argsOf x W1 b1 W2 b2 W3 b3 g1 be1 g2 be2)) c) * (c1 (graphOf ei) (argsOf x W1 b1 W2 b2 W3 b3 g1 be1 g2 be2) k c - Spec.mean (c1 (graphOf ei) (argsOf x W1 b1 W2 b2 W3 b3 g1 be1 g2 be2)) c) := fun k => by
    rw [show idx_main_v61 (ix1 c) k = ix2 k c from idx2_eq _ _ rfl rfl, val_main_v60_apply,
      val_main_v59_apply, bc_v58 x ei W1 b1 W2 b2 W3 b3 g1 be1 g2 be2, c1_at x ei W1 b1 W2 b2 W3 b3 g1 be1 g2 be2, mean1_at x ei W1 b1 W2 b2 W3 b3 g1 be1 g2 be2]
    rfl
  simp only [hpt]
  rfl

/-- The normalised convolution through the leaky rectifier. -/
theorem hR_at (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 128) :
    val_main_v83 (F := Ideal) x ei W1 b1 g1 be1 (ix2 n c) = hR (graphOf ei) (argsOf x W1 b1 W2 b2 W3 b3 g1 be1 g2 be2) n c := by
  simp only [val_main_v83_apply, val_main_v80_apply, val_main_v82_apply, val_main_v79_apply,
    val_main_v81_apply, val_main_cst_16_apply, val_main_cst_17_apply, val_main_v78_apply,
    val_main_v75_apply, val_main_v69_apply, val_main_v66_apply, bc_v68 x ei W1 b1 W2 b2 W3 b3 g1 be1 g2 be2, bc_v65 x ei W1 b1 W2 b2 W3 b3 g1 be1 g2 be2,
    bc_v74 x ei W1 b1 W2 b2 W3 b3 g1 be1 g2 be2, bc_v77 x ei W1 b1 W2 b2 W3 b3 g1 be1 g2 be2, val_main_v72_apply, val_main_v71_apply, val_main_v70_apply,
    val_main_cst_15_apply, c1_at x ei W1 b1 W2 b2 W3 b3 g1 be1 g2 be2, mean1_at x ei W1 b1 W2 b2 W3 b3 g1 be1 g2 be2, var1_at x ei W1 b1 W2 b2 W3 b3 g1 be1 g2 be2,
    Ideal.ofBits_def, Ideal.ofBits_zero_f32, Ideal.cmpf_def, Ideal.hostUnary_rsqrt_def, Ideal.addf_def, Ideal.mulf_def,
    Ideal.subf_def]
  rfl

/-! ## The second convolution -/

/-- The first layer's output, propagated once. -/
theorem prop2_at (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (k : Fin 128) :
    val_main_v99 (F := Ideal) x ei W1 b1 g1 be1 (ix2 n k) = Spec.prop (graphOf ei) (hR (graphOf ei) (argsOf x W1 b1 W2 b2 W3 b3 g1 be1 g2 be2)) n k := by
  unfold val_main_v99 val_main_v97 val_main_cst_20 val_main_v96 val_main_v95 val_main_v94
  refine (prop_at rowGather128_rec rowScatter128_rec _ _ ei _ (edgeCol87_at ei) _ _ (col_v93 ei) (col_v98 ei)
    (val_main_v83 (F := Ideal) x ei W1 b1 g1 be1) n k).trans ?_
  exact congrArg (fun h => Spec.prop (graphOf ei) h n k)
    (funext fun n' => funext fun k' => hR_at x ei W1 b1 W2 b2 W3 b3 g1 be1 g2 be2 n' k')

/-- The second convolution, on the first layer's output. -/
theorem c2R_at (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 64) :
    val_main_v106 (F := Ideal) x ei W1 b1 W2 b2 g1 be1 (ix2 n c) = c2R (graphOf ei) (argsOf x W1 b1 W2 b2 W3 b3 g1 be1 g2 be2) n c := by
  rw [val_main_v106_apply, val_main_v103_apply]
  unfold val_main_v86 val_main_v102 val_main_v105 val_main_v104
  rw [PlainDot.dotGeneral_apply plain_128_64, PlainDot.dotGeneral_apply plain_128_64,
    Bcast.bias_rows_apply (C := 64) (by decide)]
  simp only [W2a_at, W2b_at, prop2_at x ei W1 b1 W2 b2 W3 b3 g1 be1 g2 be2, hR_at x ei W1 b1 W2 b2 W3 b3 g1 be1 g2 be2, Ideal.addf_def]
  rfl

/-! ## Normalisation and rectifier, layer 2 -/

/-- The column mean: the sum over the nodes, from zero, over the number of nodes. -/
theorem mean2_at (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (c : Fin 64) :
    val_main_v109 (F := Ideal) x ei W1 b1 W2 b2 g1 be1 (ix1 c) = Spec.mean (c2R (graphOf ei) (argsOf x W1 b1 W2 b2 W3 b3 g1 be1 g2 be2)) c := by
  rw [val_main_v109_apply, val_main_v107_apply, val_main_v108_apply, val_main_cst_21_apply,
    val_main_cst_22_apply]
  simp only [Ideal.ofBits_def, Ideal.ofBits_zero_f32, zero_add, Ideal.hostDivf_def]
  have hpt : ∀ k : Fin 100000, val_main_v106 (F := Ideal) x ei W1 b1 W2 b2 g1 be1 (idx_main_v107 (ix1 c) k) = c2R (graphOf ei) (argsOf x W1 b1 W2 b2 W3 b3 g1 be1 g2 be2) k c := fun k => by
    rw [show idx_main_v107 (ix1 c) k = ix2 k c from idx2_eq _ _ rfl rfl]
    exact c2R_at x ei W1 b1 W2 b2 W3 b3 g1 be1 g2 be2 k c
  simp only [hpt]
  rfl

/-- A per-column value laid out as a row and repeated down the rows: the entry at `(n, c)` is the value at `c`. -/
theorem bc_v111 (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 64) :
    val_main_v111 (F := Ideal) x ei W1 b1 W2 b2 g1 be1 (ix2 n c) = val_main_v109 (F := Ideal) x ei W1 b1 W2 b2 g1 be1 (ix1 c) := by
  unfold val_main_v111 val_main_v110
  exact Bcast.bias_rows_apply (C := 64) (by decide) _ _ _ n c

/-- A per-column value laid out as a row and repeated down the rows: the entry at `(n, c)` is the value at `c`. -/
theorem bc_v118 (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 64) :
    val_main_v118 (F := Ideal) x ei W1 b1 W2 b2 g1 be1 (ix2 n c) = val_main_v109 (F := Ideal) x ei W1 b1 W2 b2 g1 be1 (ix1 c) := by
  unfold val_main_v118 val_main_v117
  exact Bcast.bias_rows_apply (C := 64) (by decide) _ _ _ n c

/-- A per-column value laid out as a row and repeated down the rows: the entry at `(n, c)` is the value at `c`. -/
theorem bc_v121 (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 64) :
    val_main_v121 (F := Ideal) g2 (ix2 n c) = g2 (ix1 c) := by
  unfold val_main_v121 val_main_v120
  exact Bcast.bias_rows_apply (C := 64) (by decide) _ _ _ n c

/-- A per-column value laid out as a row and repeated down the rows: the entry at `(n, c)` is the value at `c`. -/
theorem bc_v127 (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 64) :
    val_main_v127 (F := Ideal) x ei W1 b1 W2 b2 g1 be1 (ix2 n c) = val_main_v125 (F := Ideal) x ei W1 b1 W2 b2 g1 be1 (ix1 c) := by
  unfold val_main_v127 val_main_v126
  exact Bcast.bias_rows_apply (C := 64) (by decide) _ _ _ n c

/-- A per-column value laid out as a row and repeated down the rows: the entry at `(n, c)` is the value at `c`. -/
theorem bc_v130 (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 64) :
    val_main_v130 (F := Ideal) be2 (ix2 n c) = be2 (ix1 c) := by
  unfold val_main_v130 val_main_v129
  exact Bcast.bias_rows_apply (C := 64) (by decide) _ _ _ n c

/-- The column variance: the sum over the nodes, from zero, of the squared centred entries, over the number of nodes. -/
theorem var2_at (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (c : Fin 64) :
    val_main_v116 (F := Ideal) x ei W1 b1 W2 b2 g1 be1 (ix1 c) = Spec.var (c2R (graphOf ei) (argsOf x W1 b1 W2 b2 W3 b3 g1 be1 g2 be2)) c := by
  rw [val_main_v116_apply, val_main_v114_apply, val_main_v115_apply, val_main_cst_23_apply,
    val_main_cst_24_apply]
  simp only [Ideal.ofBits_def, Ideal.ofBits_zero_f32, zero_add, Ideal.hostDivf_def]
  have hpt : ∀ k : Fin 100000, val_main_v113 (F := Ideal) x ei W1 b1 W2 b2 g1 be1 (idx_main_v114 (ix1 c) k)
      = (c2R (graphOf ei) (argsOf x W1 b1 W2 b2 W3 b3 g1 be1 g2 be2) k c - Spec.mean (c2R (graphOf ei) (argsOf x W1 b1 W2 b2 W3 b3 g1 be1 g2 be2)) c) * (c2R (graphOf ei) (argsOf x W1 b1 W2 b2 W3 b3 g1 be1 g2 be2) k c - Spec.mean (c2R (graphOf ei) (argsOf x W1 b1 W2 b2 W3 b3 g1 be1 g2 be2)) c) := fun k => by
    rw [show idx_main_v114 (ix1 c) k = ix2 k c from idx2_eq _ _ rfl rfl, val_main_v113_apply,
      val_main_v112_apply, bc_v111 x ei W1 b1 W2 b2 W3 b3 g1 be1 g2 be2, c2R_at x ei W1 b1 W2 b2 W3 b3 g1 be1 g2 be2, mean2_at x ei W1 b1 W2 b2 W3 b3 g1 be1 g2 be2]
    rfl
  simp only [hpt]
  rfl

/-- The normalised convolution through the leaky rectifier. -/
theorem h3R_at (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 64) :
    val_main_v136 (F := Ideal) x ei W1 b1 W2 b2 g1 be1 g2 be2 (ix2 n c) = h3R (graphOf ei) (argsOf x W1 b1 W2 b2 W3 b3 g1 be1 g2 be2) n c := by
  simp only [val_main_v136_apply, val_main_v133_apply, val_main_v135_apply, val_main_v132_apply,
    val_main_v134_apply, val_main_cst_26_apply, val_main_cst_27_apply, val_main_v131_apply,
    val_main_v128_apply, val_main_v122_apply, val_main_v119_apply, bc_v121 x ei W1 b1 W2 b2 W3 b3 g1 be1 g2 be2, bc_v118 x ei W1 b1 W2 b2 W3 b3 g1 be1 g2 be2,
    bc_v127 x ei W1 b1 W2 b2 W3 b3 g1 be1 g2 be2, bc_v130 x ei W1 b1 W2 b2 W3 b3 g1 be1 g2 be2, val_main_v125_apply, val_main_v124_apply, val_main_v123_apply,
    val_main_cst_25_apply, c2R_at x ei W1 b1 W2 b2 W3 b3 g1 be1 g2 be2, mean2_at x ei W1 b1 W2 b2 W3 b3 g1 be1 g2 be2, var2_at x ei W1 b1 W2 b2 W3 b3 g1 be1 g2 be2,
    Ideal.ofBits_def, Ideal.ofBits_zero_f32, Ideal.cmpf_def, Ideal.hostUnary_rsqrt_def, Ideal.addf_def, Ideal.mulf_def,
    Ideal.subf_def]
  rfl

/-! ## The third convolution -/

/-- The second layer's output, propagated once. -/
theorem prop3_at (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (k : Fin 64) :
    val_main_v152 (F := Ideal) x ei W1 b1 W2 b2 g1 be1 g2 be2 (ix2 n k) = Spec.prop (graphOf ei) (h3R (graphOf ei) (argsOf x W1 b1 W2 b2 W3 b3 g1 be1 g2 be2)) n k := by
  unfold val_main_v152 val_main_v150 val_main_cst_30 val_main_v149 val_main_v148 val_main_v147
  refine (prop_at rowGather64_rec rowScatter64_rec _ _ ei _ (edgeCol140_at ei) _ _ (col_v146 ei) (col_v151 ei)
    (val_main_v136 (F := Ideal) x ei W1 b1 W2 b2 g1 be1 g2 be2) n k).trans ?_
  exact congrArg (fun h => Spec.prop (graphOf ei) h n k)
    (funext fun n' => funext fun k' => h3R_at x ei W1 b1 W2 b2 W3 b3 g1 be1 g2 be2 n' k')

/-- The third convolution, on the second layer's output: the reference's result. -/
theorem outR_at (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 64) :
    val_main_v159 (F := Ideal) x ei W1 b1 W2 b2 W3 b3 g1 be1 g2 be2 (ix2 n c) = outR (graphOf ei) (argsOf x W1 b1 W2 b2 W3 b3 g1 be1 g2 be2) n c := by
  rw [val_main_v159_apply, val_main_v156_apply]
  unfold val_main_v139 val_main_v155 val_main_v158 val_main_v157
  rw [PlainDot.dotGeneral_apply plain_64_64, PlainDot.dotGeneral_apply plain_64_64,
    Bcast.bias_rows_apply (C := 64) (by decide)]
  simp only [W3a_at, W3b_at, prop3_at x ei W1 b1 W2 b2 W3 b3 g1 be1 g2 be2, h3R_at x ei W1 b1 W2 b2 W3 b3 g1 be1 g2 be2, Ideal.addf_def]
  rfl

/-! ## The result -/

/-- THE REFERENCE IS THE SPECIFICATION: entry `(n, c)` of the reference's result, as a function of its twelve argument
    arrays, is the centre-then-scale, propagate-then-project arrangement of the three-layer convolution on the graph
    the edge array denotes. -/
theorem result_eq (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) (n : Fin 100000) (c : Fin 64) :
    Cert.ReferenceIdeal.Read.val_main_v159 (F := Ideal) x ei W1 b1 W2 b2 W3 b3 g1 be1 g2 be2 (ValueIdx.ix2 n c)
      = Cert.Spec.outR (Cert.Spec.graphOf ei) (Cert.Spec.argsOf x W1 b1 W2 b2 W3 b3 g1 be1 g2 be2) n c :=
  outR_at x ei W1 b1 W2 b2 W3 b3 g1 be1 g2 be2 n c

/-- The same, as an equation of whole arrays. -/
theorem result_fn_eq (x : FVec Ideal S100000x64 .f32) (ei : IVec S2x1600000 32) (W1 : FVec Ideal S2x64x128 .f32) (b1 : FVec Ideal S128 .f32)
    (W2 : FVec Ideal S2x128x64 .f32) (b2 : FVec Ideal S64 .f32) (W3 : FVec Ideal S2x64x64 .f32) (b3 : FVec Ideal S64 .f32)
    (g1 be1 : FVec Ideal S128 .f32) (g2 be2 : FVec Ideal S64 .f32) :
    Cert.ReferenceIdeal.Read.val_main_v159 (F := Ideal) x ei W1 b1 W2 b2 W3 b3 g1 be1 g2 be2
      = fun i => Cert.Spec.outR (Cert.Spec.graphOf ei) (Cert.Spec.argsOf x W1 b1 W2 b2 W3 b3 g1 be1 g2 be2) (i 0) (i 1) := by
  funext i
  rw [eq_ix2 i]
  exact result_eq x ei W1 b1 W2 b2 W3 b3 g1 be1 g2 be2 (i 0) (i 1)

/-- The same with the arguments read from a memory: the form in which the reference's run states its result. -/
theorem run_result_eq (m : (ℓ : Loc nD τ sig) → Buf (Elt Ideal) ℓ) (d : Dev nD) (n : Fin 100000) (c : Fin 64) :
    Cert.ReferenceIdeal.Read.val_main_v159 (F := Ideal) (m ((d.tc : Thread nD τ).loc main_arg0))
        (m ((d.tc : Thread nD τ).loc main_arg1)) (m ((d.tc : Thread nD τ).loc main_arg2))
        (m ((d.tc : Thread nD τ).loc main_arg3)) (m ((d.tc : Thread nD τ).loc main_arg4))
        (m ((d.tc : Thread nD τ).loc main_arg5)) (m ((d.tc : Thread nD τ).loc main_arg6))
        (m ((d.tc : Thread nD τ).loc main_arg7)) (m ((d.tc : Thread nD τ).loc main_arg8))
        (m ((d.tc : Thread nD τ).loc main_arg9)) (m ((d.tc : Thread nD τ).loc main_arg10))
        (m ((d.tc : Thread nD τ).loc main_arg11)) (ValueIdx.ix2 n c)
      = Cert.Spec.outR (Cert.Spec.graphOf (m ((d.tc : Thread nD τ).loc main_arg1)))
          (Cert.Spec.argsOf (m ((d.tc : Thread nD τ).loc main_arg0)) (m ((d.tc : Thread nD τ).loc main_arg2))
            (m ((d.tc : Thread nD τ).loc main_arg3)) (m ((d.tc : Thread nD τ).loc main_arg4))
            (m ((d.tc : Thread nD τ).loc main_arg5)) (m ((d.tc : Thread nD τ).loc main_arg6))
            (m ((d.tc : Thread nD τ).loc main_arg7)) (m ((d.tc : Thread nD τ).loc main_arg8))
            (m ((d.tc : Thread nD τ).loc main_arg9)) (m ((d.tc : Thread nD τ).loc main_arg10))
            (m ((d.tc : Thread nD τ).loc main_arg11))) n c :=
  result_eq _ _ _ _ _ _ _ _ _ _ _ _ n c

end Cert.RefValue

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.LibGcnLaw.lean ====
/-
  The algebra that joins the two programs, on the extended reals.

  A graph-convolution layer sums, over the edges `e` that land on a node `n`, the source node's feature row scaled by
  the two ends' normalisers `d (src e) · d n`. One program multiplies every message by both factors before summing;
  the other scales the source rows by `d (src e)` first, sums, and multiplies the sum by `d n` afterwards. The two
  agree because `d n` is a non-negative number that is not `+∞`: such a factor distributes over a sum of extended
  reals whatever the summands are (an infinite summand of either sign included), while `+∞` or a negative factor would
  not. The normaliser is `1/√deg` where the degree is positive and `0` elsewhere, so it is non-negative and never
  `+∞` for every extended-real degree.
-/
import Idealize.ShloMosaic.PureOps.Ideal

noncomputable section

open scoped BigOperators

namespace Cert.GcnLaw

open Idealize.ShloMosaic

/-- A non-negative factor other than `+∞` distributes over a finite sum of extended reals. -/
theorem mul_sum {ι : Type} (s : Finset ι) (d : EReal) (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- THE LAYER LAW. Scaling the sum of the pre-scaled messages `a e · q e` by the target's normaliser `d` is summing the
    messages each scaled by the product `q e · d` of the two normalisers. (Both sums start from zero, as a scatter-add
    into a zero array does.) -/
theorem layer {ι : Type} (s : Finset ι) (d : EReal) (h0 : 0 ≤ d) (ht : d ≠ ⊤) (a q : ι → EReal) :
    d * (0 + ∑ e ∈ s, a e * q e) = 0 + ∑ e ∈ s, a e * (q e * d) := by
  rw [zero_add, zero_add, mul_sum s d h0 ht]
  refine Finset.sum_congr rfl fun e _ => ?_
  rw [mul_comm d, mul_assoc]

/-- The normaliser of a degree `x`: `1/√x` where `x` is positive, `0` elsewhere. -/
def normaliser (x : EReal) : EReal := if 0 < x then Ideal.rsqrt x else 0

/-- A normaliser is never negative. -/
theorem normaliser_nonneg (x : EReal) : 0 ≤ normaliser x := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact_mod_cast (inv_nonneg.mpr (Real.sqrt_nonneg r))
  · exact le_refl _

/-- A normaliser is never plus infinity. -/
theorem normaliser_ne_top (x : EReal) : normaliser x ≠ ⊤ := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact EReal.coe_ne_top _
  · exact EReal.zero_ne_top

/-- The selection `where(x > 0, rsqrt x, 0)` as the programs spell it — a comparison's one-bit result choosing between
    the reciprocal square root and zero — is the normaliser. -/
theorem select_eq_normaliser (x : EReal) :
    Scalar.select (Ideal.cmp .ogt x 0) (Ideal.rsqrt x) (0 : EReal) = normaliser x := by
  unfold Scalar.select normaliser Ideal.cmp
  by_cases h : (0 : EReal) < x
  · simp [h]
  · simp [h]

end Cert.GcnLaw

end
-- ==== Proof.Bridge.lean ====
/-
  The two arrangements of the three-layer graph convolution give the same result wherever every argument entry and
  every edge weight is a real number.

  On real numbers the extended reals are a commutative ring, and three textbook identities do all the work. First,
  scaling an uncentred entry and adding the offset that absorbs the mean, x·s + (β − μ·s) with s = γ·ρ, is the gain
  times the centred entry times ρ, plus β. Second, a weighted sum over edges of matrix-vector products is the
  matrix-vector product of the weighted sums. Third, equal inputs give equal outputs. What has to be supplied is that
  every intermediate quantity is real: sums and products of reals are real; a column mean is a real sum times the
  reciprocal of the node count; a column variance is a sum of squares of reals times that reciprocal, so it is a
  nonnegative real, the variance plus the small positive constant is a positive real, and its reciprocal square root
  is again real; and the rectifier returns either its argument or a real multiple of it.

  The weight of an edge is real for every edge array: a normaliser is zero where the degree is not positive, zero at
  an infinite degree, and the reciprocal of the square root of a positive real elsewhere.
-/
import proofs.«126863_j82781199663546_2_alg».proof.Proof.Spec
import proofs.«126863_j82781199663546_2_alg».proof.Proof.SpecGraph
import proofs.«126863_j82781199663546_2_alg».proof.Proof.LibRealSum
import proofs.«126863_j82781199663546_2_alg».proof.Proof.LibGcnLaw

noncomputable section

open scoped BigOperators

namespace Cert.Bridge

open Idealize.ShloMosaic
open Cert.RealSum (IsReal)
open Cert.RealSum

/-! ## Real numbers: negatives, differences, and nonnegative reals -/

/-- The negative of a real number is a real number. -/
theorem isReal_neg {x : EReal} (hx : IsReal x) : IsReal (-x) := by
  obtain ⟨p, rfl⟩ := hx
  exact ⟨-p, (EReal.coe_neg p).symm⟩

/-- The difference of two real numbers is a real number. -/
theorem isReal_sub {x y : EReal} (hx : IsReal x) (hy : IsReal y) : IsReal (x - y) := by
  obtain ⟨p, rfl⟩ := hx
  obtain ⟨q, rfl⟩ := hy
  exact ⟨p - q, (EReal.coe_sub p q).symm⟩

/-- An extended real that is a nonnegative real number. -/
def IsNN (x : EReal) : Prop := ∃ r : ℝ, 0 ≤ r ∧ x = (r : EReal)

/-- A nonnegative real number is a real number. -/
theorem IsNN.isReal {x : EReal} (h : IsNN x) : IsReal x := by
  obtain ⟨r, _, hr⟩ := h
  exact ⟨r, hr⟩

/-- The sum of two nonnegative real numbers is one. -/
theorem IsNN.add {x y : EReal} (hx : IsNN x) (hy : IsNN y) : IsNN (x + y) := by
  obtain ⟨p, hp, rfl⟩ := hx
  obtain ⟨q, hq, rfl⟩ := hy
  exact ⟨p + q, add_nonneg hp hq, (EReal.coe_add p q).symm⟩

/-- The product of two nonnegative real numbers is one. -/
theorem IsNN.mul {x y : EReal} (hx : IsNN x) (hy : IsNN y) : IsNN (x * y) := by
  obtain ⟨p, hp, rfl⟩ := hx
  obtain ⟨q, hq, rfl⟩ := hy
  exact ⟨p * q, mul_nonneg hp hq, (EReal.coe_mul p q).symm⟩

/-- The square of a real number is a nonnegative real number. -/
theorem isNN_mul_self {x : EReal} (hx : IsReal x) : IsNN (x * x) := by
  obtain ⟨p, rfl⟩ := hx
  exact ⟨p * p, mul_self_nonneg p, (EReal.coe_mul p p).symm⟩

/-- A finite sum of nonnegative real numbers is a nonnegative real number. -/
theorem isNN_sum {ι : Type} (s : Finset ι) (f : ι → EReal) (h : ∀ e ∈ s, IsNN (f e)) :
    IsNN (∑ e ∈ s, f e) :=
  Finset.sum_induction f IsNN (fun _ _ hx hy => hx.add hy) ⟨0, le_refl _, EReal.coe_zero.symm⟩ h

/-! ## The float literals of the specification as real numbers -/

/-- The node count is the real number one hundred thousand. -/
theorem cnt_eq : Spec.cnt = ((100000 : ℝ) : EReal) := by
  unfold Spec.cnt
  simp [Ideal.ofBits, Ideal.ieee, -EReal.coe_mul]; norm_num

/-- The float one is the real number one. -/
theorem one_eq : Spec.one = ((1 : ℝ) : EReal) := by
  unfold Spec.one
  simp [Ideal.ofBits, Ideal.ieee, -EReal.coe_mul]; norm_num

/-- The constant added to a variance is a positive real number (10995116 · 2⁻⁴⁰, about one hundred-thousandth). -/
theorem eps_pos : ∃ r : ℝ, 0 < r ∧ Spec.eps = (r : EReal) := by
  refine ⟨10995116 * (2 : ℝ) ^ (-40 : ℤ), by positivity, ?_⟩
  unfold Spec.eps
  simp [Ideal.ofBits, Ideal.ieee, -EReal.coe_mul]

/-- The rectifier's slope is a real number (10737418 · 2⁻³⁰, about one hundredth). -/
theorem slope_isReal : IsReal Spec.slope := by
  refine ⟨10737418 * (2 : ℝ) ^ (-30 : ℤ), ?_⟩
  unfold Spec.slope
  simp [Ideal.ofBits, Ideal.ieee, -EReal.coe_mul]

/-- Dividing by the node count is multiplying by its reciprocal. -/
theorem div_cnt (x : EReal) : Ideal.div x Spec.cnt = x * (((1 / 100000 : ℝ)) : EReal) := by
  rw [cnt_eq]
  exact Ideal.div_coe (by norm_num) x

/-! ## Every intermediate array is real -/

/-- A propagation step with real weights takes a real array to a real array. -/
theorem prop_isReal (G : Spec.Graph) (hG : ∀ e, IsReal (G.ew e)) {C : Nat} (h : Fin Spec.NN → Fin C → EReal)
    (hh : ∀ n c, IsReal (h n c)) (n : Fin Spec.NN) (c : Fin C) : IsReal (Spec.prop G h n c) := by
  unfold Spec.prop
  exact isReal_zero.add (isReal_sum _ _ (fun e _ => (hG e).mul (hh _ _)))

/-- The product of a real feature matrix and a real weight matrix is real. -/
theorem mm_isReal {K C : Nat} (h : Fin Spec.NN → Fin K → EReal) (W : Fin K → Fin C → EReal)
    (hh : ∀ n k, IsReal (h n k)) (hW : ∀ k c, IsReal (W k c)) (n : Fin Spec.NN) (c : Fin C) :
    IsReal (Spec.mm h W n c) := by
  unfold Spec.mm
  exact isReal_sum _ _ (fun k _ => (hh n k).mul (hW k c))

/-- A convolution of real arrays with real weights and a real bias is real. -/
theorem conv_isReal {K C : Nat} (h p : Fin Spec.NN → Fin K → EReal) (Wa Wb : Fin K → Fin C → EReal)
    (b : Fin C → EReal) (hh : ∀ n k, IsReal (h n k)) (hp : ∀ n k, IsReal (p n k))
    (hWa : ∀ k c, IsReal (Wa k c)) (hWb : ∀ k c, IsReal (Wb k c)) (hb : ∀ c, IsReal (b c))
    (n : Fin Spec.NN) (c : Fin C) : IsReal (Spec.conv h p Wa Wb b n c) := by
  unfold Spec.conv
  exact ((mm_isReal h Wa hh hWa n c).add (mm_isReal p Wb hp hWb n c)).add (hb c)

/-- The mean of a real column is real. -/
theorem mean_isReal {C : Nat} (f : Fin Spec.NN → Fin C → EReal) (hf : ∀ n c, IsReal (f n c)) (c : Fin C) :
    IsReal (Spec.mean f c) := by
  unfold Spec.mean
  rw [div_cnt]
  exact (isReal_sum _ _ (fun n _ => hf n c)).mul (isReal_coe _)

/-- The variance of a real column is a nonnegative real: a sum of squares times a positive number. -/
theorem var_isNN {C : Nat} (f : Fin Spec.NN → Fin C → EReal) (hf : ∀ n c, IsReal (f n c)) (c : Fin C) :
    IsNN (Spec.var f c) := by
  unfold Spec.var
  rw [div_cnt]
  exact (isNN_sum _ _ (fun n _ => isNN_mul_self (isReal_sub (hf n c) (mean_isReal f hf c)))).mul
    ⟨1 / 100000, by norm_num, rfl⟩

/-- The reciprocal standard deviation of a real column is real: the variance plus the positive constant is a
    positive real. -/
theorem rstd_isReal {C : Nat} (f : Fin Spec.NN → Fin C → EReal) (hf : ∀ n c, IsReal (f n c)) (c : Fin C) :
    IsReal (Ideal.rsqrt (Spec.var f c + Spec.eps)) := by
  obtain ⟨v, hv, hve⟩ := var_isNN f hf c
  obtain ⟨ε, hε, hεe⟩ := eps_pos
  have hpos : 0 < v + ε := add_pos_of_nonneg_of_pos hv hε
  rw [hve, hεe, ← EReal.coe_add, Ideal.rsqrt_coe, if_neg (not_lt.mpr hpos.le), if_neg hpos.ne']
  exact isReal_coe _

/-- Normalising a real column by centring then scaling gives a real array. -/
theorem bnR_isReal {C : Nat} (g be : Fin C → EReal) (f : Fin Spec.NN → Fin C → EReal)
    (hg : ∀ c, IsReal (g c)) (hbe : ∀ c, IsReal (be c)) (hf : ∀ n c, IsReal (f n c))
    (n : Fin Spec.NN) (c : Fin C) : IsReal (Spec.bnR g be f n c) := by
  unfold Spec.bnR
  exact (((hg c).mul (isReal_sub (hf n c) (mean_isReal f hf c))).mul (rstd_isReal f hf c)).add (hbe c)

/-- The rectifier of a real number is real: it is the number itself or the slope times it. -/
theorem lrelu_isReal {y : EReal} (hy : IsReal y) : IsReal (Spec.lrelu y) := by
  unfold Spec.lrelu Scalar.select
  split
  · exact hy
  · exact slope_isReal.mul hy

/-! ## The two forms of the normalisation agree on real numbers -/

/-- Scale-and-shift against centre-then-scale, for five real numbers: an identity of the real field. -/
theorem bn_alg {x g ρ β μ : EReal} (hx : IsReal x) (hg : IsReal g) (hρ : IsReal ρ) (hβ : IsReal β)
    (hμ : IsReal μ) : x * (g * ρ) + (β - μ * (g * ρ)) = (g * (x - μ)) * ρ + β := by
  obtain ⟨a, rfl⟩ := hx
  obtain ⟨b, rfl⟩ := hg
  obtain ⟨r, rfl⟩ := hρ
  obtain ⟨d, rfl⟩ := hβ
  obtain ⟨m, rfl⟩ := hμ
  simp only [← EReal.coe_mul, ← EReal.coe_sub, ← EReal.coe_add]
  exact congrArg _ (by ring)

/-- On a real column with real gain and offset the two forms of the normalisation agree entry by entry. -/
theorem bnK_eq_bnR {C : Nat} (g be : Fin C → EReal) (f : Fin Spec.NN → Fin C → EReal)
    (hg : ∀ c, IsReal (g c)) (hbe : ∀ c, IsReal (be c)) (hf : ∀ n c, IsReal (f n c))
    (n : Fin Spec.NN) (c : Fin C) : Spec.bnK g be f n c = Spec.bnR g be f n c := by
  unfold Spec.bnK Spec.bnR Spec.shift Spec.scale
  exact bn_alg (hf n c) (hg c) (rstd_isReal f hf c) (hbe c) (mean_isReal f hf c)

/-! ## Propagating the projected features is projecting the propagated ones -/

/-- For real features, real weights and real edge weights, a propagation step commutes with a matrix product. -/
theorem prop_mm (G : Spec.Graph) (hG : ∀ e, IsReal (G.ew e)) {K C : Nat} (h : Fin Spec.NN → Fin K → EReal)
    (W : Fin K → Fin C → EReal) (hh : ∀ n k, IsReal (h n k)) (hW : ∀ k c, IsReal (W k c))
    (n : Fin Spec.NN) (c : Fin C) : Spec.prop G (Spec.mm h W) n c = Spec.mm (Spec.prop G h) W n c := by
  unfold Spec.prop Spec.mm
  have hc := commute (G.into n) (fun e k => h (G.src e) k) (fun k => W k c) (fun e => G.ew e)
    (fun e k => hh (G.src e) k) (fun k => hW k c) hG
  calc 0 + ∑ e ∈ G.into n, G.ew e * ∑ k, h (G.src e) k * W k c
      = 0 + ∑ e ∈ G.into n, (∑ k, h (G.src e) k * W k c) * G.ew e :=
        congrArg (fun t => 0 + t) (Finset.sum_congr rfl (fun e _ => mul_comm _ _))
    _ = ∑ k, (0 + ∑ e ∈ G.into n, h (G.src e) k * G.ew e) * W k c := hc
    _ = ∑ k, (0 + ∑ e ∈ G.into n, G.ew e * h (G.src e) k) * W k c :=
        Finset.sum_congr rfl (fun k _ =>
          congrArg (fun t => (0 + t) * W k c) (Finset.sum_congr rfl (fun e _ => mul_comm _ _)))

/-! ## The chain through the three layers -/

/-- Every entry of every argument array is a real number. -/
structure RealArgs (A : Spec.Args) : Prop where
  x : ∀ n k, IsReal (A.x n k)
  W1a : ∀ k c, IsReal (A.W1a k c)
  W1b : ∀ k c, IsReal (A.W1b k c)
  b1 : ∀ c, IsReal (A.b1 c)
  W2a : ∀ k c, IsReal (A.W2a k c)
  W2b : ∀ k c, IsReal (A.W2b k c)
  b2 : ∀ c, IsReal (A.b2 c)
  W3a : ∀ k c, IsReal (A.W3a k c)
  W3b : ∀ k c, IsReal (A.W3b k c)
  b3 : ∀ c, IsReal (A.b3 c)
  g1 : ∀ c, IsReal (A.g1 c)
  be1 : ∀ c, IsReal (A.be1 c)
  g2 : ∀ c, IsReal (A.g2 c)
  be2 : ∀ c, IsReal (A.be2 c)

/-- The first convolution is real. -/
theorem c1_isReal (G : Spec.Graph) (A : Spec.Args) (hA : RealArgs A) (hG : ∀ e, IsReal (G.ew e))
    (n : Fin Spec.NN) (c : Fin 128) : IsReal (Spec.c1 G A n c) := by
  unfold Spec.c1
  exact conv_isReal _ _ _ _ _ hA.x (prop_isReal G hG _ hA.x) hA.W1a hA.W1b hA.b1 n c

/-- After the first layer the two arrangements hold the same features. -/
theorem hK_eq_hR (G : Spec.Graph) (A : Spec.Args) (hA : RealArgs A) (hG : ∀ e, IsReal (G.ew e)) :
    Spec.hK G A = Spec.hR G A := by
  funext n c
  unfold Spec.hK Spec.hR
  rw [bnK_eq_bnR _ _ _ hA.g1 hA.be1 (c1_isReal G A hA hG) n c]

/-- The first layer's features are real. -/
theorem hR_isReal (G : Spec.Graph) (A : Spec.Args) (hA : RealArgs A) (hG : ∀ e, IsReal (G.ew e))
    (n : Fin Spec.NN) (c : Fin 128) : IsReal (Spec.hR G A n c) := by
  unfold Spec.hR
  exact lrelu_isReal (bnR_isReal _ _ _ hA.g1 hA.be1 (c1_isReal G A hA hG) n c)

/-- The second convolution is the same in both arrangements. -/
theorem c2K_eq_c2R (G : Spec.Graph) (A : Spec.Args) (hA : RealArgs A) (hG : ∀ e, IsReal (G.ew e)) :
    Spec.c2K G A = Spec.c2R G A := by
  funext n c
  unfold Spec.c2K Spec.c2R Spec.conv Spec.zK
  rw [hK_eq_hR G A hA hG, prop_mm G hG (Spec.hR G A) A.W2b (hR_isReal G A hA hG) hA.W2b n c]

/-- The second convolution is real. -/
theorem c2R_isReal (G : Spec.Graph) (A : Spec.Args) (hA : RealArgs A) (hG : ∀ e, IsReal (G.ew e))
    (n : Fin Spec.NN) (c : Fin 64) : IsReal (Spec.c2R G A n c) := by
  unfold Spec.c2R
  exact conv_isReal _ _ _ _ _ (hR_isReal G A hA hG) (prop_isReal G hG _ (hR_isReal G A hA hG))
    hA.W2a hA.W2b hA.b2 n c

/-- After the second layer the two arrangements hold the same features. -/
theorem h3K_eq_h3R (G : Spec.Graph) (A : Spec.Args) (hA : RealArgs A) (hG : ∀ e, IsReal (G.ew e)) :
    Spec.h3K G A = Spec.h3R G A := by
  funext n c
  unfold Spec.h3K Spec.h3R
  rw [c2K_eq_c2R G A hA hG, bnK_eq_bnR _ _ _ hA.g2 hA.be2 (c2R_isReal G A hA hG) n c]

/-- THE RESULT: with real arguments and real edge weights the two arrangements give the same output. -/
theorem outK_eq_outR (G : Spec.Graph) (A : Spec.Args) (hA : RealArgs A) (hG : ∀ e, IsReal (G.ew e))
    (n : Fin Spec.NN) (c : Fin 64) : Spec.outK G A n c = Spec.outR G A n c := by
  unfold Spec.outK Spec.outR
  rw [h3K_eq_h3R G A hA hG]

/-! ## The weight of an edge is real for every edge array -/

/-- The normaliser of any extended-real degree is a real number. -/
theorem normaliser_isReal (d : EReal) :
    IsReal (Scalar.select (Ideal.cmp .ogt d 0)
      (Ideal.rsqrt (Scalar.select (Ideal.cmp .ogt d 0) d Spec.one)) 0) := by
  by_cases h : (0 : EReal) < d
  · have hc : Ideal.cmp .ogt d 0 = 1 := by simp [Ideal.cmp, h]
    rw [hc]
    unfold Scalar.select
    rw [if_pos rfl, if_pos rfl]
    induction d using EReal.rec with
    | bot => exact absurd h (by simp)
    | top => rw [Ideal.rsqrt_top]; exact isReal_zero
    | coe r =>
      have hr : 0 < r := by exact_mod_cast h
      rw [Ideal.rsqrt_coe, if_neg (not_lt.mpr hr.le), if_neg hr.ne']
      exact isReal_coe _
  · have hc : Ideal.cmp .ogt d 0 = 0 := by simp [Ideal.cmp, h]
    rw [hc]
    unfold Scalar.select
    rw [if_neg (by decide)]
    exact isReal_zero

/-- The weight of an edge is a real number. -/
theorem edgeW_isReal (ei : Spec.EdgeArr) (e : Fin Spec.EE) : IsReal (Spec.edgeW ei e) := by
  unfold Spec.edgeW Spec.dinv
  exact (isReal_neg (normaliser_isReal _)).mul (normaliser_isReal _)

/-! ## The packaged argument arrays -/

/-- If every entry of each of the eleven float argument arrays is real, so is every entry of the packaged arguments:
    each packaged entry is an entry of one of the arrays. -/
theorem realArgs_argsOf (x : (⟨2, ![100000, 64]⟩ : Shape).Idx → EReal)
    (W1 : (⟨3, ![2, 64, 128]⟩ : Shape).Idx → EReal) (b1 : (⟨1, ![128]⟩ : Shape).Idx → EReal)
    (W2 : (⟨3, ![2, 128, 64]⟩ : Shape).Idx → EReal) (b2 : (⟨1, ![64]⟩ : Shape).Idx → EReal)
    (W3 : (⟨3, ![2, 64, 64]⟩ : Shape).Idx → EReal) (b3 : (⟨1, ![64]⟩ : Shape).Idx → EReal)
    (g1 be1 : (⟨1, ![128]⟩ : Shape).Idx → EReal) (g2 be2 : (⟨1, ![64]⟩ : Shape).Idx → EReal)
    (hx : ∀ i, IsReal (x i)) (hW1 : ∀ i, IsReal (W1 i)) (hb1 : ∀ i, IsReal (b1 i))
    (hW2 : ∀ i, IsReal (W2 i)) (hb2 : ∀ i, IsReal (b2 i)) (hW3 : ∀ i, IsReal (W3 i))
    (hb3 : ∀ i, IsReal (b3 i)) (hg1 : ∀ i, IsReal (g1 i)) (hbe1 : ∀ i, IsReal (be1 i))
    (hg2 : ∀ i, IsReal (g2 i)) (hbe2 : ∀ i, IsReal (be2 i)) :
    RealArgs (Spec.argsOf x W1 b1 W2 b2 W3 b3 g1 be1 g2 be2) where
  x := fun _ _ => hx _
  W1a := fun _ _ => hW1 _
  W1b := fun _ _ => hW1 _
  b1 := fun _ => hb1 _
  W2a := fun _ _ => hW2 _
  W2b := fun _ _ => hW2 _
  b2 := fun _ => hb2 _
  W3a := fun _ _ => hW3 _
  W3b := fun _ _ => hW3 _
  b3 := fun _ => hb3 _
  g1 := fun _ => hg1 _
  be1 := fun _ => hbe1 _
  g2 := fun _ => hg2 _
  be2 := fun _ => hbe2 _

end Cert.Bridge

end
-- ==== Proof.Finite.lean ====
/-
  The precondition read back. The programs are run only on argument arrays that pass a finiteness test: for each
  of the eleven float arrays, "the absolute value of the entry is strictly below plus infinity" is evaluated at every
  entry, the answers are folded by "and" over the whole array, and the eleven results are joined by "and". On the
  extended reals the absolute value of plus or minus infinity is plus infinity, which is not strictly below itself,
  so an entry that passes the test is a real number; and an "and" over a family is true only if every member is.
-/
import proofs.«126863_j82781199663546_2_alg».proof.Proof.Gen.Pre_finite_inputs
import proofs.«126863_j82781199663546_2_alg».proof.Proof.LibRealSum
import Idealize.ShloMosaic.Lib.ReduceAll
import Idealize.ShloMosaic.Lib.ValueIdx

noncomputable section

namespace Cert.Finite

open Idealize.ShloMosaic
open Cert.RealSum (IsReal)
open Cert.RealSum
open Cert.Pre_finite_inputs

/-- The shape of a single number has exactly one index. -/
instance : Subsingleton S_.Idx := ⟨fun a b => funext fun d => d.elim0⟩

/-- The float word with all exponent bits set and no fraction bits denotes plus infinity. -/
theorem inf_eq_top : Ideal.ofBits .f32 0x7F800000#32 = (⊤ : EReal) := by
  simp [Ideal.ofBits, Ideal.ieee]

/-- An extended real whose absolute value (the larger of it and its negative) is strictly below plus infinity is a
    real number: the absolute value of either infinity is plus infinity. -/
theorem isReal_of_abs_lt_inf (x : EReal)
    (h : Ideal.cmp .olt (max x (-x)) (Ideal.ofBits .f32 0x7F800000#32) = 1#1) : IsReal x := by
  rw [inf_eq_top] at h
  induction x using EReal.rec with
  | bot => simp [Ideal.cmp] at h
  | top => simp [Ideal.cmp] at h
  | coe r => exact isReal_coe r

/-- One array's conjunct of the precondition: if the test "absolute value below plus infinity", taken entry by
    entry and folded by "and" over the whole array, comes out true, every entry of the array is a real number. -/
theorem real_of_all {S : Shape} (hb : S_.BroadcastsInDim S (![] : Fin 0 → Fin S.rank))
    {axes : List (Fin S.rank)} (hr : S.ReducesTo axes S_) (hu : 0 < S_.numel) (a : FVec Ideal S .f32)
    (h : Host.reduce IntOp.andi
          (cmpf .olt (Host.absf a) (broadcastInDim S ![] hb (constant S_ .f32 0x7F800000#32)))
          (constantI S_ 1 1#1) hr hu ValueIdx.ix0 = 1#1) (i : S.Idx) : IsReal (a i) :=
  isReal_of_abs_lt_inf (a i) (Host.reduce_andi_all _ _ hr hu ValueIdx.ix0 h i)

/-- THE PRECONDITION READ BACK: if the finiteness test of the twelve argument arrays comes out all ones, every
    entry of each of the eleven float arrays is a real number. -/
theorem real_of_pre [Facts]
    (a0 : FVec Ideal S100000x64 .f32) (a1 : IVec S2x1600000 32) (a2 : FVec Ideal S2x64x128 .f32)
    (a3 : FVec Ideal S128 .f32) (a4 : FVec Ideal S2x128x64 .f32) (a5 : FVec Ideal S64 .f32)
    (a6 : FVec Ideal S2x64x64 .f32) (a7 : FVec Ideal S64 .f32) (a8 : FVec Ideal S128 .f32)
    (a9 : FVec Ideal S128 .f32) (a10 : FVec Ideal S64 .f32) (a11 : FVec Ideal S64 .f32)
    (h : fn (F := Ideal) a0 a1 a2 a3 a4 a5 a6 a7 a8 a9 a10 a11 = (fun _ => 1#1)) :
    (∀ i, IsReal (a0 i)) ∧ (∀ i, IsReal (a2 i)) ∧ (∀ i, IsReal (a3 i)) ∧ (∀ i, IsReal (a4 i)) ∧
    (∀ i, IsReal (a5 i)) ∧ (∀ i, IsReal (a6 i)) ∧ (∀ i, IsReal (a7 i)) ∧ (∀ i, IsReal (a8 i)) ∧
    (∀ i, IsReal (a9 i)) ∧ (∀ i, IsReal (a10 i)) ∧ (∀ i, IsReal (a11 i)) := by
  have h0 := congrFun h ValueIdx.ix0
  dsimp only [fn, fn_part1, fn_part2, fn_part3, andi] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all _ _ _ a0 e0, real_of_all _ _ _ a2 e2, real_of_all _ _ _ a3 e3, real_of_all _ _ _ a4 e4,
    real_of_all _ _ _ a5 e5, real_of_all _ _ _ a6 e6, real_of_all _ _ _ a7 e7, real_of_all _ _ _ a8 e8,
    real_of_all _ _ _ a9 e9, real_of_all _ _ _ a10 e10, real_of_all _ _ _ a11 e11⟩

end Cert.Finite

end
-- ==== Proof.Assemble.lean ====
/-
  The claim, assembled from its parts.

  Three of the five conjuncts say that a program runs to the end, nothing faulting, and leaves its argument arrays as
  they were: for the kernel as printed and for the kernel read over the extended reals this is the launch of its seven
  regions and the host stretches between them; for the reference it is its run with the result forgotten. The fourth
  conjunct asks nothing, because reading the kernel over the extended reals rewrote none of its operations. The fifth
  says that the kernel read over the extended reals and the reference end with the same array: the reference's result
  is one arrangement of a three-layer graph convolution with normalisation of the twelve arguments (centre, then scale;
  propagate, then project), the kernel's another (scale and shift by precomputed rows; project, then propagate; column
  sums taken block by block), and on arguments whose float entries are all real numbers — which is what the
  precondition says — the two arrangements are the same function, entry by entry.
-/
import proofs.«126863_j82781199663546_2_alg».proof.Defs
import proofs.«126863_j82781199663546_2_alg».proof.Proof.Gen.Kernel.Frame
import proofs.«126863_j82781199663546_2_alg».proof.Proof.Gen.KernelIdeal.Frame
import proofs.«126863_j82781199663546_2_alg».proof.Proof.Gen.ReferenceIdeal
import proofs.«126863_j82781199663546_2_alg».proof.Proof.Gen.Pre_finite_inputs
import proofs.«126863_j82781199663546_2_alg».proof.Proof.KRun
import proofs.«126863_j82781199663546_2_alg».proof.Proof.KChain
import proofs.«126863_j82781199663546_2_alg».proof.Proof.RefRunLite
import proofs.«126863_j82781199663546_2_alg».proof.Proof.RefValue
import proofs.«126863_j82781199663546_2_alg».proof.Proof.Bridge
import proofs.«126863_j82781199663546_2_alg».proof.Proof.Finite
import Idealize.ShloMosaic.Lib.ValueIdx

set_option maxRecDepth 16384

noncomputable section

namespace Cert.Assemble

open Idealize.ShloMosaic Idealize.SL.Sem Idealize.ShloMosaic.ValueIdx
open Cert.RealSum (IsReal)

/-! ## The three frames -/

/-- The kernel as printed runs to the end without a fault and leaves its argument arrays as they were. -/
theorem frame_k [hKernel : Cert.Kernel.Facts] [hPre_finite_inputs : Cert.Pre_finite_inputs.Facts] : Cert.frame_Kernel :=
  fun m ρ _ => Cert.Kernel.Gen.frame m ρ

/-- So does the kernel read over the extended reals. -/
theorem frame_ki [hKernelIdeal : Cert.KernelIdeal.Facts] [hPre_finite_inputs : Cert.Pre_finite_inputs.Facts] :
    Cert.frame_KernelIdeal :=
  fun m ρ _ => Cert.KernelIdeal.Gen.frame m ρ

/-- So does the reference: its run with the result forgotten. -/
theorem frame_ri [hReferenceIdeal : Cert.ReferenceIdeal.Facts] [hPre_finite_inputs : Cert.Pre_finite_inputs.Facts] :
    Cert.frame_ReferenceIdeal :=
  fun m ρ _ => (θ_run Cert.ReferenceIdeal.defs _ _).mono (fun _ h c => (h c).2)
    (Cert.RefRunLite.run (F := Ideal) m ρ)

/-! ## Nothing was rewritten -/

/-- The kernel read over the extended reals is the kernel's own text: there is no rewrite to justify. -/
theorem preserves : Cert.preserves_Kernel_KernelIdeal := trivial

/-! ## The two results are equal -/

/-- THE VALUES AGREE. From memories that agree on the twelve arguments, whose float entries are all finite, the array
    the reference ends with and the array the kernel ends with are equal entry by entry: the reference's is the
    centre-then-scale, propagate-then-project arrangement of the three-layer graph convolution of the arguments, the
    kernel's the scale-and-shift, project-then-propagate arrangement, and over real arguments and real edge weights the
    two arrangements are one function. -/
theorem value_eq [hKernelIdeal : Cert.KernelIdeal.Facts] [hReferenceIdeal : Cert.ReferenceIdeal.Facts]
    [hPre_finite_inputs : Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧
      m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧
      m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧
      m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧
      m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧
      m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧
      m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧
      m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧
      m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧
      m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧
      m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧
      m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.ReferenceIdeal.nD) :
    Cert.ReferenceIdeal.Read.val_main_v159 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
      = Cert.KernelIdeal.Gen.W18 m ρ c (Proc.devRef .tc Cert.KernelIdeal.main_v119) := by
  funext i
  obtain ⟨n, j, rfl⟩ : ∃ (n : Fin 100000) (j : Fin 64), i = ix2 n j := ⟨i 0, i 1, eq_ix2 i⟩
  -- the reference's entry is the second arrangement of ITS arguments, the kernel's the first arrangement of its own
  refine (Cert.RefValue.result_eq _ _ _ _ _ _ _ _ _ _ _ _ n j).trans ?_
  refine Eq.trans ?_ (Cert.KChain.result_eq m ρ c n j).symm
  -- the arguments agree
  obtain ⟨a0, a1, a2, a3, a4, a5, a6, a7, a8, a9, a10, a11⟩ := hagree c
  rw [a0, a1, a2, a3, a4, a5, a6, a7, a8, a9, a10, a11]
  -- every float entry is a real number, and so is every edge weight
  obtain ⟨r0, r2, r3, r4, r5, r6, r7, r8, r9, r10, r11⟩ := Cert.Finite.real_of_pre
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (hpre c)
  have hG : ∀ e, IsReal ((Cert.Spec.graphOf
      (m ((c.tc : Thread Cert.KernelIdeal.nD Cert.KernelIdeal.τ).loc Cert.KernelIdeal.main_arg1))).ew e) := fun e => by
    dsimp only [Cert.Spec.graphOf]
    exact Cert.Bridge.edgeW_isReal _ e
  exact (Cert.Bridge.outK_eq_outR _ _
    (Cert.Bridge.realArgs_argsOf _ _ _ _ _ _ _ _ _ _ _ r0 r2 r3 r4 r5 r6 r7 r8 r9 r10 r11) hG n j).symm

/-- Both programs run, the kernel's result array ends at its last boundary's contents and the reference's at the same
    array, and both leave their arguments as they were. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  refine ⟨fun c => Cert.KernelIdeal.Gen.W18 m ρ c (Proc.devRef .tc Cert.KernelIdeal.main_v119),
    Cert.KRun.run (F := Ideal) m ρ, ?_⟩
  exact (θ_run Cert.ReferenceIdeal.defs _ _).mono
    (fun _ h c => ⟨(h c).1.trans (value_eq m ρ m' hpre hagree c), (h c).2⟩)
    (Cert.RefRunLite.run (F := Ideal) m' ρ')

end Cert.Assemble

end
-- ==== Proof.lean ====
/-
  The certificate's claim for a three-layer Chebyshev graph convolution (order two) with batch normalisation and a
  leaky rectifier between the layers, computed by seven kernels over row blocks of 5000 of the 100000 nodes with the
  graph propagation between them, against a reference that computes the same network with whole-array operations.

  The kernel as printed, the kernel read over the extended reals and the reference each run to the end, nothing
  faulting, and leave their twelve argument arrays as they were. Reading the kernel over the extended reals rewrote no
  operation. And from memories that agree on the arguments, whose float entries are all finite, the two programs read
  over the extended reals end with the same result array: the kernel normalises by a precomputed scale and shift where
  the reference centres and then scales, propagates the projected features of the second layer where the reference
  projects the propagated ones, and takes its column means and variances block by block where the reference sums over
  all rows at once — three rearrangements that agree on real numbers, entry by entry.
-/
import proofs.«126863_j82781199663546_2_alg».proof.Defs
import proofs.«126863_j82781199663546_2_alg».proof.Proof.Assemble
import Idealize.ShloMosaic.Adequacy
import Idealize.ShloMosaic.Init

noncomputable section

namespace Cert.Proof

open Idealize.ShloMosaic Idealize.SL.Sem

/-- The five conjuncts, under the witnesses of the programs' and the precondition's stated side conditions. -/
theorem claim : Cert.Claim :=
  ⟨Cert.Kernel.Gen.facts, Cert.KernelIdeal.Gen.facts, Cert.ReferenceIdeal.Gen.facts, Cert.Pre_finite_inputs.Gen.facts,
    Cert.Assemble.frame_k, Cert.Assemble.frame_ki, Cert.Assemble.frame_ri, Cert.Assemble.preserves,
    Cert.Assemble.algebraic⟩

end Cert.Proof

end
